-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x1 : Shape := ⟨2, ![8192, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S8192x128 .f32) (main_arg1 : FVec F S8192x128 .f32) (main_arg2 : FVec F S8192x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_cst_4 : FVec F S_ .f32 := constant S_ .f32 0x00000000#32
  let main_v14 : FVec F S_ .f32 := (fun x v => Host.reduceAdd x v reducesTo_S8192x1_S_d0_1 h_S_) main_arg2 main_cst_4
  let main_cst_5 : FVec F S_ .f32 := constant S_ .f32 0x00000000#32
  let main_v15 : IVec S_ 1 := cmpf .une main_v14 main_cst_5
  fn_part1 (F := F) main_v13 main_v15
-- ==== Kernel.lean ====
abbrev S8192x128 : Shape := ⟨2, ![8192, 128]⟩
abbrev S8192x1 : Shape := ⟨2, ![8192, 1]⟩
abbrev S_ : Shape := ⟨0, ![]⟩
abbrev S1x1 : Shape := ⟨2, ![1, 1]⟩
abbrev S512x128 : Shape := ⟨2, ![512, 128]⟩
abbrev S512x1 : Shape := ⟨2, ![512, 1]⟩
abbrev S512 : Shape := ⟨1, ![512]⟩
abbrev S1x512 : Shape := ⟨2, ![1, 512]⟩
abbrev S128x512 : Shape := ⟨2, ![128, 512]⟩
abbrev S512x512 : Shape := ⟨2, ![512, 512]⟩
abbrev S1 : Shape := ⟨1, ![1]⟩

abbrev nBuf : Space → Nat
  | .hbm => 22
  | .vmem => 30
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x1, .f32⟩
  | .local _ .vmem, ⟨9, _⟩ => ⟨S1x1, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S1x1, .f32⟩
  | .local _ .vmem, ⟨19, _⟩ => ⟨S1x1, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S1x1, .f32⟩
  | .local _ .vmem, ⟨29, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v45 : BitVec 1 := Scalar.cmpi .eq arg0 c15_i32
  let arg1 : BitVec 32 := BitVec.ofNat 32 (i 1).val
  let c15_i32_20 : BitVec 32 := 15#32
  let v46 : BitVec 1 := Scalar.cmpi .eq arg1 c15_i32_20
  let v47 : BitVec 1 := Scalar.andi v45 v46
  let v48 : BitVec 32 := Scalar.extui v47
  let c0_i32_21 : BitVec 32 := 0#32
  let v49 : BitVec 1 := Scalar.cmpi .ne v48 c0_i32_21
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![16, 16], ![false, false]⟩

def k1_cond2 (i : grid1.Coords) : BitVec 1 :=
  let arg0 : BitVec 32 := BitVec.ofNat 32 (i 0).val
  let c15_i32 : BitVec 32 := 15#32
  let v45 : BitVec 1 := Scalar.cmpi .eq arg0 c15_i32
  let arg1 : BitVec 32 := BitVec.ofNat 32 (i 1).val
  let c15_i32_20 : BitVec 32 := 15#32
  let v46 : BitVec 1 := Scalar.cmpi .eq arg1 c15_i32_20
  let v47 : BitVec 1 := Scalar.andi v45 v46
  let v48 : BitVec 32 := Scalar.extui v47
  let c0_i32_21 : BitVec 32 := 0#32
  let v49 : BitVec 1 := Scalar.cmpi .ne v48 c0_i32_21
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![16, 16], ![false, false]⟩

def k2_cond2 (i : grid2.Coords) : BitVec 1 :=
  let arg0 : BitVec 32 := BitVec.ofNat 32 (i 0).val
  let c15_i32 : BitVec 32 := 15#32
  let v45 : BitVec 1 := Scalar.cmpi .eq arg0 c15_i32
  let arg1 : BitVec 32 := BitVec.ofNat 32 (i 1).val
  let c15_i32_20 : BitVec 32 := 15#32
  let v46 : BitVec 1 := Scalar.cmpi .eq arg1 c15_i32_20
  let v47 : BitVec 1 := Scalar.andi v45 v46
  let v48 : BitVec 32 := Scalar.extui v47
  let c0_i32_21 : BitVec 32 := 0#32
  let v49 : BitVec 1 := Scalar.cmpi .ne v48 c0_i32_21
  v49

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  reducesTo_S8192x1_S_d0_1 : S8192x1.ReducesTo [0, 1] S_
  h_S_ : 0 < S_.numel
  bcast_S_S8192x1 : S_.BroadcastsInDim S8192x1 (![] : Fin 0 → Fin S8192x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  transposes_S512x1_p1_0_S1x512 : S512x1.Transposes [1, 0] S1x512
  transposes_S512x128_p1_0_S128x512 : S512x128.Transposes [1, 0] S128x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S8192x128.size a
  hwx2_0 : ∀ i : grid2.Coords, EltTy.bits .f32 = 32 ∨ (Rect.block (s := S8192x128) S512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S8192x128.size a
  hwx2_1 : ∀ i : grid2.Coords, EltTy.bits .f32 = 32 ∨ (Rect.block (s := S8192x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S8192x1.size a
  hwx2_3 : ∀ i : grid2.Coords, EltTy.bits .f32 = 32 ∨ (Rect.block (s := S8192x1) S512x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg0) S512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 110
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S128x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x128, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x128, .f32⟩
  | .hbm, ⟨50, _⟩ => ⟨S_, .f32⟩
  | .hbm, ⟨51, _⟩ => ⟨S8192, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S128x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S8192x1, .f32⟩
  | .hbm, ⟨74, _⟩ => ⟨S1x8192, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S8192x128, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x128, .f32⟩
  | .hbm, ⟨83, _⟩ => ⟨S_, .f32⟩
  | .hbm, ⟨84, _⟩ => ⟨S8192, .f32⟩
  | .hbm, ⟨85, _⟩ => ⟨S1x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S128x8192, .f32⟩
  | .hbm, ⟨90, _⟩ => ⟨S8192x8192, .f32⟩
  | .hbm, ⟨91, _⟩ => ⟨S_, .f32⟩
  | .hbm, ⟨92, _⟩ => ⟨S8192x8192, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S8192x8192, .f32⟩
  | .hbm, ⟨97, _⟩ => ⟨S8192x8192, .f32⟩
  | .hbm, ⟨98, _⟩ => ⟨S_, .f32⟩
  | .hbm, ⟨99, _⟩ => ⟨S8192x8192, .f32⟩
  | .hbm, ⟨100, _⟩ => ⟨S8192x8192, .f32⟩
  | .hbm, ⟨101, _⟩ => ⟨S8192x8192, .f32⟩
  | .hbm, ⟨102, _⟩ => ⟨S8192x8192, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_11 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_15 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_16 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_18 : Ref sig .tc := ⟨.hbm, 95, rfl⟩
abbrev main_v73 : Ref sig .tc := ⟨.hbm, 96, rfl⟩
abbrev main_v74 : Ref sig .tc := ⟨.hbm, 97, rfl⟩
abbrev main_cst_19 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_20 : Ref sig .tc := ⟨.hbm, 103, rfl⟩
abbrev main_v79 : Ref sig .tc := ⟨.hbm, 104, rfl⟩
abbrev main_v80 : Ref sig .tc := ⟨.hbm, 105, rfl⟩
abbrev main_cst_21 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]

class Facts₀ : Prop where
  reducesTo_S8192x1_S_d0_1 : S8192x1.ReducesTo [0, 1] S_
  h_S_ : 0 < S_.numel
  bcast_S_S8192x1 : S_.BroadcastsInDim S8192x1 (![] : Fin 0 → Fin S8192x1.rank)
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x128_S8192_d1 : S8192x128.ReducesTo [1] S8192
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Runs0.lean ====
import proofs.«166369_j11106785428164_2_alg».proof.Proof.Gen.KernelIdeal.Launch
import proofs.«166369_j11106785428164_2_alg».proof.Proof.Gen.KernelIdeal.Skeleton
import proofs.«166369_j11106785428164_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, from the grid coordinates

The body resets its accumulator at the first point of the grid (both coordinates zero) and copies it to the output
block at the last (both coordinates fifteen). Over the 256 points in row-major order these are the points 0 and 255. -/

/-- The first condition: both grid coordinates are zero. -/
abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond0_1 : ∀ t : Fin cfg0.N, cond0_1 (grid0.coords t) ↔ t.val = 0 :=
  (by decide +kernel : ∀ t : Fin grid0.N, cond0_1 (grid0.coords t) ↔ t.val = 0)

/-- The second condition (both coordinates fifteen) holds at the last point only. -/
theorem hcond0_2 : ∀ t : Fin cfg0.N, k0_cond2 (grid0.coords t) = 1#1 ↔ t.val = 255 :=
  (by decide +kernel : ∀ t : Fin grid0.N, k0_cond2 (grid0.coords t) = 1#1 ↔ t.val = 255)

/-! ## The current staging memrefs at a point, as the pipeline passes them -/

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator's scratch buffer, whole. -/
abbrev msS0 : Memref sig .tc .vmem S1x1 .f32 := Memref.whole cc0_scratch0
abbrev hsS0 : (msS0).IsWhole := Memref.isWhole_whole _

/-! ## The body on any whole memrefs, one run per case of the two conditions -/

set_option maxHeartbeats 1000000 in
/-- THE FIRST POINT: the accumulator is overwritten with zero, then the tile's sum is added to it and stored. What the
    accumulator held before does not matter. -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : cond0_1 i) (hc2 : ¬(k0_cond2 i = 1#1))
    (x0 x1 : Vec F S512x128 .f32) (x2 x3 : Vec F S512x1 .f32) :
    { L7 : List (View.Piece (Elt F) S1x1 .f32) //
      ∀ (xs : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc0__weighted_rbf_kernel i arg2 harg2 arg3 harg3 arg4 harg4 arg5 harg5 arg6 harg6 arg7 harg7) K } := by
  refine ⟨?_, fun xs E K => ?run⟩
  case run =>
    simp only [cc0__weighted_rbf_kernel_eq_skeleton]; unfold cc0__weighted_rbf_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- A POINT THAT IS NEITHER THE FIRST NOR THE LAST: the accumulator is loaded, the tile's sum added, and stored back. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond0_1 i) (hc2 : ¬(k0_cond2 i = 1#1))
    (x0 x1 : Vec F S512x128 .f32) (x2 x3 : Vec F S512x1 .f32) (xs : Vec F S1x1 .f32) :
    { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc0__weighted_rbf_kernel i arg2 harg2 arg3 harg3 arg4 harg4 arg5 harg5 arg6 harg6 arg7 harg7) K } := by
  refine ⟨?_, fun E K => ?run⟩
  case run =>
    simp only [cc0__weighted_rbf_kernel_eq_skeleton]; unfold cc0__weighted_rbf_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- THE LAST POINT: as a middle point, and then the accumulator is copied into the output block. What the output
    block held before does not matter. -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond0_1 i) (hc2 : k0_cond2 i = 1#1)
    (x0 x1 : Vec F S512x128 .f32) (x2 x3 : Vec F S512x1 .f32) (xs : Vec F S1x1 .f32) :
    Σ' (L7 : List (View.Piece (Elt F) S1x1 .f32)) (L6 : List (View.Piece (Elt F) S1x1 .f32)),
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__weighted_rbf_kernel i arg2 harg2 arg3 harg3 arg4 harg4 arg5 harg5 arg6 harg6 arg7 harg7) K := by
  refine ⟨?_, ?_, fun xo E K => ?run⟩
  case run =>
    simp only [cc0__weighted_rbf_kernel_eq_skeleton]; unfold cc0__weighted_rbf_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Hand

end
-- ==== Proof.Body0.lean ====
import proofs.«166369_j11106785428164_2_alg».proof.Proof.Runs0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as the region finds them, and the windows' blocks

The region is one of three in the program, so what its operand arrays hold when it is entered is a parameter here:
`A c b`, the contents of the unscoped buffer `b` on core `c` at the region's entry. -/

variable (A : (c : Dev nD) → (b : Ref sig .tc) → Buf (Elt F) ((c : Thread nD τ).loc b))

/-- Window `w`'s block at point `t`, read off its array as the region finds it: rows `512 * (t / 16)` onward of the
    first and third operands, rows `512 * (t % 16)` onward of the second and fourth. -/
def iblk0 (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-! Each input window's current staging buffer holds its block at every point, fetched there or not: unfetched, the
    block index has not moved since the fetch. -/
theorem before0_0_of {c : Dev nD} (dat : Dat τ (Elt F) Unit ℕ (UR sig nD τ) ℕ cfg0 c) (hA : dat.A 0 = A c (Pipeline.arrRef spec0 0))
    (hafter : ∀ t, dat.after 0 t = iblk0 A c 0 t) (t : Fin cfg0.N) (d) : dat.before 0 t d = iblk0 A c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = A c (Pipeline.arrRef spec0 1))
    (hafter : ∀ t, dat.after 1 t = iblk0 A c 1 t) (t : Fin cfg0.N) (d) : dat.before 1 t d = iblk0 A c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = A c (Pipeline.arrRef spec0 2))
    (hafter : ∀ t, dat.after 2 t = iblk0 A c 2 t) (t : Fin cfg0.N) (d) : dat.before 2 t d = iblk0 A c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = A c (Pipeline.arrRef spec0 3))
    (hafter : ∀ t, dat.after 3 t = iblk0 A c 3 t) (t : Fin cfg0.N) (d) : dat.before 3 t d = iblk0 A c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator and in the output block -/

/-- The view the stored pieces are read back through (any view of a one-element block would do). -/
abbrev VS0 : View sig .tc .vmem S1x1 .f32 := (msS0).view

/-- At the first point the stores cover the accumulator's one element. -/
theorem cover0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond0_1 i) (hc2 : ¬(k0_cond2 i = 1#1)) (x0 x1 : Vec F S512x128 .f32) (x2 x3 : Vec F S512x1 .f32) (y : S1x1.Idx) :
    ∃ pc ∈ (kernelRun0_A c i arg2 harg2 arg3 harg3 arg4 harg4 arg5 harg5 arg6 harg6 arg7 harg7 hc1 hc2 x0 x1 x2 x3).1, y ∈ pc.1.set :=
  View.cover_of_tiledL (kernelRun0_A c i arg2 harg2 arg3 harg3 arg4 harg4 arg5 harg5 arg6 harg6 arg7 harg7 hc1 hc2 x0 x1 x2 x3).1 S1x1.size (by sl_kernel_rfl) y
/-- What the first point leaves in the accumulator: zero plus the tile's sum. -/
def acc0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond0_1 i) (hc2 : ¬(k0_cond2 i = 1#1)) (x0 x1 : Vec F S512x128 .f32) (x2 x3 : Vec F S512x1 .f32) : Vec F S1x1 .f32 :=
  VS0.read (Elt F) (VS0.writes (Elt F) VS0.junk (kernelRun0_A c i arg2 harg2 arg3 harg3 arg4 harg4 arg5 harg5 arg6 harg6 arg7 harg7 hc1 hc2 x0 x1 x2 x3).1)

theorem cover0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : ¬(k0_cond2 i = 1#1)) (x0 x1 : Vec F S512x128 .f32) (x2 x3 : Vec F S512x1 .f32) (xs : Vec F S1x1 .f32) (y : S1x1.Idx) :
    ∃ pc ∈ (kernelRun0_B c i arg2 harg2 arg3 harg3 arg4 harg4 arg5 harg5 arg6 harg6 arg7 harg7 hc1 hc2 x0 x1 x2 x3 xs).1, y ∈ pc.1.set :=
  View.cover_of_tiledL (kernelRun0_B c i arg2 harg2 arg3 harg3 arg4 harg4 arg5 harg5 arg6 harg6 arg7 harg7 hc1 hc2 x0 x1 x2 x3 xs).1 S1x1.size (by sl_kernel_rfl) y
/-- What a middle point leaves in the accumulator: what it held plus the tile's sum. -/
def acc0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : ¬(k0_cond2 i = 1#1)) (x0 x1 : Vec F S512x128 .f32) (x2 x3 : Vec F S512x1 .f32) (xs : Vec F S1x1 .f32) : Vec F S1x1 .f32 :=
  VS0.read (Elt F) (VS0.writes (Elt F) VS0.junk (kernelRun0_B c i arg2 harg2 arg3 harg3 arg4 harg4 arg5 harg5 arg6 harg6 arg7 harg7 hc1 hc2 x0 x1 x2 x3 xs).1)

theorem cover0_C7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) (y : S1x1.Idx) :
    ∃ pc ∈ (kernelRun0_C c i arg2 harg2 arg3 harg3 arg4 harg4 arg5 harg5 arg6 harg6 arg7 harg7 hc1 hc2 x0 x1 x2 x3 xs).1, y ∈ pc.1.set :=
  View.cover_of_tiledL (kernelRun0_C c i arg2 harg2 arg3 harg3 arg4 harg4 arg5 harg5 arg6 harg6 arg7 harg7 hc1 hc2 x0 x1 x2 x3 xs).1 S1x1.size (by sl_kernel_rfl) y
/-- What the last point leaves in the accumulator, -/
def acc0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) : Vec F S1x1 .f32 :=
  VS0.read (Elt F) (VS0.writes (Elt F) VS0.junk (kernelRun0_C c i arg2 harg2 arg3 harg3 arg4 harg4 arg5 harg5 arg6 harg6 arg7 harg7 hc1 hc2 x0 x1 x2 x3 xs).1)
theorem cover0_C6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) (y : S1x1.Idx) :
    ∃ pc ∈ (kernelRun0_C c i arg2 harg2 arg3 harg3 arg4 harg4 arg5 harg5 arg6 harg6 arg7 harg7 hc1 hc2 x0 x1 x2 x3 xs).2.1, y ∈ pc.1.set :=
  View.cover_of_tiledL (kernelRun0_C c i arg2 harg2 arg3 harg3 arg4 harg4 arg5 harg5 arg6 harg6 arg7 harg7 hc1 hc2 x0 x1 x2 x3 xs).2.1 S1x1.size (by sl_kernel_rfl) y
/-- and in the output block: the accumulator's final value. -/
def out0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) : Vec F S1x1 .f32 :=
  VS0.read (Elt F) (VS0.writes (Elt F) VS0.junk (kernelRun0_C c i arg2 harg2 arg3 harg3 arg4 harg4 arg5 harg5 arg6 harg6 arg7 harg7 hc1 hc2 x0 x1 x2 x3 xs).2.1)

/-! ## The accumulation, point by point -/

theorem N0_eq : cfg0.N = 256 := N_0

/-- THE ACCUMULATOR after the body at point `n`: the first point's case at `0`; at a later point the middle or the
    last case over what the point before left. -/
def accAt0 (c : Dev nD) : (n : ℕ) → n < cfg0.N → Vec F S1x1 .f32
  | 0, hn => acc0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) msS0 hsS0 ((hcond0_1 ⟨0, hn⟩).mpr rfl)
      (fun h => absurd ((hcond0_2 ⟨0, hn⟩).mp h) (show ¬((0 : ℕ) = 255) by decide)) (iblk0 A c 0 ⟨0, hn⟩) (iblk0 A c 1 ⟨0, hn⟩) (iblk0 A c 2 ⟨0, hn⟩) (iblk0 A c 3 ⟨0, hn⟩)
  | n + 1, hn =>
    if h : n + 1 = 255 then
      acc0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) msS0 hsS0 (fun h' => Nat.succ_ne_zero n ((hcond0_1 ⟨n + 1, hn⟩).mp h'))
        ((hcond0_2 ⟨n + 1, hn⟩).mpr h) (iblk0 A c 0 ⟨n + 1, hn⟩) (iblk0 A c 1 ⟨n + 1, hn⟩) (iblk0 A c 2 ⟨n + 1, hn⟩) (iblk0 A c 3 ⟨n + 1, hn⟩) (accAt0 c n (Nat.lt_of_succ_lt hn))
    else
      acc0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) msS0 hsS0 (fun h' => Nat.succ_ne_zero n ((hcond0_1 ⟨n + 1, hn⟩).mp h'))
        (fun h' => h ((hcond0_2 ⟨n + 1, hn⟩).mp h')) (iblk0 A c 0 ⟨n + 1, hn⟩) (iblk0 A c 1 ⟨n + 1, hn⟩) (iblk0 A c 2 ⟨n + 1, hn⟩) (iblk0 A c 3 ⟨n + 1, hn⟩) (accAt0 c n (Nat.lt_of_succ_lt hn))

theorem accAt0_A (c : Dev nD) (t : Fin cfg0.N) (h0 : t.val = 0) (hc1) (hc2) :
    accAt0 A c t.val t.isLt = acc0_A c (grid0.coords t) (ms0_0 t) (hs0_0 t) (ms0_1 t) (hs0_1 t) (ms0_2 t) (hs0_2 t) (ms0_3 t) (hs0_3 t) (ms0_4 t) (hs0_4 t) msS0 hsS0 hc1 hc2 (iblk0 A c 0 t) (iblk0 A c 1 t) (iblk0 A c 2 t) (iblk0 A c 3 t) := by
  obtain ⟨n, hn⟩ := t
  cases n with
  | zero => exact rfl
  | succ n => exact absurd h0 (Nat.succ_ne_zero n)

theorem accAt0_B (c : Dev nD) (t : Fin cfg0.N) (h0 : t.val ≠ 0) (h1 : t.val ≠ 255) (hc1) (hc2) :
    accAt0 A c t.val t.isLt = acc0_B c (grid0.coords t) (ms0_0 t) (hs0_0 t) (ms0_1 t) (hs0_1 t) (ms0_2 t) (hs0_2 t) (ms0_3 t) (hs0_3 t) (ms0_4 t) (hs0_4 t) msS0 hsS0 hc1 hc2 (iblk0 A c 0 t) (iblk0 A c 1 t) (iblk0 A c 2 t) (iblk0 A c 3 t)
      (accAt0 A c (t.val - 1) (Nat.lt_of_le_of_lt (Nat.sub_le _ _) t.isLt)) := by
  obtain ⟨n, hn⟩ := t
  cases n with
  | zero => exact absurd rfl h0
  | succ n => exact (dif_neg h1).trans rfl

theorem accAt0_C (c : Dev nD) (t : Fin cfg0.N) (h1 : t.val = 255) (hc1) (hc2) :
    accAt0 A c t.val t.isLt = acc0_C c (grid0.coords t) (ms0_0 t) (hs0_0 t) (ms0_1 t) (hs0_1 t) (ms0_2 t) (hs0_2 t) (ms0_3 t) (hs0_3 t) (ms0_4 t) (hs0_4 t) msS0 hsS0 hc1 hc2 (iblk0 A c 0 t) (iblk0 A c 1 t) (iblk0 A c 2 t) (iblk0 A c 3 t)
      (accAt0 A c (t.val - 1) (Nat.lt_of_le_of_lt (Nat.sub_le _ _) t.isLt)) := by
  obtain ⟨n, hn⟩ := t
  cases n with
  | zero => exact absurd h1 (show ¬((0 : ℕ) = 255) by decide)
  | succ n => exact (dif_pos h1).trans rfl

/-- The accumulator after point `n`, for every natural `n` (beyond the grid: junk, never read). -/
def accN0 (c : Dev nD) (n : ℕ) : Vec F S1x1 .f32 :=
  if h : n < cfg0.N then accAt0 A c n h else VS0.read (Elt F) VS0.junk
theorem accN0_lt (c : Dev nD) (n : ℕ) (h : n < cfg0.N) : accN0 A c n = accAt0 A c n h := dif_pos h

/-- The last point, and what it leaves in the output block: the sum over all 256 tiles. -/
abbrev tL0 : Fin cfg0.N := ⟨255, by rw [N0_eq]; decide⟩
def outFin0 (c : Dev nD) : Vec F S1x1 .f32 :=
  out0_C c (grid0.coords tL0) (ms0_0 tL0) (hs0_0 tL0) (ms0_1 tL0) (hs0_1 tL0) (ms0_2 tL0) (hs0_2 tL0) (ms0_3 tL0) (hs0_3 tL0) (ms0_4 tL0) (hs0_4 tL0) msS0 hsS0 (fun h' => absurd ((hcond0_1 tL0).mp h') (show ¬((255 : ℕ) = 0) by decide)) ((hcond0_2 tL0).mpr rfl)
    (iblk0 A c 0 tL0) (iblk0 A c 1 tL0) (iblk0 A c 2 tL0) (iblk0 A c 3 tL0) (accN0 A c 254)

/-! ## The pipeline's proof data -/

/-- The core's scoped buffers that are neither this region's staging buffers nor its accumulator, unopened. -/
abbrev restS0 (c : Dev nD) : sProp 𝕄 :=
  Pipeline.scopedRestBut (Ix := Unit) (Name := ℕ) (U := UR sig nD τ) (Lvl := ℕ) (Val := Elt F) spec0 c [cc0_scratch0]

/-- THE INVARIANT between points: before point `t` the accumulator holds the sum over the tiles of the points below `t`
    (anything, before the first point), beside the core's other scoped buffers. -/
def Phi0 (c : Dev nD) (t : Fin (cfg0.N + 1)) : sProp 𝕄 :=
  iprop((∃ xs : Vec F S1x1 .f32, ⌜t.val ≠ 0 → xs = accN0 A c (t.val - 1)⌝ ∗ owns (c : Thread nD τ) msS0 fullShare xs) ∗ restS0 c)

/-- The proof data on core `c`: the arrays as the region finds them; after the body each input's buffer at its block, the
    output's at the final sum (consulted at the last point only: the window is idle before it); the invariant above;
    nothing owed; an array two windows read is held half by each. -/
def dats0 (c : Dev nD) : Dat τ (Elt F) Unit ℕ (UR sig nD τ) ℕ cfg0 c where
  A w := A c (Pipeline.arrRef spec0 w)
  after w t := match w with
    | ⟨0, _⟩ => iblk0 A c 0 t
    | ⟨1, _⟩ => iblk0 A c 1 t
    | ⟨2, _⟩ => iblk0 A c 2 t
    | ⟨3, _⟩ => iblk0 A c 3 t
    | ⟨4, _⟩ => outFin0 A c
  Φ t := Phi0 A c t
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A0_eq (c : Dev nD) (w : Fin cfg0.W) : (dats0 A c).A w = A c (Pipeline.arrRef spec0 w) := by
  dsimp only [dats0]
theorem after0_0 (c : Dev nD) (t : Fin cfg0.N) : (dats0 A c).after 0 t = iblk0 A c 0 t := by dsimp only [dats0]
theorem after0_1 (c : Dev nD) (t : Fin cfg0.N) : (dats0 A c).after 1 t = iblk0 A c 1 t := by dsimp only [dats0]
theorem after0_2 (c : Dev nD) (t : Fin cfg0.N) : (dats0 A c).after 2 t = iblk0 A c 2 t := by dsimp only [dats0]
theorem after0_3 (c : Dev nD) (t : Fin cfg0.N) : (dats0 A c).after 3 t = iblk0 A c 3 t := by dsimp only [dats0]
theorem after0_4 (c : Dev nD) (t : Fin cfg0.N) : (dats0 A c).after 4 t = outFin0 A c := by dsimp only [dats0]
theorem before0_0 (c : Dev nD) (t : Fin cfg0.N) (d) : (dats0 A c).before 0 t d = iblk0 A c 0 t :=
  before0_0_of A (dats0 A c) (A0_eq A c 0) (after0_0 A c) t d
theorem before0_1 (c : Dev nD) (t : Fin cfg0.N) (d) : (dats0 A c).before 1 t d = iblk0 A c 1 t :=
  before0_1_of A (dats0 A c) (A0_eq A c 1) (after0_1 A c) t d
theorem before0_2 (c : Dev nD) (t : Fin cfg0.N) (d) : (dats0 A c).before 2 t d = iblk0 A c 2 t :=
  before0_2_of A (dats0 A c) (A0_eq A c 2) (after0_2 A c) t d
theorem before0_3 (c : Dev nD) (t : Fin cfg0.N) (d) : (dats0 A c).before 3 t d = iblk0 A c 3 t :=
  before0_3_of A (dats0 A c) (A0_eq A c 3) (after0_3 A c) t d

/-! ## The body obligation, at a generic point -/

/-- What the body is called with at point `t`, the windows one by one, -/
def bodyPre0 (c : Dev nD) (t : Fin cfg0.N) : sProp 𝕄 :=
  iprop((dats0 A c).Φ t.castSucc ∗ (dats0 A c).owesAt () t.castSucc
    ∗ (∃ d, owns (c : Thread nD τ) (ms0_0 t) fullShare ((dats0 A c).before 0 t d))
    ∗ (∃ d, owns (c : Thread nD τ) (ms0_1 t) fullShare ((dats0 A c).before 1 t d))
    ∗ (∃ d, owns (c : Thread nD τ) (ms0_2 t) fullShare ((dats0 A c).before 2 t d))
    ∗ (∃ d, owns (c : Thread nD τ) (ms0_3 t) fullShare ((dats0 A c).before 3 t d))
    ∗ (∃ d, owns (c : Thread nD τ) (ms0_4 t) fullShare ((dats0 A c).before 4 t d)))

/-- and what it returns: the output window's buffer as found at a point idle for it, at the final sum at the last. -/
def bodyPost0 (c : Dev nD) (t : Fin cfg0.N) : sProp 𝕄 :=
  iprop((dats0 A c).Φ t.succ ∗ (dats0 A c).owesAt () t.succ
    ∗ owns (c : Thread nD τ) (ms0_0 t) fullShare ((dats0 A c).after 0 t)
    ∗ owns (c : Thread nD τ) (ms0_1 t) fullShare ((dats0 A c).after 1 t)
    ∗ owns (c : Thread nD τ) (ms0_2 t) fullShare ((dats0 A c).after 2 t)
    ∗ owns (c : Thread nD τ) (ms0_3 t) fullShare ((dats0 A c).after 3 t)
    ∗ (dats0 A c).leavesExact 4 t)

theorem idle0_of (t : Fin cfg0.N) (hc2 : ¬(k0_cond2 (grid0.coords t) = 1#1)) : cfg0.idle 4 (grid0.coords t) = true := by
  show (!(k0_cond2 (grid0.coords t) == 1#1)) = true
  rw [Bool.not_eq_true', beq_eq_false_iff_ne]; exact hc2
theorem live0_of (t : Fin cfg0.N) (hc2 : k0_cond2 (grid0.coords t) = 1#1) : cfg0.idle 4 (grid0.coords t) = false := by
  show (!(k0_cond2 (grid0.coords t) == 1#1)) = false
  rw [Bool.not_eq_false', beq_iff_eq]; exact hc2

set_option maxHeartbeats 1600000 in
/-- The body at any point. The inputs' buffers hold their blocks; the closed forms say which case the point is in; the
    accumulator holds what the point before left, so the case's run applies; the other scoped buffers pass through
    unread; the core owes nothing throughout. -/
theorem sound_body0 (c : Dev nD) (t : Fin cfg0.N) :
    bodyPre0 A c t ⊢ wp frame (wpE (defs₀ (F := F)) Variants.none c none) Set.univ (bodyAt0 t) (fun _ => bodyPost0 A c t) := by
  unfold bodyPre0 bodyPost0 bodyAt0
  simp only [before0_0, before0_1, before0_2, before0_3]
  rw [after0_0, after0_1, after0_2, after0_3,
    show (dats0 A c).owesAt () t.succ = (dats0 A c).owesAt () t.castSucc from rfl,
    show (dats0 A c).Φ t.castSucc = Phi0 A c t.castSucc from rfl, show (dats0 A c).Φ t.succ = Phi0 A c t.succ from rfl]
  unfold Phi0
  have hN : t.val < 256 := lt_of_lt_of_eq t.isLt N0_eq
  by_cases h0 : t.val = 0
  · have hc1 : cond0_1 (grid0.coords t) := (hcond0_1 t).mpr h0
    have hc2 : ¬(k0_cond2 (grid0.coords t) = 1#1) := fun h => by have := (hcond0_2 t).mp h; omega
    have hf : (cfg0.win 4).flush t = false := Bool.eq_false_iff.mpr fun h => by have := (flush0_4 t).mp h; omega
    rw [Dat.leavesExact_idle _ 4 t (idle0_of t hc2) hf]
    iintro ⟨⟨⟨%xs, %hxs, Hs⟩, Hr⟩, Ho, ⟨%d0, H0⟩, ⟨%d1, H1⟩, ⟨%d2, H2⟩, ⟨%d3, H3⟩, H4⟩
    iapply ((kernelRun0_A c (grid0.coords t) _ _ _ _ _ _ _ _ _ _ _ _ hc1 hc2 (iblk0 A c 0 t) (iblk0 A c 1 t) (iblk0 A c 2 t) (iblk0 A c 3 t)).2 xs Set.univ _)
    isplitl [H0]; · iexact H0
    isplitl [H1]; · iexact H1
    isplitl [H2]; · iexact H2
    isplitl [H3]; · iexact H3
    isplitl [Hs]; · iexact Hs
    iintro ⟨H0, H1, H2, H3, ⟨%e, Hs⟩⟩
    isplitl [Hs Hr]
    · isplitl [Hs]
      · iexists (accN0 A c t.val)
        isplitr
        · ipureintro; intro _; rw [Fin.val_succ, Nat.add_sub_cancel]
        · unfold owns; iexists _; isplitr
          swap; · iexact Hs
          ipureintro
          rw [accN0_lt A c t.val t.isLt, accAt0_A A c t h0 hc1 hc2]
          unfold acc0_A
          exact View.read_writes_of_cover _ _ _ _ _ (cover0_A c _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h0 ((hcond0_1 t).mp h)
    have hp : t.val - 1 < cfg0.N := Nat.lt_of_le_of_lt (Nat.sub_le _ _) t.isLt
    by_cases h1 : t.val = 255
    · have hc2 : k0_cond2 (grid0.coords t) = 1#1 := (hcond0_2 t).mpr h1
      rw [show (dats0 A c).leavesExact 4 t = owns (c : Thread nD τ) (ms0_4 t) fullShare ((dats0 A c).after 4 t) from by
        unfold Dat.leavesExact; rw [live0_of t hc2], after0_4]
      iintro ⟨⟨⟨%xs, %hxs, Hs⟩, Hr⟩, Ho, ⟨%d0, H0⟩, ⟨%d1, H1⟩, ⟨%d2, H2⟩, ⟨%d3, H3⟩, ⟨%d4, H4⟩⟩
      have hx : xs = accAt0 A c (t.val - 1) hp := (hxs (by rw [Fin.coe_castSucc]; exact h0)).trans (by rw [Fin.coe_castSucc]; exact accN0_lt A c _ hp)
      subst hx
      iapply ((kernelRun0_C c (grid0.coords t) _ _ _ _ _ _ _ _ _ _ _ _ hc1 hc2 (iblk0 A c 0 t) (iblk0 A c 1 t) (iblk0 A c 2 t) (iblk0 A c 3 t) (accAt0 A c (t.val - 1) hp)).2.2 _ Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, ⟨%e6, H6⟩, ⟨%e7, Hs⟩⟩
      isplitl [Hs Hr]
      · isplitl [Hs]
        · iexists (accN0 A c t.val)
          isplitr
          · ipureintro; intro _; rw [Fin.val_succ, Nat.add_sub_cancel]
          · unfold owns; iexists _; isplitr
            swap; · iexact Hs
            ipureintro
            rw [accN0_lt A c t.val t.isLt, accAt0_C A c t h1 hc1 hc2]
            unfold acc0_C
            exact View.read_writes_of_cover _ _ _ _ _ (cover0_C7 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro
      obtain rfl : t = tL0 := Fin.ext h1
      unfold outFin0 out0_C
      rw [accN0_lt A c 254 (by rw [N0_eq]; decide)]
      exact View.read_writes_of_cover _ _ _ _ _ (cover0_C6 c _ _ _ _ _ _ _ _ _ _ _ _ _ _ _ _ _ _ _ _)
    · have hc2 : ¬(k0_cond2 (grid0.coords t) = 1#1) := fun h => h1 ((hcond0_2 t).mp h)
      have hf : (cfg0.win 4).flush t = false := Bool.eq_false_iff.mpr fun h => by have := (flush0_4 t).mp h; omega
      rw [Dat.leavesExact_idle _ 4 t (idle0_of t hc2) hf]
      iintro ⟨⟨⟨%xs, %hxs, Hs⟩, Hr⟩, Ho, ⟨%d0, H0⟩, ⟨%d1, H1⟩, ⟨%d2, H2⟩, ⟨%d3, H3⟩, H4⟩
      have hx : xs = accAt0 A c (t.val - 1) hp := (hxs (by rw [Fin.coe_castSucc]; exact h0)).trans (by rw [Fin.coe_castSucc]; exact accN0_lt A c _ hp)
      subst hx
      iapply ((kernelRun0_B c (grid0.coords t) _ _ _ _ _ _ _ _ _ _ _ _ hc1 hc2 (iblk0 A c 0 t) (iblk0 A c 1 t) (iblk0 A c 2 t) (iblk0 A c 3 t) (accAt0 A c (t.val - 1) hp)).2 Set.univ _)
      isplitl [H0]; · iexact H0
      isplitl [H1]; · iexact H1
      isplitl [H2]; · iexact H2
      isplitl [H3]; · iexact H3
      isplitl [Hs]; · iexact Hs
      iintro ⟨H0, H1, H2, H3, ⟨%e, Hs⟩⟩
      isplitl [Hs Hr]
      · isplitl [Hs]
        · iexists (accN0 A c t.val)
          isplitr
          · ipureintro; intro _; rw [Fin.val_succ, Nat.add_sub_cancel]
          · unfold owns; iexists _; isplitr
            swap; · iexact Hs
            ipureintro
            rw [accN0_lt A c t.val t.isLt, accAt0_B A c t h0 h1 hc1 hc2]
            unfold acc0_B
            exact View.read_writes_of_cover _ _ _ _ _ (cover0_B c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dats0 (F := F) A c) (defs₀ (F := F)) Variants.none () Set.univ := fun t => by
  rw [bigSep_W0, bigSep_W0]
  exact sound_body0 A c t

end Cert.KernelIdeal.Hand

end
-- ==== Proof.Runs1.lean ====
import proofs.«166369_j11106785428164_2_alg».proof.Proof.Gen.KernelIdeal.Launch
import proofs.«166369_j11106785428164_2_alg».proof.Proof.Gen.KernelIdeal.Skeleton
import proofs.«166369_j11106785428164_2_alg».proof.Proof.Gen.KernelIdeal.Points
import proofs.«166369_j11106785428164_2_alg».proof.Proof.Runs0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, from the grid coordinates

The body resets its accumulator at the first point of the grid (both coordinates zero) and copies it to the output
block at the last (both coordinates fifteen). Over the 256 points in row-major order these are the points 0 and 255. -/

/-- The first condition: both grid coordinates are zero. -/
abbrev cond1_1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond1_1 : ∀ t : Fin cfg1.N, cond1_1 (grid1.coords t) ↔ t.val = 0 :=
  (by decide +kernel : ∀ t : Fin grid1.N, cond1_1 (grid1.coords t) ↔ t.val = 0)

/-- The second condition (both coordinates fifteen) holds at the last point only. -/
theorem hcond1_2 : ∀ t : Fin cfg1.N, k1_cond2 (grid1.coords t) = 1#1 ↔ t.val = 255 :=
  (by decide +kernel : ∀ t : Fin grid1.N, k1_cond2 (grid1.coords t) = 1#1 ↔ t.val = 255)

/-! ## The current staging memrefs at a point, as the pipeline passes them -/

abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The accumulator's scratch buffer, whole. -/
abbrev msS1 : Memref sig .tc .vmem S1x1 .f32 := Memref.whole cc1_scratch0
abbrev hsS1 : (msS1).IsWhole := Memref.isWhole_whole _

/-! ## The body on any whole memrefs, one run per case of the two conditions -/

set_option maxHeartbeats 1000000 in
/-- THE FIRST POINT: the accumulator is overwritten with zero, then the tile's sum is added to it and stored. What the
    accumulator held before does not matter. -/
noncomputable def kernelRun1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : cond1_1 i) (hc2 : ¬(k1_cond2 i = 1#1))
    (x0 x1 : Vec F S512x128 .f32) (x2 x3 : Vec F S512x1 .f32) :
    { L7 : List (View.Piece (Elt F) S1x1 .f32) //
      ∀ (xs : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc1__weighted_rbf_kernel i arg2 harg2 arg3 harg3 arg4 harg4 arg5 harg5 arg6 harg6 arg7 harg7) K } := by
  refine ⟨?_, fun xs E K => ?run⟩
  case run =>
    simp only [cc1__weighted_rbf_kernel_eq_skeleton]; unfold cc1__weighted_rbf_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- A POINT THAT IS NEITHER THE FIRST NOR THE LAST: the accumulator is loaded, the tile's sum added, and stored back. -/
noncomputable def kernelRun1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond1_1 i) (hc2 : ¬(k1_cond2 i = 1#1))
    (x0 x1 : Vec F S512x128 .f32) (x2 x3 : Vec F S512x1 .f32) (xs : Vec F S1x1 .f32) :
    { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc1__weighted_rbf_kernel i arg2 harg2 arg3 harg3 arg4 harg4 arg5 harg5 arg6 harg6 arg7 harg7) K } := by
  refine ⟨?_, fun E K => ?run⟩
  case run =>
    simp only [cc1__weighted_rbf_kernel_eq_skeleton]; unfold cc1__weighted_rbf_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- THE LAST POINT: as a middle point, and then the accumulator is copied into the output block. What the output
    block held before does not matter. -/
noncomputable def kernelRun1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond1_1 i) (hc2 : k1_cond2 i = 1#1)
    (x0 x1 : Vec F S512x128 .f32) (x2 x3 : Vec F S512x1 .f32) (xs : Vec F S1x1 .f32) :
    Σ' (L7 : List (View.Piece (Elt F) S1x1 .f32)) (L6 : List (View.Piece (Elt F) S1x1 .f32)),
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc1__weighted_rbf_kernel i arg2 harg2 arg3 harg3 arg4 harg4 arg5 harg5 arg6 harg6 arg7 harg7) K := by
  refine ⟨?_, ?_, fun xo E K => ?run⟩
  case run =>
    simp only [cc1__weighted_rbf_kernel_eq_skeleton]; unfold cc1__weighted_rbf_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Hand

end
-- ==== Proof.Body1.lean ====
import proofs.«166369_j11106785428164_2_alg».proof.Proof.Runs1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as the region finds them, and the windows' blocks

The region is one of three in the program, so what its operand arrays hold when it is entered is a parameter here:
`A c b`, the contents of the unscoped buffer `b` on core `c` at the region's entry. -/

variable (A : (c : Dev nD) → (b : Ref sig .tc) → Buf (Elt F) ((c : Thread nD τ).loc b))

/-- Window `w`'s block at point `t`, read off its array as the region finds it: rows `512 * (t / 16)` onward of the
    first and third operands, rows `512 * (t % 16)` onward of the second and fourth. -/
def iblk1 (c : Dev nD) (w : Fin cfg1.W) (t : Fin cfg1.N) : ((cfg1.win w).xblock (cfg1.grid.coords t)).Idx → Elt F (cfg1.win w).elt :=
  ((cfg1.win w).blk t).view.read (Elt F) (A c (Pipeline.arrRef spec1 w))

/-! Each input window's current staging buffer holds its block at every point, fetched there or not: unfetched, the
    block index has not moved since the fetch. -/
theorem before1_0_of {c : Dev nD} (dat : Dat τ (Elt F) Unit ℕ (UR sig nD τ) ℕ cfg1 c) (hA : dat.A 0 = A c (Pipeline.arrRef spec1 0))
    (hafter : ∀ t, dat.after 0 t = iblk1 A c 0 t) (t : Fin cfg1.N) (d) : dat.before 0 t d = iblk1 A c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = A c (Pipeline.arrRef spec1 1))
    (hafter : ∀ t, dat.after 1 t = iblk1 A c 1 t) (t : Fin cfg1.N) (d) : dat.before 1 t d = iblk1 A c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = A c (Pipeline.arrRef spec1 2))
    (hafter : ∀ t, dat.after 2 t = iblk1 A c 2 t) (t : Fin cfg1.N) (d) : dat.before 2 t d = iblk1 A c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = A c (Pipeline.arrRef spec1 3))
    (hafter : ∀ t, dat.after 3 t = iblk1 A c 3 t) (t : Fin cfg1.N) (d) : dat.before 3 t d = iblk1 A c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output block -/

/-- The view the stored pieces are read back through (any view of a one-element block would do). -/
abbrev VS1 : View sig .tc .vmem S1x1 .f32 := (msS1).view

/-- At the first point the stores cover the accumulator's one element. -/
theorem cover1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond1_1 i) (hc2 : ¬(k1_cond2 i = 1#1)) (x0 x1 : Vec F S512x128 .f32) (x2 x3 : Vec F S512x1 .f32) (y : S1x1.Idx) :
    ∃ pc ∈ (kernelRun1_A c i arg2 harg2 arg3 harg3 arg4 harg4 arg5 harg5 arg6 harg6 arg7 harg7 hc1 hc2 x0 x1 x2 x3).1, y ∈ pc.1.set :=
  View.cover_of_tiledL (kernelRun1_A c i arg2 harg2 arg3 harg3 arg4 harg4 arg5 harg5 arg6 harg6 arg7 harg7 hc1 hc2 x0 x1 x2 x3).1 S1x1.size (by sl_kernel_rfl) y
/-- What the first point leaves in the accumulator: zero plus the tile's sum. -/
def acc1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond1_1 i) (hc2 : ¬(k1_cond2 i = 1#1)) (x0 x1 : Vec F S512x128 .f32) (x2 x3 : Vec F S512x1 .f32) : Vec F S1x1 .f32 :=
  VS1.read (Elt F) (VS1.writes (Elt F) VS1.junk (kernelRun1_A c i arg2 harg2 arg3 harg3 arg4 harg4 arg5 harg5 arg6 harg6 arg7 harg7 hc1 hc2 x0 x1 x2 x3).1)

theorem cover1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : ¬(k1_cond2 i = 1#1)) (x0 x1 : Vec F S512x128 .f32) (x2 x3 : Vec F S512x1 .f32) (xs : Vec F S1x1 .f32) (y : S1x1.Idx) :
    ∃ pc ∈ (kernelRun1_B c i arg2 harg2 arg3 harg3 arg4 harg4 arg5 harg5 arg6 harg6 arg7 harg7 hc1 hc2 x0 x1 x2 x3 xs).1, y ∈ pc.1.set :=
  View.cover_of_tiledL (kernelRun1_B c i arg2 harg2 arg3 harg3 arg4 harg4 arg5 harg5 arg6 harg6 arg7 harg7 hc1 hc2 x0 x1 x2 x3 xs).1 S1x1.size (by sl_kernel_rfl) y
/-- What a middle point leaves in the accumulator: what it held plus the tile's sum. -/
def acc1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : ¬(k1_cond2 i = 1#1)) (x0 x1 : Vec F S512x128 .f32) (x2 x3 : Vec F S512x1 .f32) (xs : Vec F S1x1 .f32) : Vec F S1x1 .f32 :=
  VS1.read (Elt F) (VS1.writes (Elt F) VS1.junk (kernelRun1_B c i arg2 harg2 arg3 harg3 arg4 harg4 arg5 harg5 arg6 harg6 arg7 harg7 hc1 hc2 x0 x1 x2 x3 xs).1)

theorem cover1_C7 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) (y : S1x1.Idx) :
    ∃ pc ∈ (kernelRun1_C c i arg2 harg2 arg3 harg3 arg4 harg4 arg5 harg5 arg6 harg6 arg7 harg7 hc1 hc2 x0 x1 x2 x3 xs).1, y ∈ pc.1.set :=
  View.cover_of_tiledL (kernelRun1_C c i arg2 harg2 arg3 harg3 arg4 harg4 arg5 harg5 arg6 harg6 arg7 harg7 hc1 hc2 x0 x1 x2 x3 xs).1 S1x1.size (by sl_kernel_rfl) y
/-- What the last point leaves in the accumulator, -/
def acc1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) : Vec F S1x1 .f32 :=
  VS1.read (Elt F) (VS1.writes (Elt F) VS1.junk (kernelRun1_C c i arg2 harg2 arg3 harg3 arg4 harg4 arg5 harg5 arg6 harg6 arg7 harg7 hc1 hc2 x0 x1 x2 x3 xs).1)
theorem cover1_C6 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) (y : S1x1.Idx) :
    ∃ pc ∈ (kernelRun1_C c i arg2 harg2 arg3 harg3 arg4 harg4 arg5 harg5 arg6 harg6 arg7 harg7 hc1 hc2 x0 x1 x2 x3 xs).2.1, y ∈ pc.1.set :=
  View.cover_of_tiledL (kernelRun1_C c i arg2 harg2 arg3 harg3 arg4 harg4 arg5 harg5 arg6 harg6 arg7 harg7 hc1 hc2 x0 x1 x2 x3 xs).2.1 S1x1.size (by sl_kernel_rfl) y
/-- and in the output block: the accumulator's final value. -/
def out1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) : Vec F S1x1 .f32 :=
  VS1.read (Elt F) (VS1.writes (Elt F) VS1.junk (kernelRun1_C c i arg2 harg2 arg3 harg3 arg4 harg4 arg5 harg5 arg6 harg6 arg7 harg7 hc1 hc2 x0 x1 x2 x3 xs).2.1)

/-! ## The accumulation, point by point -/

theorem N1_eq : cfg1.N = 256 := N_1

/-- THE ACCUMULATOR after the body at point `n`: the first point's case at `0`; at a later point the middle or the
    last case over what the point before left. -/
def accAt1 (c : Dev nD) : (n : ℕ) → n < cfg1.N → Vec F S1x1 .f32
  | 0, hn => acc1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) msS1 hsS1 ((hcond1_1 ⟨0, hn⟩).mpr rfl)
      (fun h => absurd ((hcond1_2 ⟨0, hn⟩).mp h) (show ¬((0 : ℕ) = 255) by decide)) (iblk1 A c 0 ⟨0, hn⟩) (iblk1 A c 1 ⟨0, hn⟩) (iblk1 A c 2 ⟨0, hn⟩) (iblk1 A c 3 ⟨0, hn⟩)
  | n + 1, hn =>
    if h : n + 1 = 255 then
      acc1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) msS1 hsS1 (fun h' => Nat.succ_ne_zero n ((hcond1_1 ⟨n + 1, hn⟩).mp h'))
        ((hcond1_2 ⟨n + 1, hn⟩).mpr h) (iblk1 A c 0 ⟨n + 1, hn⟩) (iblk1 A c 1 ⟨n + 1, hn⟩) (iblk1 A c 2 ⟨n + 1, hn⟩) (iblk1 A c 3 ⟨n + 1, hn⟩) (accAt1 c n (Nat.lt_of_succ_lt hn))
    else
      acc1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) msS1 hsS1 (fun h' => Nat.succ_ne_zero n ((hcond1_1 ⟨n + 1, hn⟩).mp h'))
        (fun h' => h ((hcond1_2 ⟨n + 1, hn⟩).mp h')) (iblk1 A c 0 ⟨n + 1, hn⟩) (iblk1 A c 1 ⟨n + 1, hn⟩) (iblk1 A c 2 ⟨n + 1, hn⟩) (iblk1 A c 3 ⟨n + 1, hn⟩) (accAt1 c n (Nat.lt_of_succ_lt hn))

theorem accAt1_A (c : Dev nD) (t : Fin cfg1.N) (h0 : t.val = 0) (hc1) (hc2) :
    accAt1 A c t.val t.isLt = acc1_A c (grid1.coords t) (ms1_0 t) (hs1_0 t) (ms1_1 t) (hs1_1 t) (ms1_2 t) (hs1_2 t) (ms1_3 t) (hs1_3 t) (ms1_4 t) (hs1_4 t) msS1 hsS1 hc1 hc2 (iblk1 A c 0 t) (iblk1 A c 1 t) (iblk1 A c 2 t) (iblk1 A c 3 t) := by
  obtain ⟨n, hn⟩ := t
  cases n with
  | zero => exact rfl
  | succ n => exact absurd h0 (Nat.succ_ne_zero n)

theorem accAt1_B (c : Dev nD) (t : Fin cfg1.N) (h0 : t.val ≠ 0) (h1 : t.val ≠ 255) (hc1) (hc2) :
    accAt1 A c t.val t.isLt = acc1_B c (grid1.coords t) (ms1_0 t) (hs1_0 t) (ms1_1 t) (hs1_1 t) (ms1_2 t) (hs1_2 t) (ms1_3 t) (hs1_3 t) (ms1_4 t) (hs1_4 t) msS1 hsS1 hc1 hc2 (iblk1 A c 0 t) (iblk1 A c 1 t) (iblk1 A c 2 t) (iblk1 A c 3 t)
      (accAt1 A c (t.val - 1) (Nat.lt_of_le_of_lt (Nat.sub_le _ _) t.isLt)) := by
  obtain ⟨n, hn⟩ := t
  cases n with
  | zero => exact absurd rfl h0
  | succ n => exact (dif_neg h1).trans rfl

theorem accAt1_C (c : Dev nD) (t : Fin cfg1.N) (h1 : t.val = 255) (hc1) (hc2) :
    accAt1 A c t.val t.isLt = acc1_C c (grid1.coords t) (ms1_0 t) (hs1_0 t) (ms1_1 t) (hs1_1 t) (ms1_2 t) (hs1_2 t) (ms1_3 t) (hs1_3 t) (ms1_4 t) (hs1_4 t) msS1 hsS1 hc1 hc2 (iblk1 A c 0 t) (iblk1 A c 1 t) (iblk1 A c 2 t) (iblk1 A c 3 t)
      (accAt1 A c (t.val - 1) (Nat.lt_of_le_of_lt (Nat.sub_le _ _) t.isLt)) := by
  obtain ⟨n, hn⟩ := t
  cases n with
  | zero => exact absurd h1 (show ¬((0 : ℕ) = 255) by decide)
  | succ n => exact (dif_pos h1).trans rfl

/-- The accumulator after point `n`, for every natural `n` (beyond the grid: junk, never read). -/
def accN1 (c : Dev nD) (n : ℕ) : Vec F S1x1 .f32 :=
  if h : n < cfg1.N then accAt1 A c n h else VS1.read (Elt F) VS1.junk
theorem accN1_lt (c : Dev nD) (n : ℕ) (h : n < cfg1.N) : accN1 A c n = accAt1 A c n h := dif_pos h

/-- The last point, and what it leaves in the output block: the sum over all 256 tiles. -/
abbrev tL1 : Fin cfg1.N := ⟨255, by rw [N1_eq]; decide⟩
def outFin1 (c : Dev nD) : Vec F S1x1 .f32 :=
  out1_C c (grid1.coords tL1) (ms1_0 tL1) (hs1_0 tL1) (ms1_1 tL1) (hs1_1 tL1) (ms1_2 tL1) (hs1_2 tL1) (ms1_3 tL1) (hs1_3 tL1) (ms1_4 tL1) (hs1_4 tL1) msS1 hsS1 (fun h' => absurd ((hcond1_1 tL1).mp h') (show ¬((255 : ℕ) = 0) by decide)) ((hcond1_2 tL1).mpr rfl)
    (iblk1 A c 0 tL1) (iblk1 A c 1 tL1) (iblk1 A c 2 tL1) (iblk1 A c 3 tL1) (accN1 A c 254)

/-! ## The pipeline's proof data -/

/-- The core's scoped buffers that are neither this region's staging buffers nor its accumulator, unopened. -/
abbrev restS1 (c : Dev nD) : sProp 𝕄 :=
  Pipeline.scopedRestBut (Ix := Unit) (Name := ℕ) (U := UR sig nD τ) (Lvl := ℕ) (Val := Elt F) spec1 c [cc1_scratch0]

/-- THE INVARIANT between points: before point `t` the accumulator holds the sum over the tiles of the points below `t`
    (anything, before the first point), beside the core's other scoped buffers. -/
def Phi1 (c : Dev nD) (t : Fin (cfg1.N + 1)) : sProp 𝕄 :=
  iprop((∃ xs : Vec F S1x1 .f32, ⌜t.val ≠ 0 → xs = accN1 A c (t.val - 1)⌝ ∗ owns (c : Thread nD τ) msS1 fullShare xs) ∗ restS1 c)

/-- The proof data on core `c`: the arrays as the region finds them; after the body each input's buffer at its block, the
    output's at the final sum (consulted at the last point only: the window is idle before it); the invariant above;
    nothing owed; an array two windows read is held half by each. -/
def dats1 (c : Dev nD) : Dat τ (Elt F) Unit ℕ (UR sig nD τ) ℕ cfg1 c where
  A w := A c (Pipeline.arrRef spec1 w)
  after w t := match w with
    | ⟨0, _⟩ => iblk1 A c 0 t
    | ⟨1, _⟩ => iblk1 A c 1 t
    | ⟨2, _⟩ => iblk1 A c 2 t
    | ⟨3, _⟩ => iblk1 A c 3 t
    | ⟨4, _⟩ => outFin1 A c
  Φ t := Phi1 A c t
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A1_eq (c : Dev nD) (w : Fin cfg1.W) : (dats1 A c).A w = A c (Pipeline.arrRef spec1 w) := by
  dsimp only [dats1]
theorem after1_0 (c : Dev nD) (t : Fin cfg1.N) : (dats1 A c).after 0 t = iblk1 A c 0 t := by dsimp only [dats1]
theorem after1_1 (c : Dev nD) (t : Fin cfg1.N) : (dats1 A c).after 1 t = iblk1 A c 1 t := by dsimp only [dats1]
theorem after1_2 (c : Dev nD) (t : Fin cfg1.N) : (dats1 A c).after 2 t = iblk1 A c 2 t := by dsimp only [dats1]
theorem after1_3 (c : Dev nD) (t : Fin cfg1.N) : (dats1 A c).after 3 t = iblk1 A c 3 t := by dsimp only [dats1]
theorem after1_4 (c : Dev nD) (t : Fin cfg1.N) : (dats1 A c).after 4 t = outFin1 A c := by dsimp only [dats1]
theorem before1_0 (c : Dev nD) (t : Fin cfg1.N) (d) : (dats1 A c).before 0 t d = iblk1 A c 0 t :=
  before1_0_of A (dats1 A c) (A1_eq A c 0) (after1_0 A c) t d
theorem before1_1 (c : Dev nD) (t : Fin cfg1.N) (d) : (dats1 A c).before 1 t d = iblk1 A c 1 t :=
  before1_1_of A (dats1 A c) (A1_eq A c 1) (after1_1 A c) t d
theorem before1_2 (c : Dev nD) (t : Fin cfg1.N) (d) : (dats1 A c).before 2 t d = iblk1 A c 2 t :=
  before1_2_of A (dats1 A c) (A1_eq A c 2) (after1_2 A c) t d
theorem before1_3 (c : Dev nD) (t : Fin cfg1.N) (d) : (dats1 A c).before 3 t d = iblk1 A c 3 t :=
  before1_3_of A (dats1 A c) (A1_eq A c 3) (after1_3 A c) t d

/-! ## The body obligation, at a generic point -/

/-- What the body is called with at point `t`, the windows one by one, -/
def bodyPre1 (c : Dev nD) (t : Fin cfg1.N) : sProp 𝕄 :=
  iprop((dats1 A c).Φ t.castSucc ∗ (dats1 A c).owesAt () t.castSucc
    ∗ (∃ d, owns (c : Thread nD τ) (ms1_0 t) fullShare ((dats1 A c).before 0 t d))
    ∗ (∃ d, owns (c : Thread nD τ) (ms1_1 t) fullShare ((dats1 A c).before 1 t d))
    ∗ (∃ d, owns (c : Thread nD τ) (ms1_2 t) fullShare ((dats1 A c).before 2 t d))
    ∗ (∃ d, owns (c : Thread nD τ) (ms1_3 t) fullShare ((dats1 A c).before 3 t d))
    ∗ (∃ d, owns (c : Thread nD τ) (ms1_4 t) fullShare ((dats1 A c).before 4 t d)))

/-- and what it returns: the output window's buffer as found at a point idle for it, at the final sum at the last. -/
def bodyPost1 (c : Dev nD) (t : Fin cfg1.N) : sProp 𝕄 :=
  iprop((dats1 A c).Φ t.succ ∗ (dats1 A c).owesAt () t.succ
    ∗ owns (c : Thread nD τ) (ms1_0 t) fullShare ((dats1 A c).after 0 t)
    ∗ owns (c : Thread nD τ) (ms1_1 t) fullShare ((dats1 A c).after 1 t)
    ∗ owns (c : Thread nD τ) (ms1_2 t) fullShare ((dats1 A c).after 2 t)
    ∗ owns (c : Thread nD τ) (ms1_3 t) fullShare ((dats1 A c).after 3 t)
    ∗ (dats1 A c).leavesExact 4 t)

theorem idle1_of (t : Fin cfg1.N) (hc2 : ¬(k1_cond2 (grid1.coords t) = 1#1)) : cfg1.idle 4 (grid1.coords t) = true := by
  show (!(k1_cond2 (grid1.coords t) == 1#1)) = true
  rw [Bool.not_eq_true', beq_eq_false_iff_ne]; exact hc2
theorem live1_of (t : Fin cfg1.N) (hc2 : k1_cond2 (grid1.coords t) = 1#1) : cfg1.idle 4 (grid1.coords t) = false := by
  show (!(k1_cond2 (grid1.coords t) == 1#1)) = false
  rw [Bool.not_eq_false', beq_iff_eq]; exact hc2

set_option maxHeartbeats 1600000 in
/-- The body at any point. The inputs' buffers hold their blocks; the closed forms say which case the point is in; the
    accumulator holds what the point before left, so the case's run applies; the other scoped buffers pass through
    unread; the core owes nothing throughout. -/
theorem sound_body1 (c : Dev nD) (t : Fin cfg1.N) :
    bodyPre1 A c t ⊢ wp frame (wpE (defs₀ (F := F)) Variants.none c none) Set.univ (bodyAt1 t) (fun _ => bodyPost1 A c t) := by
  unfold bodyPre1 bodyPost1 bodyAt1
  simp only [before1_0, before1_1, before1_2, before1_3]
  rw [after1_0, after1_1, after1_2, after1_3,
    show (dats1 A c).owesAt () t.succ = (dats1 A c).owesAt () t.castSucc from rfl,
    show (dats1 A c).Φ t.castSucc = Phi1 A c t.castSucc from rfl, show (dats1 A c).Φ t.succ = Phi1 A c t.succ from rfl]
  unfold Phi1
  have hN : t.val < 256 := lt_of_lt_of_eq t.isLt N1_eq
  by_cases h0 : t.val = 0
  · have hc1 : cond1_1 (grid1.coords t) := (hcond1_1 t).mpr h0
    have hc2 : ¬(k1_cond2 (grid1.coords t) = 1#1) := fun h => by have := (hcond1_2 t).mp h; omega
    have hf : (cfg1.win 4).flush t = false := Bool.eq_false_iff.mpr fun h => by have := (flush1_4 t).mp h; omega
    rw [Dat.leavesExact_idle _ 4 t (idle1_of t hc2) hf]
    iintro ⟨⟨⟨%xs, %hxs, Hs⟩, Hr⟩, Ho, ⟨%d0, H0⟩, ⟨%d1, H1⟩, ⟨%d2, H2⟩, ⟨%d3, H3⟩, H4⟩
    iapply ((kernelRun1_A c (grid1.coords t) _ _ _ _ _ _ _ _ _ _ _ _ hc1 hc2 (iblk1 A c 0 t) (iblk1 A c 1 t) (iblk1 A c 2 t) (iblk1 A c 3 t)).2 xs Set.univ _)
    isplitl [H0]; · iexact H0
    isplitl [H1]; · iexact H1
    isplitl [H2]; · iexact H2
    isplitl [H3]; · iexact H3
    isplitl [Hs]; · iexact Hs
    iintro ⟨H0, H1, H2, H3, ⟨%e, Hs⟩⟩
    isplitl [Hs Hr]
    · isplitl [Hs]
      · iexists (accN1 A c t.val)
        isplitr
        · ipureintro; intro _; rw [Fin.val_succ, Nat.add_sub_cancel]
        · unfold owns; iexists _; isplitr
          swap; · iexact Hs
          ipureintro
          rw [accN1_lt A c t.val t.isLt, accAt1_A A c t h0 hc1 hc2]
          unfold acc1_A
          exact View.read_writes_of_cover _ _ _ _ _ (cover1_A c _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]; · iexact H3
    iexact H4
  · have hc1 : ¬cond1_1 (grid1.coords t) := fun h => h0 ((hcond1_1 t).mp h)
    have hp : t.val - 1 < cfg1.N := Nat.lt_of_le_of_lt (Nat.sub_le _ _) t.isLt
    by_cases h1 : t.val = 255
    · have hc2 : k1_cond2 (grid1.coords t) = 1#1 := (hcond1_2 t).mpr h1
      rw [show (dats1 A c).leavesExact 4 t = owns (c : Thread nD τ) (ms1_4 t) fullShare ((dats1 A c).after 4 t) from by
        unfold Dat.leavesExact; rw [live1_of t hc2], after1_4]
      iintro ⟨⟨⟨%xs, %hxs, Hs⟩, Hr⟩, Ho, ⟨%d0, H0⟩, ⟨%d1, H1⟩, ⟨%d2, H2⟩, ⟨%d3, H3⟩, ⟨%d4, H4⟩⟩
      have hx : xs = accAt1 A c (t.val - 1) hp := (hxs (by rw [Fin.coe_castSucc]; exact h0)).trans (by rw [Fin.coe_castSucc]; exact accN1_lt A c _ hp)
      subst hx
      iapply ((kernelRun1_C c (grid1.coords t) _ _ _ _ _ _ _ _ _ _ _ _ hc1 hc2 (iblk1 A c 0 t) (iblk1 A c 1 t) (iblk1 A c 2 t) (iblk1 A c 3 t) (accAt1 A c (t.val - 1) hp)).2.2 _ Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, ⟨%e6, H6⟩, ⟨%e7, Hs⟩⟩
      isplitl [Hs Hr]
      · isplitl [Hs]
        · iexists (accN1 A c t.val)
          isplitr
          · ipureintro; intro _; rw [Fin.val_succ, Nat.add_sub_cancel]
          · unfold owns; iexists _; isplitr
            swap; · iexact Hs
            ipureintro
            rw [accN1_lt A c t.val t.isLt, accAt1_C A c t h1 hc1 hc2]
            unfold acc1_C
            exact View.read_writes_of_cover _ _ _ _ _ (cover1_C7 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro
      obtain rfl : t = tL1 := Fin.ext h1
      unfold outFin1 out1_C
      rw [accN1_lt A c 254 (by rw [N1_eq]; decide)]
      exact View.read_writes_of_cover _ _ _ _ _ (cover1_C6 c _ _ _ _ _ _ _ _ _ _ _ _ _ _ _ _ _ _ _ _)
    · have hc2 : ¬(k1_cond2 (grid1.coords t) = 1#1) := fun h => h1 ((hcond1_2 t).mp h)
      have hf : (cfg1.win 4).flush t = false := Bool.eq_false_iff.mpr fun h => by have := (flush1_4 t).mp h; omega
      rw [Dat.leavesExact_idle _ 4 t (idle1_of t hc2) hf]
      iintro ⟨⟨⟨%xs, %hxs, Hs⟩, Hr⟩, Ho, ⟨%d0, H0⟩, ⟨%d1, H1⟩, ⟨%d2, H2⟩, ⟨%d3, H3⟩, H4⟩
      have hx : xs = accAt1 A c (t.val - 1) hp := (hxs (by rw [Fin.coe_castSucc]; exact h0)).trans (by rw [Fin.coe_castSucc]; exact accN1_lt A c _ hp)
      subst hx
      iapply ((kernelRun1_B c (grid1.coords t) _ _ _ _ _ _ _ _ _ _ _ _ hc1 hc2 (iblk1 A c 0 t) (iblk1 A c 1 t) (iblk1 A c 2 t) (iblk1 A c 3 t) (accAt1 A c (t.val - 1) hp)).2 Set.univ _)
      isplitl [H0]; · iexact H0
      isplitl [H1]; · iexact H1
      isplitl [H2]; · iexact H2
      isplitl [H3]; · iexact H3
      isplitl [Hs]; · iexact Hs
      iintro ⟨H0, H1, H2, H3, ⟨%e, Hs⟩⟩
      isplitl [Hs Hr]
      · isplitl [Hs]
        · iexists (accN1 A c t.val)
          isplitr
          · ipureintro; intro _; rw [Fin.val_succ, Nat.add_sub_cancel]
          · unfold owns; iexists _; isplitr
            swap; · iexact Hs
            ipureintro
            rw [accN1_lt A c t.val t.isLt, accAt1_B A c t h0 h1 hc1 hc2]
            unfold acc1_B
            exact View.read_writes_of_cover _ _ _ _ _ (cover1_B c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dats1 (F := F) A c) (defs₀ (F := F)) Variants.none () Set.univ := fun t => by
  rw [bigSep_W1, bigSep_W1]
  exact sound_body1 A c t

end Cert.KernelIdeal.Hand

end
-- ==== Proof.Runs2.lean ====
import proofs.«166369_j11106785428164_2_alg».proof.Proof.Gen.KernelIdeal.Launch
import proofs.«166369_j11106785428164_2_alg».proof.Proof.Gen.KernelIdeal.Skeleton
import proofs.«166369_j11106785428164_2_alg».proof.Proof.Gen.KernelIdeal.Points
import proofs.«166369_j11106785428164_2_alg».proof.Proof.Runs1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, from the grid coordinates

The body resets its accumulator at the first point of the grid (both coordinates zero) and copies it to the output
block at the last (both coordinates fifteen). Over the 256 points in row-major order these are the points 0 and 255. -/

/-- The first condition: both grid coordinates are zero. -/
abbrev cond2_1 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond2_1 : ∀ t : Fin cfg2.N, cond2_1 (grid2.coords t) ↔ t.val = 0 :=
  (by decide +kernel : ∀ t : Fin grid2.N, cond2_1 (grid2.coords t) ↔ t.val = 0)

/-- The second condition (both coordinates fifteen) holds at the last point only. -/
theorem hcond2_2 : ∀ t : Fin cfg2.N, k2_cond2 (grid2.coords t) = 1#1 ↔ t.val = 255 :=
  (by decide +kernel : ∀ t : Fin grid2.N, k2_cond2 (grid2.coords t) = 1#1 ↔ t.val = 255)

/-! ## The current staging memrefs at a point, as the pipeline passes them -/

abbrev ms2_0 (t : Fin cfg2.N) : Memref sig .tc .vmem S512x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The accumulator's scratch buffer, whole. -/
abbrev msS2 : Memref sig .tc .vmem S1x1 .f32 := Memref.whole cc2_scratch0
abbrev hsS2 : (msS2).IsWhole := Memref.isWhole_whole _

/-! ## The body on any whole memrefs, one run per case of the two conditions -/

set_option maxHeartbeats 1000000 in
/-- THE FIRST POINT: the accumulator is overwritten with zero, then the tile's sum is added to it and stored. What the
    accumulator held before does not matter. -/
noncomputable def kernelRun2_A (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : cond2_1 i) (hc2 : ¬(k2_cond2 i = 1#1))
    (x0 x1 : Vec F S512x128 .f32) (x2 x3 : Vec F S512x1 .f32) :
    { L7 : List (View.Piece (Elt F) S1x1 .f32) //
      ∀ (xs : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc2__weighted_rbf_kernel i arg2 harg2 arg3 harg3 arg4 harg4 arg5 harg5 arg6 harg6 arg7 harg7) K } := by
  refine ⟨?_, fun xs E K => ?run⟩
  case run =>
    simp only [cc2__weighted_rbf_kernel_eq_skeleton]; unfold cc2__weighted_rbf_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- A POINT THAT IS NEITHER THE FIRST NOR THE LAST: the accumulator is loaded, the tile's sum added, and stored back. -/
noncomputable def kernelRun2_B (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond2_1 i) (hc2 : ¬(k2_cond2 i = 1#1))
    (x0 x1 : Vec F S512x128 .f32) (x2 x3 : Vec F S512x1 .f32) (xs : Vec F S1x1 .f32) :
    { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc2__weighted_rbf_kernel i arg2 harg2 arg3 harg3 arg4 harg4 arg5 harg5 arg6 harg6 arg7 harg7) K } := by
  refine ⟨?_, fun E K => ?run⟩
  case run =>
    simp only [cc2__weighted_rbf_kernel_eq_skeleton]; unfold cc2__weighted_rbf_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- THE LAST POINT: as a middle point, and then the accumulator is copied into the output block. What the output
    block held before does not matter. -/
noncomputable def kernelRun2_C (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond2_1 i) (hc2 : k2_cond2 i = 1#1)
    (x0 x1 : Vec F S512x128 .f32) (x2 x3 : Vec F S512x1 .f32) (xs : Vec F S1x1 .f32) :
    Σ' (L7 : List (View.Piece (Elt F) S1x1 .f32)) (L6 : List (View.Piece (Elt F) S1x1 .f32)),
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc2__weighted_rbf_kernel i arg2 harg2 arg3 harg3 arg4 harg4 arg5 harg5 arg6 harg6 arg7 harg7) K := by
  refine ⟨?_, ?_, fun xo E K => ?run⟩
  case run =>
    simp only [cc2__weighted_rbf_kernel_eq_skeleton]; unfold cc2__weighted_rbf_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.KernelIdeal.Hand

end
-- ==== Proof.Body2.lean ====
import proofs.«166369_j11106785428164_2_alg».proof.Proof.Runs2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as the region finds them, and the windows' blocks

The region is one of three in the program, so what its operand arrays hold when it is entered is a parameter here:
`A c b`, the contents of the unscoped buffer `b` on core `c` at the region's entry. -/

variable (A : (c : Dev nD) → (b : Ref sig .tc) → Buf (Elt F) ((c : Thread nD τ).loc b))

/-- Window `w`'s block at point `t`, read off its array as the region finds it: rows `512 * (t / 16)` onward of the
    first and third operands, rows `512 * (t % 16)` onward of the second and fourth. -/
def iblk2 (c : Dev nD) (w : Fin cfg2.W) (t : Fin cfg2.N) : ((cfg2.win w).xblock (cfg2.grid.coords t)).Idx → Elt F (cfg2.win w).elt :=
  ((cfg2.win w).blk t).view.read (Elt F) (A c (Pipeline.arrRef spec2 w))

/-! Each input window's current staging buffer holds its block at every point, fetched there or not: unfetched, the
    block index has not moved since the fetch. -/
theorem before2_0_of {c : Dev nD} (dat : Dat τ (Elt F) Unit ℕ (UR sig nD τ) ℕ cfg2 c) (hA : dat.A 0 = A c (Pipeline.arrRef spec2 0))
    (hafter : ∀ t, dat.after 0 t = iblk2 A c 0 t) (t : Fin cfg2.N) (d) : dat.before 0 t d = iblk2 A c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = A c (Pipeline.arrRef spec2 1))
    (hafter : ∀ t, dat.after 1 t = iblk2 A c 1 t) (t : Fin cfg2.N) (d) : dat.before 1 t d = iblk2 A c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = A c (Pipeline.arrRef spec2 2))
    (hafter : ∀ t, dat.after 2 t = iblk2 A c 2 t) (t : Fin cfg2.N) (d) : dat.before 2 t d = iblk2 A c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = A c (Pipeline.arrRef spec2 3))
    (hafter : ∀ t, dat.after 3 t = iblk2 A c 3 t) (t : Fin cfg2.N) (d) : dat.before 3 t d = iblk2 A c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and in the output block -/

/-- The view the stored pieces are read back through (any view of a one-element block would do). -/
abbrev VS2 : View sig .tc .vmem S1x1 .f32 := (msS2).view

/-- At the first point the stores cover the accumulator's one element. -/
theorem cover2_A (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond2_1 i) (hc2 : ¬(k2_cond2 i = 1#1)) (x0 x1 : Vec F S512x128 .f32) (x2 x3 : Vec F S512x1 .f32) (y : S1x1.Idx) :
    ∃ pc ∈ (kernelRun2_A c i arg2 harg2 arg3 harg3 arg4 harg4 arg5 harg5 arg6 harg6 arg7 harg7 hc1 hc2 x0 x1 x2 x3).1, y ∈ pc.1.set :=
  View.cover_of_tiledL (kernelRun2_A c i arg2 harg2 arg3 harg3 arg4 harg4 arg5 harg5 arg6 harg6 arg7 harg7 hc1 hc2 x0 x1 x2 x3).1 S1x1.size (by sl_kernel_rfl) y
/-- What the first point leaves in the accumulator: zero plus the tile's sum. -/
def acc2_A (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond2_1 i) (hc2 : ¬(k2_cond2 i = 1#1)) (x0 x1 : Vec F S512x128 .f32) (x2 x3 : Vec F S512x1 .f32) : Vec F S1x1 .f32 :=
  VS2.read (Elt F) (VS2.writes (Elt F) VS2.junk (kernelRun2_A c i arg2 harg2 arg3 harg3 arg4 harg4 arg5 harg5 arg6 harg6 arg7 harg7 hc1 hc2 x0 x1 x2 x3).1)

theorem cover2_B (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : ¬(k2_cond2 i = 1#1)) (x0 x1 : Vec F S512x128 .f32) (x2 x3 : Vec F S512x1 .f32) (xs : Vec F S1x1 .f32) (y : S1x1.Idx) :
    ∃ pc ∈ (kernelRun2_B c i arg2 harg2 arg3 harg3 arg4 harg4 arg5 harg5 arg6 harg6 arg7 harg7 hc1 hc2 x0 x1 x2 x3 xs).1, y ∈ pc.1.set :=
  View.cover_of_tiledL (kernelRun2_B c i arg2 harg2 arg3 harg3 arg4 harg4 arg5 harg5 arg6 harg6 arg7 harg7 hc1 hc2 x0 x1 x2 x3 xs).1 S1x1.size (by sl_kernel_rfl) y
/-- What a middle point leaves in the accumulator: what it held plus the tile's sum. -/
def acc2_B (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : ¬(k2_cond2 i = 1#1)) (x0 x1 : Vec F S512x128 .f32) (x2 x3 : Vec F S512x1 .f32) (xs : Vec F S1x1 .f32) : Vec F S1x1 .f32 :=
  VS2.read (Elt F) (VS2.writes (Elt F) VS2.junk (kernelRun2_B c i arg2 harg2 arg3 harg3 arg4 harg4 arg5 harg5 arg6 harg6 arg7 harg7 hc1 hc2 x0 x1 x2 x3 xs).1)

theorem cover2_C7 (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) (y : S1x1.Idx) :
    ∃ pc ∈ (kernelRun2_C c i arg2 harg2 arg3 harg3 arg4 harg4 arg5 harg5 arg6 harg6 arg7 harg7 hc1 hc2 x0 x1 x2 x3 xs).1, y ∈ pc.1.set :=
  View.cover_of_tiledL (kernelRun2_C c i arg2 harg2 arg3 harg3 arg4 harg4 arg5 harg5 arg6 harg6 arg7 harg7 hc1 hc2 x0 x1 x2 x3 xs).1 S1x1.size (by sl_kernel_rfl) y
/-- What the last point leaves in the accumulator, -/
def acc2_C (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) : Vec F S1x1 .f32 :=
  VS2.read (Elt F) (VS2.writes (Elt F) VS2.junk (kernelRun2_C c i arg2 harg2 arg3 harg3 arg4 harg4 arg5 harg5 arg6 harg6 arg7 harg7 hc1 hc2 x0 x1 x2 x3 xs).1)
theorem cover2_C6 (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) (y : S1x1.Idx) :
    ∃ pc ∈ (kernelRun2_C c i arg2 harg2 arg3 harg3 arg4 harg4 arg5 harg5 arg6 harg6 arg7 harg7 hc1 hc2 x0 x1 x2 x3 xs).2.1, y ∈ pc.1.set :=
  View.cover_of_tiledL (kernelRun2_C c i arg2 harg2 arg3 harg3 arg4 harg4 arg5 harg5 arg6 harg6 arg7 harg7 hc1 hc2 x0 x1 x2 x3 xs).2.1 S1x1.size (by sl_kernel_rfl) y
/-- and in the output block: the accumulator's final value. -/
def out2_C (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) : Vec F S1x1 .f32 :=
  VS2.read (Elt F) (VS2.writes (Elt F) VS2.junk (kernelRun2_C c i arg2 harg2 arg3 harg3 arg4 harg4 arg5 harg5 arg6 harg6 arg7 harg7 hc1 hc2 x0 x1 x2 x3 xs).2.1)

/-! ## The accumulation, point by point -/

theorem N2_eq : cfg2.N = 256 := N_2

/-- THE ACCUMULATOR after the body at point `n`: the first point's case at `0`; at a later point the middle or the
    last case over what the point before left. -/
def accAt2 (c : Dev nD) : (n : ℕ) → n < cfg2.N → Vec F S1x1 .f32
  | 0, hn => acc2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) msS2 hsS2 ((hcond2_1 ⟨0, hn⟩).mpr rfl)
      (fun h => absurd ((hcond2_2 ⟨0, hn⟩).mp h) (show ¬((0 : ℕ) = 255) by decide)) (iblk2 A c 0 ⟨0, hn⟩) (iblk2 A c 1 ⟨0, hn⟩) (iblk2 A c 2 ⟨0, hn⟩) (iblk2 A c 3 ⟨0, hn⟩)
  | n + 1, hn =>
    if h : n + 1 = 255 then
      acc2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) msS2 hsS2 (fun h' => Nat.succ_ne_zero n ((hcond2_1 ⟨n + 1, hn⟩).mp h'))
        ((hcond2_2 ⟨n + 1, hn⟩).mpr h) (iblk2 A c 0 ⟨n + 1, hn⟩) (iblk2 A c 1 ⟨n + 1, hn⟩) (iblk2 A c 2 ⟨n + 1, hn⟩) (iblk2 A c 3 ⟨n + 1, hn⟩) (accAt2 c n (Nat.lt_of_succ_lt hn))
    else
      acc2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) msS2 hsS2 (fun h' => Nat.succ_ne_zero n ((hcond2_1 ⟨n + 1, hn⟩).mp h'))
        (fun h' => h ((hcond2_2 ⟨n + 1, hn⟩).mp h')) (iblk2 A c 0 ⟨n + 1, hn⟩) (iblk2 A c 1 ⟨n + 1, hn⟩) (iblk2 A c 2 ⟨n + 1, hn⟩) (iblk2 A c 3 ⟨n + 1, hn⟩) (accAt2 c n (Nat.lt_of_succ_lt hn))

theorem accAt2_A (c : Dev nD) (t : Fin cfg2.N) (h0 : t.val = 0) (hc1) (hc2) :
    accAt2 A c t.val t.isLt = acc2_A c (grid2.coords t) (ms2_0 t) (hs2_0 t) (ms2_1 t) (hs2_1 t) (ms2_2 t) (hs2_2 t) (ms2_3 t) (hs2_3 t) (ms2_4 t) (hs2_4 t) msS2 hsS2 hc1 hc2 (iblk2 A c 0 t) (iblk2 A c 1 t) (iblk2 A c 2 t) (iblk2 A c 3 t) := by
  obtain ⟨n, hn⟩ := t
  cases n with
  | zero => exact rfl
  | succ n => exact absurd h0 (Nat.succ_ne_zero n)

theorem accAt2_B (c : Dev nD) (t : Fin cfg2.N) (h0 : t.val ≠ 0) (h1 : t.val ≠ 255) (hc1) (hc2) :
    accAt2 A c t.val t.isLt = acc2_B c (grid2.coords t) (ms2_0 t) (hs2_0 t) (ms2_1 t) (hs2_1 t) (ms2_2 t) (hs2_2 t) (ms2_3 t) (hs2_3 t) (ms2_4 t) (hs2_4 t) msS2 hsS2 hc1 hc2 (iblk2 A c 0 t) (iblk2 A c 1 t) (iblk2 A c 2 t) (iblk2 A c 3 t)
      (accAt2 A c (t.val - 1) (Nat.lt_of_le_of_lt (Nat.sub_le _ _) t.isLt)) := by
  obtain ⟨n, hn⟩ := t
  cases n with
  | zero => exact absurd rfl h0
  | succ n => exact (dif_neg h1).trans rfl

theorem accAt2_C (c : Dev nD) (t : Fin cfg2.N) (h1 : t.val = 255) (hc1) (hc2) :
    accAt2 A c t.val t.isLt = acc2_C c (grid2.coords t) (ms2_0 t) (hs2_0 t) (ms2_1 t) (hs2_1 t) (ms2_2 t) (hs2_2 t) (ms2_3 t) (hs2_3 t) (ms2_4 t) (hs2_4 t) msS2 hsS2 hc1 hc2 (iblk2 A c 0 t) (iblk2 A c 1 t) (iblk2 A c 2 t) (iblk2 A c 3 t)
      (accAt2 A c (t.val - 1) (Nat.lt_of_le_of_lt (Nat.sub_le _ _) t.isLt)) := by
  obtain ⟨n, hn⟩ := t
  cases n with
  | zero => exact absurd h1 (show ¬((0 : ℕ) = 255) by decide)
  | succ n => exact (dif_pos h1).trans rfl

/-- The accumulator after point `n`, for every natural `n` (beyond the grid: junk, never read). -/
def accN2 (c : Dev nD) (n : ℕ) : Vec F S1x1 .f32 :=
  if h : n < cfg2.N then accAt2 A c n h else VS2.read (Elt F) VS2.junk
theorem accN2_lt (c : Dev nD) (n : ℕ) (h : n < cfg2.N) : accN2 A c n = accAt2 A c n h := dif_pos h

/-- The last point, and what it leaves in the output block: the sum over all 256 tiles. -/
abbrev tL2 : Fin cfg2.N := ⟨255, by rw [N2_eq]; decide⟩
def outFin2 (c : Dev nD) : Vec F S1x1 .f32 :=
  out2_C c (grid2.coords tL2) (ms2_0 tL2) (hs2_0 tL2) (ms2_1 tL2) (hs2_1 tL2) (ms2_2 tL2) (hs2_2 tL2) (ms2_3 tL2) (hs2_3 tL2) (ms2_4 tL2) (hs2_4 tL2) msS2 hsS2 (fun h' => absurd ((hcond2_1 tL2).mp h') (show ¬((255 : ℕ) = 0) by decide)) ((hcond2_2 tL2).mpr rfl)
    (iblk2 A c 0 tL2) (iblk2 A c 1 tL2) (iblk2 A c 2 tL2) (iblk2 A c 3 tL2) (accN2 A c 254)

/-! ## The pipeline's proof data -/

/-- The core's scoped buffers that are neither this region's staging buffers nor its accumulator, unopened. -/
abbrev restS2 (c : Dev nD) : sProp 𝕄 :=
  Pipeline.scopedRestBut (Ix := Unit) (Name := ℕ) (U := UR sig nD τ) (Lvl := ℕ) (Val := Elt F) spec2 c [cc2_scratch0]

/-- THE INVARIANT between points: before point `t` the accumulator holds the sum over the tiles of the points below `t`
    (anything, before the first point), beside the core's other scoped buffers. -/
def Phi2 (c : Dev nD) (t : Fin (cfg2.N + 1)) : sProp 𝕄 :=
  iprop((∃ xs : Vec F S1x1 .f32, ⌜t.val ≠ 0 → xs = accN2 A c (t.val - 1)⌝ ∗ owns (c : Thread nD τ) msS2 fullShare xs) ∗ restS2 c)

/-- The proof data on core `c`: the arrays as the region finds them; after the body each input's buffer at its block, the
    output's at the final sum (consulted at the last point only: the window is idle before it); the invariant above;
    nothing owed; every array at the full share. -/
def dats2 (c : Dev nD) : Dat τ (Elt F) Unit ℕ (UR sig nD τ) ℕ cfg2 c where
  A w := A c (Pipeline.arrRef spec2 w)
  after w t := match w with
    | ⟨0, _⟩ => iblk2 A c 0 t
    | ⟨1, _⟩ => iblk2 A c 1 t
    | ⟨2, _⟩ => iblk2 A c 2 t
    | ⟨3, _⟩ => iblk2 A c 3 t
    | ⟨4, _⟩ => outFin2 A c
  Φ t := Phi2 A c t
  q w := fullShare
  owed _ := 0

theorem A2_eq (c : Dev nD) (w : Fin cfg2.W) : (dats2 A c).A w = A c (Pipeline.arrRef spec2 w) := by
  dsimp only [dats2]
theorem after2_0 (c : Dev nD) (t : Fin cfg2.N) : (dats2 A c).after 0 t = iblk2 A c 0 t := by dsimp only [dats2]
theorem after2_1 (c : Dev nD) (t : Fin cfg2.N) : (dats2 A c).after 1 t = iblk2 A c 1 t := by dsimp only [dats2]
theorem after2_2 (c : Dev nD) (t : Fin cfg2.N) : (dats2 A c).after 2 t = iblk2 A c 2 t := by dsimp only [dats2]
theorem after2_3 (c : Dev nD) (t : Fin cfg2.N) : (dats2 A c).after 3 t = iblk2 A c 3 t := by dsimp only [dats2]
theorem after2_4 (c : Dev nD) (t : Fin cfg2.N) : (dats2 A c).after 4 t = outFin2 A c := by dsimp only [dats2]
theorem before2_0 (c : Dev nD) (t : Fin cfg2.N) (d) : (dats2 A c).before 0 t d = iblk2 A c 0 t :=
  before2_0_of A (dats2 A c) (A2_eq A c 0) (after2_0 A c) t d
theorem before2_1 (c : Dev nD) (t : Fin cfg2.N) (d) : (dats2 A c).before 1 t d = iblk2 A c 1 t :=
  before2_1_of A (dats2 A c) (A2_eq A c 1) (after2_1 A c) t d
theorem before2_2 (c : Dev nD) (t : Fin cfg2.N) (d) : (dats2 A c).before 2 t d = iblk2 A c 2 t :=
  before2_2_of A (dats2 A c) (A2_eq A c 2) (after2_2 A c) t d
theorem before2_3 (c : Dev nD) (t : Fin cfg2.N) (d) : (dats2 A c).before 3 t d = iblk2 A c 3 t :=
  before2_3_of A (dats2 A c) (A2_eq A c 3) (after2_3 A c) t d

/-! ## The body obligation, at a generic point -/

/-- What the body is called with at point `t`, the windows one by one, -/
def bodyPre2 (c : Dev nD) (t : Fin cfg2.N) : sProp 𝕄 :=
  iprop((dats2 A c).Φ t.castSucc ∗ (dats2 A c).owesAt () t.castSucc
    ∗ (∃ d, owns (c : Thread nD τ) (ms2_0 t) fullShare ((dats2 A c).before 0 t d))
    ∗ (∃ d, owns (c : Thread nD τ) (ms2_1 t) fullShare ((dats2 A c).before 1 t d))
    ∗ (∃ d, owns (c : Thread nD τ) (ms2_2 t) fullShare ((dats2 A c).before 2 t d))
    ∗ (∃ d, owns (c : Thread nD τ) (ms2_3 t) fullShare ((dats2 A c).before 3 t d))
    ∗ (∃ d, owns (c : Thread nD τ) (ms2_4 t) fullShare ((dats2 A c).before 4 t d)))

/-- and what it returns: the output window's buffer as found at a point idle for it, at the final sum at the last. -/
def bodyPost2 (c : Dev nD) (t : Fin cfg2.N) : sProp 𝕄 :=
  iprop((dats2 A c).Φ t.succ ∗ (dats2 A c).owesAt () t.succ
    ∗ owns (c : Thread nD τ) (ms2_0 t) fullShare ((dats2 A c).after 0 t)
    ∗ owns (c : Thread nD τ) (ms2_1 t) fullShare ((dats2 A c).after 1 t)
    ∗ owns (c : Thread nD τ) (ms2_2 t) fullShare ((dats2 A c).after 2 t)
    ∗ owns (c : Thread nD τ) (ms2_3 t) fullShare ((dats2 A c).after 3 t)
    ∗ (dats2 A c).leavesExact 4 t)

theorem idle2_of (t : Fin cfg2.N) (hc2 : ¬(k2_cond2 (grid2.coords t) = 1#1)) : cfg2.idle 4 (grid2.coords t) = true := by
  show (!(k2_cond2 (grid2.coords t) == 1#1)) = true
  rw [Bool.not_eq_true', beq_eq_false_iff_ne]; exact hc2
theorem live2_of (t : Fin cfg2.N) (hc2 : k2_cond2 (grid2.coords t) = 1#1) : cfg2.idle 4 (grid2.coords t) = false := by
  show (!(k2_cond2 (grid2.coords t) == 1#1)) = false
  rw [Bool.not_eq_false', beq_iff_eq]; exact hc2

set_option maxHeartbeats 1600000 in
/-- The body at any point. The inputs' buffers hold their blocks; the closed forms say which case the point is in; the
    accumulator holds what the point before left, so the case's run applies; the other scoped buffers pass through
    unread; the core owes nothing throughout. -/
theorem sound_body2 (c : Dev nD) (t : Fin cfg2.N) :
    bodyPre2 A c t ⊢ wp frame (wpE (defs₀ (F := F)) Variants.none c none) Set.univ (bodyAt2 t) (fun _ => bodyPost2 A c t) := by
  unfold bodyPre2 bodyPost2 bodyAt2
  simp only [before2_0, before2_1, before2_2, before2_3]
  rw [after2_0, after2_1, after2_2, after2_3,
    show (dats2 A c).owesAt () t.succ = (dats2 A c).owesAt () t.castSucc from rfl,
    show (dats2 A c).Φ t.castSucc = Phi2 A c t.castSucc from rfl, show (dats2 A c).Φ t.succ = Phi2 A c t.succ from rfl]
  unfold Phi2
  have hN : t.val < 256 := lt_of_lt_of_eq t.isLt N2_eq
  by_cases h0 : t.val = 0
  · have hc1 : cond2_1 (grid2.coords t) := (hcond2_1 t).mpr h0
    have hc2 : ¬(k2_cond2 (grid2.coords t) = 1#1) := fun h => by have := (hcond2_2 t).mp h; omega
    have hf : (cfg2.win 4).flush t = false := Bool.eq_false_iff.mpr fun h => by have := (flush2_4 t).mp h; omega
    rw [Dat.leavesExact_idle _ 4 t (idle2_of t hc2) hf]
    iintro ⟨⟨⟨%xs, %hxs, Hs⟩, Hr⟩, Ho, ⟨%d0, H0⟩, ⟨%d1, H1⟩, ⟨%d2, H2⟩, ⟨%d3, H3⟩, H4⟩
    iapply ((kernelRun2_A c (grid2.coords t) _ _ _ _ _ _ _ _ _ _ _ _ hc1 hc2 (iblk2 A c 0 t) (iblk2 A c 1 t) (iblk2 A c 2 t) (iblk2 A c 3 t)).2 xs Set.univ _)
    isplitl [H0]; · iexact H0
    isplitl [H1]; · iexact H1
    isplitl [H2]; · iexact H2
    isplitl [H3]; · iexact H3
    isplitl [Hs]; · iexact Hs
    iintro ⟨H0, H1, H2, H3, ⟨%e, Hs⟩⟩
    isplitl [Hs Hr]
    · isplitl [Hs]
      · iexists (accN2 A c t.val)
        isplitr
        · ipureintro; intro _; rw [Fin.val_succ, Nat.add_sub_cancel]
        · unfold owns; iexists _; isplitr
          swap; · iexact Hs
          ipureintro
          rw [accN2_lt A c t.val t.isLt, accAt2_A A c t h0 hc1 hc2]
          unfold acc2_A
          exact View.read_writes_of_cover _ _ _ _ _ (cover2_A c _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]; · iexact H3
    iexact H4
  · have hc1 : ¬cond2_1 (grid2.coords t) := fun h => h0 ((hcond2_1 t).mp h)
    have hp : t.val - 1 < cfg2.N := Nat.lt_of_le_of_lt (Nat.sub_le _ _) t.isLt
    by_cases h1 : t.val = 255
    · have hc2 : k2_cond2 (grid2.coords t) = 1#1 := (hcond2_2 t).mpr h1
      rw [show (dats2 A c).leavesExact 4 t = owns (c : Thread nD τ) (ms2_4 t) fullShare ((dats2 A c).after 4 t) from by
        unfold Dat.leavesExact; rw [live2_of t hc2], after2_4]
      iintro ⟨⟨⟨%xs, %hxs, Hs⟩, Hr⟩, Ho, ⟨%d0, H0⟩, ⟨%d1, H1⟩, ⟨%d2, H2⟩, ⟨%d3, H3⟩, ⟨%d4, H4⟩⟩
      have hx : xs = accAt2 A c (t.val - 1) hp := (hxs (by rw [Fin.coe_castSucc]; exact h0)).trans (by rw [Fin.coe_castSucc]; exact accN2_lt A c _ hp)
      subst hx
      iapply ((kernelRun2_C c (grid2.coords t) _ _ _ _ _ _ _ _ _ _ _ _ hc1 hc2 (iblk2 A c 0 t) (iblk2 A c 1 t) (iblk2 A c 2 t) (iblk2 A c 3 t) (accAt2 A c (t.val - 1) hp)).2.2 _ Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, ⟨%e6, H6⟩, ⟨%e7, Hs⟩⟩
      isplitl [Hs Hr]
      · isplitl [Hs]
        · iexists (accN2 A c t.val)
          isplitr
          · ipureintro; intro _; rw [Fin.val_succ, Nat.add_sub_cancel]
          · unfold owns; iexists _; isplitr
            swap; · iexact Hs
            ipureintro
            rw [accN2_lt A c t.val t.isLt, accAt2_C A c t h1 hc1 hc2]
            unfold acc2_C
            exact View.read_writes_of_cover _ _ _ _ _ (cover2_C7 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro
      obtain rfl : t = tL2 := Fin.ext h1
      unfold outFin2 out2_C
      rw [accN2_lt A c 254 (by rw [N2_eq]; decide)]
      exact View.read_writes_of_cover _ _ _ _ _ (cover2_C6 c _ _ _ _ _ _ _ _ _ _ _ _ _ _ _ _ _ _ _ _)
    · have hc2 : ¬(k2_cond2 (grid2.coords t) = 1#1) := fun h => h1 ((hcond2_2 t).mp h)
      have hf : (cfg2.win 4).flush t = false := Bool.eq_false_iff.mpr fun h => by have := (flush2_4 t).mp h; omega
      rw [Dat.leavesExact_idle _ 4 t (idle2_of t hc2) hf]
      iintro ⟨⟨⟨%xs, %hxs, Hs⟩, Hr⟩, Ho, ⟨%d0, H0⟩, ⟨%d1, H1⟩, ⟨%d2, H2⟩, ⟨%d3, H3⟩, H4⟩
      have hx : xs = accAt2 A c (t.val - 1) hp := (hxs (by rw [Fin.coe_castSucc]; exact h0)).trans (by rw [Fin.coe_castSucc]; exact accN2_lt A c _ hp)
      subst hx
      iapply ((kernelRun2_B c (grid2.coords t) _ _ _ _ _ _ _ _ _ _ _ _ hc1 hc2 (iblk2 A c 0 t) (iblk2 A c 1 t) (iblk2 A c 2 t) (iblk2 A c 3 t) (accAt2 A c (t.val - 1) hp)).2 Set.univ _)
      isplitl [H0]; · iexact H0
      isplitl [H1]; · iexact H1
      isplitl [H2]; · iexact H2
      isplitl [H3]; · iexact H3
      isplitl [Hs]; · iexact Hs
      iintro ⟨H0, H1, H2, H3, ⟨%e, Hs⟩⟩
      isplitl [Hs Hr]
      · isplitl [Hs]
        · iexists (accN2 A c t.val)
          isplitr
          · ipureintro; intro _; rw [Fin.val_succ, Nat.add_sub_cancel]
          · unfold owns; iexists _; isplitr
            swap; · iexact Hs
            ipureintro
            rw [accN2_lt A c t.val t.isLt, accAt2_B A c t h0 h1 hc1 hc2]
            unfold acc2_B
            exact View.read_writes_of_cover _ _ _ _ _ (cover2_B c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      iexact H4

/-- The library's body obligation, at every point. -/
theorem body_obligation2 (c : Dev nD) : BodyObligation (dats2 (F := F) A c) (defs₀ (F := F)) Variants.none () Set.univ := fun t => by
  rw [bigSep_W2, bigSep_W2]
  exact sound_body2 A c t

end Cert.KernelIdeal.Hand

end
-- ==== Proof.Data.lean ====
import proofs.«166369_j11106785428164_2_alg».proof.Proof.Body0
import proofs.«166369_j11106785428164_2_alg».proof.Proof.Body1
import proofs.«166369_j11106785428164_2_alg».proof.Proof.Body2
import proofs.«166369_j11106785428164_2_alg».proof.Proof.Gen.KernelIdeal.Regions
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## What the unscoped buffers hold between the items of the program

The program is: six host operations (the normalised weights and the uniform weights), the first region (the weighted
sum over pairs of rows of the first argument), a reshape, the second region (pairs of rows of the second argument,
uniform weights), a reshape, the third region (the cross term), and eight host operations (the final combination, the
clamp and the square root). Each region changes one buffer only, its one-element result; `Wj m c` is what core `c`'s
unscoped buffers hold after item `j - 1`. -/

variable (m : (ℓ : Loc nD τ sig) → Buf (Elt F) ℓ)

/-- No core owes anything: no level is assigned. -/
abbrev L0 : GSem nD τ sig → Finset Unit := fun _ => ∅
abbrev lv0 : GSem nD τ sig → Unit → ℕ := fun _ _ => 0

/-- At launch. -/
abbrev W0 (c : Dev nD) : Valuation τ sig (Elt F) := fun b => m (c, b)
/-- After the first six host operations. -/
abbrev W1 (c : Dev nD) : Valuation τ sig (Elt F) := StableHlo.after hostOps0 (W0 m c)
/-- The first region's operand arrays as it finds them. -/
abbrev A0 (c : Dev nD) (b : Ref sig .tc) : Buf (Elt F) ((c : Thread nD τ).loc b) := W1 m c b
/-- What the first region leaves in its result buffer: its array after the write-back at the last point. -/
def X4 (c : Dev nD) : Buf (Elt F) ((c : Thread nD τ).loc main_v4) := (dats0 (A0 m) c).arrAt 4 cfg0.N
abbrev W2 (c : Dev nD) : Valuation τ sig (Elt F) := Function.update (W1 m c) main_v4 (X4 m c)
abbrev W3 (c : Dev nD) : Valuation τ sig (Elt F) := StableHlo.after hostOps1 (W2 m c)
abbrev A1 (c : Dev nD) (b : Ref sig .tc) : Buf (Elt F) ((c : Thread nD τ).loc b) := W3 m c b
def X6 (c : Dev nD) : Buf (Elt F) ((c : Thread nD τ).loc main_v6) := (dats1 (A1 m) c).arrAt 4 cfg1.N
abbrev W4 (c : Dev nD) : Valuation τ sig (Elt F) := Function.update (W3 m c) main_v6 (X6 m c)
abbrev W5 (c : Dev nD) : Valuation τ sig (Elt F) := StableHlo.after hostOps2 (W4 m c)
abbrev A2 (c : Dev nD) (b : Ref sig .tc) : Buf (Elt F) ((c : Thread nD τ).loc b) := W5 m c b
def X8 (c : Dev nD) : Buf (Elt F) ((c : Thread nD τ).loc main_v8) := (dats2 (A2 m) c).arrAt 4 cfg2.N
abbrev W6 (c : Dev nD) : Valuation τ sig (Elt F) := Function.update (W5 m c) main_v8 (X8 m c)
/-- At the end. -/
abbrev W7 (c : Dev nD) : Valuation τ sig (Elt F) := StableHlo.after hostOps3 (W6 m c)

/-- The three regions' proof data, each over what its region finds. -/
def pdats : (p : Fin 3) → (c : Dev nD) → Dat τ (Elt F) Unit ℕ (UR sig nD τ) ℕ (cfgs p) c
  | ⟨0, _⟩ => dats0 (A0 m)
  | ⟨1, _⟩ => dats1 (A1 m)
  | ⟨2, _⟩ => dats2 (A2 m)

/-- The prefetched tables' admissible contents: no region has a table. -/
abbrev adm0 : (p : Fin 3) → (pcfgs (F := F) p).Adm := fun p => (cfgs p).toPCfg_adm

/-- What rides beside the buffers from item to item: the core owing nothing. -/
abbrev Eown (c : Dev nD) : sProp 𝕄 := iprop(∃ W, owes (c : Thread nD τ) (0 : CellTallies nD τ sig Unit) W)

end Cert.KernelIdeal.Hand

end
-- ==== Proof.Run.lean ====
import proofs.«166369_j11106785428164_2_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v4] : List (Ref sig .tc))) : W2 m c r = W1 m c r := by
  simp only [W2, Function.update_of_ne (StableHlo.devRef_ne_of_ne (List.ne_of_not_mem_cons h) : (Proc.devRef .tc r : DevRef τ sig) ≠ Proc.devRef .tc main_v4)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v6] : List (Ref sig .tc))) : W4 m c r = W3 m c r := by
  simp only [W4, Function.update_of_ne (StableHlo.devRef_ne_of_ne (List.ne_of_not_mem_cons h) : (Proc.devRef .tc r : DevRef τ sig) ≠ Proc.devRef .tc main_v6)]
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ ([main_v8] : List (Ref sig .tc))) : W6 m c r = W5 m c r := by
  simp only [W6, Function.update_of_ne (StableHlo.devRef_ne_of_ne (List.ne_of_not_mem_cons h) : (Proc.devRef .tc r : DevRef τ sig) ≠ Proc.devRef .tc main_v8)]
theorem W7_of (c : Dev nD) (r : Ref sig .tc) (h : r ∉ hostOps3_W) : W7 m c r = W6 m c r :=
  StableHlo.after_of_writes_sub hostOps3 _ hostOps3_writes h

/-- Each argument reaches the end as launched: no host operation writes it and no region may change it. -/
theorem W7_main_arg0 (c : Dev nD) : W7 m c main_arg0 = m ((c : Thread nD τ).loc main_arg0) :=
  (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
theorem W7_main_arg1 (c : Dev nD) : W7 m c main_arg1 = m ((c : Thread nD τ).loc main_arg1) :=
  (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
theorem W7_main_arg2 (c : Dev nD) : W7 m c main_arg2 = m ((c : Thread nD τ).loc main_arg2) :=
  (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl

/-! ## The items as segments -/

/-- Item 0: the host operations `hostOps0` over the unscoped buffers from `W0`, the core's `owes` riding along. -/
def hseg0 : HostSeg (Ix := Unit) (Name := ℕ) (U := UR sig nD τ) (Lvl := ℕ) (pcfgs (F := F)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Eown
/-- Item 2: the host operations `hostOps1` over the unscoped buffers from `W2`, the core's `owes` riding along. -/
def hseg2 : HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Eown
/-- Item 4: the host operations `hostOps2` over the unscoped buffers from `W4`, the core's `owes` riding along. -/
def hseg4 : HostSeg (Ix := Unit) (Name := ℕ) (U := UR sig nD τ) (Lvl := ℕ) (pcfgs (F := F)) defs₀ Variants.none L0 lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Eown
/-- Item 6: the host operations `hostOps3` over the unscoped buffers from `W6`, the core's `owes` riding along. -/
def hseg6 : HostSeg (Ix := Unit) (Name := ℕ) (U := UR sig nD τ) (Lvl := ℕ) (pcfgs (F := F)) defs₀ Variants.none L0 lv0 :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) Eown

/-- The program's items in order: host operations, a region, host operations, a region, host operations, a region,
    host operations. -/
abbrev segsW (R0 : RegionSeg (pcfgs (F := F)) adm0 (pdats m) () defs₀ Variants.none L0 lv0 0) (R1 : RegionSeg (pcfgs (F := F)) adm0 (pdats m) () defs₀ Variants.none L0 lv0 1) (R2 : RegionSeg (pcfgs (F := F)) adm0 (pdats m) () defs₀ Variants.none L0 lv0 2) :
    List (Seg (pcfgs (F := F)) adm0 (pdats m) () defs₀ Variants.none L0 lv0) :=
  [.host (hseg0 m), .region R0, .host (hseg2 m), .region R1, .host (hseg4 m), .region R2, .host (hseg6 m)]

/-- The launch element: the pipeline library's, at every region's staging cells. -/
def u₀ : UR sig nD τ := initOf (Pipeline.cells cfgs cellOf_inj) (Pipeline.launchToks cfgs cellOf_inj)

/-! ## The run, given the three regions' records -/

set_option backward.isDefEq.respectTransparency.types false in
set_option maxHeartbeats 1600000 in
/-- GIVEN, for each region, a record entered from the buffers as the item before it left them and left with its one
    result buffer at the region's final sum: every weakly fair execution of the program from memory `m` with zero
    counters terminates, and every final memory holds the result buffer at `W7 m c`'s value — the eight closing host
    operations applied to the three regions' sums — and each argument as launched. -/
theorem run_cond
    (R0 : RegionSeg (pcfgs (F := F)) adm0 (pdats m) () defs₀ Variants.none L0 lv0 0)
    (hpre0 : ∀ c : Dev nD, iprop(StableHlo.held (c : Thread nD τ) (Pipeline.ucRefs τ sig) (W1 m c) ∗ Eown c) ⊢ R0.pre c)
    (hpost0 : ∀ c : Dev nD, R0.post c ⊢ iprop(StableHlo.held (c : Thread nD τ) (Pipeline.ucRefs τ sig) (W2 m c) ∗ Eown c))
    (R1 : RegionSeg (pcfgs (F := F)) adm0 (pdats m) () defs₀ Variants.none L0 lv0 1)
    (hpre1 : ∀ c : Dev nD, iprop(StableHlo.held (c : Thread nD τ) (Pipeline.ucRefs τ sig) (W3 m c) ∗ Eown c) ⊢ R1.pre c)
    (hpost1 : ∀ c : Dev nD, R1.post c ⊢ iprop(StableHlo.held (c : Thread nD τ) (Pipeline.ucRefs τ sig) (W4 m c) ∗ Eown c))
    (R2 : RegionSeg (pcfgs (F := F)) adm0 (pdats m) () defs₀ Variants.none L0 lv0 2)
    (hpre2 : ∀ c : Dev nD, iprop(StableHlo.held (c : Thread nD τ) (Pipeline.ucRefs τ sig) (W5 m c) ∗ Eown c) ⊢ R2.pre c)
    (hpost2 : ∀ c : Dev nD, R2.post c ⊢ iprop(StableHlo.held (c : Thread nD τ) (Pipeline.ucRefs τ sig) (W6 m c) ∗ Eown c)) :
    θ_run defs (onTc (τ := τ) (main (F := F))) ⟨m, fun _ => 0, ρ⟩ (fun r => ∀ c : Dev nD,
      r.2.mem ((c.tc : Thread nD τ).loc main_v14) = W7 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm0 (pdats m) () cellOf_inj emb₁ defs₀ Variants.none L0 lv0 m ρ main
    (fun _ => segsW m R0 R1 R2)
    (fun c Q => by
      rewrite [main_chain c, Seg.run_eq_chain,
        show (segsW m R0 R1 R2).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segsW, Seg.pipes_host, Seg.pipes_region, Seg.pipes_nil]; decide) (O₀ := 0) (hL := fun _ _ => rfl)
    (G := fun _ => iprop(emp)) (u₀ := u₀) (hu₀ := ?hu)
    (T₀ := fun c => iprop(StableHlo.held (c : Thread nD τ) (Pipeline.ucRefs τ sig) (W0 m c) ∗ Eown c))
    (Tₙ := fun c => StableHlo.held (c : Thread nD τ) (Pipeline.ucRefs τ sig) (W7 m c))
    (hch := fun c => ⟨.rfl, hpre0 c, hpost0 c, hpre1 c, hpost1 c, hpre2 c, hpost2 c, .rfl⟩)
    (hinit := ?hinit)
    (QY := fun c s => s.mem ((c.tc : Thread nD τ).loc main_v14) = W7 m c main_v14
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?hfin) (hQ := fun _ h => h)
  case hu =>
    unfold u₀
    iintro Hu
    imodintro
    isplitl [Hu]
    · iapply (show (ownU _ : sProp 𝕄) ⊢ BI.own (emb₁ (initOf (Pipeline.cells (Pipeline.pin (pcfgs (F := F)) adm0) cellOf_inj) (Pipeline.launchToks (Pipeline.pin (pcfgs (F := F)) adm0) cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L0 lv0 fun c => ?_
    rw [Pipeline.unscopedBufs_held (Ix := Unit) (Name := ℕ) (U := UR sig nD τ) (Lvl := ℕ) c (W0 m c)]
    iintro ⟨⟨Hh, -, HO, -, -, -⟩, -⟩
    imodintro
    isplitl [Hh]; · iexact Hh
    iexists ∅; iexact HO
  case hfin =>
    unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (W7_main_arg0 m c),
        (h (Proc.devRef .tc main_arg1) (Finset.mem_filter.mpr ⟨StableHlo.devRef_mem_tcRefs main_arg1, by decide⟩)).trans (W7_main_arg1 m c),
        (h (Proc.devRef .tc main_arg2) (Finset.mem_filter.mpr ⟨StableHlo.devRef_mem_tcRefs main_arg2, by decide⟩)).trans (W7_main_arg2 m c)⟩
    · iexact HSI

end Cert.KernelIdeal.Hand

end
-- ==== Proof.Region0.lean ====
import proofs.«166369_j11106785428164_2_alg».proof.Proof.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## The first region's windows, buffer by buffer

Stated over any contents `A c b` of the unscoped buffers at the region's entry, as the region's proof data is. -/

section Generic

variable (A : (c : Dev nD) → (b : Ref sig .tc) → Buf (Elt F) ((c : Thread nD τ).loc b))

/-- The distinct buffers behind the five windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v2) ↦{fullShare} V main_v2)
          ∗ (((c : Thread nD τ).loc main_v4) ↦{fullShare} V main_v4)) := by
  unfold Pipeline.arrBufs
  exact bigSep_eq_bigSepL_of_eq [main_arg0, main_v2, main_v4] (by decide) (by decide) _

theorem share0_0 (c : Dev nD) : (dats0 A c).share 0 = fullShare.left := rfl
theorem share0_1 (c : Dev nD) : (dats0 A c).share 1 = fullShare.right := rfl
theorem share0_2 (c : Dev nD) : (dats0 A c).share 2 = fullShare.left := rfl
theorem share0_3 (c : Dev nD) : (dats0 A c).share 3 = fullShare.right := rfl
theorem share0_4 (c : Dev nD) : (dats0 A c).share 4 = fullShare := rfl

/-- The pipeline's arrays, window by window: the two halves of each shared operand, the result whole. -/
theorem arrays0_eq (c : Dev nD) (G : (w : Fin cfg0.W) → Buf (Elt F) ((cfg0.win w).arr.view.loc (c : Thread nD τ))) :
    ((dats0 A c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare.left} G 2) ∗ (((c : Thread nD τ).loc main_v2) ↦{fullShare.right} G 3)
          ∗ (((c : Thread nD τ).loc main_v4) ↦{fullShare} G 4)) := by
  unfold Dat.arrays
  rw [bigSep_W0, share0_0, share0_1, share0_2, share0_3, share0_4,
    (arr_whole0 0).set_eq_univ, (arr_whole0 2).set_eq_univ, (arr_whole0 4).set_eq_univ]

/-- A core's unscoped buffers: the three buffers behind the windows' arrays, and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec0 c V
          ∗ Pipeline.unscopedRest (Ix := Unit) (Name := ℕ) (U := UR sig nD τ) (Lvl := ℕ) spec0 c V) :=
  Pipeline.unscopedBufs_split₀ cfgs 0 winFacts₀0.arr_unscoped c V

/-- ENTRY, the arrays: each shared operand's buffer is split in two halves, one per window reading it. -/
theorem arrays0_of_arrBufs (c : Dev nD) (G : (w : Fin cfg0.W) → Buf (Elt F) ((cfg0.win w).arr.view.loc (c : Thread nD τ)))
    (hG : ∀ w, G w = A c (Pipeline.arrRef spec0 w)) :
    (Pipeline.arrBufs (Ix := Unit) (Name := ℕ) (U := UR sig nD τ) (Lvl := ℕ) spec0 c (A c) : sProp 𝕄) ⊢ (dats0 A c).arrays G := by
  rw [arrBufs0_eq, arrays0_eq, hG 0, hG 1, hG 2, hG 3, hG 4]
  iintro ⟨H0, H2, H4⟩
  ihave H0 := (pointsTo_share (PosShare.mem_left_op_right fullShare)).1 $$ H0
  icases H0 with ⟨H0l, H0r⟩
  ihave H2 := (pointsTo_share (PosShare.mem_left_op_right fullShare)).1 $$ H2
  icases H2 with ⟨H2l, H2r⟩
  isplitl [H0l]; · iexact H0l
  isplitl [H0r]; · iexact H0r
  isplitl [H2l]; · iexact H2l
  isplitl [H2r]; · iexact H2r
  iexact H4

/-- EXIT, the arrays: the halves of each shared operand joined back; the result's buffer at what the region left. -/
theorem arrBufs_of_arrays0 (c : Dev nD) (G : (w : Fin cfg0.W) → Buf (Elt F) ((cfg0.win w).arr.view.loc (c : Thread nD τ)))
    (hG : ∀ w, (cfg0.win w).isOut = false → G w = A c (Pipeline.arrRef spec0 w))
    (V' : (b : Ref sig .tc) → Buf (Elt F) ((c : Thread nD τ).loc b)) (h0 : V' main_arg0 = A c main_arg0) (h2 : V' main_v2 = A c main_v2)
    (h4 : V' main_v4 = G 4) :
    ((dats0 A c).arrays G : sProp 𝕄) ⊢ Pipeline.arrBufs (Ix := Unit) (Name := ℕ) (U := UR sig nD τ) (Lvl := ℕ) spec0 c V' := by
  rw [arrBufs0_eq, arrays0_eq, hG 0 rfl, hG 1 rfl, hG 2 rfl, hG 3 rfl, h0, h2, h4]
  iintro ⟨H0l, H0r, H2l, H2r, H4⟩
  ihave H0 := (pointsTo_share (PosShare.mem_left_op_right fullShare)).2 $$ [H0l H0r]
  · isplitl [H0l] <;> iassumption
  ihave H2 := (pointsTo_share (PosShare.mem_left_op_right fullShare)).2 $$ [H2l H2r]
  · isplitl [H2l] <;> iassumption
  isplitl [H0]; · iexact H0
  isplitl [H2]; · iexact H2
  iexact H4

/-- The buffers that are no window's array do not see a change of the result's buffer. -/
theorem unscopedRest0_congr (c : Dev nD) (V V' : (b : Ref sig .tc) → Buf (Elt F) ((c : Thread nD τ).loc b))
    (h : ∀ b, b ≠ main_v4 → V' b = V b) :
    (Pipeline.unscopedRest (Ix := Unit) (Name := ℕ) (U := UR sig nD τ) (Lvl := ℕ) spec0 c V' : sProp 𝕄)
      = Pipeline.unscopedRest (Ix := Unit) (Name := ℕ) (U := UR sig nD τ) (Lvl := ℕ) spec0 c V := by
  unfold Pipeline.unscopedRest
  refine bigSep_congr fun b hb => ?_
  have hb' := (Finset.mem_sdiff.mp hb).2
  rw [h b fun e => hb' (by rw [e]; exact Finset.mem_image.mpr ⟨4, Finset.mem_univ _, rfl⟩)]

/-- EXIT, all the unscoped buffers: the arrays and the rest make the buffers at the valuation that differs from the
    entry's at the result's buffer only. -/
theorem unscopedBufs_of_arrays0 (c : Dev nD) (G : (w : Fin cfg0.W) → Buf (Elt F) ((cfg0.win w).arr.view.loc (c : Thread nD τ)))
    (hG : ∀ w, (cfg0.win w).isOut = false → G w = A c (Pipeline.arrRef spec0 w))
    (V' : (b : Ref sig .tc) → Buf (Elt F) ((c : Thread nD τ).loc b)) (hV : ∀ b, b ≠ main_v4 → V' b = A c b) (h4 : V' main_v4 = G 4) :
    iprop((dats0 A c).arrays G ∗ Pipeline.unscopedRest (Ix := Unit) (Name := ℕ) (U := UR sig nD τ) (Lvl := ℕ) spec0 c (A c))
      ⊢ (unscopedBufs (Ix := Unit) (Name := ℕ) (U := UR sig nD τ) (Lvl := ℕ) c V' : sProp 𝕄) := by
  rw [unscopedBufs0_split, unscopedRest0_congr c (A c) V' hV]
  exact sep_mono (arrBufs_of_arrays0 A c G hG V' (hV _ (by decide)) (hV _ (by decide)) h4) .rfl

/-- The core's `owes` as a pipeline point's: the proof data owes nothing and bounds the recorded pairs by nothing. -/
theorem owesAt0_intro (c : Dev nD) (t : Fin (cfg0.N + 1)) :
    iprop(∃ W, owes (c : Thread nD τ) (0 : CellTallies nD τ sig Unit) W) ⊢ ((dats0 A c).owesAt () t : sProp 𝕄) := by
  unfold Pipeline.Dat.owesAt Pipeline.owesWithin Pipeline.Dat.bound
  rw [show (dats0 A c).owed t = 0 from rfl, show (dats0 A c).recorded t = Set.univ from rfl]
  iintro ⟨%W, HO⟩; iexists W; isplitr; · ipureintro; exact fun _ _ => Or.inl trivial
  iexact HO
theorem owesAt0_elim (c : Dev nD) (t : Fin (cfg0.N + 1)) :
    ((dats0 A c).owesAt () t : sProp 𝕄) ⊢ iprop(∃ W, owes (c : Thread nD τ) (0 : CellTallies nD τ sig Unit) W) := by
  unfold Pipeline.Dat.owesAt Pipeline.owesWithin
  rw [show (dats0 A c).owed t = 0 from rfl]
  iintro ⟨%W, -, HO⟩; iexists W; iexact HO

/-- The scoped buffers no window stages: the accumulator at some contents, and the others unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS0 c) :=
  Pipeline.scopedRest_split_of_list spec0 c [cc0_scratch0] (by decide) (by decide)

/-- The invariant at the first point, from the scoped buffers no window stages: the accumulator at anything. -/
theorem Phi0_of_scopedRest (c : Dev nD) :
    (Pipeline.scopedRest (Ix := Unit) (Name := ℕ) (U := UR sig nD τ) (Lvl := ℕ) (Val := Elt F) spec0 c : sProp 𝕄) ⊢ Phi0 A c 0 := by
  unfold Phi0
  rw [scopedRest0_split]
  simp only [owns_whole_eq]
  iintro ⟨⟨%f, Hs⟩, Hr⟩
  isplitl [Hs]
  · iexists f
    isplitr; · ipureintro; intro h; exact absurd rfl h
    iexists f; isplitr; · ipureintro; rfl
    iexact Hs
  iexact Hr

/-- The invariant at any point gives the scoped buffers back. -/
theorem scopedRest_of_Phi0 (c : Dev nD) (t : Fin (cfg0.N + 1)) :
    Phi0 A c t ⊢ (Pipeline.scopedRest (Ix := Unit) (Name := ℕ) (U := UR sig nD τ) (Lvl := ℕ) (Val := Elt F) spec0 c : sProp 𝕄) := by
  unfold Phi0
  rw [scopedRest0_split]
  simp only [owns_whole_eq]
  iintro ⟨⟨%xs, -, ⟨%f, -, Hs⟩⟩, Hr⟩
  isplitl [Hs]; · iexists f; iexact Hs
  iexact Hr

end Generic

/-! ## The first region's protocol

The region is entered holding every unscoped buffer whole at what the six host operations left, and the core owing
nothing. Its five windows sit on three buffers: the first argument (windows 0 and 1, each reading its own row block),
the normalised weights (windows 2 and 3) and the one-element result (window 4). Each shared operand is held half by
each of its two windows, so its buffer is split in two at the entry and joined back at the exit; the result's buffer
goes in whole and comes back at what the write-back at the last point left; every other unscoped buffer bypasses the
region. The accumulator is a scoped buffer: the invariant takes it, at anything, out of the scoped buffers no window
stages, and gives it back at the end. -/

variable (m : (ℓ : Loc nD τ sig) → Buf (Elt F) ℓ)

/-- ENTRY: the unscoped buffers at the entry valuation are the windows' arrays at their entry contents, each shared
    operand in two halves, and the buffers that are no window's array; no table is prefetched; the core owes nothing. -/
theorem reg0_hentry (c : Dev nD) (P Q : sProp 𝕄) :
    iprop((StableHlo.held (c : Thread nD τ) (Pipeline.ucRefs τ sig) (W1 m c) ∗ Eown c) ∗ P ∗ Q)
      ⊢ |={Set.univ}=> iprop((dats0 (A0 m) c).arrays (fun w => (dats0 (A0 m) c).arrAt w 0)
          ∗ Pipeline.prefHeld (pcfgs (F := F) 0).pre c (fun _ => fullShare) (adm0 (F := F) 0).1
          ∗ (dats0 (A0 m) c).owesAt () 0 ∗ emp
          ∗ Pipeline.unscopedRest (Ix := Unit) (Name := ℕ) (U := UR sig nD τ) (Lvl := ℕ) spec0 c (A0 m c)) := by
  rw [show StableHlo.held (c : Thread nD τ) (Pipeline.ucRefs τ sig) (W1 m c)
      = unscopedBufs (Ix := Unit) (Name := ℕ) (U := UR sig nD τ) (Lvl := ℕ) c (A0 m c) from (Pipeline.unscopedBufs_held c _).symm,
    unscopedBufs0_split]
  iintro ⟨⟨⟨Ha, Hr⟩, HO⟩, -, -⟩
  ihave Ha := (arrays0_of_arrBufs (A0 m) c (fun w => (dats0 (A0 m) c).arrAt w 0) fun _ => rfl) $$ Ha
  imodintro
  isplitl [Ha]; · iexact Ha
  isplitr; · unfold Pipeline.prefHeld; rw [show (Finset.univ : Finset (Fin 0)) = ∅ from rfl, BI.bigSep_empty]; iempintro
  isplitl [HO]; · iapply (owesAt0_intro (A0 m) c 0); iexact HO
  isplitr; · iempintro
  iexact Hr

/-- The invariant at the first point: the accumulator, at whatever it holds, out of the scoped buffers. -/
theorem reg0_hin (c : Dev nD) (P Q : sProp 𝕄) :
    iprop(P ∗ Q ∗ Pipeline.scopedRest (Ix := Unit) (Name := ℕ) (U := UR sig nD τ) (Lvl := ℕ) (Val := Elt F) spec0 c) ⊢ Phi0 (A0 m) c 0 := by
  iintro ⟨-, -, Hr⟩
  iapply (Phi0_of_scopedRest (A0 m) c); iexact Hr

/-- The invariant at the last point gives the scoped buffers back; the kernel has no semaphore of its own. -/
theorem reg0_hout (c : Dev nD) :
    Phi0 (A0 m) c (Fin.last cfg0.N)
      ⊢ iprop(emp ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec0 c) := by
  rw [Pipeline.ownSems0_none]
  iintro H
  isplitr; · iempintro
  isplitr; · iempintro
  iapply (scopedRest_of_Phi0 (A0 m) c _); iexact H

/-- EXIT: an operand's array is never written, so its two halves join back to the buffer as the region found it; the
    result's buffer holds what the last write-back left; with the buffers that bypassed the region these are all the
    unscoped buffers at the entry valuation updated at the result. -/
theorem reg0_hexit (c : Dev nD) (P : sProp 𝕄) :
    iprop((dats0 (A0 m) c).arrays (fun w => (dats0 (A0 m) c).arrAt w cfg0.N) ∗ (dats0 (A0 m) c).owesAt () (Fin.last cfg0.N) ∗ P
        ∗ Pipeline.unscopedRest (Ix := Unit) (Name := ℕ) (U := UR sig nD τ) (Lvl := ℕ) spec0 c (A0 m c))
      ⊢ |={Set.univ}=> iprop(StableHlo.held (c : Thread nD τ) (Pipeline.ucRefs τ sig) (W2 m c) ∗ Eown c) := by
  rw [show StableHlo.held (c : Thread nD τ) (Pipeline.ucRefs τ sig) (W2 m c)
      = unscopedBufs (Ix := Unit) (Name := ℕ) (U := UR sig nD τ) (Lvl := ℕ) c (fun b => W2 m c b) from (Pipeline.unscopedBufs_held c _).symm]
  have hV : ∀ b : Ref sig .tc, b ≠ main_v4 → W2 m c b = A0 m c b := fun b hb =>
    Function.update_of_ne (StableHlo.devRef_ne_of_ne hb) _ _
  have h4 : W2 m c main_v4 = (dats0 (A0 m) c).arrAt 4 cfg0.N := by
    show Function.update (W1 m c) _ (X4 m c) _ = _
    rw [Function.update_self]; rfl
  iintro ⟨Ha, HO, -, Hr⟩
  imodintro
  isplitl [Ha Hr]
  · iapply (unscopedBufs_of_arrays0 (A0 m) c (fun w => (dats0 (A0 m) c).arrAt w cfg0.N)
      (fun w hw => ((dats0 (A0 m) c).arrAt_in w hw _).trans (A0_eq (A0 m) c w)) (fun b => W2 m c b) hV h4)
    isplitl [Ha]; · iexact Ha
    iexact Hr
  iapply (owesAt0_elim (A0 m) c _); iexact HO

set_option backward.isDefEq.respectTransparency.types false in
/-- THE FIRST REGION: the launch's layout, no semaphore of the kernel's own, the body obligation; entered from what the
    first six host operations left, left with the result's buffer at the weighted sum. -/
def reg0 : RegionSeg (pcfgs (F := F)) adm0 (pdats m) () defs₀ Variants.none L0 lv0 0 where
  win := winFacts₀0
  block_pos := block_pos0
  stage_whole := stage_whole0
  K := PEmpty
  osem k := k.elim
  ho := Pipeline.OwnSemFacts.none _
  hbody c := (body_obligation0 (A0 m) c).loose
  hwaits := Pipeline.hwaits_of_owed_zero _ _ _ _ L0 lv0 0 fun _ _ => rfl
  pre c := iprop(StableHlo.held (c : Thread nD τ) (Pipeline.ucRefs τ sig) (W1 m c) ∗ Eown c)
  post c := iprop(StableHlo.held (c : Thread nD τ) (Pipeline.ucRefs τ sig) (W2 m c) ∗ Eown c)
  X c := iprop(emp)
  Y c := iprop(emp)
  Z c := Pipeline.unscopedRest (Ix := Unit) (Name := ℕ) (U := UR sig nD τ) (Lvl := ℕ) spec0 c (A0 m c)
  hentry c := reg0_hentry m c _ _
  hin c := reg0_hin m c _ _
  hout c := reg0_hout m c
  hexit c := reg0_hexit m c _

end Cert.KernelIdeal.Hand

end
-- ==== Proof.Region1.lean ====
import proofs.«166369_j11106785428164_2_alg».proof.Proof.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## The second region's windows, buffer by buffer

Stated over any contents `A c b` of the unscoped buffers at the region's entry, as the region's proof data is. -/

section Generic

variable (A : (c : Dev nD) → (b : Ref sig .tc) → Buf (Elt F) ((c : Thread nD τ).loc b))

/-- The distinct buffers behind the five windows' arrays, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v3) ↦{fullShare} V main_v3)
          ∗ (((c : Thread nD τ).loc main_v6) ↦{fullShare} V main_v6)) := by
  unfold Pipeline.arrBufs
  exact bigSep_eq_bigSepL_of_eq [main_arg1, main_v3, main_v6] (by decide) (by decide) _

theorem share1_0 (c : Dev nD) : (dats1 A c).share 0 = fullShare.left := rfl
theorem share1_1 (c : Dev nD) : (dats1 A c).share 1 = fullShare.right := rfl
theorem share1_2 (c : Dev nD) : (dats1 A c).share 2 = fullShare.left := rfl
theorem share1_3 (c : Dev nD) : (dats1 A c).share 3 = fullShare.right := rfl
theorem share1_4 (c : Dev nD) : (dats1 A c).share 4 = fullShare := rfl

/-- The pipeline's arrays, window by window: the two halves of each shared operand, the result whole. -/
theorem arrays1_eq (c : Dev nD) (G : (w : Fin cfg1.W) → Buf (Elt F) ((cfg1.win w).arr.view.loc (c : Thread nD τ))) :
    ((dats1 A c).arrays G : sProp 𝕄)
      = iprop((((c : Thread nD τ).loc main_arg1) ↦{fullShare.left} G 0) ∗ (((c : Thread nD τ).loc main_arg1) ↦{fullShare.right} G 1)
          ∗ (((c : Thread nD τ).loc main_v3) ↦{fullShare.left} G 2) ∗ (((c : Thread nD τ).loc main_v3) ↦{fullShare.right} G 3)
          ∗ (((c : Thread nD τ).loc main_v6) ↦{fullShare} G 4)) := by
  unfold Dat.arrays
  rw [bigSep_W1, share1_0, share1_1, share1_2, share1_3, share1_4,
    (arr_whole1 0).set_eq_univ, (arr_whole1 2).set_eq_univ, (arr_whole1 4).set_eq_univ]

/-- A core's unscoped buffers: the three buffers behind the windows' arrays, and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ cfgs 1 winFacts₀1.arr_unscoped c V

/-- ENTRY, the arrays: each shared operand's buffer is split in two halves, one per window reading it. -/
theorem arrays1_of_arrBufs (c : Dev nD) (G : (w : Fin cfg1.W) → Buf (Elt F) ((cfg1.win w).arr.view.loc (c : Thread nD τ)))
    (hG : ∀ w, G w = A c (Pipeline.arrRef spec1 w)) :
    (Pipeline.arrBufs (Ix := Unit) (Name := ℕ) (U := UR sig nD τ) (Lvl := ℕ) spec1 c (A c) : sProp 𝕄) ⊢ (dats1 A c).arrays G := by
  rw [arrBufs1_eq, arrays1_eq, hG 0, hG 1, hG 2, hG 3, hG 4]
  iintro ⟨H0, H2, H4⟩
  ihave H0 := (pointsTo_share (PosShare.mem_left_op_right fullShare)).1 $$ H0
  icases H0 with ⟨H0l, H0r⟩
  ihave H2 := (pointsTo_share (PosShare.mem_left_op_right fullShare)).1 $$ H2
  icases H2 with ⟨H2l, H2r⟩
  isplitl [H0l]; · iexact H0l
  isplitl [H0r]; · iexact H0r
  isplitl [H2l]; · iexact H2l
  isplitl [H2r]; · iexact H2r
  iexact H4

/-- EXIT, the arrays: the halves of each shared operand joined back; the result's buffer at what the region left. -/
theorem arrBufs_of_arrays1 (c : Dev nD) (G : (w : Fin cfg1.W) → Buf (Elt F) ((cfg1.win w).arr.view.loc (c : Thread nD τ)))
    (hG : ∀ w, (cfg1.win w).isOut = false → G w = A c (Pipeline.arrRef spec1 w))
    (V' : (b : Ref sig .tc) → Buf (Elt F) ((c : Thread nD τ).loc b)) (h0 : V' main_arg1 = A c main_arg1) (h2 : V' main_v3 = A c main_v3)
    (h4 : V' main_v6 = G 4) :
    ((dats1 A c).arrays G : sProp 𝕄) ⊢ Pipeline.arrBufs (Ix := Unit) (Name := ℕ) (U := UR sig nD τ) (Lvl := ℕ) spec1 c V' := by
  rw [arrBufs1_eq, arrays1_eq, hG 0 rfl, hG 1 rfl, hG 2 rfl, hG 3 rfl, h0, h2, h4]
  iintro ⟨H0l, H0r, H2l, H2r, H4⟩
  ihave H0 := (pointsTo_share (PosShare.mem_left_op_right fullShare)).2 $$ [H0l H0r]
  · isplitl [H0l] <;> iassumption
  ihave H2 := (pointsTo_share (PosShare.mem_left_op_right fullShare)).2 $$ [H2l H2r]
  · isplitl [H2l] <;> iassumption
  isplitl [H0]; · iexact H0
  isplitl [H2]; · iexact H2
  iexact H4

/-- The buffers that are no window's array do not see a change of the result's buffer. -/
theorem unscopedRest1_congr (c : Dev nD) (V V' : (b : Ref sig .tc) → Buf (Elt F) ((c : Thread nD τ).loc b))
    (h : ∀ b, b ≠ main_v6 → V' b = V b) :
    (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c V := by
  unfold Pipeline.unscopedRest
  refine bigSep_congr fun b hb => ?_
  have hb' := (Finset.mem_sdiff.mp hb).2
  rw [h b fun e => hb' (by rw [e]; exact Finset.mem_image.mpr ⟨4, Finset.mem_univ _, rfl⟩)]

/-- EXIT, all the unscoped buffers: the arrays and the rest make the buffers at the valuation that differs from the
    entry's at the result's buffer only. -/
theorem unscopedBufs_of_arrays1 (c : Dev nD) (G : (w : Fin cfg1.W) → Buf (Elt F) ((cfg1.win w).arr.view.loc (c : Thread nD τ)))
    (hG : ∀ w, (cfg1.win w).isOut = false → G w = A c (Pipeline.arrRef spec1 w))
    (V' : (b : Ref sig .tc) → Buf (Elt F) ((c : Thread nD τ).loc b)) (hV : ∀ b, b ≠ main_v6 → V' b = A c b) (h4 : V' main_v6 = G 4) :
    iprop((dats1 A c).arrays G ∗ Pipeline.unscopedRest (Ix := Unit) (Name := ℕ) (U := UR sig nD τ) (Lvl := ℕ) spec1 c (A c))
      ⊢ (unscopedBufs (Ix := Unit) (Name := ℕ) (U := UR sig nD τ) (Lvl := ℕ) c V' : sProp 𝕄) := by
  rw [unscopedBufs1_split, unscopedRest1_congr c (A c) V' hV]
  exact sep_mono (arrBufs_of_arrays1 A c G hG V' (hV _ (by decide)) (hV _ (by decide)) h4) .rfl

/-- The core's `owes` as a pipeline point's: the proof data owes nothing and bounds the recorded pairs by nothing. -/
theorem owesAt1_intro (c : Dev nD) (t : Fin (cfg1.N + 1)) :
    iprop(∃ W, owes (c : Thread nD τ) (0 : CellTallies nD τ sig Unit) W) ⊢ ((dats1 A c).owesAt () t : sProp 𝕄) := by
  unfold Pipeline.Dat.owesAt Pipeline.owesWithin Pipeline.Dat.bound
  rw [show (dats1 A c).owed t = 0 from rfl, show (dats1 A c).recorded t = Set.univ from rfl]
  iintro ⟨%W, HO⟩; iexists W; isplitr; · ipureintro; exact fun _ _ => Or.inl trivial
  iexact HO
theorem owesAt1_elim (c : Dev nD) (t : Fin (cfg1.N + 1)) :
    ((dats1 A c).owesAt () t : sProp 𝕄) ⊢ iprop(∃ W, owes (c : Thread nD τ) (0 : CellTallies nD τ sig Unit) W) := by
  unfold Pipeline.Dat.owesAt Pipeline.owesWithin
  rw [show (dats1 A c).owed t = 0 from rfl]
  iintro ⟨%W, -, HO⟩; iexists W; iexact HO

/-- The scoped buffers no window stages: the accumulator at some contents, and the others unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS1 c) :=
  Pipeline.scopedRest_split_of_list spec1 c [cc1_scratch0] (by decide) (by decide)

/-- The invariant at the first point, from the scoped buffers no window stages: the accumulator at anything. -/
theorem Phi1_of_scopedRest (c : Dev nD) :
    (Pipeline.scopedRest (Ix := Unit) (Name := ℕ) (U := UR sig nD τ) (Lvl := ℕ) (Val := Elt F) spec1 c : sProp 𝕄) ⊢ Phi1 A c 0 := by
  unfold Phi1
  rw [scopedRest1_split]
  simp only [owns_whole_eq]
  iintro ⟨⟨%f, Hs⟩, Hr⟩
  isplitl [Hs]
  · iexists f
    isplitr; · ipureintro; intro h; exact absurd rfl h
    iexists f; isplitr; · ipureintro; rfl
    iexact Hs
  iexact Hr

/-- The invariant at any point gives the scoped buffers back. -/
theorem scopedRest_of_Phi1 (c : Dev nD) (t : Fin (cfg1.N + 1)) :
    Phi1 A c t ⊢ (Pipeline.scopedRest (Ix := Unit) (Name := ℕ) (U := UR sig nD τ) (Lvl := ℕ) (Val := Elt F) spec1 c : sProp 𝕄) := by
  unfold Phi1
  rw [scopedRest1_split]
  simp only [owns_whole_eq]
  iintro ⟨⟨%xs, -, ⟨%f, -, Hs⟩⟩, Hr⟩
  isplitl [Hs]; · iexists f; iexact Hs
  iexact Hr

end Generic

/-! ## The second region's protocol

The region is entered holding every unscoped buffer whole at what the reshape after the first region left, and the core owing
nothing. Its five windows sit on three buffers: the second argument (windows 0 and 1, each reading its own row block),
the uniform weights (windows 2 and 3) and the one-element result (window 4). Each shared operand is held half by
each of its two windows, so its buffer is split in two at the entry and joined back at the exit; the result's buffer
goes in whole and comes back at what the write-back at the last point left; every other unscoped buffer bypasses the
region. The accumulator is a scoped buffer: the invariant takes it, at anything, out of the scoped buffers no window
stages, and gives it back at the end. -/

variable (m : (ℓ : Loc nD τ sig) → Buf (Elt F) ℓ)

/-- ENTRY: the unscoped buffers at the entry valuation are the windows' arrays at their entry contents, each shared
    operand in two halves, and the buffers that are no window's array; no table is prefetched; the core owes nothing. -/
theorem reg1_hentry (c : Dev nD) (P Q : sProp 𝕄) :
    iprop((StableHlo.held (c : Thread nD τ) (Pipeline.ucRefs τ sig) (W3 m c) ∗ Eown c) ∗ P ∗ Q)
      ⊢ |={Set.univ}=> iprop((dats1 (A1 m) c).arrays (fun w => (dats1 (A1 m) c).arrAt w 0)
          ∗ Pipeline.prefHeld (pcfgs (F := F) 1).pre c (fun _ => fullShare) (adm0 (F := F) 1).1
          ∗ (dats1 (A1 m) c).owesAt () 0 ∗ emp
          ∗ Pipeline.unscopedRest (Ix := Unit) (Name := ℕ) (U := UR sig nD τ) (Lvl := ℕ) spec1 c (A1 m c)) := by
  rw [show StableHlo.held (c : Thread nD τ) (Pipeline.ucRefs τ sig) (W3 m c)
      = unscopedBufs (Ix := Unit) (Name := ℕ) (U := UR sig nD τ) (Lvl := ℕ) c (A1 m c) from (Pipeline.unscopedBufs_held c _).symm,
    unscopedBufs1_split]
  iintro ⟨⟨⟨Ha, Hr⟩, HO⟩, -, -⟩
  ihave Ha := (arrays1_of_arrBufs (A1 m) c (fun w => (dats1 (A1 m) c).arrAt w 0) fun _ => rfl) $$ Ha
  imodintro
  isplitl [Ha]; · iexact Ha
  isplitr; · unfold Pipeline.prefHeld; rw [show (Finset.univ : Finset (Fin 0)) = ∅ from rfl, BI.bigSep_empty]; iempintro
  isplitl [HO]; · iapply (owesAt1_intro (A1 m) c 0); iexact HO
  isplitr; · iempintro
  iexact Hr

/-- The invariant at the first point: the accumulator, at whatever it holds, out of the scoped buffers. -/
theorem reg1_hin (c : Dev nD) (P Q : sProp 𝕄) :
    iprop(P ∗ Q ∗ Pipeline.scopedRest (Ix := Unit) (Name := ℕ) (U := UR sig nD τ) (Lvl := ℕ) (Val := Elt F) spec1 c) ⊢ Phi1 (A1 m) c 0 := by
  iintro ⟨-, -, Hr⟩
  iapply (Phi1_of_scopedRest (A1 m) c); iexact Hr

/-- The invariant at the last point gives the scoped buffers back; the kernel has no semaphore of its own. -/
theorem reg1_hout (c : Dev nD) :
    Phi1 (A1 m) c (Fin.last cfg1.N)
      ⊢ iprop(emp ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec1 c) := by
  rw [Pipeline.ownSems0_none]
  iintro H
  isplitr; · iempintro
  isplitr; · iempintro
  iapply (scopedRest_of_Phi1 (A1 m) c _); iexact H

/-- EXIT: an operand's array is never written, so its two halves join back to the buffer as the region found it; the
    result's buffer holds what the last write-back left; with the buffers that bypassed the region these are all the
    unscoped buffers at the entry valuation updated at the result. -/
theorem reg1_hexit (c : Dev nD) (P : sProp 𝕄) :
    iprop((dats1 (A1 m) c).arrays (fun w => (dats1 (A1 m) c).arrAt w cfg1.N) ∗ (dats1 (A1 m) c).owesAt () (Fin.last cfg1.N) ∗ P
        ∗ Pipeline.unscopedRest (Ix := Unit) (Name := ℕ) (U := UR sig nD τ) (Lvl := ℕ) spec1 c (A1 m c))
      ⊢ |={Set.univ}=> iprop(StableHlo.held (c : Thread nD τ) (Pipeline.ucRefs τ sig) (W4 m c) ∗ Eown c) := by
  rw [show StableHlo.held (c : Thread nD τ) (Pipeline.ucRefs τ sig) (W4 m c)
      = unscopedBufs (Ix := Unit) (Name := ℕ) (U := UR sig nD τ) (Lvl := ℕ) c (fun b => W4 m c b) from (Pipeline.unscopedBufs_held c _).symm]
  have hV : ∀ b : Ref sig .tc, b ≠ main_v6 → W4 m c b = A1 m c b := fun b hb =>
    Function.update_of_ne (StableHlo.devRef_ne_of_ne hb) _ _
  have h4 : W4 m c main_v6 = (dats1 (A1 m) c).arrAt 4 cfg1.N := by
    show Function.update (W3 m c) _ (X6 m c) _ = _
    rw [Function.update_self]; rfl
  iintro ⟨Ha, HO, -, Hr⟩
  imodintro
  isplitl [Ha Hr]
  · iapply (unscopedBufs_of_arrays1 (A1 m) c (fun w => (dats1 (A1 m) c).arrAt w cfg1.N)
      (fun w hw => ((dats1 (A1 m) c).arrAt_in w hw _).trans (A1_eq (A1 m) c w)) (fun b => W4 m c b) hV h4)
    isplitl [Ha]; · iexact Ha
    iexact Hr
  iapply (owesAt1_elim (A1 m) c _); iexact HO

set_option backward.isDefEq.respectTransparency.types false in
/-- THE SECOND REGION: the launch's layout, no semaphore of the kernel's own, the body obligation; entered from what the
    reshape after the first region left, left with the result's buffer at the uniformly weighted sum. -/
def reg1 : RegionSeg (pcfgs (F := F)) adm0 (pdats m) () defs₀ Variants.none L0 lv0 1 where
  win := winFacts₀1
  block_pos := block_pos1
  stage_whole := stage_whole1
  K := PEmpty
  osem k := k.elim
  ho := Pipeline.OwnSemFacts.none _
  hbody c := (body_obligation1 (A1 m) c).loose
  hwaits := Pipeline.hwaits_of_owed_zero _ _ _ _ L0 lv0 1 fun _ _ => rfl
  pre c := iprop(StableHlo.held (c : Thread nD τ) (Pipeline.ucRefs τ sig) (W3 m c) ∗ Eown c)
  post c := iprop(StableHlo.held (c : Thread nD τ) (Pipeline.ucRefs τ sig) (W4 m c) ∗ Eown c)
  X c := iprop(emp)
  Y c := iprop(emp)
  Z c := Pipeline.unscopedRest (Ix := Unit) (Name := ℕ) (U := UR sig nD τ) (Lvl := ℕ) spec1 c (A1 m c)
  hentry c := reg1_hentry m c _ _
  hin c := reg1_hin m c _ _
  hout c := reg1_hout m c
  hexit c := reg1_hexit m c _

end Cert.KernelIdeal.Hand

end
-- ==== Proof.Region2.lean ====
import proofs.«166369_j11106785428164_2_alg».proof.Proof.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## The third region's windows, buffer by buffer

Stated over any contents `A c b` of the unscoped buffers at the region's entry, as the region's proof data is. -/

section Generic

variable (A : (c : Dev nD) → (b : Ref sig .tc) → Buf (Elt F) ((c : Thread nD τ).loc b))

/-- The buffers behind the five windows' arrays, listed: five distinct buffers. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg0) ↦{fullShare} V main_arg0) ∗ (((c : Thread nD τ).loc main_arg1) ↦{fullShare} V main_arg1)
          ∗ (((c : Thread nD τ).loc main_v2) ↦{fullShare} V main_v2) ∗ (((c : Thread nD τ).loc main_v3) ↦{fullShare} V main_v3)
          ∗ (((c : Thread nD τ).loc main_v8) ↦{fullShare} V main_v8)) := by
  unfold Pipeline.arrBufs
  exact bigSep_eq_bigSepL_of_eq [main_arg0, main_arg1, main_v2, main_v3, main_v8] (by decide) (by decide) _

theorem share2_0 (c : Dev nD) : (dats2 A c).share 0 = fullShare := rfl
theorem share2_1 (c : Dev nD) : (dats2 A c).share 1 = fullShare := rfl
theorem share2_2 (c : Dev nD) : (dats2 A c).share 2 = fullShare := rfl
theorem share2_3 (c : Dev nD) : (dats2 A c).share 3 = fullShare := rfl
theorem share2_4 (c : Dev nD) : (dats2 A c).share 4 = fullShare := rfl

/-- The pipeline's arrays, window by window: each window has its own buffer, whole. -/
theorem arrays2_eq (c : Dev nD) (G : (w : Fin cfg2.W) → Buf (Elt F) ((cfg2.win w).arr.view.loc (c : Thread nD τ))) :
    ((dats2 A c).arrays G : sProp 𝕄)
      = iprop((((c : Thread nD τ).loc main_arg0) ↦{fullShare} G 0) ∗ (((c : Thread nD τ).loc main_arg1) ↦{fullShare} G 1)
          ∗ (((c : Thread nD τ).loc main_v2) ↦{fullShare} G 2) ∗ (((c : Thread nD τ).loc main_v3) ↦{fullShare} G 3)
          ∗ (((c : Thread nD τ).loc main_v8) ↦{fullShare} G 4)) := by
  unfold Dat.arrays
  rw [bigSep_W2, share2_0, share2_1, share2_2, share2_3, share2_4,
    (arr_whole2 0).set_eq_univ, (arr_whole2 1).set_eq_univ, (arr_whole2 2).set_eq_univ, (arr_whole2 3).set_eq_univ, (arr_whole2 4).set_eq_univ]

/-- A core's unscoped buffers: the five buffers behind the windows' arrays, and the rest. -/
theorem unscopedBufs2_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec2 c V
          ∗ Pipeline.unscopedRest (Ix := Unit) (Name := ℕ) (U := UR sig nD τ) (Lvl := ℕ) spec2 c V) :=
  Pipeline.unscopedBufs_split₀ cfgs 2 winFacts2.arr_unscoped c V

/-- ENTRY, the arrays: each window's array is its buffer, whole. -/
theorem arrays2_of_arrBufs (c : Dev nD) (G : (w : Fin cfg2.W) → Buf (Elt F) ((cfg2.win w).arr.view.loc (c : Thread nD τ)))
    (g0 : G 0 = A c main_arg0) (g1 : G 1 = A c main_arg1) (g2 : G 2 = A c main_v2) (g3 : G 3 = A c main_v3) (g4 : G 4 = A c main_v8) :
    (Pipeline.arrBufs (Ix := Unit) (Name := ℕ) (U := UR sig nD τ) (Lvl := ℕ) spec2 c (A c) : sProp 𝕄) ⊢ (dats2 A c).arrays G := by
  refine Entails.of_eq ?_
  rw [arrBufs2_eq, arrays2_eq, g0, g1, g2, g3, g4]

/-- EXIT, the arrays: the operands' buffers as the region found them; the result's buffer at what the region left. -/
theorem arrBufs_of_arrays2 (c : Dev nD) (G : (w : Fin cfg2.W) → Buf (Elt F) ((cfg2.win w).arr.view.loc (c : Thread nD τ)))
    (g0 : G 0 = A c main_arg0) (g1 : G 1 = A c main_arg1) (g2 : G 2 = A c main_v2) (g3 : G 3 = A c main_v3)
    (V' : (b : Ref sig .tc) → Buf (Elt F) ((c : Thread nD τ).loc b)) (h0 : V' main_arg0 = A c main_arg0) (h1 : V' main_arg1 = A c main_arg1)
    (h2 : V' main_v2 = A c main_v2) (h3 : V' main_v3 = A c main_v3) (h4 : V' main_v8 = G 4) :
    ((dats2 A c).arrays G : sProp 𝕄) ⊢ Pipeline.arrBufs (Ix := Unit) (Name := ℕ) (U := UR sig nD τ) (Lvl := ℕ) spec2 c V' := by
  refine Entails.of_eq ?_
  rw [arrBufs2_eq, arrays2_eq, g0, g1, g2, g3, h0, h1, h2, h3, h4]

/-- The buffers that are no window's array do not see a change of the result's buffer. -/
theorem unscopedRest2_congr (c : Dev nD) (V V' : (b : Ref sig .tc) → Buf (Elt F) ((c : Thread nD τ).loc b))
    (h : ∀ b, b ≠ main_v8 → V' b = V b) :
    (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c V := by
  unfold Pipeline.unscopedRest
  refine bigSep_congr fun b hb => ?_
  have hb' := (Finset.mem_sdiff.mp hb).2
  rw [h b fun e => hb' (by rw [e]; exact Finset.mem_image.mpr ⟨4, Finset.mem_univ _, rfl⟩)]

/-- EXIT, all the unscoped buffers: the arrays and the rest make the buffers at the valuation that differs from the
    entry's at the result's buffer only. -/
theorem unscopedBufs_of_arrays2 (c : Dev nD) (G : (w : Fin cfg2.W) → Buf (Elt F) ((cfg2.win w).arr.view.loc (c : Thread nD τ)))
    (g0 : G 0 = A c main_arg0) (g1 : G 1 = A c main_arg1) (g2 : G 2 = A c main_v2) (g3 : G 3 = A c main_v3)
    (V' : (b : Ref sig .tc) → Buf (Elt F) ((c : Thread nD τ).loc b)) (hV : ∀ b, b ≠ main_v8 → V' b = A c b) (h4 : V' main_v8 = G 4) :
    iprop((dats2 A c).arrays G ∗ Pipeline.unscopedRest (Ix := Unit) (Name := ℕ) (U := UR sig nD τ) (Lvl := ℕ) spec2 c (A c))
      ⊢ (unscopedBufs (Ix := Unit) (Name := ℕ) (U := UR sig nD τ) (Lvl := ℕ) c V' : sProp 𝕄) := by
  rw [unscopedBufs2_split, unscopedRest2_congr c (A c) V' hV]
  exact sep_mono (arrBufs_of_arrays2 A c G g0 g1 g2 g3 V' (hV _ (by decide)) (hV _ (by decide)) (hV _ (by decide)) (hV _ (by decide)) h4) .rfl

/-- The core's `owes` as a pipeline point's: the proof data owes nothing and bounds the recorded pairs by nothing. -/
theorem owesAt2_intro (c : Dev nD) (t : Fin (cfg2.N + 1)) :
    iprop(∃ W, owes (c : Thread nD τ) (0 : CellTallies nD τ sig Unit) W) ⊢ ((dats2 A c).owesAt () t : sProp 𝕄) := by
  unfold Pipeline.Dat.owesAt Pipeline.owesWithin Pipeline.Dat.bound
  rw [show (dats2 A c).owed t = 0 from rfl, show (dats2 A c).recorded t = Set.univ from rfl]
  iintro ⟨%W, HO⟩; iexists W; isplitr; · ipureintro; exact fun _ _ => Or.inl trivial
  iexact HO
theorem owesAt2_elim (c : Dev nD) (t : Fin (cfg2.N + 1)) :
    ((dats2 A c).owesAt () t : sProp 𝕄) ⊢ iprop(∃ W, owes (c : Thread nD τ) (0 : CellTallies nD τ sig Unit) W) := by
  unfold Pipeline.Dat.owesAt Pipeline.owesWithin
  rw [show (dats2 A c).owed t = 0 from rfl]
  iintro ⟨%W, -, HO⟩; iexists W; iexact HO

/-- The scoped buffers no window stages: the accumulator at some contents, and the others unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restS2 c) :=
  Pipeline.scopedRest_split_of_list spec2 c [cc2_scratch0] (by decide) (by decide)

/-- The invariant at the first point, from the scoped buffers no window stages: the accumulator at anything. -/
theorem Phi2_of_scopedRest (c : Dev nD) :
    (Pipeline.scopedRest (Ix := Unit) (Name := ℕ) (U := UR sig nD τ) (Lvl := ℕ) (Val := Elt F) spec2 c : sProp 𝕄) ⊢ Phi2 A c 0 := by
  unfold Phi2
  rw [scopedRest2_split]
  simp only [owns_whole_eq]
  iintro ⟨⟨%f, Hs⟩, Hr⟩
  isplitl [Hs]
  · iexists f
    isplitr; · ipureintro; intro h; exact absurd rfl h
    iexists f; isplitr; · ipureintro; rfl
    iexact Hs
  iexact Hr

/-- The invariant at any point gives the scoped buffers back. -/
theorem scopedRest_of_Phi2 (c : Dev nD) (t : Fin (cfg2.N + 1)) :
    Phi2 A c t ⊢ (Pipeline.scopedRest (Ix := Unit) (Name := ℕ) (U := UR sig nD τ) (Lvl := ℕ) (Val := Elt F) spec2 c : sProp 𝕄) := by
  unfold Phi2
  rw [scopedRest2_split]
  simp only [owns_whole_eq]
  iintro ⟨⟨%xs, -, ⟨%f, -, Hs⟩⟩, Hr⟩
  isplitl [Hs]; · iexists f; iexact Hs
  iexact Hr

end Generic

/-! ## The third region's protocol

The region is entered holding every unscoped buffer whole at what the reshape after the second region left, and the
core owing nothing. Its five windows sit on five distinct buffers: the two arguments (windows 0 and 1), the normalised
and the uniform weights (windows 2 and 3) and the one-element result (window 4); each window holds its array whole, so
no share is split. The result's buffer goes in whole and comes back at what the write-back at the last point left;
every other unscoped buffer bypasses the region. The accumulator is a scoped buffer: the invariant takes it, at
anything, out of the scoped buffers no window stages, and gives it back at the end. -/

variable (m : (ℓ : Loc nD τ sig) → Buf (Elt F) ℓ)

/-- ENTRY: the unscoped buffers at the entry valuation are the windows' arrays at their entry contents and the buffers
    that are no window's array; no table is prefetched; the core owes nothing. -/
theorem reg2_hentry (c : Dev nD) (P Q : sProp 𝕄) :
    iprop((StableHlo.held (c : Thread nD τ) (Pipeline.ucRefs τ sig) (W5 m c) ∗ Eown c) ∗ P ∗ Q)
      ⊢ |={Set.univ}=> iprop((dats2 (A2 m) c).arrays (fun w => (dats2 (A2 m) c).arrAt w 0)
          ∗ Pipeline.prefHeld (pcfgs (F := F) 2).pre c (fun _ => fullShare) (adm0 (F := F) 2).1
          ∗ (dats2 (A2 m) c).owesAt () 0 ∗ emp
          ∗ Pipeline.unscopedRest (Ix := Unit) (Name := ℕ) (U := UR sig nD τ) (Lvl := ℕ) spec2 c (A2 m c)) := by
  rw [show StableHlo.held (c : Thread nD τ) (Pipeline.ucRefs τ sig) (W5 m c)
      = unscopedBufs (Ix := Unit) (Name := ℕ) (U := UR sig nD τ) (Lvl := ℕ) c (A2 m c) from (Pipeline.unscopedBufs_held c _).symm,
    unscopedBufs2_split]
  iintro ⟨⟨⟨Ha, Hr⟩, HO⟩, -, -⟩
  ihave Ha := (arrays2_of_arrBufs (A2 m) c (fun w => (dats2 (A2 m) c).arrAt w 0) rfl rfl rfl rfl rfl) $$ Ha
  imodintro
  isplitl [Ha]; · iexact Ha
  isplitr; · unfold Pipeline.prefHeld; rw [show (Finset.univ : Finset (Fin 0)) = ∅ from rfl, BI.bigSep_empty]; iempintro
  isplitl [HO]; · iapply (owesAt2_intro (A2 m) c 0); iexact HO
  isplitr; · iempintro
  iexact Hr

/-- The invariant at the first point: the accumulator, at whatever it holds, out of the scoped buffers. -/
theorem reg2_hin (c : Dev nD) (P Q : sProp 𝕄) :
    iprop(P ∗ Q ∗ Pipeline.scopedRest (Ix := Unit) (Name := ℕ) (U := UR sig nD τ) (Lvl := ℕ) (Val := Elt F) spec2 c) ⊢ Phi2 (A2 m) c 0 := by
  iintro ⟨-, -, Hr⟩
  iapply (Phi2_of_scopedRest (A2 m) c); iexact Hr

/-- The invariant at the last point gives the scoped buffers back; the kernel has no semaphore of its own. -/
theorem reg2_hout (c : Dev nD) :
    Phi2 (A2 m) c (Fin.last cfg2.N)
      ⊢ iprop(emp ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec2 c) := by
  rw [Pipeline.ownSems0_none]
  iintro H
  isplitr; · iempintro
  isplitr; · iempintro
  iapply (scopedRest_of_Phi2 (A2 m) c _); iexact H

/-- EXIT: an operand's array is never written, so its buffer is as the region found it; the result's buffer holds what
    the last write-back left; with the buffers that bypassed the region these are all the unscoped buffers at the entry
    valuation updated at the result. -/
theorem reg2_hexit (c : Dev nD) (P : sProp 𝕄) :
    iprop((dats2 (A2 m) c).arrays (fun w => (dats2 (A2 m) c).arrAt w cfg2.N) ∗ (dats2 (A2 m) c).owesAt () (Fin.last cfg2.N) ∗ P
        ∗ Pipeline.unscopedRest (Ix := Unit) (Name := ℕ) (U := UR sig nD τ) (Lvl := ℕ) spec2 c (A2 m c))
      ⊢ |={Set.univ}=> iprop(StableHlo.held (c : Thread nD τ) (Pipeline.ucRefs τ sig) (W6 m c) ∗ Eown c) := by
  rw [show StableHlo.held (c : Thread nD τ) (Pipeline.ucRefs τ sig) (W6 m c)
      = unscopedBufs (Ix := Unit) (Name := ℕ) (U := UR sig nD τ) (Lvl := ℕ) c (fun b => W6 m c b) from (Pipeline.unscopedBufs_held c _).symm]
  have hV : ∀ b : Ref sig .tc, b ≠ main_v8 → W6 m c b = A2 m c b := fun b hb =>
    Function.update_of_ne (StableHlo.devRef_ne_of_ne hb) _ _
  have h4 : W6 m c main_v8 = (dats2 (A2 m) c).arrAt 4 cfg2.N := by
    show Function.update (W5 m c) _ (X8 m c) _ = _
    rw [Function.update_self]; rfl
  have hin : ∀ w, (cfg2.win w).isOut = false → (dats2 (A2 m) c).arrAt w cfg2.N = A2 m c (Pipeline.arrRef spec2 w) := fun w hw =>
    ((dats2 (A2 m) c).arrAt_in w hw _).trans (A2_eq (A2 m) c w)
  iintro ⟨Ha, HO, -, Hr⟩
  imodintro
  isplitl [Ha Hr]
  · iapply (unscopedBufs_of_arrays2 (A2 m) c (fun w => (dats2 (A2 m) c).arrAt w cfg2.N)
      (hin 0 rfl) (hin 1 rfl) (hin 2 rfl) (hin 3 rfl) (fun b => W6 m c b) hV h4)
    isplitl [Ha]; · iexact Ha
    iexact Hr
  iapply (owesAt2_elim (A2 m) c _); iexact HO

set_option backward.isDefEq.respectTransparency.types false in
/-- THE THIRD REGION: the launch's layout, no semaphore of the kernel's own, the body obligation; entered from what the
    reshape after the second region left, left with the result's buffer at the cross term. -/
def reg2 : RegionSeg (pcfgs (F := F)) adm0 (pdats m) () defs₀ Variants.none L0 lv0 2 where
  win := winFacts2.to₀
  block_pos := block_pos2
  stage_whole := stage_whole2
  K := PEmpty
  osem k := k.elim
  ho := Pipeline.OwnSemFacts.none _
  hbody c := (body_obligation2 (A2 m) c).loose
  hwaits := Pipeline.hwaits_of_owed_zero _ _ _ _ L0 lv0 2 fun _ _ => rfl
  pre c := iprop(StableHlo.held (c : Thread nD τ) (Pipeline.ucRefs τ sig) (W5 m c) ∗ Eown c)
  post c := iprop(StableHlo.held (c : Thread nD τ) (Pipeline.ucRefs τ sig) (W6 m c) ∗ Eown c)
  X c := iprop(emp)
  Y c := iprop(emp)
  Z c := Pipeline.unscopedRest (Ix := Unit) (Name := ℕ) (U := UR sig nD τ) (Lvl := ℕ) spec2 c (A2 m c)
  hentry c := reg2_hentry m c _ _
  hin c := reg2_hin m c _ _
  hout c := reg2_hout m c
  hexit c := reg2_hexit m c _

end Cert.KernelIdeal.Hand

end
-- ==== Proof.RunMain.lean ====
import proofs.«166369_j11106785428164_2_alg».proof.Proof.Run
import proofs.«166369_j11106785428164_2_alg».proof.Proof.Region0
import proofs.«166369_j11106785428164_2_alg».proof.Proof.Region1
import proofs.«166369_j11106785428164_2_alg».proof.Proof.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN. Every weakly fair execution of the program from memory `m` with zero counters terminates, and every final
    memory holds the result buffer at the eight closing host operations of the three regions' sums, and each argument
    as launched: the three regions' records chain as they stand, each entered from exactly what the item before it left. -/
theorem run_main : θ_run defs (onTc (τ := τ) (main (F := F))) ⟨m, fun _ => 0, ρ⟩ (fun r => ∀ c : Dev nD,
      r.2.mem ((c.tc : Thread nD τ).loc main_v14) = W7 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m ρ (reg0 m) (fun _ => .rfl) (fun _ => .rfl) (reg1 m) (fun _ => .rfl) (fun _ => .rfl) (reg2 m) (fun _ => .rfl) (fun _ => .rfl)

end Cert.KernelIdeal.Hand

end
-- ==== Proof.WRuns0.lean ====
import proofs.«166369_j11106785428164_2_alg».proof.Proof.Gen.Kernel.Launch
import proofs.«166369_j11106785428164_2_alg».proof.Proof.Gen.Kernel.Skeleton
import proofs.«166369_j11106785428164_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, from the grid coordinates

The body resets its accumulator at the first point of the grid (both coordinates zero) and copies it to the output
block at the last (both coordinates fifteen). Over the 256 points in row-major order these are the points 0 and 255. -/

/-- The first condition: both grid coordinates are zero. -/
abbrev cond0_1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond0_1 : ∀ t : Fin cfg0.N, cond0_1 (grid0.coords t) ↔ t.val = 0 :=
  (by decide +kernel : ∀ t : Fin grid0.N, cond0_1 (grid0.coords t) ↔ t.val = 0)

/-- The second condition (both coordinates fifteen) holds at the last point only. -/
theorem hcond0_2 : ∀ t : Fin cfg0.N, k0_cond2 (grid0.coords t) = 1#1 ↔ t.val = 255 :=
  (by decide +kernel : ∀ t : Fin grid0.N, k0_cond2 (grid0.coords t) = 1#1 ↔ t.val = 255)

/-! ## The current staging memrefs at a point, as the pipeline passes them -/

abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator's scratch buffer, whole. -/
abbrev msS0 : Memref sig .tc .vmem S1x1 .f32 := Memref.whole cc0_scratch0
abbrev hsS0 : (msS0).IsWhole := Memref.isWhole_whole _

/-! ## The body on any whole memrefs, one run per case of the two conditions -/

set_option maxHeartbeats 1000000 in
/-- THE FIRST POINT: the accumulator is overwritten with zero, then the tile's sum is added to it and stored. What the
    accumulator held before does not matter. -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : cond0_1 i) (hc2 : ¬(k0_cond2 i = 1#1))
    (x0 x1 : Vec F S512x128 .f32) (x2 x3 : Vec F S512x1 .f32) :
    { L7 : List (View.Piece (Elt F) S1x1 .f32) //
      ∀ (xs : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc0__weighted_rbf_kernel i arg2 harg2 arg3 harg3 arg4 harg4 arg5 harg5 arg6 harg6 arg7 harg7) K } := by
  refine ⟨?_, fun xs E K => ?run⟩
  case run =>
    simp only [cc0__weighted_rbf_kernel_eq_skeleton]; unfold cc0__weighted_rbf_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- A POINT THAT IS NEITHER THE FIRST NOR THE LAST: the accumulator is loaded, the tile's sum added, and stored back. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond0_1 i) (hc2 : ¬(k0_cond2 i = 1#1))
    (x0 x1 : Vec F S512x128 .f32) (x2 x3 : Vec F S512x1 .f32) (xs : Vec F S1x1 .f32) :
    { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc0__weighted_rbf_kernel i arg2 harg2 arg3 harg3 arg4 harg4 arg5 harg5 arg6 harg6 arg7 harg7) K } := by
  refine ⟨?_, fun E K => ?run⟩
  case run =>
    simp only [cc0__weighted_rbf_kernel_eq_skeleton]; unfold cc0__weighted_rbf_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- THE LAST POINT: as a middle point, and then the accumulator is copied into the output block. What the output
    block held before does not matter. -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond0_1 i) (hc2 : k0_cond2 i = 1#1)
    (x0 x1 : Vec F S512x128 .f32) (x2 x3 : Vec F S512x1 .f32) (xs : Vec F S1x1 .f32) :
    Σ' (L7 : List (View.Piece (Elt F) S1x1 .f32)) (L6 : List (View.Piece (Elt F) S1x1 .f32)),
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__weighted_rbf_kernel i arg2 harg2 arg3 harg3 arg4 harg4 arg5 harg5 arg6 harg6 arg7 harg7) K := by
  refine ⟨?_, ?_, fun xo E K => ?run⟩
  case run =>
    simp only [cc0__weighted_rbf_kernel_eq_skeleton]; unfold cc0__weighted_rbf_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Hand

end
-- ==== Proof.WBody0.lean ====
import proofs.«166369_j11106785428164_2_alg».proof.Proof.WRuns0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as the region finds them, and the windows' blocks

The region is one of three in the program, so what its operand arrays hold when it is entered is a parameter here:
`A c b`, the contents of the unscoped buffer `b` on core `c` at the region's entry. -/

variable (A : (c : Dev nD) → (b : Ref sig .tc) → Buf (Elt F) ((c : Thread nD τ).loc b))

/-- Window `w`'s block at point `t`, read off its array as the region finds it: rows `512 * (t / 16)` onward of the
    first and third operands, rows `512 * (t % 16)` onward of the second and fourth. -/
def iblk0 (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-! Each input window's current staging buffer holds its block at every point, fetched there or not: unfetched, the
    block index has not moved since the fetch. -/
theorem before0_0_of {c : Dev nD} (dat : Dat τ (Elt F) Unit ℕ (UR sig nD τ) ℕ cfg0 c) (hA : dat.A 0 = A c (Pipeline.arrRef spec0 0))
    (hafter : ∀ t, dat.after 0 t = iblk0 A c 0 t) (t : Fin cfg0.N) (d) : dat.before 0 t d = iblk0 A c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = A c (Pipeline.arrRef spec0 1))
    (hafter : ∀ t, dat.after 1 t = iblk0 A c 1 t) (t : Fin cfg0.N) (d) : dat.before 1 t d = iblk0 A c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = A c (Pipeline.arrRef spec0 2))
    (hafter : ∀ t, dat.after 2 t = iblk0 A c 2 t) (t : Fin cfg0.N) (d) : dat.before 2 t d = iblk0 A c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = A c (Pipeline.arrRef spec0 3))
    (hafter : ∀ t, dat.after 3 t = iblk0 A c 3 t) (t : Fin cfg0.N) (d) : dat.before 3 t d = iblk0 A c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator and in the output block -/

/-- The view the stored pieces are read back through (any view of a one-element block would do). -/
abbrev VS0 : View sig .tc .vmem S1x1 .f32 := (msS0).view

/-- At the first point the stores cover the accumulator's one element. -/
theorem cover0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond0_1 i) (hc2 : ¬(k0_cond2 i = 1#1)) (x0 x1 : Vec F S512x128 .f32) (x2 x3 : Vec F S512x1 .f32) (y : S1x1.Idx) :
    ∃ pc ∈ (kernelRun0_A c i arg2 harg2 arg3 harg3 arg4 harg4 arg5 harg5 arg6 harg6 arg7 harg7 hc1 hc2 x0 x1 x2 x3).1, y ∈ pc.1.set :=
  View.cover_of_tiledL (kernelRun0_A c i arg2 harg2 arg3 harg3 arg4 harg4 arg5 harg5 arg6 harg6 arg7 harg7 hc1 hc2 x0 x1 x2 x3).1 S1x1.size (by sl_kernel_rfl) y
/-- What the first point leaves in the accumulator: zero plus the tile's sum. -/
def acc0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond0_1 i) (hc2 : ¬(k0_cond2 i = 1#1)) (x0 x1 : Vec F S512x128 .f32) (x2 x3 : Vec F S512x1 .f32) : Vec F S1x1 .f32 :=
  VS0.read (Elt F) (VS0.writes (Elt F) VS0.junk (kernelRun0_A c i arg2 harg2 arg3 harg3 arg4 harg4 arg5 harg5 arg6 harg6 arg7 harg7 hc1 hc2 x0 x1 x2 x3).1)

theorem cover0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : ¬(k0_cond2 i = 1#1)) (x0 x1 : Vec F S512x128 .f32) (x2 x3 : Vec F S512x1 .f32) (xs : Vec F S1x1 .f32) (y : S1x1.Idx) :
    ∃ pc ∈ (kernelRun0_B c i arg2 harg2 arg3 harg3 arg4 harg4 arg5 harg5 arg6 harg6 arg7 harg7 hc1 hc2 x0 x1 x2 x3 xs).1, y ∈ pc.1.set :=
  View.cover_of_tiledL (kernelRun0_B c i arg2 harg2 arg3 harg3 arg4 harg4 arg5 harg5 arg6 harg6 arg7 harg7 hc1 hc2 x0 x1 x2 x3 xs).1 S1x1.size (by sl_kernel_rfl) y
/-- What a middle point leaves in the accumulator: what it held plus the tile's sum. -/
def acc0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : ¬(k0_cond2 i = 1#1)) (x0 x1 : Vec F S512x128 .f32) (x2 x3 : Vec F S512x1 .f32) (xs : Vec F S1x1 .f32) : Vec F S1x1 .f32 :=
  VS0.read (Elt F) (VS0.writes (Elt F) VS0.junk (kernelRun0_B c i arg2 harg2 arg3 harg3 arg4 harg4 arg5 harg5 arg6 harg6 arg7 harg7 hc1 hc2 x0 x1 x2 x3 xs).1)

theorem cover0_C7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) (y : S1x1.Idx) :
    ∃ pc ∈ (kernelRun0_C c i arg2 harg2 arg3 harg3 arg4 harg4 arg5 harg5 arg6 harg6 arg7 harg7 hc1 hc2 x0 x1 x2 x3 xs).1, y ∈ pc.1.set :=
  View.cover_of_tiledL (kernelRun0_C c i arg2 harg2 arg3 harg3 arg4 harg4 arg5 harg5 arg6 harg6 arg7 harg7 hc1 hc2 x0 x1 x2 x3 xs).1 S1x1.size (by sl_kernel_rfl) y
/-- What the last point leaves in the accumulator, -/
def acc0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) : Vec F S1x1 .f32 :=
  VS0.read (Elt F) (VS0.writes (Elt F) VS0.junk (kernelRun0_C c i arg2 harg2 arg3 harg3 arg4 harg4 arg5 harg5 arg6 harg6 arg7 harg7 hc1 hc2 x0 x1 x2 x3 xs).1)
theorem cover0_C6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) (y : S1x1.Idx) :
    ∃ pc ∈ (kernelRun0_C c i arg2 harg2 arg3 harg3 arg4 harg4 arg5 harg5 arg6 harg6 arg7 harg7 hc1 hc2 x0 x1 x2 x3 xs).2.1, y ∈ pc.1.set :=
  View.cover_of_tiledL (kernelRun0_C c i arg2 harg2 arg3 harg3 arg4 harg4 arg5 harg5 arg6 harg6 arg7 harg7 hc1 hc2 x0 x1 x2 x3 xs).2.1 S1x1.size (by sl_kernel_rfl) y
/-- and in the output block: the accumulator's final value. -/
def out0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) : Vec F S1x1 .f32 :=
  VS0.read (Elt F) (VS0.writes (Elt F) VS0.junk (kernelRun0_C c i arg2 harg2 arg3 harg3 arg4 harg4 arg5 harg5 arg6 harg6 arg7 harg7 hc1 hc2 x0 x1 x2 x3 xs).2.1)

/-! ## The accumulation, point by point -/

theorem N0_eq : cfg0.N = 256 := N_0

/-- THE ACCUMULATOR after the body at point `n`: the first point's case at `0`; at a later point the middle or the
    last case over what the point before left. -/
def accAt0 (c : Dev nD) : (n : ℕ) → n < cfg0.N → Vec F S1x1 .f32
  | 0, hn => acc0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) msS0 hsS0 ((hcond0_1 ⟨0, hn⟩).mpr rfl)
      (fun h => absurd ((hcond0_2 ⟨0, hn⟩).mp h) (show ¬((0 : ℕ) = 255) by decide)) (iblk0 A c 0 ⟨0, hn⟩) (iblk0 A c 1 ⟨0, hn⟩) (iblk0 A c 2 ⟨0, hn⟩) (iblk0 A c 3 ⟨0, hn⟩)
  | n + 1, hn =>
    if h : n + 1 = 255 then
      acc0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) msS0 hsS0 (fun h' => Nat.succ_ne_zero n ((hcond0_1 ⟨n + 1, hn⟩).mp h'))
        ((hcond0_2 ⟨n + 1, hn⟩).mpr h) (iblk0 A c 0 ⟨n + 1, hn⟩) (iblk0 A c 1 ⟨n + 1, hn⟩) (iblk0 A c 2 ⟨n + 1, hn⟩) (iblk0 A c 3 ⟨n + 1, hn⟩) (accAt0 c n (Nat.lt_of_succ_lt hn))
    else
      acc0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) msS0 hsS0 (fun h' => Nat.succ_ne_zero n ((hcond0_1 ⟨n + 1, hn⟩).mp h'))
        (fun h' => h ((hcond0_2 ⟨n + 1, hn⟩).mp h')) (iblk0 A c 0 ⟨n + 1, hn⟩) (iblk0 A c 1 ⟨n + 1, hn⟩) (iblk0 A c 2 ⟨n + 1, hn⟩) (iblk0 A c 3 ⟨n + 1, hn⟩) (accAt0 c n (Nat.lt_of_succ_lt hn))

theorem accAt0_A (c : Dev nD) (t : Fin cfg0.N) (h0 : t.val = 0) (hc1) (hc2) :
    accAt0 A c t.val t.isLt = acc0_A c (grid0.coords t) (ms0_0 t) (hs0_0 t) (ms0_1 t) (hs0_1 t) (ms0_2 t) (hs0_2 t) (ms0_3 t) (hs0_3 t) (ms0_4 t) (hs0_4 t) msS0 hsS0 hc1 hc2 (iblk0 A c 0 t) (iblk0 A c 1 t) (iblk0 A c 2 t) (iblk0 A c 3 t) := by
  obtain ⟨n, hn⟩ := t
  cases n with
  | zero => exact rfl
  | succ n => exact absurd h0 (Nat.succ_ne_zero n)

theorem accAt0_B (c : Dev nD) (t : Fin cfg0.N) (h0 : t.val ≠ 0) (h1 : t.val ≠ 255) (hc1) (hc2) :
    accAt0 A c t.val t.isLt = acc0_B c (grid0.coords t) (ms0_0 t) (hs0_0 t) (ms0_1 t) (hs0_1 t) (ms0_2 t) (hs0_2 t) (ms0_3 t) (hs0_3 t) (ms0_4 t) (hs0_4 t) msS0 hsS0 hc1 hc2 (iblk0 A c 0 t) (iblk0 A c 1 t) (iblk0 A c 2 t) (iblk0 A c 3 t)
      (accAt0 A c (t.val - 1) (Nat.lt_of_le_of_lt (Nat.sub_le _ _) t.isLt)) := by
  obtain ⟨n, hn⟩ := t
  cases n with
  | zero => exact absurd rfl h0
  | succ n => exact (dif_neg h1).trans rfl

theorem accAt0_C (c : Dev nD) (t : Fin cfg0.N) (h1 : t.val = 255) (hc1) (hc2) :
    accAt0 A c t.val t.isLt = acc0_C c (grid0.coords t) (ms0_0 t) (hs0_0 t) (ms0_1 t) (hs0_1 t) (ms0_2 t) (hs0_2 t) (ms0_3 t) (hs0_3 t) (ms0_4 t) (hs0_4 t) msS0 hsS0 hc1 hc2 (iblk0 A c 0 t) (iblk0 A c 1 t) (iblk0 A c 2 t) (iblk0 A c 3 t)
      (accAt0 A c (t.val - 1) (Nat.lt_of_le_of_lt (Nat.sub_le _ _) t.isLt)) := by
  obtain ⟨n, hn⟩ := t
  cases n with
  | zero => exact absurd h1 (show ¬((0 : ℕ) = 255) by decide)
  | succ n => exact (dif_pos h1).trans rfl

/-- The accumulator after point `n`, for every natural `n` (beyond the grid: junk, never read). -/
def accN0 (c : Dev nD) (n : ℕ) : Vec F S1x1 .f32 :=
  if h : n < cfg0.N then accAt0 A c n h else VS0.read (Elt F) VS0.junk
theorem accN0_lt (c : Dev nD) (n : ℕ) (h : n < cfg0.N) : accN0 A c n = accAt0 A c n h := dif_pos h

/-- The last point, and what it leaves in the output block: the sum over all 256 tiles. -/
abbrev tL0 : Fin cfg0.N := ⟨255, by rw [N0_eq]; decide⟩
def outFin0 (c : Dev nD) : Vec F S1x1 .f32 :=
  out0_C c (grid0.coords tL0) (ms0_0 tL0) (hs0_0 tL0) (ms0_1 tL0) (hs0_1 tL0) (ms0_2 tL0) (hs0_2 tL0) (ms0_3 tL0) (hs0_3 tL0) (ms0_4 tL0) (hs0_4 tL0) msS0 hsS0 (fun h' => absurd ((hcond0_1 tL0).mp h') (show ¬((255 : ℕ) = 0) by decide)) ((hcond0_2 tL0).mpr rfl)
    (iblk0 A c 0 tL0) (iblk0 A c 1 tL0) (iblk0 A c 2 tL0) (iblk0 A c 3 tL0) (accN0 A c 254)

/-! ## The pipeline's proof data -/

/-- The core's scoped buffers that are neither this region's staging buffers nor its accumulator, unopened. -/
abbrev restS0 (c : Dev nD) : sProp 𝕄 :=
  Pipeline.scopedRestBut (Ix := Unit) (Name := ℕ) (U := UR sig nD τ) (Lvl := ℕ) (Val := Elt F) spec0 c [cc0_scratch0]

/-- THE INVARIANT between points: before point `t` the accumulator holds the sum over the tiles of the points below `t`
    (anything, before the first point), beside the core's other scoped buffers. -/
def Phi0 (c : Dev nD) (t : Fin (cfg0.N + 1)) : sProp 𝕄 :=
  iprop((∃ xs : Vec F S1x1 .f32, ⌜t.val ≠ 0 → xs = accN0 A c (t.val - 1)⌝ ∗ owns (c : Thread nD τ) msS0 fullShare xs) ∗ restS0 c)

/-- The proof data on core `c`: the arrays as the region finds them; after the body each input's buffer at its block, the
    output's at the final sum (consulted at the last point only: the window is idle before it); the invariant above;
    nothing owed; an array two windows read is held half by each. -/
def dats0 (c : Dev nD) : Dat τ (Elt F) Unit ℕ (UR sig nD τ) ℕ cfg0 c where
  A w := A c (Pipeline.arrRef spec0 w)
  after w t := match w with
    | ⟨0, _⟩ => iblk0 A c 0 t
    | ⟨1, _⟩ => iblk0 A c 1 t
    | ⟨2, _⟩ => iblk0 A c 2 t
    | ⟨3, _⟩ => iblk0 A c 3 t
    | ⟨4, _⟩ => outFin0 A c
  Φ t := Phi0 A c t
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A0_eq (c : Dev nD) (w : Fin cfg0.W) : (dats0 A c).A w = A c (Pipeline.arrRef spec0 w) := by
  dsimp only [dats0]
theorem after0_0 (c : Dev nD) (t : Fin cfg0.N) : (dats0 A c).after 0 t = iblk0 A c 0 t := by dsimp only [dats0]
theorem after0_1 (c : Dev nD) (t : Fin cfg0.N) : (dats0 A c).after 1 t = iblk0 A c 1 t := by dsimp only [dats0]
theorem after0_2 (c : Dev nD) (t : Fin cfg0.N) : (dats0 A c).after 2 t = iblk0 A c 2 t := by dsimp only [dats0]
theorem after0_3 (c : Dev nD) (t : Fin cfg0.N) : (dats0 A c).after 3 t = iblk0 A c 3 t := by dsimp only [dats0]
theorem after0_4 (c : Dev nD) (t : Fin cfg0.N) : (dats0 A c).after 4 t = outFin0 A c := by dsimp only [dats0]
theorem before0_0 (c : Dev nD) (t : Fin cfg0.N) (d) : (dats0 A c).before 0 t d = iblk0 A c 0 t :=
  before0_0_of A (dats0 A c) (A0_eq A c 0) (after0_0 A c) t d
theorem before0_1 (c : Dev nD) (t : Fin cfg0.N) (d) : (dats0 A c).before 1 t d = iblk0 A c 1 t :=
  before0_1_of A (dats0 A c) (A0_eq A c 1) (after0_1 A c) t d
theorem before0_2 (c : Dev nD) (t : Fin cfg0.N) (d) : (dats0 A c).before 2 t d = iblk0 A c 2 t :=
  before0_2_of A (dats0 A c) (A0_eq A c 2) (after0_2 A c) t d
theorem before0_3 (c : Dev nD) (t : Fin cfg0.N) (d) : (dats0 A c).before 3 t d = iblk0 A c 3 t :=
  before0_3_of A (dats0 A c) (A0_eq A c 3) (after0_3 A c) t d

/-! ## The body obligation, at a generic point -/

/-- What the body is called with at point `t`, the windows one by one, -/
def bodyPre0 (c : Dev nD) (t : Fin cfg0.N) : sProp 𝕄 :=
  iprop((dats0 A c).Φ t.castSucc ∗ (dats0 A c).owesAt () t.castSucc
    ∗ (∃ d, owns (c : Thread nD τ) (ms0_0 t) fullShare ((dats0 A c).before 0 t d))
    ∗ (∃ d, owns (c : Thread nD τ) (ms0_1 t) fullShare ((dats0 A c).before 1 t d))
    ∗ (∃ d, owns (c : Thread nD τ) (ms0_2 t) fullShare ((dats0 A c).before 2 t d))
    ∗ (∃ d, owns (c : Thread nD τ) (ms0_3 t) fullShare ((dats0 A c).before 3 t d))
    ∗ (∃ d, owns (c : Thread nD τ) (ms0_4 t) fullShare ((dats0 A c).before 4 t d)))

/-- and what it returns: the output window's buffer as found at a point idle for it, at the final sum at the last. -/
def bodyPost0 (c : Dev nD) (t : Fin cfg0.N) : sProp 𝕄 :=
  iprop((dats0 A c).Φ t.succ ∗ (dats0 A c).owesAt () t.succ
    ∗ owns (c : Thread nD τ) (ms0_0 t) fullShare ((dats0 A c).after 0 t)
    ∗ owns (c : Thread nD τ) (ms0_1 t) fullShare ((dats0 A c).after 1 t)
    ∗ owns (c : Thread nD τ) (ms0_2 t) fullShare ((dats0 A c).after 2 t)
    ∗ owns (c : Thread nD τ) (ms0_3 t) fullShare ((dats0 A c).after 3 t)
    ∗ (dats0 A c).leavesExact 4 t)

theorem idle0_of (t : Fin cfg0.N) (hc2 : ¬(k0_cond2 (grid0.coords t) = 1#1)) : cfg0.idle 4 (grid0.coords t) = true := by
  show (!(k0_cond2 (grid0.coords t) == 1#1)) = true
  rw [Bool.not_eq_true', beq_eq_false_iff_ne]; exact hc2
theorem live0_of (t : Fin cfg0.N) (hc2 : k0_cond2 (grid0.coords t) = 1#1) : cfg0.idle 4 (grid0.coords t) = false := by
  show (!(k0_cond2 (grid0.coords t) == 1#1)) = false
  rw [Bool.not_eq_false', beq_iff_eq]; exact hc2

set_option maxHeartbeats 1600000 in
/-- The body at any point. The inputs' buffers hold their blocks; the closed forms say which case the point is in; the
    accumulator holds what the point before left, so the case's run applies; the other scoped buffers pass through
    unread; the core owes nothing throughout. -/
theorem sound_body0 (c : Dev nD) (t : Fin cfg0.N) :
    bodyPre0 A c t ⊢ wp frame (wpE (defs₀ (F := F)) Variants.none c none) Set.univ (bodyAt0 t) (fun _ => bodyPost0 A c t) := by
  unfold bodyPre0 bodyPost0 bodyAt0
  simp only [before0_0, before0_1, before0_2, before0_3]
  rw [after0_0, after0_1, after0_2, after0_3,
    show (dats0 A c).owesAt () t.succ = (dats0 A c).owesAt () t.castSucc from rfl,
    show (dats0 A c).Φ t.castSucc = Phi0 A c t.castSucc from rfl, show (dats0 A c).Φ t.succ = Phi0 A c t.succ from rfl]
  unfold Phi0
  have hN : t.val < 256 := lt_of_lt_of_eq t.isLt N0_eq
  by_cases h0 : t.val = 0
  · have hc1 : cond0_1 (grid0.coords t) := (hcond0_1 t).mpr h0
    have hc2 : ¬(k0_cond2 (grid0.coords t) = 1#1) := fun h => by have := (hcond0_2 t).mp h; omega
    have hf : (cfg0.win 4).flush t = false := Bool.eq_false_iff.mpr fun h => by have := (flush0_4 t).mp h; omega
    rw [Dat.leavesExact_idle _ 4 t (idle0_of t hc2) hf]
    iintro ⟨⟨⟨%xs, %hxs, Hs⟩, Hr⟩, Ho, ⟨%d0, H0⟩, ⟨%d1, H1⟩, ⟨%d2, H2⟩, ⟨%d3, H3⟩, H4⟩
    iapply ((kernelRun0_A c (grid0.coords t) _ _ _ _ _ _ _ _ _ _ _ _ hc1 hc2 (iblk0 A c 0 t) (iblk0 A c 1 t) (iblk0 A c 2 t) (iblk0 A c 3 t)).2 xs Set.univ _)
    isplitl [H0]; · iexact H0
    isplitl [H1]; · iexact H1
    isplitl [H2]; · iexact H2
    isplitl [H3]; · iexact H3
    isplitl [Hs]; · iexact Hs
    iintro ⟨H0, H1, H2, H3, ⟨%e, Hs⟩⟩
    isplitl [Hs Hr]
    · isplitl [Hs]
      · iexists (accN0 A c t.val)
        isplitr
        · ipureintro; intro _; rw [Fin.val_succ, Nat.add_sub_cancel]
        · unfold owns; iexists _; isplitr
          swap; · iexact Hs
          ipureintro
          rw [accN0_lt A c t.val t.isLt, accAt0_A A c t h0 hc1 hc2]
          unfold acc0_A
          exact View.read_writes_of_cover _ _ _ _ _ (cover0_A c _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h0 ((hcond0_1 t).mp h)
    have hp : t.val - 1 < cfg0.N := Nat.lt_of_le_of_lt (Nat.sub_le _ _) t.isLt
    by_cases h1 : t.val = 255
    · have hc2 : k0_cond2 (grid0.coords t) = 1#1 := (hcond0_2 t).mpr h1
      rw [show (dats0 A c).leavesExact 4 t = owns (c : Thread nD τ) (ms0_4 t) fullShare ((dats0 A c).after 4 t) from by
        unfold Dat.leavesExact; rw [live0_of t hc2], after0_4]
      iintro ⟨⟨⟨%xs, %hxs, Hs⟩, Hr⟩, Ho, ⟨%d0, H0⟩, ⟨%d1, H1⟩, ⟨%d2, H2⟩, ⟨%d3, H3⟩, ⟨%d4, H4⟩⟩
      have hx : xs = accAt0 A c (t.val - 1) hp := (hxs (by rw [Fin.coe_castSucc]; exact h0)).trans (by rw [Fin.coe_castSucc]; exact accN0_lt A c _ hp)
      subst hx
      iapply ((kernelRun0_C c (grid0.coords t) _ _ _ _ _ _ _ _ _ _ _ _ hc1 hc2 (iblk0 A c 0 t) (iblk0 A c 1 t) (iblk0 A c 2 t) (iblk0 A c 3 t) (accAt0 A c (t.val - 1) hp)).2.2 _ Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, ⟨%e6, H6⟩, ⟨%e7, Hs⟩⟩
      isplitl [Hs Hr]
      · isplitl [Hs]
        · iexists (accN0 A c t.val)
          isplitr
          · ipureintro; intro _; rw [Fin.val_succ, Nat.add_sub_cancel]
          · unfold owns; iexists _; isplitr
            swap; · iexact Hs
            ipureintro
            rw [accN0_lt A c t.val t.isLt, accAt0_C A c t h1 hc1 hc2]
            unfold acc0_C
            exact View.read_writes_of_cover _ _ _ _ _ (cover0_C7 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro
      obtain rfl : t = tL0 := Fin.ext h1
      unfold outFin0 out0_C
      rw [accN0_lt A c 254 (by rw [N0_eq]; decide)]
      exact View.read_writes_of_cover _ _ _ _ _ (cover0_C6 c _ _ _ _ _ _ _ _ _ _ _ _ _ _ _ _ _ _ _ _)
    · have hc2 : ¬(k0_cond2 (grid0.coords t) = 1#1) := fun h => h1 ((hcond0_2 t).mp h)
      have hf : (cfg0.win 4).flush t = false := Bool.eq_false_iff.mpr fun h => by have := (flush0_4 t).mp h; omega
      rw [Dat.leavesExact_idle _ 4 t (idle0_of t hc2) hf]
      iintro ⟨⟨⟨%xs, %hxs, Hs⟩, Hr⟩, Ho, ⟨%d0, H0⟩, ⟨%d1, H1⟩, ⟨%d2, H2⟩, ⟨%d3, H3⟩, H4⟩
      have hx : xs = accAt0 A c (t.val - 1) hp := (hxs (by rw [Fin.coe_castSucc]; exact h0)).trans (by rw [Fin.coe_castSucc]; exact accN0_lt A c _ hp)
      subst hx
      iapply ((kernelRun0_B c (grid0.coords t) _ _ _ _ _ _ _ _ _ _ _ _ hc1 hc2 (iblk0 A c 0 t) (iblk0 A c 1 t) (iblk0 A c 2 t) (iblk0 A c 3 t) (accAt0 A c (t.val - 1) hp)).2 Set.univ _)
      isplitl [H0]; · iexact H0
      isplitl [H1]; · iexact H1
      isplitl [H2]; · iexact H2
      isplitl [H3]; · iexact H3
      isplitl [Hs]; · iexact Hs
      iintro ⟨H0, H1, H2, H3, ⟨%e, Hs⟩⟩
      isplitl [Hs Hr]
      · isplitl [Hs]
        · iexists (accN0 A c t.val)
          isplitr
          · ipureintro; intro _; rw [Fin.val_succ, Nat.add_sub_cancel]
          · unfold owns; iexists _; isplitr
            swap; · iexact Hs
            ipureintro
            rw [accN0_lt A c t.val t.isLt, accAt0_B A c t h0 h1 hc1 hc2]
            unfold acc0_B
            exact View.read_writes_of_cover _ _ _ _ _ (cover0_B c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dats0 (F := F) A c) (defs₀ (F := F)) Variants.none () Set.univ := fun t => by
  rw [bigSep_W0, bigSep_W0]
  exact sound_body0 A c t

end Cert.Kernel.Hand

end
-- ==== Proof.WRuns1.lean ====
import proofs.«166369_j11106785428164_2_alg».proof.Proof.Gen.Kernel.Launch
import proofs.«166369_j11106785428164_2_alg».proof.Proof.Gen.Kernel.Skeleton
import proofs.«166369_j11106785428164_2_alg».proof.Proof.Gen.Kernel.Points
import proofs.«166369_j11106785428164_2_alg».proof.Proof.WRuns0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, from the grid coordinates

The body resets its accumulator at the first point of the grid (both coordinates zero) and copies it to the output
block at the last (both coordinates fifteen). Over the 256 points in row-major order these are the points 0 and 255. -/

/-- The first condition: both grid coordinates are zero. -/
abbrev cond1_1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond1_1 : ∀ t : Fin cfg1.N, cond1_1 (grid1.coords t) ↔ t.val = 0 :=
  (by decide +kernel : ∀ t : Fin grid1.N, cond1_1 (grid1.coords t) ↔ t.val = 0)

/-- The second condition (both coordinates fifteen) holds at the last point only. -/
theorem hcond1_2 : ∀ t : Fin cfg1.N, k1_cond2 (grid1.coords t) = 1#1 ↔ t.val = 255 :=
  (by decide +kernel : ∀ t : Fin grid1.N, k1_cond2 (grid1.coords t) = 1#1 ↔ t.val = 255)

/-! ## The current staging memrefs at a point, as the pipeline passes them -/

abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The accumulator's scratch buffer, whole. -/
abbrev msS1 : Memref sig .tc .vmem S1x1 .f32 := Memref.whole cc1_scratch0
abbrev hsS1 : (msS1).IsWhole := Memref.isWhole_whole _

/-! ## The body on any whole memrefs, one run per case of the two conditions -/

set_option maxHeartbeats 1000000 in
/-- THE FIRST POINT: the accumulator is overwritten with zero, then the tile's sum is added to it and stored. What the
    accumulator held before does not matter. -/
noncomputable def kernelRun1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : cond1_1 i) (hc2 : ¬(k1_cond2 i = 1#1))
    (x0 x1 : Vec F S512x128 .f32) (x2 x3 : Vec F S512x1 .f32) :
    { L7 : List (View.Piece (Elt F) S1x1 .f32) //
      ∀ (xs : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc1__weighted_rbf_kernel i arg2 harg2 arg3 harg3 arg4 harg4 arg5 harg5 arg6 harg6 arg7 harg7) K } := by
  refine ⟨?_, fun xs E K => ?run⟩
  case run =>
    simp only [cc1__weighted_rbf_kernel_eq_skeleton]; unfold cc1__weighted_rbf_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- A POINT THAT IS NEITHER THE FIRST NOR THE LAST: the accumulator is loaded, the tile's sum added, and stored back. -/
noncomputable def kernelRun1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond1_1 i) (hc2 : ¬(k1_cond2 i = 1#1))
    (x0 x1 : Vec F S512x128 .f32) (x2 x3 : Vec F S512x1 .f32) (xs : Vec F S1x1 .f32) :
    { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc1__weighted_rbf_kernel i arg2 harg2 arg3 harg3 arg4 harg4 arg5 harg5 arg6 harg6 arg7 harg7) K } := by
  refine ⟨?_, fun E K => ?run⟩
  case run =>
    simp only [cc1__weighted_rbf_kernel_eq_skeleton]; unfold cc1__weighted_rbf_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- THE LAST POINT: as a middle point, and then the accumulator is copied into the output block. What the output
    block held before does not matter. -/
noncomputable def kernelRun1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond1_1 i) (hc2 : k1_cond2 i = 1#1)
    (x0 x1 : Vec F S512x128 .f32) (x2 x3 : Vec F S512x1 .f32) (xs : Vec F S1x1 .f32) :
    Σ' (L7 : List (View.Piece (Elt F) S1x1 .f32)) (L6 : List (View.Piece (Elt F) S1x1 .f32)),
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc1__weighted_rbf_kernel i arg2 harg2 arg3 harg3 arg4 harg4 arg5 harg5 arg6 harg6 arg7 harg7) K := by
  refine ⟨?_, ?_, fun xo E K => ?run⟩
  case run =>
    simp only [cc1__weighted_rbf_kernel_eq_skeleton]; unfold cc1__weighted_rbf_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Hand

end
-- ==== Proof.WBody1.lean ====
import proofs.«166369_j11106785428164_2_alg».proof.Proof.WRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as the region finds them, and the windows' blocks

The region is one of three in the program, so what its operand arrays hold when it is entered is a parameter here:
`A c b`, the contents of the unscoped buffer `b` on core `c` at the region's entry. -/

variable (A : (c : Dev nD) → (b : Ref sig .tc) → Buf (Elt F) ((c : Thread nD τ).loc b))

/-- Window `w`'s block at point `t`, read off its array as the region finds it: rows `512 * (t / 16)` onward of the
    first and third operands, rows `512 * (t % 16)` onward of the second and fourth. -/
def iblk1 (c : Dev nD) (w : Fin cfg1.W) (t : Fin cfg1.N) : ((cfg1.win w).xblock (cfg1.grid.coords t)).Idx → Elt F (cfg1.win w).elt :=
  ((cfg1.win w).blk t).view.read (Elt F) (A c (Pipeline.arrRef spec1 w))

/-! Each input window's current staging buffer holds its block at every point, fetched there or not: unfetched, the
    block index has not moved since the fetch. -/
theorem before1_0_of {c : Dev nD} (dat : Dat τ (Elt F) Unit ℕ (UR sig nD τ) ℕ cfg1 c) (hA : dat.A 0 = A c (Pipeline.arrRef spec1 0))
    (hafter : ∀ t, dat.after 0 t = iblk1 A c 0 t) (t : Fin cfg1.N) (d) : dat.before 0 t d = iblk1 A c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = A c (Pipeline.arrRef spec1 1))
    (hafter : ∀ t, dat.after 1 t = iblk1 A c 1 t) (t : Fin cfg1.N) (d) : dat.before 1 t d = iblk1 A c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = A c (Pipeline.arrRef spec1 2))
    (hafter : ∀ t, dat.after 2 t = iblk1 A c 2 t) (t : Fin cfg1.N) (d) : dat.before 2 t d = iblk1 A c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = A c (Pipeline.arrRef spec1 3))
    (hafter : ∀ t, dat.after 3 t = iblk1 A c 3 t) (t : Fin cfg1.N) (d) : dat.before 3 t d = iblk1 A c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output block -/

/-- The view the stored pieces are read back through (any view of a one-element block would do). -/
abbrev VS1 : View sig .tc .vmem S1x1 .f32 := (msS1).view

/-- At the first point the stores cover the accumulator's one element. -/
theorem cover1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond1_1 i) (hc2 : ¬(k1_cond2 i = 1#1)) (x0 x1 : Vec F S512x128 .f32) (x2 x3 : Vec F S512x1 .f32) (y : S1x1.Idx) :
    ∃ pc ∈ (kernelRun1_A c i arg2 harg2 arg3 harg3 arg4 harg4 arg5 harg5 arg6 harg6 arg7 harg7 hc1 hc2 x0 x1 x2 x3).1, y ∈ pc.1.set :=
  View.cover_of_tiledL (kernelRun1_A c i arg2 harg2 arg3 harg3 arg4 harg4 arg5 harg5 arg6 harg6 arg7 harg7 hc1 hc2 x0 x1 x2 x3).1 S1x1.size (by sl_kernel_rfl) y
/-- What the first point leaves in the accumulator: zero plus the tile's sum. -/
def acc1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond1_1 i) (hc2 : ¬(k1_cond2 i = 1#1)) (x0 x1 : Vec F S512x128 .f32) (x2 x3 : Vec F S512x1 .f32) : Vec F S1x1 .f32 :=
  VS1.read (Elt F) (VS1.writes (Elt F) VS1.junk (kernelRun1_A c i arg2 harg2 arg3 harg3 arg4 harg4 arg5 harg5 arg6 harg6 arg7 harg7 hc1 hc2 x0 x1 x2 x3).1)

theorem cover1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : ¬(k1_cond2 i = 1#1)) (x0 x1 : Vec F S512x128 .f32) (x2 x3 : Vec F S512x1 .f32) (xs : Vec F S1x1 .f32) (y : S1x1.Idx) :
    ∃ pc ∈ (kernelRun1_B c i arg2 harg2 arg3 harg3 arg4 harg4 arg5 harg5 arg6 harg6 arg7 harg7 hc1 hc2 x0 x1 x2 x3 xs).1, y ∈ pc.1.set :=
  View.cover_of_tiledL (kernelRun1_B c i arg2 harg2 arg3 harg3 arg4 harg4 arg5 harg5 arg6 harg6 arg7 harg7 hc1 hc2 x0 x1 x2 x3 xs).1 S1x1.size (by sl_kernel_rfl) y
/-- What a middle point leaves in the accumulator: what it held plus the tile's sum. -/
def acc1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : ¬(k1_cond2 i = 1#1)) (x0 x1 : Vec F S512x128 .f32) (x2 x3 : Vec F S512x1 .f32) (xs : Vec F S1x1 .f32) : Vec F S1x1 .f32 :=
  VS1.read (Elt F) (VS1.writes (Elt F) VS1.junk (kernelRun1_B c i arg2 harg2 arg3 harg3 arg4 harg4 arg5 harg5 arg6 harg6 arg7 harg7 hc1 hc2 x0 x1 x2 x3 xs).1)

theorem cover1_C7 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) (y : S1x1.Idx) :
    ∃ pc ∈ (kernelRun1_C c i arg2 harg2 arg3 harg3 arg4 harg4 arg5 harg5 arg6 harg6 arg7 harg7 hc1 hc2 x0 x1 x2 x3 xs).1, y ∈ pc.1.set :=
  View.cover_of_tiledL (kernelRun1_C c i arg2 harg2 arg3 harg3 arg4 harg4 arg5 harg5 arg6 harg6 arg7 harg7 hc1 hc2 x0 x1 x2 x3 xs).1 S1x1.size (by sl_kernel_rfl) y
/-- What the last point leaves in the accumulator, -/
def acc1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) : Vec F S1x1 .f32 :=
  VS1.read (Elt F) (VS1.writes (Elt F) VS1.junk (kernelRun1_C c i arg2 harg2 arg3 harg3 arg4 harg4 arg5 harg5 arg6 harg6 arg7 harg7 hc1 hc2 x0 x1 x2 x3 xs).1)
theorem cover1_C6 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) (y : S1x1.Idx) :
    ∃ pc ∈ (kernelRun1_C c i arg2 harg2 arg3 harg3 arg4 harg4 arg5 harg5 arg6 harg6 arg7 harg7 hc1 hc2 x0 x1 x2 x3 xs).2.1, y ∈ pc.1.set :=
  View.cover_of_tiledL (kernelRun1_C c i arg2 harg2 arg3 harg3 arg4 harg4 arg5 harg5 arg6 harg6 arg7 harg7 hc1 hc2 x0 x1 x2 x3 xs).2.1 S1x1.size (by sl_kernel_rfl) y
/-- and in the output block: the accumulator's final value. -/
def out1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) : Vec F S1x1 .f32 :=
  VS1.read (Elt F) (VS1.writes (Elt F) VS1.junk (kernelRun1_C c i arg2 harg2 arg3 harg3 arg4 harg4 arg5 harg5 arg6 harg6 arg7 harg7 hc1 hc2 x0 x1 x2 x3 xs).2.1)

/-! ## The accumulation, point by point -/

theorem N1_eq : cfg1.N = 256 := N_1

/-- THE ACCUMULATOR after the body at point `n`: the first point's case at `0`; at a later point the middle or the
    last case over what the point before left. -/
def accAt1 (c : Dev nD) : (n : ℕ) → n < cfg1.N → Vec F S1x1 .f32
  | 0, hn => acc1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) msS1 hsS1 ((hcond1_1 ⟨0, hn⟩).mpr rfl)
      (fun h => absurd ((hcond1_2 ⟨0, hn⟩).mp h) (show ¬((0 : ℕ) = 255) by decide)) (iblk1 A c 0 ⟨0, hn⟩) (iblk1 A c 1 ⟨0, hn⟩) (iblk1 A c 2 ⟨0, hn⟩) (iblk1 A c 3 ⟨0, hn⟩)
  | n + 1, hn =>
    if h : n + 1 = 255 then
      acc1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) msS1 hsS1 (fun h' => Nat.succ_ne_zero n ((hcond1_1 ⟨n + 1, hn⟩).mp h'))
        ((hcond1_2 ⟨n + 1, hn⟩).mpr h) (iblk1 A c 0 ⟨n + 1, hn⟩) (iblk1 A c 1 ⟨n + 1, hn⟩) (iblk1 A c 2 ⟨n + 1, hn⟩) (iblk1 A c 3 ⟨n + 1, hn⟩) (accAt1 c n (Nat.lt_of_succ_lt hn))
    else
      acc1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) msS1 hsS1 (fun h' => Nat.succ_ne_zero n ((hcond1_1 ⟨n + 1, hn⟩).mp h'))
        (fun h' => h ((hcond1_2 ⟨n + 1, hn⟩).mp h')) (iblk1 A c 0 ⟨n + 1, hn⟩) (iblk1 A c 1 ⟨n + 1, hn⟩) (iblk1 A c 2 ⟨n + 1, hn⟩) (iblk1 A c 3 ⟨n + 1, hn⟩) (accAt1 c n (Nat.lt_of_succ_lt hn))

theorem accAt1_A (c : Dev nD) (t : Fin cfg1.N) (h0 : t.val = 0) (hc1) (hc2) :
    accAt1 A c t.val t.isLt = acc1_A c (grid1.coords t) (ms1_0 t) (hs1_0 t) (ms1_1 t) (hs1_1 t) (ms1_2 t) (hs1_2 t) (ms1_3 t) (hs1_3 t) (ms1_4 t) (hs1_4 t) msS1 hsS1 hc1 hc2 (iblk1 A c 0 t) (iblk1 A c 1 t) (iblk1 A c 2 t) (iblk1 A c 3 t) := by
  obtain ⟨n, hn⟩ := t
  cases n with
  | zero => exact rfl
  | succ n => exact absurd h0 (Nat.succ_ne_zero n)

theorem accAt1_B (c : Dev nD) (t : Fin cfg1.N) (h0 : t.val ≠ 0) (h1 : t.val ≠ 255) (hc1) (hc2) :
    accAt1 A c t.val t.isLt = acc1_B c (grid1.coords t) (ms1_0 t) (hs1_0 t) (ms1_1 t) (hs1_1 t) (ms1_2 t) (hs1_2 t) (ms1_3 t) (hs1_3 t) (ms1_4 t) (hs1_4 t) msS1 hsS1 hc1 hc2 (iblk1 A c 0 t) (iblk1 A c 1 t) (iblk1 A c 2 t) (iblk1 A c 3 t)
      (accAt1 A c (t.val - 1) (Nat.lt_of_le_of_lt (Nat.sub_le _ _) t.isLt)) := by
  obtain ⟨n, hn⟩ := t
  cases n with
  | zero => exact absurd rfl h0
  | succ n => exact (dif_neg h1).trans rfl

theorem accAt1_C (c : Dev nD) (t : Fin cfg1.N) (h1 : t.val = 255) (hc1) (hc2) :
    accAt1 A c t.val t.isLt = acc1_C c (grid1.coords t) (ms1_0 t) (hs1_0 t) (ms1_1 t) (hs1_1 t) (ms1_2 t) (hs1_2 t) (ms1_3 t) (hs1_3 t) (ms1_4 t) (hs1_4 t) msS1 hsS1 hc1 hc2 (iblk1 A c 0 t) (iblk1 A c 1 t) (iblk1 A c 2 t) (iblk1 A c 3 t)
      (accAt1 A c (t.val - 1) (Nat.lt_of_le_of_lt (Nat.sub_le _ _) t.isLt)) := by
  obtain ⟨n, hn⟩ := t
  cases n with
  | zero => exact absurd h1 (show ¬((0 : ℕ) = 255) by decide)
  | succ n => exact (dif_pos h1).trans rfl

/-- The accumulator after point `n`, for every natural `n` (beyond the grid: junk, never read). -/
def accN1 (c : Dev nD) (n : ℕ) : Vec F S1x1 .f32 :=
  if h : n < cfg1.N then accAt1 A c n h else VS1.read (Elt F) VS1.junk
theorem accN1_lt (c : Dev nD) (n : ℕ) (h : n < cfg1.N) : accN1 A c n = accAt1 A c n h := dif_pos h

/-- The last point, and what it leaves in the output block: the sum over all 256 tiles. -/
abbrev tL1 : Fin cfg1.N := ⟨255, by rw [N1_eq]; decide⟩
def outFin1 (c : Dev nD) : Vec F S1x1 .f32 :=
  out1_C c (grid1.coords tL1) (ms1_0 tL1) (hs1_0 tL1) (ms1_1 tL1) (hs1_1 tL1) (ms1_2 tL1) (hs1_2 tL1) (ms1_3 tL1) (hs1_3 tL1) (ms1_4 tL1) (hs1_4 tL1) msS1 hsS1 (fun h' => absurd ((hcond1_1 tL1).mp h') (show ¬((255 : ℕ) = 0) by decide)) ((hcond1_2 tL1).mpr rfl)
    (iblk1 A c 0 tL1) (iblk1 A c 1 tL1) (iblk1 A c 2 tL1) (iblk1 A c 3 tL1) (accN1 A c 254)

/-! ## The pipeline's proof data -/

/-- The core's scoped buffers that are neither this region's staging buffers nor its accumulator, unopened. -/
abbrev restS1 (c : Dev nD) : sProp 𝕄 :=
  Pipeline.scopedRestBut (Ix := Unit) (Name := ℕ) (U := UR sig nD τ) (Lvl := ℕ) (Val := Elt F) spec1 c [cc1_scratch0]

/-- THE INVARIANT between points: before point `t` the accumulator holds the sum over the tiles of the points below `t`
    (anything, before the first point), beside the core's other scoped buffers. -/
def Phi1 (c : Dev nD) (t : Fin (cfg1.N + 1)) : sProp 𝕄 :=
  iprop((∃ xs : Vec F S1x1 .f32, ⌜t.val ≠ 0 → xs = accN1 A c (t.val - 1)⌝ ∗ owns (c : Thread nD τ) msS1 fullShare xs) ∗ restS1 c)

/-- The proof data on core `c`: the arrays as the region finds them; after the body each input's buffer at its block, the
    output's at the final sum (consulted at the last point only: the window is idle before it); the invariant above;
    nothing owed; an array two windows read is held half by each. -/
def dats1 (c : Dev nD) : Dat τ (Elt F) Unit ℕ (UR sig nD τ) ℕ cfg1 c where
  A w := A c (Pipeline.arrRef spec1 w)
  after w t := match w with
    | ⟨0, _⟩ => iblk1 A c 0 t
    | ⟨1, _⟩ => iblk1 A c 1 t
    | ⟨2, _⟩ => iblk1 A c 2 t
    | ⟨3, _⟩ => iblk1 A c 3 t
    | ⟨4, _⟩ => outFin1 A c
  Φ t := Phi1 A c t
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A1_eq (c : Dev nD) (w : Fin cfg1.W) : (dats1 A c).A w = A c (Pipeline.arrRef spec1 w) := by
  dsimp only [dats1]
theorem after1_0 (c : Dev nD) (t : Fin cfg1.N) : (dats1 A c).after 0 t = iblk1 A c 0 t := by dsimp only [dats1]
theorem after1_1 (c : Dev nD) (t : Fin cfg1.N) : (dats1 A c).after 1 t = iblk1 A c 1 t := by dsimp only [dats1]
theorem after1_2 (c : Dev nD) (t : Fin cfg1.N) : (dats1 A c).after 2 t = iblk1 A c 2 t := by dsimp only [dats1]
theorem after1_3 (c : Dev nD) (t : Fin cfg1.N) : (dats1 A c).after 3 t = iblk1 A c 3 t := by dsimp only [dats1]
theorem after1_4 (c : Dev nD) (t : Fin cfg1.N) : (dats1 A c).after 4 t = outFin1 A c := by dsimp only [dats1]
theorem before1_0 (c : Dev nD) (t : Fin cfg1.N) (d) : (dats1 A c).before 0 t d = iblk1 A c 0 t :=
  before1_0_of A (dats1 A c) (A1_eq A c 0) (after1_0 A c) t d
theorem before1_1 (c : Dev nD) (t : Fin cfg1.N) (d) : (dats1 A c).before 1 t d = iblk1 A c 1 t :=
  before1_1_of A (dats1 A c) (A1_eq A c 1) (after1_1 A c) t d
theorem before1_2 (c : Dev nD) (t : Fin cfg1.N) (d) : (dats1 A c).before 2 t d = iblk1 A c 2 t :=
  before1_2_of A (dats1 A c) (A1_eq A c 2) (after1_2 A c) t d
theorem before1_3 (c : Dev nD) (t : Fin cfg1.N) (d) : (dats1 A c).before 3 t d = iblk1 A c 3 t :=
  before1_3_of A (dats1 A c) (A1_eq A c 3) (after1_3 A c) t d

/-! ## The body obligation, at a generic point -/

/-- What the body is called with at point `t`, the windows one by one, -/
def bodyPre1 (c : Dev nD) (t : Fin cfg1.N) : sProp 𝕄 :=
  iprop((dats1 A c).Φ t.castSucc ∗ (dats1 A c).owesAt () t.castSucc
    ∗ (∃ d, owns (c : Thread nD τ) (ms1_0 t) fullShare ((dats1 A c).before 0 t d))
    ∗ (∃ d, owns (c : Thread nD τ) (ms1_1 t) fullShare ((dats1 A c).before 1 t d))
    ∗ (∃ d, owns (c : Thread nD τ) (ms1_2 t) fullShare ((dats1 A c).before 2 t d))
    ∗ (∃ d, owns (c : Thread nD τ) (ms1_3 t) fullShare ((dats1 A c).before 3 t d))
    ∗ (∃ d, owns (c : Thread nD τ) (ms1_4 t) fullShare ((dats1 A c).before 4 t d)))

/-- and what it returns: the output window's buffer as found at a point idle for it, at the final sum at the last. -/
def bodyPost1 (c : Dev nD) (t : Fin cfg1.N) : sProp 𝕄 :=
  iprop((dats1 A c).Φ t.succ ∗ (dats1 A c).owesAt () t.succ
    ∗ owns (c : Thread nD τ) (ms1_0 t) fullShare ((dats1 A c).after 0 t)
    ∗ owns (c : Thread nD τ) (ms1_1 t) fullShare ((dats1 A c).after 1 t)
    ∗ owns (c : Thread nD τ) (ms1_2 t) fullShare ((dats1 A c).after 2 t)
    ∗ owns (c : Thread nD τ) (ms1_3 t) fullShare ((dats1 A c).after 3 t)
    ∗ (dats1 A c).leavesExact 4 t)

theorem idle1_of (t : Fin cfg1.N) (hc2 : ¬(k1_cond2 (grid1.coords t) = 1#1)) : cfg1.idle 4 (grid1.coords t) = true := by
  show (!(k1_cond2 (grid1.coords t) == 1#1)) = true
  rw [Bool.not_eq_true', beq_eq_false_iff_ne]; exact hc2
theorem live1_of (t : Fin cfg1.N) (hc2 : k1_cond2 (grid1.coords t) = 1#1) : cfg1.idle 4 (grid1.coords t) = false := by
  show (!(k1_cond2 (grid1.coords t) == 1#1)) = false
  rw [Bool.not_eq_false', beq_iff_eq]; exact hc2

set_option maxHeartbeats 1600000 in
/-- The body at any point. The inputs' buffers hold their blocks; the closed forms say which case the point is in; the
    accumulator holds what the point before left, so the case's run applies; the other scoped buffers pass through
    unread; the core owes nothing throughout. -/
theorem sound_body1 (c : Dev nD) (t : Fin cfg1.N) :
    bodyPre1 A c t ⊢ wp frame (wpE (defs₀ (F := F)) Variants.none c none) Set.univ (bodyAt1 t) (fun _ => bodyPost1 A c t) := by
  unfold bodyPre1 bodyPost1 bodyAt1
  simp only [before1_0, before1_1, before1_2, before1_3]
  rw [after1_0, after1_1, after1_2, after1_3,
    show (dats1 A c).owesAt () t.succ = (dats1 A c).owesAt () t.castSucc from rfl,
    show (dats1 A c).Φ t.castSucc = Phi1 A c t.castSucc from rfl, show (dats1 A c).Φ t.succ = Phi1 A c t.succ from rfl]
  unfold Phi1
  have hN : t.val < 256 := lt_of_lt_of_eq t.isLt N1_eq
  by_cases h0 : t.val = 0
  · have hc1 : cond1_1 (grid1.coords t) := (hcond1_1 t).mpr h0
    have hc2 : ¬(k1_cond2 (grid1.coords t) = 1#1) := fun h => by have := (hcond1_2 t).mp h; omega
    have hf : (cfg1.win 4).flush t = false := Bool.eq_false_iff.mpr fun h => by have := (flush1_4 t).mp h; omega
    rw [Dat.leavesExact_idle _ 4 t (idle1_of t hc2) hf]
    iintro ⟨⟨⟨%xs, %hxs, Hs⟩, Hr⟩, Ho, ⟨%d0, H0⟩, ⟨%d1, H1⟩, ⟨%d2, H2⟩, ⟨%d3, H3⟩, H4⟩
    iapply ((kernelRun1_A c (grid1.coords t) _ _ _ _ _ _ _ _ _ _ _ _ hc1 hc2 (iblk1 A c 0 t) (iblk1 A c 1 t) (iblk1 A c 2 t) (iblk1 A c 3 t)).2 xs Set.univ _)
    isplitl [H0]; · iexact H0
    isplitl [H1]; · iexact H1
    isplitl [H2]; · iexact H2
    isplitl [H3]; · iexact H3
    isplitl [Hs]; · iexact Hs
    iintro ⟨H0, H1, H2, H3, ⟨%e, Hs⟩⟩
    isplitl [Hs Hr]
    · isplitl [Hs]
      · iexists (accN1 A c t.val)
        isplitr
        · ipureintro; intro _; rw [Fin.val_succ, Nat.add_sub_cancel]
        · unfold owns; iexists _; isplitr
          swap; · iexact Hs
          ipureintro
          rw [accN1_lt A c t.val t.isLt, accAt1_A A c t h0 hc1 hc2]
          unfold acc1_A
          exact View.read_writes_of_cover _ _ _ _ _ (cover1_A c _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]; · iexact H3
    iexact H4
  · have hc1 : ¬cond1_1 (grid1.coords t) := fun h => h0 ((hcond1_1 t).mp h)
    have hp : t.val - 1 < cfg1.N := Nat.lt_of_le_of_lt (Nat.sub_le _ _) t.isLt
    by_cases h1 : t.val = 255
    · have hc2 : k1_cond2 (grid1.coords t) = 1#1 := (hcond1_2 t).mpr h1
      rw [show (dats1 A c).leavesExact 4 t = owns (c : Thread nD τ) (ms1_4 t) fullShare ((dats1 A c).after 4 t) from by
        unfold Dat.leavesExact; rw [live1_of t hc2], after1_4]
      iintro ⟨⟨⟨%xs, %hxs, Hs⟩, Hr⟩, Ho, ⟨%d0, H0⟩, ⟨%d1, H1⟩, ⟨%d2, H2⟩, ⟨%d3, H3⟩, ⟨%d4, H4⟩⟩
      have hx : xs = accAt1 A c (t.val - 1) hp := (hxs (by rw [Fin.coe_castSucc]; exact h0)).trans (by rw [Fin.coe_castSucc]; exact accN1_lt A c _ hp)
      subst hx
      iapply ((kernelRun1_C c (grid1.coords t) _ _ _ _ _ _ _ _ _ _ _ _ hc1 hc2 (iblk1 A c 0 t) (iblk1 A c 1 t) (iblk1 A c 2 t) (iblk1 A c 3 t) (accAt1 A c (t.val - 1) hp)).2.2 _ Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, ⟨%e6, H6⟩, ⟨%e7, Hs⟩⟩
      isplitl [Hs Hr]
      · isplitl [Hs]
        · iexists (accN1 A c t.val)
          isplitr
          · ipureintro; intro _; rw [Fin.val_succ, Nat.add_sub_cancel]
          · unfold owns; iexists _; isplitr
            swap; · iexact Hs
            ipureintro
            rw [accN1_lt A c t.val t.isLt, accAt1_C A c t h1 hc1 hc2]
            unfold acc1_C
            exact View.read_writes_of_cover _ _ _ _ _ (cover1_C7 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro
      obtain rfl : t = tL1 := Fin.ext h1
      unfold outFin1 out1_C
      rw [accN1_lt A c 254 (by rw [N1_eq]; decide)]
      exact View.read_writes_of_cover _ _ _ _ _ (cover1_C6 c _ _ _ _ _ _ _ _ _ _ _ _ _ _ _ _ _ _ _ _)
    · have hc2 : ¬(k1_cond2 (grid1.coords t) = 1#1) := fun h => h1 ((hcond1_2 t).mp h)
      have hf : (cfg1.win 4).flush t = false := Bool.eq_false_iff.mpr fun h => by have := (flush1_4 t).mp h; omega
      rw [Dat.leavesExact_idle _ 4 t (idle1_of t hc2) hf]
      iintro ⟨⟨⟨%xs, %hxs, Hs⟩, Hr⟩, Ho, ⟨%d0, H0⟩, ⟨%d1, H1⟩, ⟨%d2, H2⟩, ⟨%d3, H3⟩, H4⟩
      have hx : xs = accAt1 A c (t.val - 1) hp := (hxs (by rw [Fin.coe_castSucc]; exact h0)).trans (by rw [Fin.coe_castSucc]; exact accN1_lt A c _ hp)
      subst hx
      iapply ((kernelRun1_B c (grid1.coords t) _ _ _ _ _ _ _ _ _ _ _ _ hc1 hc2 (iblk1 A c 0 t) (iblk1 A c 1 t) (iblk1 A c 2 t) (iblk1 A c 3 t) (accAt1 A c (t.val - 1) hp)).2 Set.univ _)
      isplitl [H0]; · iexact H0
      isplitl [H1]; · iexact H1
      isplitl [H2]; · iexact H2
      isplitl [H3]; · iexact H3
      isplitl [Hs]; · iexact Hs
      iintro ⟨H0, H1, H2, H3, ⟨%e, Hs⟩⟩
      isplitl [Hs Hr]
      · isplitl [Hs]
        · iexists (accN1 A c t.val)
          isplitr
          · ipureintro; intro _; rw [Fin.val_succ, Nat.add_sub_cancel]
          · unfold owns; iexists _; isplitr
            swap; · iexact Hs
            ipureintro
            rw [accN1_lt A c t.val t.isLt, accAt1_B A c t h0 h1 hc1 hc2]
            unfold acc1_B
            exact View.read_writes_of_cover _ _ _ _ _ (cover1_B c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dats1 (F := F) A c) (defs₀ (F := F)) Variants.none () Set.univ := fun t => by
  rw [bigSep_W1, bigSep_W1]
  exact sound_body1 A c t

end Cert.Kernel.Hand

end
-- ==== Proof.WRuns2.lean ====
import proofs.«166369_j11106785428164_2_alg».proof.Proof.Gen.Kernel.Launch
import proofs.«166369_j11106785428164_2_alg».proof.Proof.Gen.Kernel.Skeleton
import proofs.«166369_j11106785428164_2_alg».proof.Proof.Gen.Kernel.Points
import proofs.«166369_j11106785428164_2_alg».proof.Proof.WRuns1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, from the grid coordinates

The body resets its accumulator at the first point of the grid (both coordinates zero) and copies it to the output
block at the last (both coordinates fifteen). Over the 256 points in row-major order these are the points 0 and 255. -/

/-- The first condition: both grid coordinates are zero. -/
abbrev cond2_1 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcond2_1 : ∀ t : Fin cfg2.N, cond2_1 (grid2.coords t) ↔ t.val = 0 :=
  (by decide +kernel : ∀ t : Fin grid2.N, cond2_1 (grid2.coords t) ↔ t.val = 0)

/-- The second condition (both coordinates fifteen) holds at the last point only. -/
theorem hcond2_2 : ∀ t : Fin cfg2.N, k2_cond2 (grid2.coords t) = 1#1 ↔ t.val = 255 :=
  (by decide +kernel : ∀ t : Fin grid2.N, k2_cond2 (grid2.coords t) = 1#1 ↔ t.val = 255)

/-! ## The current staging memrefs at a point, as the pipeline passes them -/

abbrev ms2_0 (t : Fin cfg2.N) : Memref sig .tc .vmem S512x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
/-- The accumulator's scratch buffer, whole. -/
abbrev msS2 : Memref sig .tc .vmem S1x1 .f32 := Memref.whole cc2_scratch0
abbrev hsS2 : (msS2).IsWhole := Memref.isWhole_whole _

/-! ## The body on any whole memrefs, one run per case of the two conditions -/

set_option maxHeartbeats 1000000 in
/-- THE FIRST POINT: the accumulator is overwritten with zero, then the tile's sum is added to it and stored. What the
    accumulator held before does not matter. -/
noncomputable def kernelRun2_A (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : cond2_1 i) (hc2 : ¬(k2_cond2 i = 1#1))
    (x0 x1 : Vec F S512x128 .f32) (x2 x3 : Vec F S512x1 .f32) :
    { L7 : List (View.Piece (Elt F) S1x1 .f32) //
      ∀ (xs : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc2__weighted_rbf_kernel i arg2 harg2 arg3 harg3 arg4 harg4 arg5 harg5 arg6 harg6 arg7 harg7) K } := by
  refine ⟨?_, fun xs E K => ?run⟩
  case run =>
    simp only [cc2__weighted_rbf_kernel_eq_skeleton]; unfold cc2__weighted_rbf_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- A POINT THAT IS NEITHER THE FIRST NOR THE LAST: the accumulator is loaded, the tile's sum added, and stored back. -/
noncomputable def kernelRun2_B (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond2_1 i) (hc2 : ¬(k2_cond2 i = 1#1))
    (x0 x1 : Vec F S512x128 .f32) (x2 x3 : Vec F S512x1 .f32) (xs : Vec F S1x1 .f32) :
    { L7 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f L7)) -∗ K ⟨⟩))
          ⊢ wp frame (wpE (defs₀ (F := F)) Variants.none c none) E (cc2__weighted_rbf_kernel i arg2 harg2 arg3 harg3 arg4 harg4 arg5 harg5 arg6 harg6 arg7 harg7) K } := by
  refine ⟨?_, fun E K => ?run⟩
  case run =>
    simp only [cc2__weighted_rbf_kernel_eq_skeleton]; unfold cc2__weighted_rbf_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f7, %hf7, H7⟩, Hk⟩
    obtain rfl := harg2.eq_unread hf0; obtain rfl := harg3.eq_unread hf1; obtain rfl := harg4.eq_unread hf2
    obtain rfl := harg5.eq_unread hf3; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H7

set_option maxHeartbeats 1000000 in
/-- THE LAST POINT: as a middle point, and then the accumulator is copied into the output block. What the output
    block held before does not matter. -/
noncomputable def kernelRun2_C (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole)
    (hc1 : ¬cond2_1 i) (hc2 : k2_cond2 i = 1#1)
    (x0 x1 : Vec F S512x128 .f32) (x2 x3 : Vec F S512x1 .f32) (xs : Vec F S1x1 .f32) :
    Σ' (L7 : List (View.Piece (Elt F) S1x1 .f32)) (L6 : List (View.Piece (Elt F) S1x1 .f32)),
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc2__weighted_rbf_kernel i arg2 harg2 arg3 harg3 arg4 harg4 arg5 harg5 arg6 harg6 arg7 harg7) K := by
  refine ⟨?_, ?_, fun xo E K => ?run⟩
  case run =>
    simp only [cc2__weighted_rbf_kernel_eq_skeleton]; unfold cc2__weighted_rbf_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf3; obtain rfl := harg6.eq_unread hf6; obtain rfl := harg7.eq_unread hf7
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; iexact H6
    iexists _; iexact H7

end Cert.Kernel.Hand

end
-- ==== Proof.WBody2.lean ====
import proofs.«166369_j11106785428164_2_alg».proof.Proof.WRuns2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays as the region finds them, and the windows' blocks

The region is one of three in the program, so what its operand arrays hold when it is entered is a parameter here:
`A c b`, the contents of the unscoped buffer `b` on core `c` at the region's entry. -/

variable (A : (c : Dev nD) → (b : Ref sig .tc) → Buf (Elt F) ((c : Thread nD τ).loc b))

/-- Window `w`'s block at point `t`, read off its array as the region finds it: rows `512 * (t / 16)` onward of the
    first and third operands, rows `512 * (t % 16)` onward of the second and fourth. -/
def iblk2 (c : Dev nD) (w : Fin cfg2.W) (t : Fin cfg2.N) : ((cfg2.win w).xblock (cfg2.grid.coords t)).Idx → Elt F (cfg2.win w).elt :=
  ((cfg2.win w).blk t).view.read (Elt F) (A c (Pipeline.arrRef spec2 w))

/-! Each input window's current staging buffer holds its block at every point, fetched there or not: unfetched, the
    block index has not moved since the fetch. -/
theorem before2_0_of {c : Dev nD} (dat : Dat τ (Elt F) Unit ℕ (UR sig nD τ) ℕ cfg2 c) (hA : dat.A 0 = A c (Pipeline.arrRef spec2 0))
    (hafter : ∀ t, dat.after 0 t = iblk2 A c 0 t) (t : Fin cfg2.N) (d) : dat.before 0 t d = iblk2 A c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = A c (Pipeline.arrRef spec2 1))
    (hafter : ∀ t, dat.after 1 t = iblk2 A c 1 t) (t : Fin cfg2.N) (d) : dat.before 1 t d = iblk2 A c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = A c (Pipeline.arrRef spec2 2))
    (hafter : ∀ t, dat.after 2 t = iblk2 A c 2 t) (t : Fin cfg2.N) (d) : dat.before 2 t d = iblk2 A c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = A c (Pipeline.arrRef spec2 3))
    (hafter : ∀ t, dat.after 3 t = iblk2 A c 3 t) (t : Fin cfg2.N) (d) : dat.before 3 t d = iblk2 A c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and in the output block -/

/-- The view the stored pieces are read back through (any view of a one-element block would do). -/
abbrev VS2 : View sig .tc .vmem S1x1 .f32 := (msS2).view

/-- At the first point the stores cover the accumulator's one element. -/
theorem cover2_A (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond2_1 i) (hc2 : ¬(k2_cond2 i = 1#1)) (x0 x1 : Vec F S512x128 .f32) (x2 x3 : Vec F S512x1 .f32) (y : S1x1.Idx) :
    ∃ pc ∈ (kernelRun2_A c i arg2 harg2 arg3 harg3 arg4 harg4 arg5 harg5 arg6 harg6 arg7 harg7 hc1 hc2 x0 x1 x2 x3).1, y ∈ pc.1.set :=
  View.cover_of_tiledL (kernelRun2_A c i arg2 harg2 arg3 harg3 arg4 harg4 arg5 harg5 arg6 harg6 arg7 harg7 hc1 hc2 x0 x1 x2 x3).1 S1x1.size (by sl_kernel_rfl) y
/-- What the first point leaves in the accumulator: zero plus the tile's sum. -/
def acc2_A (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond2_1 i) (hc2 : ¬(k2_cond2 i = 1#1)) (x0 x1 : Vec F S512x128 .f32) (x2 x3 : Vec F S512x1 .f32) : Vec F S1x1 .f32 :=
  VS2.read (Elt F) (VS2.writes (Elt F) VS2.junk (kernelRun2_A c i arg2 harg2 arg3 harg3 arg4 harg4 arg5 harg5 arg6 harg6 arg7 harg7 hc1 hc2 x0 x1 x2 x3).1)

theorem cover2_B (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : ¬(k2_cond2 i = 1#1)) (x0 x1 : Vec F S512x128 .f32) (x2 x3 : Vec F S512x1 .f32) (xs : Vec F S1x1 .f32) (y : S1x1.Idx) :
    ∃ pc ∈ (kernelRun2_B c i arg2 harg2 arg3 harg3 arg4 harg4 arg5 harg5 arg6 harg6 arg7 harg7 hc1 hc2 x0 x1 x2 x3 xs).1, y ∈ pc.1.set :=
  View.cover_of_tiledL (kernelRun2_B c i arg2 harg2 arg3 harg3 arg4 harg4 arg5 harg5 arg6 harg6 arg7 harg7 hc1 hc2 x0 x1 x2 x3 xs).1 S1x1.size (by sl_kernel_rfl) y
/-- What a middle point leaves in the accumulator: what it held plus the tile's sum. -/
def acc2_B (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : ¬(k2_cond2 i = 1#1)) (x0 x1 : Vec F S512x128 .f32) (x2 x3 : Vec F S512x1 .f32) (xs : Vec F S1x1 .f32) : Vec F S1x1 .f32 :=
  VS2.read (Elt F) (VS2.writes (Elt F) VS2.junk (kernelRun2_B c i arg2 harg2 arg3 harg3 arg4 harg4 arg5 harg5 arg6 harg6 arg7 harg7 hc1 hc2 x0 x1 x2 x3 xs).1)

theorem cover2_C7 (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) (y : S1x1.Idx) :
    ∃ pc ∈ (kernelRun2_C c i arg2 harg2 arg3 harg3 arg4 harg4 arg5 harg5 arg6 harg6 arg7 harg7 hc1 hc2 x0 x1 x2 x3 xs).1, y ∈ pc.1.set :=
  View.cover_of_tiledL (kernelRun2_C c i arg2 harg2 arg3 harg3 arg4 harg4 arg5 harg5 arg6 harg6 arg7 harg7 hc1 hc2 x0 x1 x2 x3 xs).1 S1x1.size (by sl_kernel_rfl) y
/-- What the last point leaves in the accumulator, -/
def acc2_C (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) : Vec F S1x1 .f32 :=
  VS2.read (Elt F) (VS2.writes (Elt F) VS2.junk (kernelRun2_C c i arg2 harg2 arg3 harg3 arg4 harg4 arg5 harg5 arg6 harg6 arg7 harg7 hc1 hc2 x0 x1 x2 x3 xs).1)
theorem cover2_C6 (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) (y : S1x1.Idx) :
    ∃ pc ∈ (kernelRun2_C c i arg2 harg2 arg3 harg3 arg4 harg4 arg5 harg5 arg6 harg6 arg7 harg7 hc1 hc2 x0 x1 x2 x3 xs).2.1, y ∈ pc.1.set :=
  View.cover_of_tiledL (kernelRun2_C c i arg2 harg2 arg3 harg3 arg4 harg4 arg5 harg5 arg6 harg6 arg7 harg7 hc1 hc2 x0 x1 x2 x3 xs).2.1 S1x1.size (by sl_kernel_rfl) y
/-- and in the output block: the accumulator's final value. -/
def out2_C (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) : Vec F S1x1 .f32 :=
  VS2.read (Elt F) (VS2.writes (Elt F) VS2.junk (kernelRun2_C c i arg2 harg2 arg3 harg3 arg4 harg4 arg5 harg5 arg6 harg6 arg7 harg7 hc1 hc2 x0 x1 x2 x3 xs).2.1)

/-! ## The accumulation, point by point -/

theorem N2_eq : cfg2.N = 256 := N_2

/-- THE ACCUMULATOR after the body at point `n`: the first point's case at `0`; at a later point the middle or the
    last case over what the point before left. -/
def accAt2 (c : Dev nD) : (n : ℕ) → n < cfg2.N → Vec F S1x1 .f32
  | 0, hn => acc2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) msS2 hsS2 ((hcond2_1 ⟨0, hn⟩).mpr rfl)
      (fun h => absurd ((hcond2_2 ⟨0, hn⟩).mp h) (show ¬((0 : ℕ) = 255) by decide)) (iblk2 A c 0 ⟨0, hn⟩) (iblk2 A c 1 ⟨0, hn⟩) (iblk2 A c 2 ⟨0, hn⟩) (iblk2 A c 3 ⟨0, hn⟩)
  | n + 1, hn =>
    if h : n + 1 = 255 then
      acc2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) msS2 hsS2 (fun h' => Nat.succ_ne_zero n ((hcond2_1 ⟨n + 1, hn⟩).mp h'))
        ((hcond2_2 ⟨n + 1, hn⟩).mpr h) (iblk2 A c 0 ⟨n + 1, hn⟩) (iblk2 A c 1 ⟨n + 1, hn⟩) (iblk2 A c 2 ⟨n + 1, hn⟩) (iblk2 A c 3 ⟨n + 1, hn⟩) (accAt2 c n (Nat.lt_of_succ_lt hn))
    else
      acc2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) msS2 hsS2 (fun h' => Nat.succ_ne_zero n ((hcond2_1 ⟨n + 1, hn⟩).mp h'))
        (fun h' => h ((hcond2_2 ⟨n + 1, hn⟩).mp h')) (iblk2 A c 0 ⟨n + 1, hn⟩) (iblk2 A c 1 ⟨n + 1, hn⟩) (iblk2 A c 2 ⟨n + 1, hn⟩) (iblk2 A c 3 ⟨n + 1, hn⟩) (accAt2 c n (Nat.lt_of_succ_lt hn))

theorem accAt2_A (c : Dev nD) (t : Fin cfg2.N) (h0 : t.val = 0) (hc1) (hc2) :
    accAt2 A c t.val t.isLt = acc2_A c (grid2.coords t) (ms2_0 t) (hs2_0 t) (ms2_1 t) (hs2_1 t) (ms2_2 t) (hs2_2 t) (ms2_3 t) (hs2_3 t) (ms2_4 t) (hs2_4 t) msS2 hsS2 hc1 hc2 (iblk2 A c 0 t) (iblk2 A c 1 t) (iblk2 A c 2 t) (iblk2 A c 3 t) := by
  obtain ⟨n, hn⟩ := t
  cases n with
  | zero => exact rfl
  | succ n => exact absurd h0 (Nat.succ_ne_zero n)

theorem accAt2_B (c : Dev nD) (t : Fin cfg2.N) (h0 : t.val ≠ 0) (h1 : t.val ≠ 255) (hc1) (hc2) :
    accAt2 A c t.val t.isLt = acc2_B c (grid2.coords t) (ms2_0 t) (hs2_0 t) (ms2_1 t) (hs2_1 t) (ms2_2 t) (hs2_2 t) (ms2_3 t) (hs2_3 t) (ms2_4 t) (hs2_4 t) msS2 hsS2 hc1 hc2 (iblk2 A c 0 t) (iblk2 A c 1 t) (iblk2 A c 2 t) (iblk2 A c 3 t)
      (accAt2 A c (t.val - 1) (Nat.lt_of_le_of_lt (Nat.sub_le _ _) t.isLt)) := by
  obtain ⟨n, hn⟩ := t
  cases n with
  | zero => exact absurd rfl h0
  | succ n => exact (dif_neg h1).trans rfl

theorem accAt2_C (c : Dev nD) (t : Fin cfg2.N) (h1 : t.val = 255) (hc1) (hc2) :
    accAt2 A c t.val t.isLt = acc2_C c (grid2.coords t) (ms2_0 t) (hs2_0 t) (ms2_1 t) (hs2_1 t) (ms2_2 t) (hs2_2 t) (ms2_3 t) (hs2_3 t) (ms2_4 t) (hs2_4 t) msS2 hsS2 hc1 hc2 (iblk2 A c 0 t) (iblk2 A c 1 t) (iblk2 A c 2 t) (iblk2 A c 3 t)
      (accAt2 A c (t.val - 1) (Nat.lt_of_le_of_lt (Nat.sub_le _ _) t.isLt)) := by
  obtain ⟨n, hn⟩ := t
  cases n with
  | zero => exact absurd h1 (show ¬((0 : ℕ) = 255) by decide)
  | succ n => exact (dif_pos h1).trans rfl

/-- The accumulator after point `n`, for every natural `n` (beyond the grid: junk, never read). -/
def accN2 (c : Dev nD) (n : ℕ) : Vec F S1x1 .f32 :=
  if h : n < cfg2.N then accAt2 A c n h else VS2.read (Elt F) VS2.junk
theorem accN2_lt (c : Dev nD) (n : ℕ) (h : n < cfg2.N) : accN2 A c n = accAt2 A c n h := dif_pos h

/-- The last point, and what it leaves in the output block: the sum over all 256 tiles. -/
abbrev tL2 : Fin cfg2.N := ⟨255, by rw [N2_eq]; decide⟩
def outFin2 (c : Dev nD) : Vec F S1x1 .f32 :=
  out2_C c (grid2.coords tL2) (ms2_0 tL2) (hs2_0 tL2) (ms2_1 tL2) (hs2_1 tL2) (ms2_2 tL2) (hs2_2 tL2) (ms2_3 tL2) (hs2_3 tL2) (ms2_4 tL2) (hs2_4 tL2) msS2 hsS2 (fun h' => absurd ((hcond2_1 tL2).mp h') (show ¬((255 : ℕ) = 0) by decide)) ((hcond2_2 tL2).mpr rfl)
    (iblk2 A c 0 tL2) (iblk2 A c 1 tL2) (iblk2 A c 2 tL2) (iblk2 A c 3 tL2) (accN2 A c 254)

/-! ## The pipeline's proof data -/

/-- The core's scoped buffers that are neither this region's staging buffers nor its accumulator, unopened. -/
abbrev restS2 (c : Dev nD) : sProp 𝕄 :=
  Pipeline.scopedRestBut (Ix := Unit) (Name := ℕ) (U := UR sig nD τ) (Lvl := ℕ) (Val := Elt F) spec2 c [cc2_scratch0]

/-- THE INVARIANT between points: before point `t` the accumulator holds the sum over the tiles of the points below `t`
    (anything, before the first point), beside the core's other scoped buffers. -/
def Phi2 (c : Dev nD) (t : Fin (cfg2.N + 1)) : sProp 𝕄 :=
  iprop((∃ xs : Vec F S1x1 .f32, ⌜t.val ≠ 0 → xs = accN2 A c (t.val - 1)⌝ ∗ owns (c : Thread nD τ) msS2 fullShare xs) ∗ restS2 c)

/-- The proof data on core `c`: the arrays as the region finds them; after the body each input's buffer at its block, the
    output's at the final sum (consulted at the last point only: the window is idle before it); the invariant above;
    nothing owed; every array at the full share. -/
def dats2 (c : Dev nD) : Dat τ (Elt F) Unit ℕ (UR sig nD τ) ℕ cfg2 c where
  A w := A c (Pipeline.arrRef spec2 w)
  after w t := match w with
    | ⟨0, _⟩ => iblk2 A c 0 t
    | ⟨1, _⟩ => iblk2 A c 1 t
    | ⟨2, _⟩ => iblk2 A c 2 t
    | ⟨3, _⟩ => iblk2 A c 3 t
    | ⟨4, _⟩ => outFin2 A c
  Φ t := Phi2 A c t
  q w := fullShare
  owed _ := 0

theorem A2_eq (c : Dev nD) (w : Fin cfg2.W) : (dats2 A c).A w = A c (Pipeline.arrRef spec2 w) := by
  dsimp only [dats2]
theorem after2_0 (c : Dev nD) (t : Fin cfg2.N) : (dats2 A c).after 0 t = iblk2 A c 0 t := by dsimp only [dats2]
theorem after2_1 (c : Dev nD) (t : Fin cfg2.N) : (dats2 A c).after 1 t = iblk2 A c 1 t := by dsimp only [dats2]
theorem after2_2 (c : Dev nD) (t : Fin cfg2.N) : (dats2 A c).after 2 t = iblk2 A c 2 t := by dsimp only [dats2]
theorem after2_3 (c : Dev nD) (t : Fin cfg2.N) : (dats2 A c).after 3 t = iblk2 A c 3 t := by dsimp only [dats2]
theorem after2_4 (c : Dev nD) (t : Fin cfg2.N) : (dats2 A c).after 4 t = outFin2 A c := by dsimp only [dats2]
theorem before2_0 (c : Dev nD) (t : Fin cfg2.N) (d) : (dats2 A c).before 0 t d = iblk2 A c 0 t :=
  before2_0_of A (dats2 A c) (A2_eq A c 0) (after2_0 A c) t d
theorem before2_1 (c : Dev nD) (t : Fin cfg2.N) (d) : (dats2 A c).before 1 t d = iblk2 A c 1 t :=
  before2_1_of A (dats2 A c) (A2_eq A c 1) (after2_1 A c) t d
theorem before2_2 (c : Dev nD) (t : Fin cfg2.N) (d) : (dats2 A c).before 2 t d = iblk2 A c 2 t :=
  before2_2_of A (dats2 A c) (A2_eq A c 2) (after2_2 A c) t d
theorem before2_3 (c : Dev nD) (t : Fin cfg2.N) (d) : (dats2 A c).before 3 t d = iblk2 A c 3 t :=
  before2_3_of A (dats2 A c) (A2_eq A c 3) (after2_3 A c) t d

/-! ## The body obligation, at a generic point -/

/-- What the body is called with at point `t`, the windows one by one, -/
def bodyPre2 (c : Dev nD) (t : Fin cfg2.N) : sProp 𝕄 :=
  iprop((dats2 A c).Φ t.castSucc ∗ (dats2 A c).owesAt () t.castSucc
    ∗ (∃ d, owns (c : Thread nD τ) (ms2_0 t) fullShare ((dats2 A c).before 0 t d))
    ∗ (∃ d, owns (c : Thread nD τ) (ms2_1 t) fullShare ((dats2 A c).before 1 t d))
    ∗ (∃ d, owns (c : Thread nD τ) (ms2_2 t) fullShare ((dats2 A c).before 2 t d))
    ∗ (∃ d, owns (c : Thread nD τ) (ms2_3 t) fullShare ((dats2 A c).before 3 t d))
    ∗ (∃ d, owns (c : Thread nD τ) (ms2_4 t) fullShare ((dats2 A c).before 4 t d)))

/-- and what it returns: the output window's buffer as found at a point idle for it, at the final sum at the last. -/
def bodyPost2 (c : Dev nD) (t : Fin cfg2.N) : sProp 𝕄 :=
  iprop((dats2 A c).Φ t.succ ∗ (dats2 A c).owesAt () t.succ
    ∗ owns (c : Thread nD τ) (ms2_0 t) fullShare ((dats2 A c).after 0 t)
    ∗ owns (c : Thread nD τ) (ms2_1 t) fullShare ((dats2 A c).after 1 t)
    ∗ owns (c : Thread nD τ) (ms2_2 t) fullShare ((dats2 A c).after 2 t)
    ∗ owns (c : Thread nD τ) (ms2_3 t) fullShare ((dats2 A c).after 3 t)
    ∗ (dats2 A c).leavesExact 4 t)

theorem idle2_of (t : Fin cfg2.N) (hc2 : ¬(k2_cond2 (grid2.coords t) = 1#1)) : cfg2.idle 4 (grid2.coords t) = true := by
  show (!(k2_cond2 (grid2.coords t) == 1#1)) = true
  rw [Bool.not_eq_true', beq_eq_false_iff_ne]; exact hc2
theorem live2_of (t : Fin cfg2.N) (hc2 : k2_cond2 (grid2.coords t) = 1#1) : cfg2.idle 4 (grid2.coords t) = false := by
  show (!(k2_cond2 (grid2.coords t) == 1#1)) = false
  rw [Bool.not_eq_false', beq_iff_eq]; exact hc2

set_option maxHeartbeats 1600000 in
/-- The body at any point. The inputs' buffers hold their blocks; the closed forms say which case the point is in; the
    accumulator holds what the point before left, so the case's run applies; the other scoped buffers pass through
    unread; the core owes nothing throughout. -/
theorem sound_body2 (c : Dev nD) (t : Fin cfg2.N) :
    bodyPre2 A c t ⊢ wp frame (wpE (defs₀ (F := F)) Variants.none c none) Set.univ (bodyAt2 t) (fun _ => bodyPost2 A c t) := by
  unfold bodyPre2 bodyPost2 bodyAt2
  simp only [before2_0, before2_1, before2_2, before2_3]
  rw [after2_0, after2_1, after2_2, after2_3,
    show (dats2 A c).owesAt () t.succ = (dats2 A c).owesAt () t.castSucc from rfl,
    show (dats2 A c).Φ t.castSucc = Phi2 A c t.castSucc from rfl, show (dats2 A c).Φ t.succ = Phi2 A c t.succ from rfl]
  unfold Phi2
  have hN : t.val < 256 := lt_of_lt_of_eq t.isLt N2_eq
  by_cases h0 : t.val = 0
  · have hc1 : cond2_1 (grid2.coords t) := (hcond2_1 t).mpr h0
    have hc2 : ¬(k2_cond2 (grid2.coords t) = 1#1) := fun h => by have := (hcond2_2 t).mp h; omega
    have hf : (cfg2.win 4).flush t = false := Bool.eq_false_iff.mpr fun h => by have := (flush2_4 t).mp h; omega
    rw [Dat.leavesExact_idle _ 4 t (idle2_of t hc2) hf]
    iintro ⟨⟨⟨%xs, %hxs, Hs⟩, Hr⟩, Ho, ⟨%d0, H0⟩, ⟨%d1, H1⟩, ⟨%d2, H2⟩, ⟨%d3, H3⟩, H4⟩
    iapply ((kernelRun2_A c (grid2.coords t) _ _ _ _ _ _ _ _ _ _ _ _ hc1 hc2 (iblk2 A c 0 t) (iblk2 A c 1 t) (iblk2 A c 2 t) (iblk2 A c 3 t)).2 xs Set.univ _)
    isplitl [H0]; · iexact H0
    isplitl [H1]; · iexact H1
    isplitl [H2]; · iexact H2
    isplitl [H3]; · iexact H3
    isplitl [Hs]; · iexact Hs
    iintro ⟨H0, H1, H2, H3, ⟨%e, Hs⟩⟩
    isplitl [Hs Hr]
    · isplitl [Hs]
      · iexists (accN2 A c t.val)
        isplitr
        · ipureintro; intro _; rw [Fin.val_succ, Nat.add_sub_cancel]
        · unfold owns; iexists _; isplitr
          swap; · iexact Hs
          ipureintro
          rw [accN2_lt A c t.val t.isLt, accAt2_A A c t h0 hc1 hc2]
          unfold acc2_A
          exact View.read_writes_of_cover _ _ _ _ _ (cover2_A c _ _ _ _ _ _ _ _ _ _ _ _ _ _ _ _ _ _ _)
      · iexact Hr
    isplitl [Ho]; · iexact Ho
    isplitl [H0]; · iexact H0
    isplitl [H1]; · iexact H1
    isplitl [H2]; · iexact H2
    isplitl [H3]; · iexact H3
    iexact H4
  · have hc1 : ¬cond2_1 (grid2.coords t) := fun h => h0 ((hcond2_1 t).mp h)
    have hp : t.val - 1 < cfg2.N := Nat.lt_of_le_of_lt (Nat.sub_le _ _) t.isLt
    by_cases h1 : t.val = 255
    · have hc2 : k2_cond2 (grid2.coords t) = 1#1 := (hcond2_2 t).mpr h1
      rw [show (dats2 A c).leavesExact 4 t = owns (c : Thread nD τ) (ms2_4 t) fullShare ((dats2 A c).after 4 t) from by
        unfold Dat.leavesExact; rw [live2_of t hc2], after2_4]
      iintro ⟨⟨⟨%xs, %hxs, Hs⟩, Hr⟩, Ho, ⟨%d0, H0⟩, ⟨%d1, H1⟩, ⟨%d2, H2⟩, ⟨%d3, H3⟩, ⟨%d4, H4⟩⟩
      have hx : xs = accAt2 A c (t.val - 1) hp := (hxs (by rw [Fin.coe_castSucc]; exact h0)).trans (by rw [Fin.coe_castSucc]; exact accN2_lt A c _ hp)
      subst hx
      iapply ((kernelRun2_C c (grid2.coords t) _ _ _ _ _ _ _ _ _ _ _ _ hc1 hc2 (iblk2 A c 0 t) (iblk2 A c 1 t) (iblk2 A c 2 t) (iblk2 A c 3 t) (accAt2 A c (t.val - 1) hp)).2.2 _ Set.univ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, ⟨%e6, H6⟩, ⟨%e7, Hs⟩⟩
      isplitl [Hs Hr]
      · isplitl [Hs]
        · iexists (accN2 A c t.val)
          isplitr
          · ipureintro; intro _; rw [Fin.val_succ, Nat.add_sub_cancel]
          · unfold owns; iexists _; isplitr
            swap; · iexact Hs
            ipureintro
            rw [accN2_lt A c t.val t.isLt, accAt2_C A c t h1 hc1 hc2]
            unfold acc2_C
            exact View.read_writes_of_cover _ _ _ _ _ (cover2_C7 c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      unfold owns; iexists _; isplitr
      swap; · iexact H6
      ipureintro
      obtain rfl : t = tL2 := Fin.ext h1
      unfold outFin2 out2_C
      rw [accN2_lt A c 254 (by rw [N2_eq]; decide)]
      exact View.read_writes_of_cover _ _ _ _ _ (cover2_C6 c _ _ _ _ _ _ _ _ _ _ _ _ _ _ _ _ _ _ _ _)
    · have hc2 : ¬(k2_cond2 (grid2.coords t) = 1#1) := fun h => h1 ((hcond2_2 t).mp h)
      have hf : (cfg2.win 4).flush t = false := Bool.eq_false_iff.mpr fun h => by have := (flush2_4 t).mp h; omega
      rw [Dat.leavesExact_idle _ 4 t (idle2_of t hc2) hf]
      iintro ⟨⟨⟨%xs, %hxs, Hs⟩, Hr⟩, Ho, ⟨%d0, H0⟩, ⟨%d1, H1⟩, ⟨%d2, H2⟩, ⟨%d3, H3⟩, H4⟩
      have hx : xs = accAt2 A c (t.val - 1) hp := (hxs (by rw [Fin.coe_castSucc]; exact h0)).trans (by rw [Fin.coe_castSucc]; exact accN2_lt A c _ hp)
      subst hx
      iapply ((kernelRun2_B c (grid2.coords t) _ _ _ _ _ _ _ _ _ _ _ _ hc1 hc2 (iblk2 A c 0 t) (iblk2 A c 1 t) (iblk2 A c 2 t) (iblk2 A c 3 t) (accAt2 A c (t.val - 1) hp)).2 Set.univ _)
      isplitl [H0]; · iexact H0
      isplitl [H1]; · iexact H1
      isplitl [H2]; · iexact H2
      isplitl [H3]; · iexact H3
      isplitl [Hs]; · iexact Hs
      iintro ⟨H0, H1, H2, H3, ⟨%e, Hs⟩⟩
      isplitl [Hs Hr]
      · isplitl [Hs]
        · iexists (accN2 A c t.val)
          isplitr
          · ipureintro; intro _; rw [Fin.val_succ, Nat.add_sub_cancel]
          · unfold owns; iexists _; isplitr
            swap; · iexact Hs
            ipureintro
            rw [accN2_lt A c t.val t.isLt, accAt2_B A c t h0 h1 hc1 hc2]
            unfold acc2_B
            exact View.read_writes_of_cover _ _ _ _ _ (cover2_B c _ _ _ _ _ _ _ _ _ _ _ _ _ _ _ _ _ _ _ _)
        · iexact Hr
      isplitl [Ho]; · iexact Ho
      isplitl [H0]; · iexact H0
      isplitl [H1]; · iexact H1
      isplitl [H2]; · iexact H2
      isplitl [H3]; · iexact H3
      iexact H4

/-- The library's body obligation, at every point. -/
theorem body_obligation2 (c : Dev nD) : BodyObligation (dats2 (F := F) A c) (defs₀ (F := F)) Variants.none () Set.univ := fun t => by
  rw [bigSep_W2, bigSep_W2]
  exact sound_body2 A c t

end Cert.Kernel.Hand

end
-- ==== Proof.WData.lean ====
import proofs.«166369_j11106785428164_2_alg».proof.Proof.WBody0
import proofs.«166369_j11106785428164_2_alg».proof.Proof.WBody1
import proofs.«166369_j11106785428164_2_alg».proof.Proof.WBody2
import proofs.«166369_j11106785428164_2_alg».proof.Proof.Gen.Kernel.Regions
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## What the unscoped buffers hold between the items of the program

The program is: six host operations (the normalised weights and the uniform weights), the first region (the weighted
sum over pairs of rows of the first argument), a reshape, the second region (pairs of rows of the second argument,
uniform weights), a reshape, the third region (the cross term), and eight host operations (the final combination, the
clamp and the square root). Each region changes one buffer only, its one-element result; `Wj m c` is what core `c`'s
unscoped buffers hold after item `j - 1`. -/

variable (m : (ℓ : Loc nD τ sig) → Buf (Elt F) ℓ)

/-- No core owes anything: no level is assigned. -/
abbrev L0 : GSem nD τ sig → Finset Unit := fun _ => ∅
abbrev lv0 : GSem nD τ sig → Unit → ℕ := fun _ _ => 0

/-- At launch. -/
abbrev W0 (c : Dev nD) : Valuation τ sig (Elt F) := fun b => m (c, b)
/-- After the first six host operations. -/
abbrev W1 (c : Dev nD) : Valuation τ sig (Elt F) := StableHlo.after hostOps0 (W0 m c)
/-- The first region's operand arrays as it finds them. -/
abbrev A0 (c : Dev nD) (b : Ref sig .tc) : Buf (Elt F) ((c : Thread nD τ).loc b) := W1 m c b
/-- What the first region leaves in its result buffer: its array after the write-back at the last point. -/
def X4 (c : Dev nD) : Buf (Elt F) ((c : Thread nD τ).loc main_v4) := (dats0 (A0 m) c).arrAt 4 cfg0.N
abbrev W2 (c : Dev nD) : Valuation τ sig (Elt F) := Function.update (W1 m c) main_v4 (X4 m c)
abbrev W3 (c : Dev nD) : Valuation τ sig (Elt F) := StableHlo.after hostOps1 (W2 m c)
abbrev A1 (c : Dev nD) (b : Ref sig .tc) : Buf (Elt F) ((c : Thread nD τ).loc b) := W3 m c b
def X6 (c : Dev nD) : Buf (Elt F) ((c : Thread nD τ).loc main_v6) := (dats1 (A1 m) c).arrAt 4 cfg1.N
abbrev W4 (c : Dev nD) : Valuation τ sig (Elt F) := Function.update (W3 m c) main_v6 (X6 m c)
abbrev W5 (c : Dev nD) : Valuation τ sig (Elt F) := StableHlo.after hostOps2 (W4 m c)
abbrev A2 (c : Dev nD) (b : Ref sig .tc) : Buf (Elt F) ((c : Thread nD τ).loc b) := W5 m c b
def X8 (c : Dev nD) : Buf (Elt F) ((c : Thread nD τ).loc main_v8) := (dats2 (A2 m) c).arrAt 4 cfg2.N
abbrev W6 (c : Dev nD) : Valuation τ sig (Elt F) := Function.update (W5 m c) main_v8 (X8 m c)
/-- At the end. -/
abbrev W7 (c : Dev nD) : Valuation τ sig (Elt F) := StableHlo.after hostOps3 (W6 m c)

/-- The three regions' proof data, each over what its region finds. -/
def pdats : (p : Fin 3) → (c : Dev nD) → Dat τ (Elt F) Unit ℕ (UR sig nD τ) ℕ (cfgs p) c
  | ⟨0, _⟩ => dats0 (A0 m)
  | ⟨1, _⟩ => dats1 (A1 m)
  | ⟨2, _⟩ => dats2 (A2 m)

/-- The prefetched tables' admissible contents: no region has a table. -/
abbrev adm0 : (p : Fin 3) → (pcfgs (F := F) p).Adm := fun p => (cfgs p).toPCfg_adm

/-- What rides beside the buffers from item to item: the core owing nothing. -/
abbrev Eown (c : Dev nD) : sProp 𝕄 := iprop(∃ W, owes (c : Thread nD τ) (0 : CellTallies nD τ sig Unit) W)

end Cert.Kernel.Hand

end
-- ==== Proof.WRun.lean ====
import proofs.«166369_j11106785428164_2_alg».proof.Proof.WData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v4] : List (Ref sig .tc))) : W2 m c r = W1 m c r := by
  simp only [W2, Function.update_of_ne (StableHlo.devRef_ne_of_ne (List.ne_of_not_mem_cons h) : (Proc.devRef .tc r : DevRef τ sig) ≠ Proc.devRef .tc main_v4)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v6] : List (Ref sig .tc))) : W4 m c r = W3 m c r := by
  simp only [W4, Function.update_of_ne (StableHlo.devRef_ne_of_ne (List.ne_of_not_mem_cons h) : (Proc.devRef .tc r : DevRef τ sig) ≠ Proc.devRef .tc main_v6)]
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ ([main_v8] : List (Ref sig .tc))) : W6 m c r = W5 m c r := by
  simp only [W6, Function.update_of_ne (StableHlo.devRef_ne_of_ne (List.ne_of_not_mem_cons h) : (Proc.devRef .tc r : DevRef τ sig) ≠ Proc.devRef .tc main_v8)]
theorem W7_of (c : Dev nD) (r : Ref sig .tc) (h : r ∉ hostOps3_W) : W7 m c r = W6 m c r :=
  StableHlo.after_of_writes_sub hostOps3 _ hostOps3_writes h

/-- Each argument reaches the end as launched: no host operation writes it and no region may change it. -/
theorem W7_main_arg0 (c : Dev nD) : W7 m c main_arg0 = m ((c : Thread nD τ).loc main_arg0) :=
  (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans rfl
theorem W7_main_arg1 (c : Dev nD) : W7 m c main_arg1 = m ((c : Thread nD τ).loc main_arg1) :=
  (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans rfl
theorem W7_main_arg2 (c : Dev nD) : W7 m c main_arg2 = m ((c : Thread nD τ).loc main_arg2) :=
  (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans rfl

/-! ## The items as segments -/

/-- Item 0: the host operations `hostOps0` over the unscoped buffers from `W0`, the core's `owes` riding along. -/
def hseg0 : HostSeg (Ix := Unit) (Name := ℕ) (U := UR sig nD τ) (Lvl := ℕ) (pcfgs (F := F)) defs₀ Variants.none L0 lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Eown
/-- Item 2: the host operations `hostOps1` over the unscoped buffers from `W2`, the core's `owes` riding along. -/
def hseg2 : HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Eown
/-- Item 4: the host operations `hostOps2` over the unscoped buffers from `W4`, the core's `owes` riding along. -/
def hseg4 : HostSeg (Ix := Unit) (Name := ℕ) (U := UR sig nD τ) (Lvl := ℕ) (pcfgs (F := F)) defs₀ Variants.none L0 lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) Eown
/-- Item 6: the host operations `hostOps3` over the unscoped buffers from `W6`, the core's `owes` riding along. -/
def hseg6 : HostSeg (Ix := Unit) (Name := ℕ) (U := UR sig nD τ) (Lvl := ℕ) (pcfgs (F := F)) defs₀ Variants.none L0 lv0 :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) Eown

/-- The program's items in order: host operations, a region, host operations, a region, host operations, a region,
    host operations. -/
abbrev segsW (R0 : RegionSeg (pcfgs (F := F)) adm0 (pdats m) () defs₀ Variants.none L0 lv0 0) (R1 : RegionSeg (pcfgs (F := F)) adm0 (pdats m) () defs₀ Variants.none L0 lv0 1) (R2 : RegionSeg (pcfgs (F := F)) adm0 (pdats m) () defs₀ Variants.none L0 lv0 2) :
    List (Seg (pcfgs (F := F)) adm0 (pdats m) () defs₀ Variants.none L0 lv0) :=
  [.host (hseg0 m), .region R0, .host (hseg2 m), .region R1, .host (hseg4 m), .region R2, .host (hseg6 m)]

/-- The launch element: the pipeline library's, at every region's staging cells. -/
def u₀ : UR sig nD τ := initOf (Pipeline.cells cfgs cellOf_inj) (Pipeline.launchToks cfgs cellOf_inj)

/-! ## The run, given the three regions' records -/

set_option backward.isDefEq.respectTransparency.types false in
set_option maxHeartbeats 1600000 in
/-- GIVEN, for each region, a record entered from the buffers as the item before it left them and left with its one
    result buffer at the region's final sum: every weakly fair execution of the program from memory `m` with zero
    counters terminates, and every final memory holds the result buffer at `W7 m c`'s value — the eight closing host
    operations applied to the three regions' sums — and each argument as launched. -/
theorem run_cond
    (R0 : RegionSeg (pcfgs (F := F)) adm0 (pdats m) () defs₀ Variants.none L0 lv0 0)
    (hpre0 : ∀ c : Dev nD, iprop(StableHlo.held (c : Thread nD τ) (Pipeline.ucRefs τ sig) (W1 m c) ∗ Eown c) ⊢ R0.pre c)
    (hpost0 : ∀ c : Dev nD, R0.post c ⊢ iprop(StableHlo.held (c : Thread nD τ) (Pipeline.ucRefs τ sig) (W2 m c) ∗ Eown c))
    (R1 : RegionSeg (pcfgs (F := F)) adm0 (pdats m) () defs₀ Variants.none L0 lv0 1)
    (hpre1 : ∀ c : Dev nD, iprop(StableHlo.held (c : Thread nD τ) (Pipeline.ucRefs τ sig) (W3 m c) ∗ Eown c) ⊢ R1.pre c)
    (hpost1 : ∀ c : Dev nD, R1.post c ⊢ iprop(StableHlo.held (c : Thread nD τ) (Pipeline.ucRefs τ sig) (W4 m c) ∗ Eown c))
    (R2 : RegionSeg (pcfgs (F := F)) adm0 (pdats m) () defs₀ Variants.none L0 lv0 2)
    (hpre2 : ∀ c : Dev nD, iprop(StableHlo.held (c : Thread nD τ) (Pipeline.ucRefs τ sig) (W5 m c) ∗ Eown c) ⊢ R2.pre c)
    (hpost2 : ∀ c : Dev nD, R2.post c ⊢ iprop(StableHlo.held (c : Thread nD τ) (Pipeline.ucRefs τ sig) (W6 m c) ∗ Eown c)) :
    θ_run defs (onTc (τ := τ) (main (F := F))) ⟨m, fun _ => 0, ρ⟩ (fun r => ∀ c : Dev nD,
      r.2.mem ((c.tc : Thread nD τ).loc main_v14) = W7 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) adm0 (pdats m) () cellOf_inj emb₁ defs₀ Variants.none L0 lv0 m ρ main
    (fun _ => segsW m R0 R1 R2)
    (fun c Q => by
      rewrite [main_chain c, Seg.run_eq_chain,
        show (segsW m R0 R1 R2).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segsW, Seg.pipes_host, Seg.pipes_region, Seg.pipes_nil]; decide) (O₀ := 0) (hL := fun _ _ => rfl)
    (G := fun _ => iprop(emp)) (u₀ := u₀) (hu₀ := ?hu)
    (T₀ := fun c => iprop(StableHlo.held (c : Thread nD τ) (Pipeline.ucRefs τ sig) (W0 m c) ∗ Eown c))
    (Tₙ := fun c => StableHlo.held (c : Thread nD τ) (Pipeline.ucRefs τ sig) (W7 m c))
    (hch := fun c => ⟨.rfl, hpre0 c, hpost0 c, hpre1 c, hpost1 c, hpre2 c, hpost2 c, .rfl⟩)
    (hinit := ?hinit)
    (QY := fun c s => s.mem ((c.tc : Thread nD τ).loc main_v14) = W7 m c main_v14
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?hfin) (hQ := fun _ h => h)
  case hu =>
    unfold u₀
    iintro Hu
    imodintro
    isplitl [Hu]
    · iapply (show (ownU _ : sProp 𝕄) ⊢ BI.own (emb₁ (initOf (Pipeline.cells (Pipeline.pin (pcfgs (F := F)) adm0) cellOf_inj) (Pipeline.launchToks (Pipeline.pin (pcfgs (F := F)) adm0) cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L0 lv0 fun c => ?_
    rw [Pipeline.unscopedBufs_held (Ix := Unit) (Name := ℕ) (U := UR sig nD τ) (Lvl := ℕ) c (W0 m c)]
    iintro ⟨⟨Hh, -, HO, -, -, -⟩, -⟩
    imodintro
    isplitl [Hh]; · iexact Hh
    iexists ∅; iexact HO
  case hfin =>
    unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro
      exact ⟨h (Proc.devRef .tc main_v14) (Finset.mem_filter.mpr ⟨StableHlo.devRef_mem_tcRefs main_v14, by decide⟩),
        (h (Proc.devRef .tc main_arg0) (Finset.mem_filter.mpr ⟨StableHlo.devRef_mem_tcRefs main_arg0, by decide⟩)).trans (W7_main_arg0 m c),
        (h (Proc.devRef .tc main_arg1) (Finset.mem_filter.mpr ⟨StableHlo.devRef_mem_tcRefs main_arg1, by decide⟩)).trans (W7_main_arg1 m c),
        (h (Proc.devRef .tc main_arg2) (Finset.mem_filter.mpr ⟨StableHlo.devRef_mem_tcRefs main_arg2, by decide⟩)).trans (W7_main_arg2 m c)⟩
    · iexact HSI

end Cert.Kernel.Hand

end
-- ==== Proof.WRegion0.lean ====
import proofs.«166369_j11106785428164_2_alg».proof.Proof.WData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## The first region's windows, buffer by buffer

Stated over any contents `A c b` of the unscoped buffers at the region's entry, as the region's proof data is. -/

section Generic

variable (A : (c : Dev nD) → (b : Ref sig .tc) → Buf (Elt F) ((c : Thread nD τ).loc b))

/-- The distinct buffers behind the five windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v2) ↦{fullShare} V main_v2)
          ∗ (((c : Thread nD τ).loc main_v4) ↦{fullShare} V main_v4)) := by
  unfold Pipeline.arrBufs
  exact bigSep_eq_bigSepL_of_eq [main_arg0, main_v2, main_v4] (by decide) (by decide) _

theorem share0_0 (c : Dev nD) : (dats0 A c).share 0 = fullShare.left := rfl
theorem share0_1 (c : Dev nD) : (dats0 A c).share 1 = fullShare.right := rfl
theorem share0_2 (c : Dev nD) : (dats0 A c).share 2 = fullShare.left := rfl
theorem share0_3 (c : Dev nD) : (dats0 A c).share 3 = fullShare.right := rfl
theorem share0_4 (c : Dev nD) : (dats0 A c).share 4 = fullShare := rfl

/-- The pipeline's arrays, window by window: the two halves of each shared operand, the result whole. -/
theorem arrays0_eq (c : Dev nD) (G : (w : Fin cfg0.W) → Buf (Elt F) ((cfg0.win w).arr.view.loc (c : Thread nD τ))) :
    ((dats0 A c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare.left} G 2) ∗ (((c : Thread nD τ).loc main_v2) ↦{fullShare.right} G 3)
          ∗ (((c : Thread nD τ).loc main_v4) ↦{fullShare} G 4)) := by
  unfold Dat.arrays
  rw [bigSep_W0, share0_0, share0_1, share0_2, share0_3, share0_4,
    (arr_whole0 0).set_eq_univ, (arr_whole0 2).set_eq_univ, (arr_whole0 4).set_eq_univ]

/-- A core's unscoped buffers: the three buffers behind the windows' arrays, and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec0 c V
          ∗ Pipeline.unscopedRest (Ix := Unit) (Name := ℕ) (U := UR sig nD τ) (Lvl := ℕ) spec0 c V) :=
  Pipeline.unscopedBufs_split₀ cfgs 0 winFacts₀0.arr_unscoped c V

/-- ENTRY, the arrays: each shared operand's buffer is split in two halves, one per window reading it. -/
theorem arrays0_of_arrBufs (c : Dev nD) (G : (w : Fin cfg0.W) → Buf (Elt F) ((cfg0.win w).arr.view.loc (c : Thread nD τ)))
    (hG : ∀ w, G w = A c (Pipeline.arrRef spec0 w)) :
    (Pipeline.arrBufs (Ix := Unit) (Name := ℕ) (U := UR sig nD τ) (Lvl := ℕ) spec0 c (A c) : sProp 𝕄) ⊢ (dats0 A c).arrays G := by
  rw [arrBufs0_eq, arrays0_eq, hG 0, hG 1, hG 2, hG 3, hG 4]
  iintro ⟨H0, H2, H4⟩
  ihave H0 := (pointsTo_share (PosShare.mem_left_op_right fullShare)).1 $$ H0
  icases H0 with ⟨H0l, H0r⟩
  ihave H2 := (pointsTo_share (PosShare.mem_left_op_right fullShare)).1 $$ H2
  icases H2 with ⟨H2l, H2r⟩
  isplitl [H0l]; · iexact H0l
  isplitl [H0r]; · iexact H0r
  isplitl [H2l]; · iexact H2l
  isplitl [H2r]; · iexact H2r
  iexact H4

/-- EXIT, the arrays: the halves of each shared operand joined back; the result's buffer at what the region left. -/
theorem arrBufs_of_arrays0 (c : Dev nD) (G : (w : Fin cfg0.W) → Buf (Elt F) ((cfg0.win w).arr.view.loc (c : Thread nD τ)))
    (hG : ∀ w, (cfg0.win w).isOut = false → G w = A c (Pipeline.arrRef spec0 w))
    (V' : (b : Ref sig .tc) → Buf (Elt F) ((c : Thread nD τ).loc b)) (h0 : V' main_arg0 = A c main_arg0) (h2 : V' main_v2 = A c main_v2)
    (h4 : V' main_v4 = G 4) :
    ((dats0 A c).arrays G : sProp 𝕄) ⊢ Pipeline.arrBufs (Ix := Unit) (Name := ℕ) (U := UR sig nD τ) (Lvl := ℕ) spec0 c V' := by
  rw [arrBufs0_eq, arrays0_eq, hG 0 rfl, hG 1 rfl, hG 2 rfl, hG 3 rfl, h0, h2, h4]
  iintro ⟨H0l, H0r, H2l, H2r, H4⟩
  ihave H0 := (pointsTo_share (PosShare.mem_left_op_right fullShare)).2 $$ [H0l H0r]
  · isplitl [H0l] <;> iassumption
  ihave H2 := (pointsTo_share (PosShare.mem_left_op_right fullShare)).2 $$ [H2l H2r]
  · isplitl [H2l] <;> iassumption
  isplitl [H0]; · iexact H0
  isplitl [H2]; · iexact H2
  iexact H4

/-- The buffers that are no window's array do not see a change of the result's buffer. -/
theorem unscopedRest0_congr (c : Dev nD) (V V' : (b : Ref sig .tc) → Buf (Elt F) ((c : Thread nD τ).loc b))
    (h : ∀ b, b ≠ main_v4 → V' b = V b) :
    (Pipeline.unscopedRest (Ix := Unit) (Name := ℕ) (U := UR sig nD τ) (Lvl := ℕ) spec0 c V' : sProp 𝕄)
      = Pipeline.unscopedRest (Ix := Unit) (Name := ℕ) (U := UR sig nD τ) (Lvl := ℕ) spec0 c V := by
  unfold Pipeline.unscopedRest
  refine bigSep_congr fun b hb => ?_
  have hb' := (Finset.mem_sdiff.mp hb).2
  rw [h b fun e => hb' (by rw [e]; exact Finset.mem_image.mpr ⟨4, Finset.mem_univ _, rfl⟩)]

/-- EXIT, all the unscoped buffers: the arrays and the rest make the buffers at the valuation that differs from the
    entry's at the result's buffer only. -/
theorem unscopedBufs_of_arrays0 (c : Dev nD) (G : (w : Fin cfg0.W) → Buf (Elt F) ((cfg0.win w).arr.view.loc (c : Thread nD τ)))
    (hG : ∀ w, (cfg0.win w).isOut = false → G w = A c (Pipeline.arrRef spec0 w))
    (V' : (b : Ref sig .tc) → Buf (Elt F) ((c : Thread nD τ).loc b)) (hV : ∀ b, b ≠ main_v4 → V' b = A c b) (h4 : V' main_v4 = G 4) :
    iprop((dats0 A c).arrays G ∗ Pipeline.unscopedRest (Ix := Unit) (Name := ℕ) (U := UR sig nD τ) (Lvl := ℕ) spec0 c (A c))
      ⊢ (unscopedBufs (Ix := Unit) (Name := ℕ) (U := UR sig nD τ) (Lvl := ℕ) c V' : sProp 𝕄) := by
  rw [unscopedBufs0_split, unscopedRest0_congr c (A c) V' hV]
  exact sep_mono (arrBufs_of_arrays0 A c G hG V' (hV _ (by decide)) (hV _ (by decide)) h4) .rfl

/-- The core's `owes` as a pipeline point's: the proof data owes nothing and bounds the recorded pairs by nothing. -/
theorem owesAt0_intro (c : Dev nD) (t : Fin (cfg0.N + 1)) :
    iprop(∃ W, owes (c : Thread nD τ) (0 : CellTallies nD τ sig Unit) W) ⊢ ((dats0 A c).owesAt () t : sProp 𝕄) := by
  unfold Pipeline.Dat.owesAt Pipeline.owesWithin Pipeline.Dat.bound
  rw [show (dats0 A c).owed t = 0 from rfl, show (dats0 A c).recorded t = Set.univ from rfl]
  iintro ⟨%W, HO⟩; iexists W; isplitr; · ipureintro; exact fun _ _ => Or.inl trivial
  iexact HO
theorem owesAt0_elim (c : Dev nD) (t : Fin (cfg0.N + 1)) :
    ((dats0 A c).owesAt () t : sProp 𝕄) ⊢ iprop(∃ W, owes (c : Thread nD τ) (0 : CellTallies nD τ sig Unit) W) := by
  unfold Pipeline.Dat.owesAt Pipeline.owesWithin
  rw [show (dats0 A c).owed t = 0 from rfl]
  iintro ⟨%W, -, HO⟩; iexists W; iexact HO

/-- The scoped buffers no window stages: the accumulator at some contents, and the others unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ restS0 c) :=
  Pipeline.scopedRest_split_of_list spec0 c [cc0_scratch0] (by decide) (by decide)

/-- The invariant at the first point, from the scoped buffers no window stages: the accumulator at anything. -/
theorem Phi0_of_scopedRest (c : Dev nD) :
    (Pipeline.scopedRest (Ix := Unit) (Name := ℕ) (U := UR sig nD τ) (Lvl := ℕ) (Val := Elt F) spec0 c : sProp 𝕄) ⊢ Phi0 A c 0 := by
  unfold Phi0
  rw [scopedRest0_split]
  simp only [owns_whole_eq]
  iintro ⟨⟨%f, Hs⟩, Hr⟩
  isplitl [Hs]
  · iexists f
    isplitr; · ipureintro; intro h; exact absurd rfl h
    iexists f; isplitr; · ipureintro; rfl
    iexact Hs
  iexact Hr

/-- The invariant at any point gives the scoped buffers back. -/
theorem scopedRest_of_Phi0 (c : Dev nD) (t : Fin (cfg0.N + 1)) :
    Phi0 A c t ⊢ (Pipeline.scopedRest (Ix := Unit) (Name := ℕ) (U := UR sig nD τ) (Lvl := ℕ) (Val := Elt F) spec0 c : sProp 𝕄) := by
  unfold Phi0
  rw [scopedRest0_split]
  simp only [owns_whole_eq]
  iintro ⟨⟨%xs, -, ⟨%f, -, Hs⟩⟩, Hr⟩
  isplitl [Hs]; · iexists f; iexact Hs
  iexact Hr

end Generic

/-! ## The first region's protocol

The region is entered holding every unscoped buffer whole at what the six host operations left, and the core owing
nothing. Its five windows sit on three buffers: the first argument (windows 0 and 1, each reading its own row block),
the normalised weights (windows 2 and 3) and the one-element result (window 4). Each shared operand is held half by
each of its two windows, so its buffer is split in two at the entry and joined back at the exit; the result's buffer
goes in whole and comes back at what the write-back at the last point left; every other unscoped buffer bypasses the
region. The accumulator is a scoped buffer: the invariant takes it, at anything, out of the scoped buffers no window
stages, and gives it back at the end. -/

variable (m : (ℓ : Loc nD τ sig) → Buf (Elt F) ℓ)

/-- ENTRY: the unscoped buffers at the entry valuation are the windows' arrays at their entry contents, each shared
    operand in two halves, and the buffers that are no window's array; no table is prefetched; the core owes nothing. -/
theorem reg0_hentry (c : Dev nD) (P Q : sProp 𝕄) :
    iprop((StableHlo.held (c : Thread nD τ) (Pipeline.ucRefs τ sig) (W1 m c) ∗ Eown c) ∗ P ∗ Q)
      ⊢ |={Set.univ}=> iprop((dats0 (A0 m) c).arrays (fun w => (dats0 (A0 m) c).arrAt w 0)
          ∗ Pipeline.prefHeld (pcfgs (F := F) 0).pre c (fun _ => fullShare) (adm0 (F := F) 0).1
          ∗ (dats0 (A0 m) c).owesAt () 0 ∗ emp
          ∗ Pipeline.unscopedRest (Ix := Unit) (Name := ℕ) (U := UR sig nD τ) (Lvl := ℕ) spec0 c (A0 m c)) := by
  rw [show StableHlo.held (c : Thread nD τ) (Pipeline.ucRefs τ sig) (W1 m c)
      = unscopedBufs (Ix := Unit) (Name := ℕ) (U := UR sig nD τ) (Lvl := ℕ) c (A0 m c) from (Pipeline.unscopedBufs_held c _).symm,
    unscopedBufs0_split]
  iintro ⟨⟨⟨Ha, Hr⟩, HO⟩, -, -⟩
  ihave Ha := (arrays0_of_arrBufs (A0 m) c (fun w => (dats0 (A0 m) c).arrAt w 0) fun _ => rfl) $$ Ha
  imodintro
  isplitl [Ha]; · iexact Ha
  isplitr; · unfold Pipeline.prefHeld; rw [show (Finset.univ : Finset (Fin 0)) = ∅ from rfl, BI.bigSep_empty]; iempintro
  isplitl [HO]; · iapply (owesAt0_intro (A0 m) c 0); iexact HO
  isplitr; · iempintro
  iexact Hr

/-- The invariant at the first point: the accumulator, at whatever it holds, out of the scoped buffers. -/
theorem reg0_hin (c : Dev nD) (P Q : sProp 𝕄) :
    iprop(P ∗ Q ∗ Pipeline.scopedRest (Ix := Unit) (Name := ℕ) (U := UR sig nD τ) (Lvl := ℕ) (Val := Elt F) spec0 c) ⊢ Phi0 (A0 m) c 0 := by
  iintro ⟨-, -, Hr⟩
  iapply (Phi0_of_scopedRest (A0 m) c); iexact Hr

/-- The invariant at the last point gives the scoped buffers back; the kernel has no semaphore of its own. -/
theorem reg0_hout (c : Dev nD) :
    Phi0 (A0 m) c (Fin.last cfg0.N)
      ⊢ iprop(emp ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec0 c) := by
  rw [Pipeline.ownSems0_none]
  iintro H
  isplitr; · iempintro
  isplitr; · iempintro
  iapply (scopedRest_of_Phi0 (A0 m) c _); iexact H

/-- EXIT: an operand's array is never written, so its two halves join back to the buffer as the region found it; the
    result's buffer holds what the last write-back left; with the buffers that bypassed the region these are all the
    unscoped buffers at the entry valuation updated at the result. -/
theorem reg0_hexit (c : Dev nD) (P : sProp 𝕄) :
    iprop((dats0 (A0 m) c).arrays (fun w => (dats0 (A0 m) c).arrAt w cfg0.N) ∗ (dats0 (A0 m) c).owesAt () (Fin.last cfg0.N) ∗ P
        ∗ Pipeline.unscopedRest (Ix := Unit) (Name := ℕ) (U := UR sig nD τ) (Lvl := ℕ) spec0 c (A0 m c))
      ⊢ |={Set.univ}=> iprop(StableHlo.held (c : Thread nD τ) (Pipeline.ucRefs τ sig) (W2 m c) ∗ Eown c) := by
  rw [show StableHlo.held (c : Thread nD τ) (Pipeline.ucRefs τ sig) (W2 m c)
      = unscopedBufs (Ix := Unit) (Name := ℕ) (U := UR sig nD τ) (Lvl := ℕ) c (fun b => W2 m c b) from (Pipeline.unscopedBufs_held c _).symm]
  have hV : ∀ b : Ref sig .tc, b ≠ main_v4 → W2 m c b = A0 m c b := fun b hb =>
    Function.update_of_ne (StableHlo.devRef_ne_of_ne hb) _ _
  have h4 : W2 m c main_v4 = (dats0 (A0 m) c).arrAt 4 cfg0.N := by
    show Function.update (W1 m c) _ (X4 m c) _ = _
    rw [Function.update_self]; rfl
  iintro ⟨Ha, HO, -, Hr⟩
  imodintro
  isplitl [Ha Hr]
  · iapply (unscopedBufs_of_arrays0 (A0 m) c (fun w => (dats0 (A0 m) c).arrAt w cfg0.N)
      (fun w hw => ((dats0 (A0 m) c).arrAt_in w hw _).trans (A0_eq (A0 m) c w)) (fun b => W2 m c b) hV h4)
    isplitl [Ha]; · iexact Ha
    iexact Hr
  iapply (owesAt0_elim (A0 m) c _); iexact HO

set_option backward.isDefEq.respectTransparency.types false in
/-- THE FIRST REGION: the launch's layout, no semaphore of the kernel's own, the body obligation; entered from what the
    first six host operations left, left with the result's buffer at the weighted sum. -/
def reg0 : RegionSeg (pcfgs (F := F)) adm0 (pdats m) () defs₀ Variants.none L0 lv0 0 where
  win := winFacts₀0
  block_pos := block_pos0
  stage_whole := stage_whole0
  K := PEmpty
  osem k := k.elim
  ho := Pipeline.OwnSemFacts.none _
  hbody c := (body_obligation0 (A0 m) c).loose
  hwaits := Pipeline.hwaits_of_owed_zero _ _ _ _ L0 lv0 0 fun _ _ => rfl
  pre c := iprop(StableHlo.held (c : Thread nD τ) (Pipeline.ucRefs τ sig) (W1 m c) ∗ Eown c)
  post c := iprop(StableHlo.held (c : Thread nD τ) (Pipeline.ucRefs τ sig) (W2 m c) ∗ Eown c)
  X c := iprop(emp)
  Y c := iprop(emp)
  Z c := Pipeline.unscopedRest (Ix := Unit) (Name := ℕ) (U := UR sig nD τ) (Lvl := ℕ) spec0 c (A0 m c)
  hentry c := reg0_hentry m c _ _
  hin c := reg0_hin m c _ _
  hout c := reg0_hout m c
  hexit c := reg0_hexit m c _

end Cert.Kernel.Hand

end
-- ==== Proof.WRegion1.lean ====
import proofs.«166369_j11106785428164_2_alg».proof.Proof.WData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## The second region's windows, buffer by buffer

Stated over any contents `A c b` of the unscoped buffers at the region's entry, as the region's proof data is. -/

section Generic

variable (A : (c : Dev nD) → (b : Ref sig .tc) → Buf (Elt F) ((c : Thread nD τ).loc b))

/-- The distinct buffers behind the five windows' arrays, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v3) ↦{fullShare} V main_v3)
          ∗ (((c : Thread nD τ).loc main_v6) ↦{fullShare} V main_v6)) := by
  unfold Pipeline.arrBufs
  exact bigSep_eq_bigSepL_of_eq [main_arg1, main_v3, main_v6] (by decide) (by decide) _

theorem share1_0 (c : Dev nD) : (dats1 A c).share 0 = fullShare.left := rfl
theorem share1_1 (c : Dev nD) : (dats1 A c).share 1 = fullShare.right := rfl
theorem share1_2 (c : Dev nD) : (dats1 A c).share 2 = fullShare.left := rfl
theorem share1_3 (c : Dev nD) : (dats1 A c).share 3 = fullShare.right := rfl
theorem share1_4 (c : Dev nD) : (dats1 A c).share 4 = fullShare := rfl

/-- The pipeline's arrays, window by window: the two halves of each shared operand, the result whole. -/
theorem arrays1_eq (c : Dev nD) (G : (w : Fin cfg1.W) → Buf (Elt F) ((cfg1.win w).arr.view.loc (c : Thread nD τ))) :
    ((dats1 A c).arrays G : sProp 𝕄)
      = iprop((((c : Thread nD τ).loc main_arg1) ↦{fullShare.left} G 0) ∗ (((c : Thread nD τ).loc main_arg1) ↦{fullShare.right} G 1)
          ∗ (((c : Thread nD τ).loc main_v3) ↦{fullShare.left} G 2) ∗ (((c : Thread nD τ).loc main_v3) ↦{fullShare.right} G 3)
          ∗ (((c : Thread nD τ).loc main_v6) ↦{fullShare} G 4)) := by
  unfold Dat.arrays
  rw [bigSep_W1, share1_0, share1_1, share1_2, share1_3, share1_4,
    (arr_whole1 0).set_eq_univ, (arr_whole1 2).set_eq_univ, (arr_whole1 4).set_eq_univ]

/-- A core's unscoped buffers: the three buffers behind the windows' arrays, and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ cfgs 1 winFacts₀1.arr_unscoped c V

/-- ENTRY, the arrays: each shared operand's buffer is split in two halves, one per window reading it. -/
theorem arrays1_of_arrBufs (c : Dev nD) (G : (w : Fin cfg1.W) → Buf (Elt F) ((cfg1.win w).arr.view.loc (c : Thread nD τ)))
    (hG : ∀ w, G w = A c (Pipeline.arrRef spec1 w)) :
    (Pipeline.arrBufs (Ix := Unit) (Name := ℕ) (U := UR sig nD τ) (Lvl := ℕ) spec1 c (A c) : sProp 𝕄) ⊢ (dats1 A c).arrays G := by
  rw [arrBufs1_eq, arrays1_eq, hG 0, hG 1, hG 2, hG 3, hG 4]
  iintro ⟨H0, H2, H4⟩
  ihave H0 := (pointsTo_share (PosShare.mem_left_op_right fullShare)).1 $$ H0
  icases H0 with ⟨H0l, H0r⟩
  ihave H2 := (pointsTo_share (PosShare.mem_left_op_right fullShare)).1 $$ H2
  icases H2 with ⟨H2l, H2r⟩
  isplitl [H0l]; · iexact H0l
  isplitl [H0r]; · iexact H0r
  isplitl [H2l]; · iexact H2l
  isplitl [H2r]; · iexact H2r
  iexact H4

/-- EXIT, the arrays: the halves of each shared operand joined back; the result's buffer at what the region left. -/
theorem arrBufs_of_arrays1 (c : Dev nD) (G : (w : Fin cfg1.W) → Buf (Elt F) ((cfg1.win w).arr.view.loc (c : Thread nD τ)))
    (hG : ∀ w, (cfg1.win w).isOut = false → G w = A c (Pipeline.arrRef spec1 w))
    (V' : (b : Ref sig .tc) → Buf (Elt F) ((c : Thread nD τ).loc b)) (h0 : V' main_arg1 = A c main_arg1) (h2 : V' main_v3 = A c main_v3)
    (h4 : V' main_v6 = G 4) :
    ((dats1 A c).arrays G : sProp 𝕄) ⊢ Pipeline.arrBufs (Ix := Unit) (Name := ℕ) (U := UR sig nD τ) (Lvl := ℕ) spec1 c V' := by
  rw [arrBufs1_eq, arrays1_eq, hG 0 rfl, hG 1 rfl, hG 2 rfl, hG 3 rfl, h0, h2, h4]
  iintro ⟨H0l, H0r, H2l, H2r, H4⟩
  ihave H0 := (pointsTo_share (PosShare.mem_left_op_right fullShare)).2 $$ [H0l H0r]
  · isplitl [H0l] <;> iassumption
  ihave H2 := (pointsTo_share (PosShare.mem_left_op_right fullShare)).2 $$ [H2l H2r]
  · isplitl [H2l] <;> iassumption
  isplitl [H0]; · iexact H0
  isplitl [H2]; · iexact H2
  iexact H4

/-- The buffers that are no window's array do not see a change of the result's buffer. -/
theorem unscopedRest1_congr (c : Dev nD) (V V' : (b : Ref sig .tc) → Buf (Elt F) ((c : Thread nD τ).loc b))
    (h : ∀ b, b ≠ main_v6 → V' b = V b) :
    (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c V := by
  unfold Pipeline.unscopedRest
  refine bigSep_congr fun b hb => ?_
  have hb' := (Finset.mem_sdiff.mp hb).2
  rw [h b fun e => hb' (by rw [e]; exact Finset.mem_image.mpr ⟨4, Finset.mem_univ _, rfl⟩)]

/-- EXIT, all the unscoped buffers: the arrays and the rest make the buffers at the valuation that differs from the
    entry's at the result's buffer only. -/
theorem unscopedBufs_of_arrays1 (c : Dev nD) (G : (w : Fin cfg1.W) → Buf (Elt F) ((cfg1.win w).arr.view.loc (c : Thread nD τ)))
    (hG : ∀ w, (cfg1.win w).isOut = false → G w = A c (Pipeline.arrRef spec1 w))
    (V' : (b : Ref sig .tc) → Buf (Elt F) ((c : Thread nD τ).loc b)) (hV : ∀ b, b ≠ main_v6 → V' b = A c b) (h4 : V' main_v6 = G 4) :
    iprop((dats1 A c).arrays G ∗ Pipeline.unscopedRest (Ix := Unit) (Name := ℕ) (U := UR sig nD τ) (Lvl := ℕ) spec1 c (A c))
      ⊢ (unscopedBufs (Ix := Unit) (Name := ℕ) (U := UR sig nD τ) (Lvl := ℕ) c V' : sProp 𝕄) := by
  rw [unscopedBufs1_split, unscopedRest1_congr c (A c) V' hV]
  exact sep_mono (arrBufs_of_arrays1 A c G hG V' (hV _ (by decide)) (hV _ (by decide)) h4) .rfl

/-- The core's `owes` as a pipeline point's: the proof data owes nothing and bounds the recorded pairs by nothing. -/
theorem owesAt1_intro (c : Dev nD) (t : Fin (cfg1.N + 1)) :
    iprop(∃ W, owes (c : Thread nD τ) (0 : CellTallies nD τ sig Unit) W) ⊢ ((dats1 A c).owesAt () t : sProp 𝕄) := by
  unfold Pipeline.Dat.owesAt Pipeline.owesWithin Pipeline.Dat.bound
  rw [show (dats1 A c).owed t = 0 from rfl, show (dats1 A c).recorded t = Set.univ from rfl]
  iintro ⟨%W, HO⟩; iexists W; isplitr; · ipureintro; exact fun _ _ => Or.inl trivial
  iexact HO
theorem owesAt1_elim (c : Dev nD) (t : Fin (cfg1.N + 1)) :
    ((dats1 A c).owesAt () t : sProp 𝕄) ⊢ iprop(∃ W, owes (c : Thread nD τ) (0 : CellTallies nD τ sig Unit) W) := by
  unfold Pipeline.Dat.owesAt Pipeline.owesWithin
  rw [show (dats1 A c).owed t = 0 from rfl]
  iintro ⟨%W, -, HO⟩; iexists W; iexact HO

/-- The scoped buffers no window stages: the accumulator at some contents, and the others unopened. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ restS1 c) :=
  Pipeline.scopedRest_split_of_list spec1 c [cc1_scratch0] (by decide) (by decide)

/-- The invariant at the first point, from the scoped buffers no window stages: the accumulator at anything. -/
theorem Phi1_of_scopedRest (c : Dev nD) :
    (Pipeline.scopedRest (Ix := Unit) (Name := ℕ) (U := UR sig nD τ) (Lvl := ℕ) (Val := Elt F) spec1 c : sProp 𝕄) ⊢ Phi1 A c 0 := by
  unfold Phi1
  rw [scopedRest1_split]
  simp only [owns_whole_eq]
  iintro ⟨⟨%f, Hs⟩, Hr⟩
  isplitl [Hs]
  · iexists f
    isplitr; · ipureintro; intro h; exact absurd rfl h
    iexists f; isplitr; · ipureintro; rfl
    iexact Hs
  iexact Hr

/-- The invariant at any point gives the scoped buffers back. -/
theorem scopedRest_of_Phi1 (c : Dev nD) (t : Fin (cfg1.N + 1)) :
    Phi1 A c t ⊢ (Pipeline.scopedRest (Ix := Unit) (Name := ℕ) (U := UR sig nD τ) (Lvl := ℕ) (Val := Elt F) spec1 c : sProp 𝕄) := by
  unfold Phi1
  rw [scopedRest1_split]
  simp only [owns_whole_eq]
  iintro ⟨⟨%xs, -, ⟨%f, -, Hs⟩⟩, Hr⟩
  isplitl [Hs]; · iexists f; iexact Hs
  iexact Hr

end Generic

/-! ## The second region's protocol

The region is entered holding every unscoped buffer whole at what the reshape after the first region left, and the core owing
nothing. Its five windows sit on three buffers: the second argument (windows 0 and 1, each reading its own row block),
the uniform weights (windows 2 and 3) and the one-element result (window 4). Each shared operand is held half by
each of its two windows, so its buffer is split in two at the entry and joined back at the exit; the result's buffer
goes in whole and comes back at what the write-back at the last point left; every other unscoped buffer bypasses the
region. The accumulator is a scoped buffer: the invariant takes it, at anything, out of the scoped buffers no window
stages, and gives it back at the end. -/

variable (m : (ℓ : Loc nD τ sig) → Buf (Elt F) ℓ)

/-- ENTRY: the unscoped buffers at the entry valuation are the windows' arrays at their entry contents, each shared
    operand in two halves, and the buffers that are no window's array; no table is prefetched; the core owes nothing. -/
theorem reg1_hentry (c : Dev nD) (P Q : sProp 𝕄) :
    iprop((StableHlo.held (c : Thread nD τ) (Pipeline.ucRefs τ sig) (W3 m c) ∗ Eown c) ∗ P ∗ Q)
      ⊢ |={Set.univ}=> iprop((dats1 (A1 m) c).arrays (fun w => (dats1 (A1 m) c).arrAt w 0)
          ∗ Pipeline.prefHeld (pcfgs (F := F) 1).pre c (fun _ => fullShare) (adm0 (F := F) 1).1
          ∗ (dats1 (A1 m) c).owesAt () 0 ∗ emp
          ∗ Pipeline.unscopedRest (Ix := Unit) (Name := ℕ) (U := UR sig nD τ) (Lvl := ℕ) spec1 c (A1 m c)) := by
  rw [show StableHlo.held (c : Thread nD τ) (Pipeline.ucRefs τ sig) (W3 m c)
      = unscopedBufs (Ix := Unit) (Name := ℕ) (U := UR sig nD τ) (Lvl := ℕ) c (A1 m c) from (Pipeline.unscopedBufs_held c _).symm,
    unscopedBufs1_split]
  iintro ⟨⟨⟨Ha, Hr⟩, HO⟩, -, -⟩
  ihave Ha := (arrays1_of_arrBufs (A1 m) c (fun w => (dats1 (A1 m) c).arrAt w 0) fun _ => rfl) $$ Ha
  imodintro
  isplitl [Ha]; · iexact Ha
  isplitr; · unfold Pipeline.prefHeld; rw [show (Finset.univ : Finset (Fin 0)) = ∅ from rfl, BI.bigSep_empty]; iempintro
  isplitl [HO]; · iapply (owesAt1_intro (A1 m) c 0); iexact HO
  isplitr; · iempintro
  iexact Hr

/-- The invariant at the first point: the accumulator, at whatever it holds, out of the scoped buffers. -/
theorem reg1_hin (c : Dev nD) (P Q : sProp 𝕄) :
    iprop(P ∗ Q ∗ Pipeline.scopedRest (Ix := Unit) (Name := ℕ) (U := UR sig nD τ) (Lvl := ℕ) (Val := Elt F) spec1 c) ⊢ Phi1 (A1 m) c 0 := by
  iintro ⟨-, -, Hr⟩
  iapply (Phi1_of_scopedRest (A1 m) c); iexact Hr

/-- The invariant at the last point gives the scoped buffers back; the kernel has no semaphore of its own. -/
theorem reg1_hout (c : Dev nD) :
    Phi1 (A1 m) c (Fin.last cfg1.N)
      ⊢ iprop(emp ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec1 c) := by
  rw [Pipeline.ownSems0_none]
  iintro H
  isplitr; · iempintro
  isplitr; · iempintro
  iapply (scopedRest_of_Phi1 (A1 m) c _); iexact H

/-- EXIT: an operand's array is never written, so its two halves join back to the buffer as the region found it; the
    result's buffer holds what the last write-back left; with the buffers that bypassed the region these are all the
    unscoped buffers at the entry valuation updated at the result. -/
theorem reg1_hexit (c : Dev nD) (P : sProp 𝕄) :
    iprop((dats1 (A1 m) c).arrays (fun w => (dats1 (A1 m) c).arrAt w cfg1.N) ∗ (dats1 (A1 m) c).owesAt () (Fin.last cfg1.N) ∗ P
        ∗ Pipeline.unscopedRest (Ix := Unit) (Name := ℕ) (U := UR sig nD τ) (Lvl := ℕ) spec1 c (A1 m c))
      ⊢ |={Set.univ}=> iprop(StableHlo.held (c : Thread nD τ) (Pipeline.ucRefs τ sig) (W4 m c) ∗ Eown c) := by
  rw [show StableHlo.held (c : Thread nD τ) (Pipeline.ucRefs τ sig) (W4 m c)
      = unscopedBufs (Ix := Unit) (Name := ℕ) (U := UR sig nD τ) (Lvl := ℕ) c (fun b => W4 m c b) from (Pipeline.unscopedBufs_held c _).symm]
  have hV : ∀ b : Ref sig .tc, b ≠ main_v6 → W4 m c b = A1 m c b := fun b hb =>
    Function.update_of_ne (StableHlo.devRef_ne_of_ne hb) _ _
  have h4 : W4 m c main_v6 = (dats1 (A1 m) c).arrAt 4 cfg1.N := by
    show Function.update (W3 m c) _ (X6 m c) _ = _
    rw [Function.update_self]; rfl
  iintro ⟨Ha, HO, -, Hr⟩
  imodintro
  isplitl [Ha Hr]
  · iapply (unscopedBufs_of_arrays1 (A1 m) c (fun w => (dats1 (A1 m) c).arrAt w cfg1.N)
      (fun w hw => ((dats1 (A1 m) c).arrAt_in w hw _).trans (A1_eq (A1 m) c w)) (fun b => W4 m c b) hV h4)
    isplitl [Ha]; · iexact Ha
    iexact Hr
  iapply (owesAt1_elim (A1 m) c _); iexact HO

set_option backward.isDefEq.respectTransparency.types false in
/-- THE SECOND REGION: the launch's layout, no semaphore of the kernel's own, the body obligation; entered from what the
    reshape after the first region left, left with the result's buffer at the uniformly weighted sum. -/
def reg1 : RegionSeg (pcfgs (F := F)) adm0 (pdats m) () defs₀ Variants.none L0 lv0 1 where
  win := winFacts₀1
  block_pos := block_pos1
  stage_whole := stage_whole1
  K := PEmpty
  osem k := k.elim
  ho := Pipeline.OwnSemFacts.none _
  hbody c := (body_obligation1 (A1 m) c).loose
  hwaits := Pipeline.hwaits_of_owed_zero _ _ _ _ L0 lv0 1 fun _ _ => rfl
  pre c := iprop(StableHlo.held (c : Thread nD τ) (Pipeline.ucRefs τ sig) (W3 m c) ∗ Eown c)
  post c := iprop(StableHlo.held (c : Thread nD τ) (Pipeline.ucRefs τ sig) (W4 m c) ∗ Eown c)
  X c := iprop(emp)
  Y c := iprop(emp)
  Z c := Pipeline.unscopedRest (Ix := Unit) (Name := ℕ) (U := UR sig nD τ) (Lvl := ℕ) spec1 c (A1 m c)
  hentry c := reg1_hentry m c _ _
  hin c := reg1_hin m c _ _
  hout c := reg1_hout m c
  hexit c := reg1_hexit m c _

end Cert.Kernel.Hand

end
-- ==== Proof.WRegion2.lean ====
import proofs.«166369_j11106785428164_2_alg».proof.Proof.WData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

/-! ## The third region's windows, buffer by buffer

Stated over any contents `A c b` of the unscoped buffers at the region's entry, as the region's proof data is. -/

section Generic

variable (A : (c : Dev nD) → (b : Ref sig .tc) → Buf (Elt F) ((c : Thread nD τ).loc b))

/-- The buffers behind the five windows' arrays, listed: five distinct buffers. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg0) ↦{fullShare} V main_arg0) ∗ (((c : Thread nD τ).loc main_arg1) ↦{fullShare} V main_arg1)
          ∗ (((c : Thread nD τ).loc main_v2) ↦{fullShare} V main_v2) ∗ (((c : Thread nD τ).loc main_v3) ↦{fullShare} V main_v3)
          ∗ (((c : Thread nD τ).loc main_v8) ↦{fullShare} V main_v8)) := by
  unfold Pipeline.arrBufs
  exact bigSep_eq_bigSepL_of_eq [main_arg0, main_arg1, main_v2, main_v3, main_v8] (by decide) (by decide) _

theorem share2_0 (c : Dev nD) : (dats2 A c).share 0 = fullShare := rfl
theorem share2_1 (c : Dev nD) : (dats2 A c).share 1 = fullShare := rfl
theorem share2_2 (c : Dev nD) : (dats2 A c).share 2 = fullShare := rfl
theorem share2_3 (c : Dev nD) : (dats2 A c).share 3 = fullShare := rfl
theorem share2_4 (c : Dev nD) : (dats2 A c).share 4 = fullShare := rfl

/-- The pipeline's arrays, window by window: each window has its own buffer, whole. -/
theorem arrays2_eq (c : Dev nD) (G : (w : Fin cfg2.W) → Buf (Elt F) ((cfg2.win w).arr.view.loc (c : Thread nD τ))) :
    ((dats2 A c).arrays G : sProp 𝕄)
      = iprop((((c : Thread nD τ).loc main_arg0) ↦{fullShare} G 0) ∗ (((c : Thread nD τ).loc main_arg1) ↦{fullShare} G 1)
          ∗ (((c : Thread nD τ).loc main_v2) ↦{fullShare} G 2) ∗ (((c : Thread nD τ).loc main_v3) ↦{fullShare} G 3)
          ∗ (((c : Thread nD τ).loc main_v8) ↦{fullShare} G 4)) := by
  unfold Dat.arrays
  rw [bigSep_W2, share2_0, share2_1, share2_2, share2_3, share2_4,
    (arr_whole2 0).set_eq_univ, (arr_whole2 1).set_eq_univ, (arr_whole2 2).set_eq_univ, (arr_whole2 3).set_eq_univ, (arr_whole2 4).set_eq_univ]

/-- A core's unscoped buffers: the five buffers behind the windows' arrays, and the rest. -/
theorem unscopedBufs2_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec2 c V
          ∗ Pipeline.unscopedRest (Ix := Unit) (Name := ℕ) (U := UR sig nD τ) (Lvl := ℕ) spec2 c V) :=
  Pipeline.unscopedBufs_split₀ cfgs 2 winFacts2.arr_unscoped c V

/-- ENTRY, the arrays: each window's array is its buffer, whole. -/
theorem arrays2_of_arrBufs (c : Dev nD) (G : (w : Fin cfg2.W) → Buf (Elt F) ((cfg2.win w).arr.view.loc (c : Thread nD τ)))
    (g0 : G 0 = A c main_arg0) (g1 : G 1 = A c main_arg1) (g2 : G 2 = A c main_v2) (g3 : G 3 = A c main_v3) (g4 : G 4 = A c main_v8) :
    (Pipeline.arrBufs (Ix := Unit) (Name := ℕ) (U := UR sig nD τ) (Lvl := ℕ) spec2 c (A c) : sProp 𝕄) ⊢ (dats2 A c).arrays G := by
  refine Entails.of_eq ?_
  rw [arrBufs2_eq, arrays2_eq, g0, g1, g2, g3, g4]

/-- EXIT, the arrays: the operands' buffers as the region found them; the result's buffer at what the region left. -/
theorem arrBufs_of_arrays2 (c : Dev nD) (G : (w : Fin cfg2.W) → Buf (Elt F) ((cfg2.win w).arr.view.loc (c : Thread nD τ)))
    (g0 : G 0 = A c main_arg0) (g1 : G 1 = A c main_arg1) (g2 : G 2 = A c main_v2) (g3 : G 3 = A c main_v3)
    (V' : (b : Ref sig .tc) → Buf (Elt F) ((c : Thread nD τ).loc b)) (h0 : V' main_arg0 = A c main_arg0) (h1 : V' main_arg1 = A c main_arg1)
    (h2 : V' main_v2 = A c main_v2) (h3 : V' main_v3 = A c main_v3) (h4 : V' main_v8 = G 4) :
    ((dats2 A c).arrays G : sProp 𝕄) ⊢ Pipeline.arrBufs (Ix := Unit) (Name := ℕ) (U := UR sig nD τ) (Lvl := ℕ) spec2 c V' := by
  refine Entails.of_eq ?_
  rw [arrBufs2_eq, arrays2_eq, g0, g1, g2, g3, h0, h1, h2, h3, h4]

/-- The buffers that are no window's array do not see a change of the result's buffer. -/
theorem unscopedRest2_congr (c : Dev nD) (V V' : (b : Ref sig .tc) → Buf (Elt F) ((c : Thread nD τ).loc b))
    (h : ∀ b, b ≠ main_v8 → V' b = V b) :
    (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c V := by
  unfold Pipeline.unscopedRest
  refine bigSep_congr fun b hb => ?_
  have hb' := (Finset.mem_sdiff.mp hb).2
  rw [h b fun e => hb' (by rw [e]; exact Finset.mem_image.mpr ⟨4, Finset.mem_univ _, rfl⟩)]

/-- EXIT, all the unscoped buffers: the arrays and the rest make the buffers at the valuation that differs from the
    entry's at the result's buffer only. -/
theorem unscopedBufs_of_arrays2 (c : Dev nD) (G : (w : Fin cfg2.W) → Buf (Elt F) ((cfg2.win w).arr.view.loc (c : Thread nD τ)))
    (g0 : G 0 = A c main_arg0) (g1 : G 1 = A c main_arg1) (g2 : G 2 = A c main_v2) (g3 : G 3 = A c main_v3)
    (V' : (b : Ref sig .tc) → Buf (Elt F) ((c : Thread nD τ).loc b)) (hV : ∀ b, b ≠ main_v8 → V' b = A c b) (h4 : V' main_v8 = G 4) :
    iprop((dats2 A c).arrays G ∗ Pipeline.unscopedRest (Ix := Unit) (Name := ℕ) (U := UR sig nD τ) (Lvl := ℕ) spec2 c (A c))
      ⊢ (unscopedBufs (Ix := Unit) (Name := ℕ) (U := UR sig nD τ) (Lvl := ℕ) c V' : sProp 𝕄) := by
  rw [unscopedBufs2_split, unscopedRest2_congr c (A c) V' hV]
  exact sep_mono (arrBufs_of_arrays2 A c G g0 g1 g2 g3 V' (hV _ (by decide)) (hV _ (by decide)) (hV _ (by decide)) (hV _ (by decide)) h4) .rfl

/-- The core's `owes` as a pipeline point's: the proof data owes nothing and bounds the recorded pairs by nothing. -/
theorem owesAt2_intro (c : Dev nD) (t : Fin (cfg2.N + 1)) :
    iprop(∃ W, owes (c : Thread nD τ) (0 : CellTallies nD τ sig Unit) W) ⊢ ((dats2 A c).owesAt () t : sProp 𝕄) := by
  unfold Pipeline.Dat.owesAt Pipeline.owesWithin Pipeline.Dat.bound
  rw [show (dats2 A c).owed t = 0 from rfl, show (dats2 A c).recorded t = Set.univ from rfl]
  iintro ⟨%W, HO⟩; iexists W; isplitr; · ipureintro; exact fun _ _ => Or.inl trivial
  iexact HO
theorem owesAt2_elim (c : Dev nD) (t : Fin (cfg2.N + 1)) :
    ((dats2 A c).owesAt () t : sProp 𝕄) ⊢ iprop(∃ W, owes (c : Thread nD τ) (0 : CellTallies nD τ sig Unit) W) := by
  unfold Pipeline.Dat.owesAt Pipeline.owesWithin
  rw [show (dats2 A c).owed t = 0 from rfl]
  iintro ⟨%W, -, HO⟩; iexists W; iexact HO

/-- The scoped buffers no window stages: the accumulator at some contents, and the others unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restS2 c) :=
  Pipeline.scopedRest_split_of_list spec2 c [cc2_scratch0] (by decide) (by decide)

/-- The invariant at the first point, from the scoped buffers no window stages: the accumulator at anything. -/
theorem Phi2_of_scopedRest (c : Dev nD) :
    (Pipeline.scopedRest (Ix := Unit) (Name := ℕ) (U := UR sig nD τ) (Lvl := ℕ) (Val := Elt F) spec2 c : sProp 𝕄) ⊢ Phi2 A c 0 := by
  unfold Phi2
  rw [scopedRest2_split]
  simp only [owns_whole_eq]
  iintro ⟨⟨%f, Hs⟩, Hr⟩
  isplitl [Hs]
  · iexists f
    isplitr; · ipureintro; intro h; exact absurd rfl h
    iexists f; isplitr; · ipureintro; rfl
    iexact Hs
  iexact Hr

/-- The invariant at any point gives the scoped buffers back. -/
theorem scopedRest_of_Phi2 (c : Dev nD) (t : Fin (cfg2.N + 1)) :
    Phi2 A c t ⊢ (Pipeline.scopedRest (Ix := Unit) (Name := ℕ) (U := UR sig nD τ) (Lvl := ℕ) (Val := Elt F) spec2 c : sProp 𝕄) := by
  unfold Phi2
  rw [scopedRest2_split]
  simp only [owns_whole_eq]
  iintro ⟨⟨%xs, -, ⟨%f, -, Hs⟩⟩, Hr⟩
  isplitl [Hs]; · iexists f; iexact Hs
  iexact Hr

end Generic

/-! ## The third region's protocol

The region is entered holding every unscoped buffer whole at what the reshape after the second region left, and the
core owing nothing. Its five windows sit on five distinct buffers: the two arguments (windows 0 and 1), the normalised
and the uniform weights (windows 2 and 3) and the one-element result (window 4); each window holds its array whole, so
no share is split. The result's buffer goes in whole and comes back at what the write-back at the last point left;
every other unscoped buffer bypasses the region. The accumulator is a scoped buffer: the invariant takes it, at
anything, out of the scoped buffers no window stages, and gives it back at the end. -/

variable (m : (ℓ : Loc nD τ sig) → Buf (Elt F) ℓ)

/-- ENTRY: the unscoped buffers at the entry valuation are the windows' arrays at their entry contents and the buffers
    that are no window's array; no table is prefetched; the core owes nothing. -/
theorem reg2_hentry (c : Dev nD) (P Q : sProp 𝕄) :
    iprop((StableHlo.held (c : Thread nD τ) (Pipeline.ucRefs τ sig) (W5 m c) ∗ Eown c) ∗ P ∗ Q)
      ⊢ |={Set.univ}=> iprop((dats2 (A2 m) c).arrays (fun w => (dats2 (A2 m) c).arrAt w 0)
          ∗ Pipeline.prefHeld (pcfgs (F := F) 2).pre c (fun _ => fullShare) (adm0 (F := F) 2).1
          ∗ (dats2 (A2 m) c).owesAt () 0 ∗ emp
          ∗ Pipeline.unscopedRest (Ix := Unit) (Name := ℕ) (U := UR sig nD τ) (Lvl := ℕ) spec2 c (A2 m c)) := by
  rw [show StableHlo.held (c : Thread nD τ) (Pipeline.ucRefs τ sig) (W5 m c)
      = unscopedBufs (Ix := Unit) (Name := ℕ) (U := UR sig nD τ) (Lvl := ℕ) c (A2 m c) from (Pipeline.unscopedBufs_held c _).symm,
    unscopedBufs2_split]
  iintro ⟨⟨⟨Ha, Hr⟩, HO⟩, -, -⟩
  ihave Ha := (arrays2_of_arrBufs (A2 m) c (fun w => (dats2 (A2 m) c).arrAt w 0) rfl rfl rfl rfl rfl) $$ Ha
  imodintro
  isplitl [Ha]; · iexact Ha
  isplitr; · unfold Pipeline.prefHeld; rw [show (Finset.univ : Finset (Fin 0)) = ∅ from rfl, BI.bigSep_empty]; iempintro
  isplitl [HO]; · iapply (owesAt2_intro (A2 m) c 0); iexact HO
  isplitr; · iempintro
  iexact Hr

/-- The invariant at the first point: the accumulator, at whatever it holds, out of the scoped buffers. -/
theorem reg2_hin (c : Dev nD) (P Q : sProp 𝕄) :
    iprop(P ∗ Q ∗ Pipeline.scopedRest (Ix := Unit) (Name := ℕ) (U := UR sig nD τ) (Lvl := ℕ) (Val := Elt F) spec2 c) ⊢ Phi2 (A2 m) c 0 := by
  iintro ⟨-, -, Hr⟩
  iapply (Phi2_of_scopedRest (A2 m) c); iexact Hr

/-- The invariant at the last point gives the scoped buffers back; the kernel has no semaphore of its own. -/
theorem reg2_hout (c : Dev nD) :
    Phi2 (A2 m) c (Fin.last cfg2.N)
      ⊢ iprop(emp ∗ Pipeline.ownSems0 (Ix := Unit) (Name := ℕ) (U := UR sig nD τ) (Lvl := ℕ) (Val := Elt F) (τ := τ) (fun k : PEmpty => k.elim) c
          ∗ Pipeline.scopedRest (Ix := Unit) (Name := ℕ) (U := UR sig nD τ) (Lvl := ℕ) (Val := Elt F) spec2 c) := by
  rw [Pipeline.ownSems0_none]
  iintro H
  isplitr; · iempintro
  isplitr; · iempintro
  iapply (scopedRest_of_Phi2 (A2 m) c _); iexact H

/-- EXIT: an operand's array is never written, so its buffer is as the region found it; the result's buffer holds what
    the last write-back left; with the buffers that bypassed the region these are all the unscoped buffers at the entry
    valuation updated at the result. -/
theorem reg2_hexit (c : Dev nD) (P : sProp 𝕄) :
    iprop((dats2 (A2 m) c).arrays (fun w => (dats2 (A2 m) c).arrAt w cfg2.N) ∗ (dats2 (A2 m) c).owesAt () (Fin.last cfg2.N) ∗ P
        ∗ Pipeline.unscopedRest (Ix := Unit) (Name := ℕ) (U := UR sig nD τ) (Lvl := ℕ) spec2 c (A2 m c))
      ⊢ |={Set.univ}=> iprop(StableHlo.held (c : Thread nD τ) (Pipeline.ucRefs τ sig) (W6 m c) ∗ Eown c) := by
  rw [show StableHlo.held (c : Thread nD τ) (Pipeline.ucRefs τ sig) (W6 m c)
      = unscopedBufs (Ix := Unit) (Name := ℕ) (U := UR sig nD τ) (Lvl := ℕ) c (fun b => W6 m c b) from (Pipeline.unscopedBufs_held c _).symm]
  have hV : ∀ b : Ref sig .tc, b ≠ main_v8 → W6 m c b = A2 m c b := fun b hb =>
    Function.update_of_ne (StableHlo.devRef_ne_of_ne hb) _ _
  have h4 : W6 m c main_v8 = (dats2 (A2 m) c).arrAt 4 cfg2.N := by
    show Function.update (W5 m c) _ (X8 m c) _ = _
    rw [Function.update_self]; rfl
  have hin : ∀ w, (cfg2.win w).isOut = false → (dats2 (A2 m) c).arrAt w cfg2.N = A2 m c (Pipeline.arrRef spec2 w) := fun w hw =>
    ((dats2 (A2 m) c).arrAt_in w hw _).trans (A2_eq (A2 m) c w)
  iintro ⟨Ha, HO, -, Hr⟩
  imodintro
  isplitl [Ha Hr]
  · iapply (unscopedBufs_of_arrays2 (A2 m) c (fun w => (dats2 (A2 m) c).arrAt w cfg2.N)
      (hin 0 rfl) (hin 1 rfl) (hin 2 rfl) (hin 3 rfl) (fun b => W6 m c b) hV h4)
    isplitl [Ha]; · iexact Ha
    iexact Hr
  iapply (owesAt2_elim (A2 m) c _); iexact HO

set_option backward.isDefEq.respectTransparency.types false in
/-- THE THIRD REGION: the launch's layout, no semaphore of the kernel's own, the body obligation; entered from what the
    reshape after the second region left, left with the result's buffer at the cross term. -/
def reg2 : RegionSeg (pcfgs (F := F)) adm0 (pdats m) () defs₀ Variants.none L0 lv0 2 where
  win := winFacts2.to₀
  block_pos := block_pos2
  stage_whole := stage_whole2
  K := PEmpty
  osem k := k.elim
  ho := Pipeline.OwnSemFacts.none _
  hbody c := (body_obligation2 (A2 m) c).loose
  hwaits := Pipeline.hwaits_of_owed_zero _ _ _ _ L0 lv0 2 fun _ _ => rfl
  pre c := iprop(StableHlo.held (c : Thread nD τ) (Pipeline.ucRefs τ sig) (W5 m c) ∗ Eown c)
  post c := iprop(StableHlo.held (c : Thread nD τ) (Pipeline.ucRefs τ sig) (W6 m c) ∗ Eown c)
  X c := iprop(emp)
  Y c := iprop(emp)
  Z c := Pipeline.unscopedRest (Ix := Unit) (Name := ℕ) (U := UR sig nD τ) (Lvl := ℕ) spec2 c (A2 m c)
  hentry c := reg2_hentry m c _ _
  hin c := reg2_hin m c _ _
  hout c := reg2_hout m c
  hexit c := reg2_hexit m c _

end Cert.Kernel.Hand

end
-- ==== Proof.WRunMain.lean ====
import proofs.«166369_j11106785428164_2_alg».proof.Proof.WRun
import proofs.«166369_j11106785428164_2_alg».proof.Proof.WRegion0
import proofs.«166369_j11106785428164_2_alg».proof.Proof.WRegion1
import proofs.«166369_j11106785428164_2_alg».proof.Proof.WRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN. Every weakly fair execution of the program from memory `m` with zero counters terminates, and every final
    memory holds the result buffer at the eight closing host operations of the three regions' sums, and each argument
    as launched: the three regions' records chain as they stand, each entered from exactly what the item before it left. -/
theorem run_main : θ_run defs (onTc (τ := τ) (main (F := F))) ⟨m, fun _ => 0, ρ⟩ (fun r => ∀ c : Dev nD,
      r.2.mem ((c.tc : Thread nD τ).loc main_v14) = W7 m c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m ρ (reg0 m) (fun _ => .rfl) (fun _ => .rfl) (reg1 m) (fun _ => .rfl) (fun _ => .rfl) (reg2 m) (fun _ => .rfl) (fun _ => .rfl)

end Cert.Kernel.Hand

end
-- ==== Proof.KTail.lean ====
import proofs.«166369_j11106785428164_2_alg».proof.Proof.Data
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the three regions leave in their result buffers -/

variable (m : (ℓ : Loc nD τ sig) → Buf (Elt F) ℓ)

theorem idx_out0 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- What the last point writes back is the one block of the one-element result array. -/
theorem flushedOut0_eq (c : Dev nD) (t : Fin cfg0.N) :
    (dats0 (A0 m) c).flushed 4 t = ((cfg0.win 4).blk t).view.read (Elt F) (outFin0 (A0 m) c) := by
  show (cfg0.win 4).cut (grid0.coords t) ((dats0 (A0 m) c).after 4 t) = _
  rw [after0_4]
  obtain ⟨e0, e1⟩ := idx_out0 t
  funext j
  show outFin0 (A0 m) c j = outFin0 (A0 m) c (((cfg0.win 4).blk t).view.emb j)
  congr 1
  funext a; apply Fin.ext
  match a with
  | ⟨0, _⟩ => show (j 0).val = win0_4.index t (0 : Fin 2) * 1 + 1 * (j 0).val; omega
  | ⟨1, _⟩ => show (j 1).val = win0_4.index t (1 : Fin 2) * 1 + 1 * (j 1).val; omega

theorem memOut0 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v4).slice (win0_4.rect t)).set ↔ _
  rw [View.set_slice_whole, Rect.mem_set_unit]
  exact Iff.rfl

/-- The region's result buffer ends holding the sum over all 256 tiles: the last point's block is the whole array. -/
theorem X4_eq (c : Dev nD) : X4 m c = outFin0 (A0 m) c := by
  unfold X4
  refine (dats0 (A0 m) c).arrAt_eq_of_cover 4 _ (fun t _ => flushedOut0_eq m c t) (fun i => ⟨tL0, (flush0_4 tL0).mpr rfl, ?_⟩)
  rw [memOut0]
  obtain ⟨e0, e1⟩ := idx_out0 tL0
  intro a
  match a with
  | ⟨0, _⟩ =>
    have hi : (i 0).val < 1 := (i 0).isLt
    show win0_4.index tL0 (0 : Fin 2) * 1 ≤ (i 0).val ∧ (i 0).val < win0_4.index tL0 (0 : Fin 2) * 1 + 1; omega
  | ⟨1, _⟩ =>
    have hi : (i 1).val < 1 := (i 1).isLt
    show win0_4.index tL0 (1 : Fin 2) * 1 ≤ (i 1).val ∧ (i 1).val < win0_4.index tL0 (1 : Fin 2) * 1 + 1; omega

theorem idx_out1 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- What the last point writes back is the one block of the one-element result array. -/
theorem flushedOut1_eq (c : Dev nD) (t : Fin cfg1.N) :
    (dats1 (A1 m) c).flushed 4 t = ((cfg1.win 4).blk t).view.read (Elt F) (outFin1 (A1 m) c) := by
  show (cfg1.win 4).cut (grid1.coords t) ((dats1 (A1 m) c).after 4 t) = _
  rw [after1_4]
  obtain ⟨e0, e1⟩ := idx_out1 t
  funext j
  show outFin1 (A1 m) c j = outFin1 (A1 m) c (((cfg1.win 4).blk t).view.emb j)
  congr 1
  funext a; apply Fin.ext
  match a with
  | ⟨0, _⟩ => show (j 0).val = win1_4.index t (0 : Fin 2) * 1 + 1 * (j 0).val; omega
  | ⟨1, _⟩ => show (j 1).val = win1_4.index t (1 : Fin 2) * 1 + 1 * (j 1).val; omega

theorem memOut1 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v6).slice (win1_4.rect t)).set ↔ _
  rw [View.set_slice_whole, Rect.mem_set_unit]
  exact Iff.rfl

/-- The region's result buffer ends holding the sum over all 256 tiles: the last point's block is the whole array. -/
theorem X6_eq (c : Dev nD) : X6 m c = outFin1 (A1 m) c := by
  unfold X6
  refine (dats1 (A1 m) c).arrAt_eq_of_cover 4 _ (fun t _ => flushedOut1_eq m c t) (fun i => ⟨tL1, (flush1_4 tL1).mpr rfl, ?_⟩)
  rw [memOut1]
  obtain ⟨e0, e1⟩ := idx_out1 tL1
  intro a
  match a with
  | ⟨0, _⟩ =>
    have hi : (i 0).val < 1 := (i 0).isLt
    show win1_4.index tL1 (0 : Fin 2) * 1 ≤ (i 0).val ∧ (i 0).val < win1_4.index tL1 (0 : Fin 2) * 1 + 1; omega
  | ⟨1, _⟩ =>
    have hi : (i 1).val < 1 := (i 1).isLt
    show win1_4.index tL1 (1 : Fin 2) * 1 ≤ (i 1).val ∧ (i 1).val < win1_4.index tL1 (1 : Fin 2) * 1 + 1; omega

theorem idx_out2 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

/-- What the last point writes back is the one block of the one-element result array. -/
theorem flushedOut2_eq (c : Dev nD) (t : Fin cfg2.N) :
    (dats2 (A2 m) c).flushed 4 t = ((cfg2.win 4).blk t).view.read (Elt F) (outFin2 (A2 m) c) := by
  show (cfg2.win 4).cut (grid2.coords t) ((dats2 (A2 m) c).after 4 t) = _
  rw [after2_4]
  obtain ⟨e0, e1⟩ := idx_out2 t
  funext j
  show outFin2 (A2 m) c j = outFin2 (A2 m) c (((cfg2.win 4).blk t).view.emb j)
  congr 1
  funext a; apply Fin.ext
  match a with
  | ⟨0, _⟩ => show (j 0).val = win2_4.index t (0 : Fin 2) * 1 + 1 * (j 0).val; omega
  | ⟨1, _⟩ => show (j 1).val = win2_4.index t (1 : Fin 2) * 1 + 1 * (j 1).val; omega

theorem memOut2 (t : Fin cfg2.N) (i : S1x1.Idx) :
    i ∈ ((cfg2.win 4).blk t).view.set ↔ ∀ a : Fin 2, win2_4.index t a * S1x1.size a ≤ (i a).val ∧ (i a).val < win2_4.index t a * S1x1.size a + S1x1.size a := by
  show i ∈ ((View.whole main_v8).slice (win2_4.rect t)).set ↔ _
  rw [View.set_slice_whole, Rect.mem_set_unit]
  exact Iff.rfl

/-- The region's result buffer ends holding the sum over all 256 tiles: the last point's block is the whole array. -/
theorem X8_eq (c : Dev nD) : X8 m c = outFin2 (A2 m) c := by
  unfold X8
  refine (dats2 (A2 m) c).arrAt_eq_of_cover 4 _ (fun t _ => flushedOut2_eq m c t) (fun i => ⟨tL2, (flush2_4 tL2).mpr rfl, ?_⟩)
  rw [memOut2]
  obtain ⟨e0, e1⟩ := idx_out2 tL2
  intro a
  match a with
  | ⟨0, _⟩ =>
    have hi : (i 0).val < 1 := (i 0).isLt
    show win2_4.index tL2 (0 : Fin 2) * 1 ≤ (i 0).val ∧ (i 0).val < win2_4.index tL2 (0 : Fin 2) * 1 + 1; omega
  | ⟨1, _⟩ =>
    have hi : (i 1).val < 1 := (i 1).isLt
    show win2_4.index tL2 (1 : Fin 2) * 1 ≤ (i 1).val ∧ (i 1).val < win2_4.index tL2 (1 : Fin 2) * 1 + 1; omega

/-! ## The eight closing host operations -/

/-- The result buffer at the end: the square root of the clamp at zero of (first sum + second sum) - 2 * third sum,
    each sum read out of its region's one-element buffer through the reshape that follows the region. -/
theorem W7_v14 (c : Dev nD) :
    W7 m c main_v14 = Host.sqrt (maximumf (subf (addf (W6 m c (Proc.devRef .tc main_v5)) (W6 m c (Proc.devRef .tc main_v7)))
        (mulf (constant S_ .f32 0x40000000#32) (W7 m c (Proc.devRef .tc main_v9)))) (constant S_ .f32 0x00000000#32)) := by
  show StableHlo.after hostOps3 (W6 m c) (Proc.devRef .tc main_v14) = _
  after_results

end Cert.KernelIdeal.Hand

end
-- ==== Proof.RefValue.lean ====
/-
  The reference program's result as ONE closed formula.

  Inputs: two point clouds `n r : [8192, 128]` and a column of weights `wt : [8192, 1]`, every float an extended
  real and every operation the exact one. With the normalised weights `wn i = wt i / (0 + ∑ i, wt i)`, the uniform
  weight `wy = 1 / 8192` (both literals kept as their words), and the Gaussian entry
  `kern a b i j = exp (c * max ((‖a i‖² + ‖b j‖²) - 2 * ⟨a i, b j⟩) 0)` (the squared norms and the inner product sums
  over the 128 coordinates, the norms starting from the zero word), the program computes
  `sqrt ((xx + yy) - 2 * xy)` where `xx = 0 + ∑ i j, (wn i * wn j) * kern n n i j`,
  `yy = (0 + ∑ i j, kern r r i j) / 2²⁶` and `xy = 0 + ∑ i j, (wn i * wy) * kern n r i j`.
  Nothing is simplified: every literal stays the word the program carries, every sum keeps its initial value, and
  no sum or product is reordered or regrouped; a sum over a two-axis index set is only written as the double sum
  over its two coordinates. `result_eq` says the generated stage-by-stage reading of the program's result is this
  formula; `res_eq` says the same of the term the program's run states for its result buffer.
-/
import proofs.«166369_j11106785428164_2_alg».proof.Proof.Gen.ReferenceIdeal.Read
import Idealize.ShloMosaic.Lib.ValueIdx
import Idealize.ShloMosaic.PureOps.Ideal

noncomputable section

open scoped BigOperators

namespace Cert.ReferenceIdeal.RefValue

open Cert.ReferenceIdeal Cert.ReferenceIdeal.Read Idealize.ShloMosaic Idealize.ShloMosaic.ValueIdx Idealize.ShloMosaic.TcCoe Idealize.SL.Sem

/-! ## The formula, in named stages -/

/-- The sum of the weights as the program takes it: the zero word plus the sum of the 8192 weights. -/
def wsum (wt : FVec Ideal S8192x1 .f32) : EReal :=
  Ideal.ofBits .f32 0x00000000#32 + ∑ i : Fin 8192, wt (ix2 i (0 : Fin 1))

/-- The normalised weight of point `i`: its weight divided by the sum of the weights. -/
def wn (wt : FVec Ideal S8192x1 .f32) (i : Fin 8192) : EReal :=
  Ideal.div (wt (ix2 i (0 : Fin 1))) (wsum wt)

/-- The uniform weight: the word of `1.0` divided by the word of `8192.0`. -/
def wy : EReal :=
  Ideal.div (Ideal.ofBits .f32 0x3F800000#32) (Ideal.ofBits .f32 0x46000000#32)

/-- The squared norm of row `i` of `a`: the zero word plus the sum over the 128 coordinates of the squares. -/
def sqnorm (a : FVec Ideal S8192x128 .f32) (i : Fin 8192) : EReal :=
  Ideal.ofBits .f32 0x00000000#32 + ∑ d : Fin 128, a (ix2 i d) * a (ix2 i d)

/-- The inner product of row `i` of `a` and row `j` of `b`: the sum over the 128 coordinates of the products. -/
def dotp (a b : FVec Ideal S8192x128 .f32) (i j : Fin 8192) : EReal :=
  ∑ d : Fin 128, a (ix2 i d) * b (ix2 j d)

/-- The Gaussian entry of rows `i` of `a` and `j` of `b`: the exponential of the word `0xBD4CCCCD` times the squared
    distance `(‖a i‖² + ‖b j‖²) - 2 * ⟨a i, b j⟩` clamped below by the zero word. -/
def kern (a b : FVec Ideal S8192x128 .f32) (i j : Fin 8192) : EReal :=
  Ideal.exp (Ideal.ofBits .f32 0xBD4CCCCD#32 *
    max ((sqnorm a i + sqnorm b j) - Ideal.ofBits .f32 0x40000000#32 * dotp a b i j) (Ideal.ofBits .f32 0x00000000#32))

/-- The first term: the zero word plus the sum over all pairs of `(wn i * wn j) * kern n n i j`. -/
def xx (n : FVec Ideal S8192x128 .f32) (wt : FVec Ideal S8192x1 .f32) : EReal :=
  Ideal.ofBits .f32 0x00000000#32 + ∑ i : Fin 8192, ∑ j : Fin 8192, (wn wt i * wn wt j) * kern n n i j

/-- The second term: the zero word plus the sum over all pairs of `kern r r i j`, divided by the word `0x4C800000`. -/
def yy (r : FVec Ideal S8192x128 .f32) : EReal :=
  Ideal.div (Ideal.ofBits .f32 0x00000000#32 + ∑ i : Fin 8192, ∑ j : Fin 8192, kern r r i j)
    (Ideal.ofBits .f32 0x4C800000#32)

/-- The cross term: the zero word plus the sum over all pairs of `(wn i * wy) * kern n r i j`. -/
def xy (n r : FVec Ideal S8192x128 .f32) (wt : FVec Ideal S8192x1 .f32) : EReal :=
  Ideal.ofBits .f32 0x00000000#32 + ∑ i : Fin 8192, ∑ j : Fin 8192, (wn wt i * wy) * kern n r i j

/-- The program's result: the square root of `(xx + yy) - 2 * xy`, the `2` the word `0x40000000`. -/
def refValue (n r : FVec Ideal S8192x128 .f32) (wt : FVec Ideal S8192x1 .f32) : EReal :=
  Ideal.sqrt ((xx n wt + yy r) - Ideal.ofBits .f32 0x40000000#32 * xy n r wt)

/-! ## The weights -/

/-- The whole-array sum of the weight column is `wsum`: a sum over the index set `[8192, 1]` is the sum over its
    first coordinate, the second having one value. -/
theorem wsum_eq (wt : FVec Ideal S8192x1 .f32) (i : S_.Idx) :
    val_main_v0 (F := Ideal) wt i = wsum wt := by
  rw [val_main_v0_apply, val_main_cst_apply, sum_idx2]
  simp only [Fin.sum_univ_one, Ideal.ofBits_def]
  rfl

/-- The column index `[i, 0]` is where the flattened index `[i]` reads the column. -/
theorem idx3 (a : Fin 8192) : idx_main_v3 (ix1 a) = ix2 a (0 : Fin 1) :=
  funext fun d => Fin.ext (by match d with | ⟨0, _⟩ => exact Nat.div_one _ | ⟨1, _⟩ => rfl)

/-- The flattened normalised weights at `[i]`. -/
theorem wn_eq (wt : FVec Ideal S8192x1 .f32) (a : Fin 8192) :
    val_main_v3 (F := Ideal) wt (ix1 a) = wn wt a := by
  rw [val_main_v3_apply, idx3, val_main_v2_apply, val_main_v1_apply, wsum_eq, Ideal.hostDivf_def]
  rfl

/-- The uniform weights at `[j]`. -/
theorem wy_eq (a : Fin 8192) : val_main_v6 (F := Ideal) (ix1 a) = wy := by
  rw [val_main_v6_apply, val_main_v4_apply, val_main_v5_apply, val_main_cst_0_apply, val_main_cst_1_apply]
  rfl

/-! ## Index equations

Each composed index function of the generated reading, at an index given by its coordinates, is the index with
the expected coordinates. -/

/-- Proves two indices of rank one equal coordinate by coordinate. -/
local macro "idx_ext1" : tactic =>
  `(tactic| exact funext fun d => Fin.ext (by match d with | ⟨0, _⟩ => rfl))
/-- Proves two indices of rank two equal coordinate by coordinate. -/
local macro "idx_ext2" : tactic =>
  `(tactic| exact funext fun d => Fin.ext (by match d with | ⟨0, _⟩ => rfl | ⟨1, _⟩ => rfl))

/-- The column index `[a, 0]` is read from the vector at `[a]`. -/
theorem idx7 (a : Fin 8192) : idx_main_v7 (ix2 a (0 : Fin 1)) = ix1 a := by idx_ext1
/-- The row index `[0, b]` is read from the vector at `[b]`. -/
theorem idx8 (b : Fin 8192) : idx_main_v8 (ix2 (0 : Fin 1) b) = ix1 b := by idx_ext1
/-- The pair `[a, b]` is read from the column at `[a, 0]`. -/
theorem idx9 (a b : Fin 8192) : idx_main_v9 (ix2 a b) = ix2 a (0 : Fin 1) := by idx_ext2
/-- The pair `[a, b]` is read from the row at `[0, b]`. -/
theorem idx10 (a b : Fin 8192) : idx_main_v10 (ix2 a b) = ix2 (0 : Fin 1) b := by idx_ext2
/-- The column index `[a, 0]` is read from the vector at `[a]`. -/
theorem idx54 (a : Fin 8192) : idx_main_v54 (ix2 a (0 : Fin 1)) = ix1 a := by idx_ext1
/-- The row index `[0, b]` is read from the vector at `[b]`. -/
theorem idx55 (b : Fin 8192) : idx_main_v55 (ix2 (0 : Fin 1) b) = ix1 b := by idx_ext1
/-- The pair `[a, b]` is read from the column at `[a, 0]`. -/
theorem idx56 (a b : Fin 8192) : idx_main_v56 (ix2 a b) = ix2 a (0 : Fin 1) := by idx_ext2
/-- The pair `[a, b]` is read from the row at `[0, b]`. -/
theorem idx57 (a b : Fin 8192) : idx_main_v57 (ix2 a b) = ix2 (0 : Fin 1) b := by idx_ext2

/-- The `k`-th summand of the row sum at `[a]` is the entry `[a, k]`. -/
theorem idx13 (a : Fin 8192) (k : Fin 128) : idx_main_v13 (ix1 a) k = ix2 a k := by idx_ext2
/-- The column index `[a, 0]` is read from the vector at `[a]`. -/
theorem idx14 (a : Fin 8192) : idx_main_v14 (ix2 a (0 : Fin 1)) = ix1 a := by idx_ext1
/-- The `k`-th summand of the row sum at `[a]` is the entry `[a, k]`. -/
theorem idx16 (a : Fin 8192) (k : Fin 128) : idx_main_v16 (ix1 a) k = ix2 a k := by idx_ext2
/-- The row index `[0, b]` is read from the vector at `[b]`. -/
theorem idx17 (b : Fin 8192) : idx_main_v17 (ix2 (0 : Fin 1) b) = ix1 b := by idx_ext1
/-- The pair `[a, b]` is read from the column at `[a, 0]`. -/
theorem idx18 (a b : Fin 8192) : idx_main_v18 (ix2 a b) = ix2 a (0 : Fin 1) := by idx_ext2
/-- The pair `[a, b]` is read from the row at `[0, b]`. -/
theorem idx19 (a b : Fin 8192) : idx_main_v19 (ix2 a b) = ix2 (0 : Fin 1) b := by idx_ext2
/-- The transpose at `[k, b]` is the entry `[b, k]`. -/
theorem idx21 (k : Fin 128) (b : Fin 8192) : idx_main_v21 (ix2 k b) = ix2 b k := by idx_ext2
/-- The `k`-th summand of the product at `[a, b]` takes its left factor at `[a, k]`. -/
theorem lidx22 (a b : Fin 8192) (k : Fin 128) : lidx_main_v22 (ix2 a b) k = ix2 a k := by idx_ext2
/-- The `k`-th summand of the product at `[a, b]` takes its right factor at `[k, b]`. -/
theorem ridx22 (a b : Fin 8192) (k : Fin 128) : ridx_main_v22 (ix2 a b) k = ix2 k b := by idx_ext2

/-- The `k`-th summand of the row sum at `[a]` is the entry `[a, k]`. -/
theorem idx34 (a : Fin 8192) (k : Fin 128) : idx_main_v34 (ix1 a) k = ix2 a k := by idx_ext2
/-- The column index `[a, 0]` is read from the vector at `[a]`. -/
theorem idx35 (a : Fin 8192) : idx_main_v35 (ix2 a (0 : Fin 1)) = ix1 a := by idx_ext1
/-- The `k`-th summand of the row sum at `[a]` is the entry `[a, k]`. -/
theorem idx37 (a : Fin 8192) (k : Fin 128) : idx_main_v37 (ix1 a) k = ix2 a k := by idx_ext2
/-- The row index `[0, b]` is read from the vector at `[b]`. -/
theorem idx38 (b : Fin 8192) : idx_main_v38 (ix2 (0 : Fin 1) b) = ix1 b := by idx_ext1
/-- The pair `[a, b]` is read from the column at `[a, 0]`. -/
theorem idx39 (a b : Fin 8192) : idx_main_v39 (ix2 a b) = ix2 a (0 : Fin 1) := by idx_ext2
/-- The pair `[a, b]` is read from the row at `[0, b]`. -/
theorem idx40 (a b : Fin 8192) : idx_main_v40 (ix2 a b) = ix2 (0 : Fin 1) b := by idx_ext2
/-- The transpose at `[k, b]` is the entry `[b, k]`. -/
theorem idx42 (k : Fin 128) (b : Fin 8192) : idx_main_v42 (ix2 k b) = ix2 b k := by idx_ext2
/-- The `k`-th summand of the product at `[a, b]` takes its left factor at `[a, k]`. -/
theorem lidx43 (a b : Fin 8192) (k : Fin 128) : lidx_main_v43 (ix2 a b) k = ix2 a k := by idx_ext2
/-- The `k`-th summand of the product at `[a, b]` takes its right factor at `[k, b]`. -/
theorem ridx43 (a b : Fin 8192) (k : Fin 128) : ridx_main_v43 (ix2 a b) k = ix2 k b := by idx_ext2

/-- The `k`-th summand of the row sum at `[a]` is the entry `[a, k]`. -/
theorem idx60 (a : Fin 8192) (k : Fin 128) : idx_main_v60 (ix1 a) k = ix2 a k := by idx_ext2
/-- The column index `[a, 0]` is read from the vector at `[a]`. -/
theorem idx61 (a : Fin 8192) : idx_main_v61 (ix2 a (0 : Fin 1)) = ix1 a := by idx_ext1
/-- The `k`-th summand of the row sum at `[a]` is the entry `[a, k]`. -/
theorem idx63 (a : Fin 8192) (k : Fin 128) : idx_main_v63 (ix1 a) k = ix2 a k := by idx_ext2
/-- The row index `[0, b]` is read from the vector at `[b]`. -/
theorem idx64 (b : Fin 8192) : idx_main_v64 (ix2 (0 : Fin 1) b) = ix1 b := by idx_ext1
/-- The pair `[a, b]` is read from the column at `[a, 0]`. -/
theorem idx65 (a b : Fin 8192) : idx_main_v65 (ix2 a b) = ix2 a (0 : Fin 1) := by idx_ext2
/-- The pair `[a, b]` is read from the row at `[0, b]`. -/
theorem idx66 (a b : Fin 8192) : idx_main_v66 (ix2 a b) = ix2 (0 : Fin 1) b := by idx_ext2
/-- The transpose at `[k, b]` is the entry `[b, k]`. -/
theorem idx68 (k : Fin 128) (b : Fin 8192) : idx_main_v68 (ix2 k b) = ix2 b k := by idx_ext2
/-- The `k`-th summand of the product at `[a, b]` takes its left factor at `[a, k]`. -/
theorem lidx69 (a b : Fin 8192) (k : Fin 128) : lidx_main_v69 (ix2 a b) k = ix2 a k := by idx_ext2
/-- The `k`-th summand of the product at `[a, b]` takes its right factor at `[k, b]`. -/
theorem ridx69 (a b : Fin 8192) (k : Fin 128) : ridx_main_v69 (ix2 a b) k = ix2 k b := by idx_ext2

/-! ## The weight products at a pair -/

/-- The outer product of the normalised weights with themselves at `[i, j]`. -/
theorem ww_eq (wt : FVec Ideal S8192x1 .f32) (a b : Fin 8192) :
    val_main_v11 (F := Ideal) wt (ix2 a b) = wn wt a * wn wt b := by
  rw [val_main_v11_apply, val_main_v9_apply, idx9, val_main_v7_apply, idx7, wn_eq,
    val_main_v10_apply, idx10, val_main_v8_apply, idx8, wn_eq, Ideal.mulf_def]

/-- The outer product of the normalised weights with the uniform weights at `[i, j]`. -/
theorem wwy_eq (wt : FVec Ideal S8192x1 .f32) (a b : Fin 8192) :
    val_main_v58 (F := Ideal) wt (ix2 a b) = wn wt a * wy := by
  rw [val_main_v58_apply, val_main_v56_apply, idx56, val_main_v54_apply, idx54, wn_eq,
    val_main_v57_apply, idx57, val_main_v55_apply, idx55, wy_eq, Ideal.mulf_def]

/-! ## The squared norms, the inner products and the Gaussian entries -/

/-- The row sums of squares of the first cloud, first copy (the row term of its own kernel). -/
theorem sqnorm_v13 (x : FVec Ideal S8192x128 .f32) (a : Fin 8192) :
    val_main_v13 (F := Ideal) x (ix1 a) = sqnorm x a := by
  rw [val_main_v13_apply, val_main_cst_2_apply]
  simp only [val_main_v12_apply, idx13, Ideal.mulf_def, Ideal.ofBits_def]
  rfl
/-- The row sums of squares of the first cloud, second copy (the column term of its own kernel). -/
theorem sqnorm_v16 (x : FVec Ideal S8192x128 .f32) (a : Fin 8192) :
    val_main_v16 (F := Ideal) x (ix1 a) = sqnorm x a := by
  rw [val_main_v16_apply, val_main_cst_3_apply]
  simp only [val_main_v15_apply, idx16, Ideal.mulf_def, Ideal.ofBits_def]
  rfl
/-- The row sums of squares of the second cloud, first copy. -/
theorem sqnorm_v34 (x : FVec Ideal S8192x128 .f32) (a : Fin 8192) :
    val_main_v34 (F := Ideal) x (ix1 a) = sqnorm x a := by
  rw [val_main_v34_apply, val_main_cst_8_apply]
  simp only [val_main_v33_apply, idx34, Ideal.mulf_def, Ideal.ofBits_def]
  rfl
/-- The row sums of squares of the second cloud, second copy. -/
theorem sqnorm_v37 (x : FVec Ideal S8192x128 .f32) (a : Fin 8192) :
    val_main_v37 (F := Ideal) x (ix1 a) = sqnorm x a := by
  rw [val_main_v37_apply, val_main_cst_9_apply]
  simp only [val_main_v36_apply, idx37, Ideal.mulf_def, Ideal.ofBits_def]
  rfl
/-- The row sums of squares of the first cloud, for the cross kernel. -/
theorem sqnorm_v60 (x : FVec Ideal S8192x128 .f32) (a : Fin 8192) :
    val_main_v60 (F := Ideal) x (ix1 a) = sqnorm x a := by
  rw [val_main_v60_apply, val_main_cst_15_apply]
  simp only [val_main_v59_apply, idx60, Ideal.mulf_def, Ideal.ofBits_def]
  rfl
/-- The row sums of squares of the second cloud, for the cross kernel. -/
theorem sqnorm_v63 (x : FVec Ideal S8192x128 .f32) (a : Fin 8192) :
    val_main_v63 (F := Ideal) x (ix1 a) = sqnorm x a := by
  rw [val_main_v63_apply, val_main_cst_16_apply]
  simp only [val_main_v62_apply, idx63, Ideal.mulf_def, Ideal.ofBits_def]
  rfl

/-- The product of the first cloud with its own transpose at `[i, j]`. -/
theorem dotp_v22 (x : FVec Ideal S8192x128 .f32) (a b : Fin 8192) :
    val_main_v22 (F := Ideal) x (ix2 a b) = dotp x x a b := by
  rw [val_main_v22_apply]
  simp only [val_main_v21_apply, lidx22, ridx22, idx21]
  rfl
/-- The product of the second cloud with its own transpose at `[i, j]`. -/
theorem dotp_v43 (x : FVec Ideal S8192x128 .f32) (a b : Fin 8192) :
    val_main_v43 (F := Ideal) x (ix2 a b) = dotp x x a b := by
  rw [val_main_v43_apply]
  simp only [val_main_v42_apply, lidx43, ridx43, idx42]
  rfl
/-- The product of the first cloud with the transpose of the second at `[i, j]`. -/
theorem dotp_v69 (x y : FVec Ideal S8192x128 .f32) (a b : Fin 8192) :
    val_main_v69 (F := Ideal) x y (ix2 a b) = dotp x y a b := by
  rw [val_main_v69_apply]
  simp only [val_main_v68_apply, lidx69, ridx69, idx68]
  rfl

/-- The Gaussian kernel of the first cloud with itself at `[i, j]`. -/
theorem kern_v30 (x : FVec Ideal S8192x128 .f32) (a b : Fin 8192) :
    val_main_v30 (F := Ideal) x (ix2 a b) = kern x x a b := by
  rw [val_main_v30_apply, val_main_v29_apply, val_main_v28_apply, val_main_cst_6_apply, val_main_v27_apply,
    val_main_v26_apply, val_main_cst_5_apply, val_main_v25_apply, val_main_v24_apply, val_main_v23_apply,
    val_main_cst_4_apply, dotp_v22, val_main_v20_apply, val_main_v18_apply, idx18, val_main_v14_apply, idx14,
    sqnorm_v13, val_main_v19_apply, idx19, val_main_v17_apply, idx17, sqnorm_v16]
  rfl
/-- The Gaussian kernel of the second cloud with itself at `[i, j]`. -/
theorem kern_v51 (x : FVec Ideal S8192x128 .f32) (a b : Fin 8192) :
    val_main_v51 (F := Ideal) x (ix2 a b) = kern x x a b := by
  rw [val_main_v51_apply, val_main_v50_apply, val_main_v49_apply, val_main_cst_12_apply, val_main_v48_apply,
    val_main_v47_apply, val_main_cst_11_apply, val_main_v46_apply, val_main_v45_apply, val_main_v44_apply,
    val_main_cst_10_apply, dotp_v43, val_main_v41_apply, val_main_v39_apply, idx39, val_main_v35_apply, idx35,
    sqnorm_v34, val_main_v40_apply, idx40, val_main_v38_apply, idx38, sqnorm_v37]
  rfl
/-- The Gaussian kernel of the first cloud with the second at `[i, j]`. -/
theorem kern_v77 (x y : FVec Ideal S8192x128 .f32) (a b : Fin 8192) :
    val_main_v77 (F := Ideal) x y (ix2 a b) = kern x y a b := by
  rw [val_main_v77_apply, val_main_v76_apply, val_main_v75_apply, val_main_cst_19_apply, val_main_v74_apply,
    val_main_v73_apply, val_main_cst_18_apply, val_main_v72_apply, val_main_v71_apply, val_main_v70_apply,
    val_main_cst_17_apply, dotp_v69, val_main_v67_apply, val_main_v65_apply, idx65, val_main_v61_apply, idx61,
    sqnorm_v60, val_main_v66_apply, idx66, val_main_v64_apply, idx64, sqnorm_v63]
  rfl

/-! ## The three terms and the result -/

/-- The weighted sum of the first cloud's kernel. -/
theorem xx_eq (n : FVec Ideal S8192x128 .f32) (wt : FVec Ideal S8192x1 .f32) (i : S_.Idx) :
    val_main_v32 (F := Ideal) n wt i = xx n wt := by
  rw [val_main_v32_apply, val_main_cst_7_apply, sum_idx2]
  simp only [val_main_v31_apply, ww_eq, kern_v30, Ideal.mulf_def, Ideal.ofBits_def]
  rfl

/-- The mean of the second cloud's kernel. -/
theorem yy_eq (r : FVec Ideal S8192x128 .f32) (i : S_.Idx) :
    val_main_v53 (F := Ideal) r i = yy r := by
  rw [val_main_v53_apply, val_main_cst_14_apply, val_main_v52_apply, val_main_cst_13_apply, sum_idx2]
  simp only [kern_v51, Ideal.hostDivf_def, Ideal.ofBits_def]
  rfl

/-- The weighted sum of the cross kernel. -/
theorem xy_eq (n r : FVec Ideal S8192x128 .f32) (wt : FVec Ideal S8192x1 .f32) (i : S_.Idx) :
    val_main_v79 (F := Ideal) n r wt i = xy n r wt := by
  rw [val_main_v79_apply, val_main_cst_20_apply, sum_idx2]
  simp only [val_main_v78_apply, wwy_eq, kern_v77, Ideal.mulf_def, Ideal.ofBits_def]
  rfl

/-- THE REFERENCE'S RESULT IS THE FORMULA: the generated reading of the result buffer, stage by stage, as a function
    of the three argument arrays, is the scalar buffer holding `refValue n r wt`. -/
theorem result_eq (n r : FVec Ideal S8192x128 .f32) (wt : FVec Ideal S8192x1 .f32) :
    val_main_v83 (F := Ideal) n r wt = fun _ => refValue n r wt := by
  funext i
  rw [val_main_v83_apply, val_main_v82_apply, val_main_v80_apply, xx_eq, yy_eq, val_main_v81_apply,
    val_main_cst_21_apply, xy_eq]
  rfl

/-- The same of the term the program's run states for its result buffer, of the memory the run starts from. -/
theorem res_eq (m : (ℓ : Loc nD τ sig) → Buf (Elt Ideal) ℓ) (c : Dev nD) :
    Cert.ReferenceIdeal.Value.res_main_v83 (F := Ideal) m c
      = fun _ => refValue (m ((c.tc : Thread nD τ).loc main_arg0)) (m ((c.tc : Thread nD τ).loc main_arg1))
          (m ((c.tc : Thread nD τ).loc main_arg2)) :=
  (val_main_v83_eq (F := Ideal) m c).trans (result_eq _ _ _)

end Cert.ReferenceIdeal.RefValue

end
-- ==== Proof.LibGaussianGram.lean ====
import Mathlib.Analysis.SpecialFunctions.Exponential
import Mathlib.Algebra.BigOperators.Ring.Finset
import Mathlib.Topology.Algebra.InfiniteSum.Order

/-!
# The Gaussian Gram matrix is positive semidefinite

For points `x p : κ → ℝ` of a finite-dimensional coordinate space and `g ≥ 0`, the Gaussian
(radial basis function) kernel `exp (-g * ‖a - b‖²)` has a positive semidefinite Gram matrix:
`0 ≤ ∑ p, ∑ q, c p * c q * exp (-g * ‖x p - x q‖²)` for all real coefficients `c`.

The squared distance is spelt throughout as `‖a‖² + ‖b‖² - 2⟨a, b⟩` with the norms and the inner
product written as sums of products of coordinates, and it is clamped below at zero,
`max (‖a‖² + ‖b‖² - 2⟨a, b⟩) 0`. The clamp changes nothing because the bracket is the sum of
squares `∑ k, (a k - b k) ^ 2`.

## Outline of the proof

* `exp (-g‖a - b‖²) = exp (-g‖a‖²) * exp (-g‖b‖²) * exp (2g⟨a, b⟩)`, so after rescaling the
  coefficients it is enough to treat the kernel `exp (t⟨a, b⟩)` with `t ≥ 0`.
* `exp (t⟨a, b⟩) = ∑' n, tⁿ / n! * ⟨a, b⟩ⁿ`, and a finite sum of convergent series is the series
  of the finite sums, so it is enough to treat each power kernel `⟨a, b⟩ⁿ`.
* `⟨a, b⟩ⁿ = ∑ s : Fin n → κ, (∏ i, a (s i)) * (∏ i, b (s i))`, which turns the quadratic form of
  the power kernel into a sum of squares.

## Main statements

* `GaussianGram.sum_mul_inner_pow_nonneg`: the power kernels `⟨a, b⟩ⁿ` are positive semidefinite.
* `GaussianGram.sum_mul_exp_inner_nonneg`: the kernel `exp (t⟨a, b⟩)`, `t ≥ 0`, is positive
  semidefinite.
* `GaussianGram.gaussian_gram_nonneg`: the (clamped) Gaussian kernel is positive semidefinite.
* `GaussianGram.two_sample_nonneg_of_symm_of_nonneg`: for a symmetric kernel, positive
  semidefiniteness on a disjoint union gives nonnegativity of the two-sample quadratic form
  `∑ uᵢuⱼK(xᵢ,xⱼ) + ∑ vᵢvⱼK(yᵢ,yⱼ) - 2∑ uᵢvⱼK(xᵢ,yⱼ)`.
* `GaussianGram.gaussian_gram_two_sample_nonneg`: that two-sample form is nonnegative for the
  (clamped) Gaussian kernel; with uniform weights this is nonnegativity of the squared maximum
  mean discrepancy.
-/

open Finset

namespace GaussianGram

variable {ι ι' κ : Type*} [Fintype ι] [Fintype ι'] [Fintype κ]

/-! ### The squared distance and the clamp -/

/-- `‖a‖² + ‖b‖² - 2⟨a, b⟩ = ∑ k, (a k - b k)²`, everything written in coordinates. -/
theorem sqNorm_add_sqNorm_sub_two_mul_inner (a b : κ → ℝ) :
    (∑ k, a k * a k) + (∑ k, b k * b k) - 2 * (∑ k, a k * b k) = ∑ k, (a k - b k) ^ 2 := by
  rw [Finset.mul_sum, ← Finset.sum_add_distrib, ← Finset.sum_sub_distrib]
  exact Finset.sum_congr rfl fun k _ => by ring

/-- The expanded squared distance `‖a‖² + ‖b‖² - 2⟨a, b⟩` is nonnegative. -/
theorem sqNorm_add_sqNorm_sub_two_mul_inner_nonneg (a b : κ → ℝ) :
    0 ≤ (∑ k, a k * a k) + (∑ k, b k * b k) - 2 * (∑ k, a k * b k) := by
  rw [sqNorm_add_sqNorm_sub_two_mul_inner]
  exact Finset.sum_nonneg fun k _ => sq_nonneg _

/-- Clamping the expanded squared distance below at zero does nothing. -/
theorem max_sqDist_zero (a b : κ → ℝ) :
    max ((∑ k, a k * a k) + (∑ k, b k * b k) - 2 * (∑ k, a k * b k)) 0
      = (∑ k, a k * a k) + (∑ k, b k * b k) - 2 * (∑ k, a k * b k) :=
  max_eq_left (sqNorm_add_sqNorm_sub_two_mul_inner_nonneg a b)

/-- The Gaussian kernel splits as
`exp (-g‖a - b‖²) = exp (-g‖a‖²) * exp (-g‖b‖²) * exp (2g⟨a, b⟩)`. -/
theorem exp_neg_mul_max_sqDist (g : ℝ) (a b : κ → ℝ) :
    Real.exp (-(g * max ((∑ k, a k * a k) + (∑ k, b k * b k) - 2 * (∑ k, a k * b k)) 0))
      = Real.exp (-(g * ∑ k, a k * a k)) * Real.exp (-(g * ∑ k, b k * b k))
          * Real.exp ((2 * g) * ∑ k, a k * b k) := by
  rw [max_sqDist_zero, ← Real.exp_add, ← Real.exp_add]
  congr 1
  ring

/-- The (clamped) Gaussian kernel is symmetric. -/
theorem exp_neg_mul_max_sqDist_comm (g : ℝ) (a b : κ → ℝ) :
    Real.exp (-(g * max ((∑ k, a k * a k) + (∑ k, b k * b k) - 2 * (∑ k, a k * b k)) 0))
      = Real.exp (-(g * max ((∑ k, b k * b k) + (∑ k, a k * a k) - 2 * (∑ k, b k * a k)) 0)) := by
  have h : (∑ k, a k * b k) = ∑ k, b k * a k := Finset.sum_congr rfl fun k _ => mul_comm _ _
  rw [h, add_comm (∑ k, a k * a k)]

/-! ### Power kernels -/

/-- The `n`-th power of the inner product is an inner product of `n`-fold tensor powers:
`⟨a, b⟩ⁿ = ∑ s : Fin n → κ, (∏ i, a (s i)) * (∏ i, b (s i))`. -/
theorem inner_pow_eq_sum_prod_mul_prod (a b : κ → ℝ) (n : ℕ) :
    (∑ k, a k * b k) ^ n = ∑ s : Fin n → κ, (∏ i, a (s i)) * (∏ i, b (s i)) := by
  rw [Fintype.sum_pow]
  exact Finset.sum_congr rfl fun s _ => Finset.prod_mul_distrib

/-- The kernel `(a, b) ↦ ⟨a, b⟩ⁿ` is positive semidefinite: its quadratic form is the sum over
`s : Fin n → κ` of the squares `(∑ p, d p * ∏ i, x p (s i))²`. -/
theorem sum_mul_inner_pow_nonneg (x : ι → κ → ℝ) (d : ι → ℝ) (n : ℕ) :
    0 ≤ ∑ p, ∑ q, d p * d q * (∑ k, x p k * x q k) ^ n := by
  have key : ∑ p, ∑ q, d p * d q * (∑ k, x p k * x q k) ^ n
      = ∑ s : Fin n → κ, (∑ p, d p * ∏ i, x p (s i)) ^ 2 :=
    calc ∑ p, ∑ q, d p * d q * (∑ k, x p k * x q k) ^ n
        = ∑ p, ∑ q, ∑ s : Fin n → κ,
            (d p * ∏ i, x p (s i)) * (d q * ∏ i, x q (s i)) := by
          refine Finset.sum_congr rfl fun p _ => Finset.sum_congr rfl fun q _ => ?_
          rw [inner_pow_eq_sum_prod_mul_prod, Finset.mul_sum]
          exact Finset.sum_congr rfl fun s _ => by ring
      _ = ∑ p, ∑ s : Fin n → κ, ∑ q,
            (d p * ∏ i, x p (s i)) * (d q * ∏ i, x q (s i)) :=
          Finset.sum_congr rfl fun p _ => Finset.sum_comm
      _ = ∑ s : Fin n → κ, ∑ p, ∑ q,
            (d p * ∏ i, x p (s i)) * (d q * ∏ i, x q (s i)) := Finset.sum_comm
      _ = ∑ s : Fin n → κ, (∑ p, d p * ∏ i, x p (s i)) ^ 2 := by
          refine Finset.sum_congr rfl fun s _ => ?_
          rw [sq, Finset.sum_mul_sum]
  rw [key]
  exact Finset.sum_nonneg fun s _ => sq_nonneg _

/-! ### The exponential of the inner product -/

/-- For `t ≥ 0` the kernel `(a, b) ↦ exp (t⟨a, b⟩)` is positive semidefinite: expand the
exponential as its power series and use that every power kernel is positive semidefinite. -/
theorem sum_mul_exp_inner_nonneg {t : ℝ} (ht : 0 ≤ t) (x : ι → κ → ℝ) (d : ι → ℝ) :
    0 ≤ ∑ p, ∑ q, d p * d q * Real.exp (t * ∑ k, x p k * x q k) := by
  have hs : HasSum
      (fun n : ℕ => ∑ p, ∑ q, d p * d q * ((t * ∑ k, x p k * x q k) ^ n / (n.factorial : ℝ)))
      (∑ p, ∑ q, d p * d q * Real.exp (t * ∑ k, x p k * x q k)) := by
    refine hasSum_sum fun p _ => hasSum_sum fun q _ => HasSum.mul_left _ ?_
    rw [Real.exp_eq_exp_ℝ]
    exact NormedSpace.expSeries_div_hasSum_exp _
  refine hs.nonneg fun n => ?_
  have hn : ∑ p, ∑ q, d p * d q * ((t * ∑ k, x p k * x q k) ^ n / (n.factorial : ℝ))
      = t ^ n / (n.factorial : ℝ) * ∑ p, ∑ q, d p * d q * (∑ k, x p k * x q k) ^ n := by
    rw [Finset.mul_sum]
    refine Finset.sum_congr rfl fun p _ => ?_
    rw [Finset.mul_sum]
    refine Finset.sum_congr rfl fun q _ => ?_
    rw [mul_pow]
    ring
  rw [hn]
  exact mul_nonneg (div_nonneg (pow_nonneg ht n) (Nat.cast_nonneg _))
    (sum_mul_inner_pow_nonneg x d n)

/-! ### The Gaussian kernel -/

/-- **The Gaussian Gram matrix is positive semidefinite.** For `g ≥ 0`, points `x p : κ → ℝ` and
real coefficients `c p`,
`0 ≤ ∑ p, ∑ q, c p * c q * exp (-g * max (‖x p‖² + ‖x q‖² - 2⟨x p, x q⟩) 0)`. -/
theorem gaussian_gram_nonneg {g : ℝ} (hg : 0 ≤ g) (x : ι → κ → ℝ) (c : ι → ℝ) :
    0 ≤ ∑ p, ∑ q, (c p * c q) *
      Real.exp (-(g * max ((∑ k, x p k * x p k) + (∑ k, x q k * x q k)
        - 2 * (∑ k, x p k * x q k)) 0)) := by
  have h : ∀ p q, (c p * c q) *
      Real.exp (-(g * max ((∑ k, x p k * x p k) + (∑ k, x q k * x q k)
        - 2 * (∑ k, x p k * x q k)) 0))
      = (c p * Real.exp (-(g * ∑ k, x p k * x p k)))
          * (c q * Real.exp (-(g * ∑ k, x q k * x q k)))
          * Real.exp ((2 * g) * ∑ k, x p k * x q k) := by
    intro p q
    rw [exp_neg_mul_max_sqDist]
    ring
  have h2 : 0 ≤ 2 * g := by positivity
  have := sum_mul_exp_inner_nonneg h2 x (fun p => c p * Real.exp (-(g * ∑ k, x p k * x p k)))
  refine this.trans_eq ?_
  exact Finset.sum_congr rfl fun p _ => Finset.sum_congr rfl fun q _ => (h p q).symm

/-! ### Two samples -/

/-- For a symmetric real kernel `K`, the two-sample quadratic form
`∑ uᵢuⱼK(xᵢ,xⱼ) + ∑ vᵢvⱼK(yᵢ,yⱼ) - 2∑ uᵢvⱼK(xᵢ,yⱼ)` is the one-sample quadratic form of `K` on
the disjoint union of the two samples with coefficients `(u, -v)`. -/
theorem sum_sumElim_eq_two_sample {α : Type*} (K : α → α → ℝ) (hK : ∀ a b, K a b = K b a)
    (x : ι → α) (y : ι' → α) (u : ι → ℝ) (v : ι' → ℝ) :
    ∑ p : ι ⊕ ι', ∑ q : ι ⊕ ι',
        (Sum.elim u (fun j => -v j) p * Sum.elim u (fun j => -v j) q)
          * K (Sum.elim x y p) (Sum.elim x y q)
      = (∑ i, ∑ j, (u i * u j) * K (x i) (x j)) + (∑ i, ∑ j, (v i * v j) * K (y i) (y j))
          - 2 * (∑ i, ∑ j, (u i * v j) * K (x i) (y j)) := by
  have h1 : ∑ i, ∑ j, (u i * -v j) * K (x i) (y j) = -∑ i, ∑ j, (u i * v j) * K (x i) (y j) := by
    rw [← Finset.sum_neg_distrib]
    refine Finset.sum_congr rfl fun i _ => ?_
    rw [← Finset.sum_neg_distrib]
    exact Finset.sum_congr rfl fun j _ => by ring
  have h2 : ∑ j, ∑ i, (-v j * u i) * K (y j) (x i) = -∑ i, ∑ j, (u i * v j) * K (x i) (y j) := by
    rw [Finset.sum_comm, ← Finset.sum_neg_distrib]
    refine Finset.sum_congr rfl fun i _ => ?_
    rw [← Finset.sum_neg_distrib]
    exact Finset.sum_congr rfl fun j _ => by rw [hK (y j) (x i)]; ring
  have h3 : ∑ i, ∑ j, (-v i * -v j) * K (y i) (y j) = ∑ i, ∑ j, (v i * v j) * K (y i) (y j) :=
    Finset.sum_congr rfl fun i _ => Finset.sum_congr rfl fun j _ => by ring
  simp only [Fintype.sum_sum_type, Sum.elim_inl, Sum.elim_inr, Finset.sum_add_distrib]
  rw [h1, h2, h3]
  ring

/-- For a symmetric real kernel that is positive semidefinite on the disjoint union of two
samples, the two-sample quadratic form
`∑ uᵢuⱼK(xᵢ,xⱼ) + ∑ vᵢvⱼK(yᵢ,yⱼ) - 2∑ uᵢvⱼK(xᵢ,yⱼ)` is nonnegative. -/
theorem two_sample_nonneg_of_symm_of_nonneg {α : Type*} (K : α → α → ℝ)
    (hK : ∀ a b, K a b = K b a)
    (hpsd : ∀ (z : ι ⊕ ι' → α) (c : ι ⊕ ι' → ℝ), 0 ≤ ∑ p, ∑ q, (c p * c q) * K (z p) (z q))
    (x : ι → α) (y : ι' → α) (u : ι → ℝ) (v : ι' → ℝ) :
    0 ≤ (∑ i, ∑ j, (u i * u j) * K (x i) (x j)) + (∑ i, ∑ j, (v i * v j) * K (y i) (y j))
          - 2 * (∑ i, ∑ j, (u i * v j) * K (x i) (y j)) := by
  rw [← sum_sumElim_eq_two_sample K hK x y u v]
  exact hpsd _ _

/-- **Nonnegativity of the two-sample Gaussian quadratic form.** For `g ≥ 0`, samples
`x i, y j : κ → ℝ` and weights `u i`, `v j`,
`0 ≤ ∑ uᵢuⱼE(xᵢ,xⱼ) + ∑ vᵢvⱼE(yᵢ,yⱼ) - 2∑ uᵢvⱼE(xᵢ,yⱼ)` where
`E(a,b) = exp (-g * max (‖a‖² + ‖b‖² - 2⟨a, b⟩) 0)`. With uniform weights this says that the
squared maximum mean discrepancy of the Gaussian kernel is nonnegative. -/
theorem gaussian_gram_two_sample_nonneg {g : ℝ} (hg : 0 ≤ g)
    (x : ι → κ → ℝ) (y : ι' → κ → ℝ) (u : ι → ℝ) (v : ι' → ℝ) :
    0 ≤ (∑ i, ∑ j, (u i * u j) *
          Real.exp (-(g * max ((∑ k, x i k * x i k) + (∑ k, x j k * x j k)
            - 2 * (∑ k, x i k * x j k)) 0)))
        + (∑ i, ∑ j, (v i * v j) *
          Real.exp (-(g * max ((∑ k, y i k * y i k) + (∑ k, y j k * y j k)
            - 2 * (∑ k, y i k * y j k)) 0)))
        - 2 * (∑ i, ∑ j, (u i * v j) *
          Real.exp (-(g * max ((∑ k, x i k * x i k) + (∑ k, y j k * y j k)
            - 2 * (∑ k, x i k * y j k)) 0))) :=
  two_sample_nonneg_of_symm_of_nonneg
    (fun a b : κ → ℝ =>
      Real.exp (-(g * max ((∑ k, a k * a k) + (∑ k, b k * b k) - 2 * (∑ k, a k * b k)) 0)))
    (fun a b => exp_neg_mul_max_sqDist_comm g a b)
    (fun z c => gaussian_gram_nonneg hg z c) x y u v

end GaussianGram
-- ==== Proof.Bridge.lean ====
/-
  The kernel's value and the reference's value are one extended real.

  Both programs compute `sqrt (xx + yy - 2 xy)` of the same three Gaussian double sums. They differ in three places.
  (1) The uniform weight: the reference divides the word of `1.0` by the word of `8192.0`, the kernel multiplies by the
  word `0x39000000 = 2⁻¹³`; and for the second term the reference divides the plain double sum by the word of
  `2²⁶ = 8192²`, where the kernel weights every pair by the square of `2⁻¹³`. (2) The reference's double sums start
  from the zero word, the kernel's do not. (3) The kernel clamps the combination below at zero before the square root.
  On the extended reals the square root of a negative number is the junk value `⊥`, so (3) is an equality only because
  the combination is nonnegative: it is a two-sample quadratic form of a Gaussian Gram matrix, which is positive
  semidefinite. Everything is read over the reals: with every entry finite and the weights' sum a nonzero real,
  every quantity of either program is the coercion of a real number, (1) is arithmetic of real numbers and (2) is
  `0 + x = x`. The algebra is stated over abstract finite index types and then read at the programs' index sets.
-/
import proofs.«166369_j11106785428164_2_alg».proof.Proof.RefValue
import proofs.«166369_j11106785428164_2_alg».proof.Proof.LibGaussianGram
import Idealize.ShloMosaic.PureOps.Ideal
import Idealize.ShloMosaic.PureOps.Ideal.Laws
import Idealize.ShloMosaic.Lib.ValueIdx
import Mathlib.Analysis.SpecialFunctions.Exponential
import Mathlib.Algebra.BigOperators.Ring.Finset

noncomputable section

open scoped BigOperators

namespace Cert.Proof.Bridge

open Cert.ReferenceIdeal Cert.ReferenceIdeal.RefValue Idealize.ShloMosaic Idealize.ShloMosaic.ValueIdx

/-! ## The kernel's value, in named stages -/

/-- The kernel's uniform weight: the word `0x39000000`, which is `2⁻¹³ = 1 / 8192`. -/
def cw : EReal := Ideal.ofBits .f32 0x39000000#32

/-- The kernel's first term: the sum over all pairs of `(wn i * wn j) * kern n n i j`. -/
def kxx (n : FVec Ideal S8192x128 .f32) (wt : FVec Ideal S8192x1 .f32) : EReal :=
  ∑ i : Fin 8192, ∑ j : Fin 8192, (wn wt i * wn wt j) * kern n n i j

/-- The kernel's second term: the sum over all pairs of `(cw * cw) * kern r r i j`. -/
def kyy (r : FVec Ideal S8192x128 .f32) : EReal :=
  ∑ i : Fin 8192, ∑ j : Fin 8192, (cw * cw) * kern r r i j

/-- The kernel's cross term: the sum over all pairs of `(wn i * cw) * kern n r i j`. -/
def kxy (n r : FVec Ideal S8192x128 .f32) (wt : FVec Ideal S8192x1 .f32) : EReal :=
  ∑ i : Fin 8192, ∑ j : Fin 8192, (wn wt i * cw) * kern n r i j

/-- The kernel's result: the square root of `(kxx + kyy) - 2 * kxy` clamped below at the zero word. -/
def kernelValue (n r : FVec Ideal S8192x128 .f32) (wt : FVec Ideal S8192x1 .f32) : EReal :=
  Ideal.sqrt (max ((kxx n wt + kyy r) - Ideal.ofBits .f32 0x40000000#32 * kxy n r wt)
    (Ideal.ofBits .f32 0x00000000#32))

/-! ## The literal words as real numbers -/

/-- The word of `1.0`. -/
theorem word_one : Ideal.ofBits .f32 0x3F800000#32 = ((1 : ℝ) : EReal) := by
  simp [Ideal.ofBits, Ideal.ieee, -EReal.coe_mul]; norm_num

/-- The word of `2.0`. -/
theorem word_two : Ideal.ofBits .f32 0x40000000#32 = ((2 : ℝ) : EReal) := by
  simp [Ideal.ofBits, Ideal.ieee, -EReal.coe_mul]; norm_num

/-- The word of `8192.0`. -/
theorem word_8192 : Ideal.ofBits .f32 0x46000000#32 = ((8192 : ℝ) : EReal) := by
  simp [Ideal.ofBits, Ideal.ieee, -EReal.coe_mul]; norm_num

/-- The word of `2²⁶ = 8192²`. -/
theorem word_sq8192 : Ideal.ofBits .f32 0x4C800000#32 = ((67108864 : ℝ) : EReal) := by
  simp [Ideal.ofBits, Ideal.ieee, -EReal.coe_mul]; norm_num

/-- The word of `2⁻¹³ = 1 / 8192`. -/
theorem word_inv8192 : Ideal.ofBits .f32 0x39000000#32 = ((1 / 8192 : ℝ) : EReal) := by
  simp [Ideal.ofBits, Ideal.ieee, -EReal.coe_mul]; norm_num

/-- The Gaussian's scale: the word `0xBD4CCCCD` is `-gam`, with `gam = 13421773 / 2²⁸` (about `0.05`). -/
def gam : ℝ := 13421773 / 268435456

theorem gam_pos : 0 < gam := by unfold gam; norm_num

/-- The word `0xBD4CCCCD` is the negative real `-gam`. -/
theorem word_gamma : Ideal.ofBits .f32 0xBD4CCCCD#32 = ((-gam : ℝ) : EReal) := by
  unfold gam
  simp [Ideal.ofBits, Ideal.ieee, -EReal.coe_mul]; norm_num

/-! ## From the extended reals to the reals, over abstract finite index types -/

/-- The coercion of a finite real sum is the sum of the coercions. -/
theorem coe_sum {α : Type*} (s : Finset α) (f : α → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  (EReal.coe_strictMono.monotone).map_max

section Abstract

variable {ι ι' κ : Type*} [Fintype ι] [Fintype ι'] [Fintype κ]

/-- The Gaussian entry of two real rows, as a real number: `exp (-(g * max (‖A‖² + ‖B‖² - 2⟨A, B⟩) 0))`, the norms
    and the inner product written as sums of products of coordinates. -/
def E (g : ℝ) (A B : κ → ℝ) : ℝ :=
  Real.exp (-(g * max ((∑ k, A k * A k) + (∑ k, B k * B k) - 2 * (∑ k, A k * B k)) 0))

/-- The Gaussian entry computed on the extended reals from two rows of finite entries is the coercion of the real
    one: the squared norms start from zero, the inner product does not, the scale is the negative real `-g`. -/
theorem entry_real (g : ℝ) (a b : κ → EReal) (A B : κ → ℝ) (ha : ∀ d, a d = ((A d : ℝ) : EReal))
    (hb : ∀ d, b d = ((B d : ℝ) : EReal)) :
    Ideal.exp (((-g : ℝ) : EReal) *
      max ((((0 : EReal) + ∑ d, a d * a d) + ((0 : EReal) + ∑ d, b d * b d)) - ((2 : ℝ) : EReal) * ∑ d, a d * b d)
        (0 : EReal))
      = ((E g A B : ℝ) : EReal) := by
  simp only [ha, hb, zero_add, ← EReal.coe_mul, ← coe_sum, ← EReal.coe_add, ← EReal.coe_sub]
  rw [← EReal.coe_zero, ← coe_max, ← EReal.coe_mul, Ideal.exp_coe, neg_mul]
  rfl

/-- A double sum of coerced reals is the coercion of the real double sum. -/
theorem coe_sum_sum (e : ι → ι' → ℝ) :
    ∑ i, ∑ j, ((e i j : ℝ) : EReal) = ((∑ i, ∑ j, e i j : ℝ) : EReal) := by
  simp only [← coe_sum]

/-- Weighting every pair by `(1/8192) * (1/8192)` is dividing the plain double sum by `8192² = 67108864`. -/
theorem mean_sq (e : ι → ι' → ℝ) :
    ∑ i, ∑ j, ((1 / 8192 : ℝ) * (1 / 8192)) * e i j = (∑ i, ∑ j, e i j) * (1 / 67108864) := by
  simp only [← Finset.mul_sum]
  ring

/-- A nonnegative real combination `A + B - 2 C` is not changed by the clamp at zero. -/
theorem clamp_real (A B C : ℝ) (h : 0 ≤ A + B - 2 * C) :
    max (((A : EReal) + (B : EReal)) - ((2 : ℝ) : EReal) * (C : EReal)) (0 : EReal)
      = ((A : EReal) + (B : EReal)) - ((2 : ℝ) : EReal) * (C : EReal) := by
  rw [← EReal.coe_add, ← EReal.coe_mul, ← EReal.coe_sub]
  exact max_eq_left (EReal.coe_nonneg.2 h)

end Abstract

/-! ## The programs' quantities as real numbers -/

/-- The Gaussian entry of two clouds of finite entries is the coercion of the real Gaussian entry of their rows. -/
theorem kern_real (a b : FVec Ideal S8192x128 .f32) (A B : Fin 8192 → Fin 128 → ℝ)
    (ha : ∀ i d, a (ix2 i d) = ((A i d : ℝ) : EReal)) (hb : ∀ i d, b (ix2 i d) = ((B i d : ℝ) : EReal))
    (i j : Fin 8192) : kern a b i j = ((E gam (A i) (B j) : ℝ) : EReal) := by
  unfold kern sqnorm dotp
  rw [word_gamma, word_two, Ideal.ofBits_zero_f32]
  exact entry_real gam (fun d => a (ix2 i d)) (fun d => b (ix2 j d)) (A i) (B j) (ha i) (hb j)

/-- The sum of finite weights is the coercion of their real sum. -/
theorem wsum_real (wt : FVec Ideal S8192x1 .f32) (W : Fin 8192 → ℝ)
    (hw : ∀ i, wt (ix2 i (0 : Fin 1)) = ((W i : ℝ) : EReal)) : wsum wt = ((∑ i, W i : ℝ) : EReal) := by
  unfold wsum
  rw [Ideal.ofBits_zero_f32, zero_add, coe_sum]
  exact Finset.sum_congr rfl fun i _ => hw i

/-- A finite weight divided by a nonzero real sum is the coercion of the real quotient. -/
theorem wn_real (wt : FVec Ideal S8192x1 .f32) (W : Fin 8192 → ℝ)
    (hw : ∀ i, wt (ix2 i (0 : Fin 1)) = ((W i : ℝ) : EReal)) (hS : (∑ i, W i) ≠ 0) (i : Fin 8192) :
    wn wt i = ((W i * (1 / ∑ i, W i) : ℝ) : EReal) := by
  unfold wn
  rw [wsum_real wt W hw, Ideal.div_coe hS, hw i, ← EReal.coe_mul]

/-- The reference's uniform weight `1.0 / 8192.0` is the kernel's word `2⁻¹³`. -/
theorem wy_eq_cw : wy = cw := by
  unfold wy cw
  rw [word_one, word_8192, word_inv8192, Ideal.div_coe (by norm_num : (8192 : ℝ) ≠ 0), ← EReal.coe_mul, one_mul]

/-- The first term over the reals. -/
theorem kxx_real (n : FVec Ideal S8192x128 .f32) (wt : FVec Ideal S8192x1 .f32) (u : Fin 8192 → ℝ)
    (N : Fin 8192 → Fin 128 → ℝ) (hu : ∀ i, wn wt i = ((u i : ℝ) : EReal))
    (hN : ∀ i d, n (ix2 i d) = ((N i d : ℝ) : EReal)) :
    kxx n wt = ((∑ i, ∑ j, (u i * u j) * E gam (N i) (N j) : ℝ) : EReal) := by
  unfold kxx
  simp only [hu, kern_real n n N N hN hN, ← EReal.coe_mul, ← coe_sum]

/-- The second term over the reals. -/
theorem kyy_real (r : FVec Ideal S8192x128 .f32) (R : Fin 8192 → Fin 128 → ℝ)
    (hR : ∀ i d, r (ix2 i d) = ((R i d : ℝ) : EReal)) :
    kyy r = ((∑ i, ∑ j, ((1 / 8192 : ℝ) * (1 / 8192)) * E gam (R i) (R j) : ℝ) : EReal) := by
  unfold kyy cw
  simp only [word_inv8192, kern_real r r R R hR hR, ← EReal.coe_mul, ← coe_sum]

/-- The cross term over the reals. -/
theorem kxy_real (n r : FVec Ideal S8192x128 .f32) (wt : FVec Ideal S8192x1 .f32) (u : Fin 8192 → ℝ)
    (N R : Fin 8192 → Fin 128 → ℝ) (hu : ∀ i, wn wt i = ((u i : ℝ) : EReal))
    (hN : ∀ i d, n (ix2 i d) = ((N i d : ℝ) : EReal)) (hR : ∀ i d, r (ix2 i d) = ((R i d : ℝ) : EReal)) :
    kxy n r wt = ((∑ i, ∑ j, (u i * (1 / 8192 : ℝ)) * E gam (N i) (R j) : ℝ) : EReal) := by
  unfold kxy cw
  simp only [hu, word_inv8192, kern_real n r N R hN hR, ← EReal.coe_mul, ← coe_sum]

/-- The reference's first term is the kernel's: its sum only starts from zero. -/
theorem xx_eq_kxx (n : FVec Ideal S8192x128 .f32) (wt : FVec Ideal S8192x1 .f32) : xx n wt = kxx n wt := by
  unfold xx kxx
  rw [Ideal.ofBits_zero_f32, zero_add]

/-- The reference's cross term is the kernel's: its sum only starts from zero, and its uniform weight is the
    kernel's word. -/
theorem xy_eq_kxy (n r : FVec Ideal S8192x128 .f32) (wt : FVec Ideal S8192x1 .f32) : xy n r wt = kxy n r wt := by
  unfold xy kxy
  rw [Ideal.ofBits_zero_f32, zero_add, wy_eq_cw]

/-- The reference's second term is the kernel's, for finite entries: the plain double sum divided by `8192²` is the
    double sum weighted by `(1/8192)²`, an identity of real numbers. -/
theorem yy_eq_kyy (r : FVec Ideal S8192x128 .f32) (R : Fin 8192 → Fin 128 → ℝ)
    (hR : ∀ i d, r (ix2 i d) = ((R i d : ℝ) : EReal)) : yy r = kyy r := by
  rw [kyy_real r R hR, mean_sq]
  unfold yy
  rw [Ideal.ofBits_zero_f32, zero_add, word_sq8192, Ideal.div_coe (by norm_num : (67108864 : ℝ) ≠ 0)]
  simp only [kern_real r r R R hR hR]
  rw [coe_sum_sum, ← EReal.coe_mul]

/-! ## The two values agree -/

/-- THE KERNEL'S VALUE IS THE REFERENCE'S, when every entry is finite and the weights' sum is not zero. -/
theorem bridge (n r : FVec Ideal S8192x128 .f32) (wt : FVec Ideal S8192x1 .f32)
    (hn : ∀ x, n x ≠ ⊤ ∧ n x ≠ ⊥) (hr : ∀ x, r x ≠ ⊤ ∧ r x ≠ ⊥) (hw : ∀ x, wt x ≠ ⊤ ∧ wt x ≠ ⊥)
    (hS : wsum wt ≠ 0) : kernelValue n r wt = refValue n r wt := by
  -- real witnesses of the three arrays
  obtain ⟨N, hN⟩ : ∃ N : Fin 8192 → Fin 128 → ℝ, ∀ i d, n (ix2 i d) = ((N i d : ℝ) : EReal) :=
    ⟨fun i d => (n (ix2 i d)).toReal, fun i d => (EReal.coe_toReal (hn _).1 (hn _).2).symm⟩
  obtain ⟨R, hR⟩ : ∃ R : Fin 8192 → Fin 128 → ℝ, ∀ i d, r (ix2 i d) = ((R i d : ℝ) : EReal) :=
    ⟨fun i d => (r (ix2 i d)).toReal, fun i d => (EReal.coe_toReal (hr _).1 (hr _).2).symm⟩
  obtain ⟨W, hW⟩ : ∃ W : Fin 8192 → ℝ, ∀ i, wt (ix2 i (0 : Fin 1)) = ((W i : ℝ) : EReal) :=
    ⟨fun i => (wt (ix2 i (0 : Fin 1))).toReal, fun i => (EReal.coe_toReal (hw _).1 (hw _).2).symm⟩
  -- the weights' sum is a nonzero real, so the normalised weights are real
  have hS' : (∑ i, W i) ≠ 0 := by
    intro h0
    apply hS
    rw [wsum_real wt W hW, h0, EReal.coe_zero]
  obtain ⟨u, hu⟩ : ∃ u : Fin 8192 → ℝ, ∀ i, wn wt i = ((u i : ℝ) : EReal) :=
    ⟨_, wn_real wt W hW hS'⟩
  -- the combination is a two-sample quadratic form of the Gaussian Gram matrix, hence nonnegative
  have hpos : 0 ≤ (∑ i, ∑ j, (u i * u j) * E gam (N i) (N j))
      + (∑ i, ∑ j, ((1 / 8192 : ℝ) * (1 / 8192)) * E gam (R i) (R j))
      - 2 * (∑ i, ∑ j, (u i * (1 / 8192 : ℝ)) * E gam (N i) (R j)) :=
    GaussianGram.gaussian_gram_two_sample_nonneg gam_pos.le N R u (fun _ => (1 / 8192 : ℝ))
  unfold kernelValue refValue
  rw [xx_eq_kxx, xy_eq_kxy, yy_eq_kyy r R hR, word_two, Ideal.ofBits_zero_f32, kxx_real n wt u N hu hN,
    kyy_real r R hR, kxy_real n r wt u N R hu hN hR]
  exact congrArg Ideal.sqrt (clamp_real _ _ _ hpos)

end Cert.Proof.Bridge

end
-- ==== Proof.KOps.lean ====
import proofs.«166369_j11106785428164_2_alg».proof.Proof.Run
import proofs.«166369_j11106785428164_2_alg».proof.Proof.RefValue
import proofs.«166369_j11106785428164_2_alg».proof.Proof.Bridge
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators
open Cert.ReferenceIdeal.RefValue (wn kern sqnorm dotp wsum)
open Cert.Proof.Bridge (kxx kyy kxy cw kernelValue)

variable (m : (ℓ : Loc nD τ sig) → Buf (Elt Ideal) ℓ)

/-! ## The arguments, and what each region's operands hold

Everything here is at the exact instance: a float is an extended real. The first six host operations compute the
normalised weights `weights / sum(weights)` and the uniform weights, a column of the literal `2^-13`; no later item
writes either column or an argument, so each region finds them as those operations left them. -/

/-- The three argument arrays on core `c`. -/
abbrev argN (c : Dev nD) : FVec Ideal S8192x128 .f32 := m ((c : Thread nD τ).loc main_arg0)
abbrev argR (c : Dev nD) : FVec Ideal S8192x128 .f32 := m ((c : Thread nD τ).loc main_arg1)
abbrev argW (c : Dev nD) : FVec Ideal S8192x1 .f32 := m ((c : Thread nD τ).loc main_arg2)

/-- The normalised weights are the reference's: the same three operations on the same argument. -/
theorem W1_v2 (c : Dev nD) : W1 m c main_v2 = Cert.ReferenceIdeal.Read.val_main_v2 (F := Ideal) (argW m c) := by
  show StableHlo.after hostOps0 (W0 m c) (Proc.devRef .tc main_v2) = _
  after_results
  rfl

theorem W1_v2_apply (c : Dev nD) (i : Fin 8192) : W1 m c main_v2 (ix2 i (0 : Fin 1)) = wn (argW m c) i := by
  rw [W1_v2, Cert.ReferenceIdeal.Read.val_main_v2_apply, Cert.ReferenceIdeal.Read.val_main_v1_apply,
    Cert.ReferenceIdeal.RefValue.wsum_eq, Ideal.hostDivf_def]
  rfl

/-- The uniform weights: every entry is the literal `2^-13`. -/
theorem W1_v3 (c : Dev nD) :
    W1 m c main_v3 = broadcastInDim S8192x1 ![] bcast_S_S8192x1 (constant (F := Ideal) S_ .f32 0x39000000#32) := by
  show StableHlo.after hostOps0 (W0 m c) (Proc.devRef .tc main_v3) = _
  after_results

theorem W1_v3_apply (c : Dev nD) (i : S8192x1.Idx) : W1 m c main_v3 i = cw := by
  rw [W1_v3]
  exact broadcastInDim_apply _ bcast_S_S8192x1 (constant (F := Ideal) S_ .f32 0x39000000#32) i (fun a => a.elim0) (fun a => a.elim0)

/-! ### The first region: both tables of rows are the first argument, both weight columns the normalised weights -/

theorem A0_arg0 (c : Dev nD) : A0 m c main_arg0 = argN m c := (W1_of m c main_arg0 (by decide)).trans rfl
theorem A0_v2_apply (c : Dev nD) (i : Fin 8192) : A0 m c main_v2 (ix2 i (0 : Fin 1)) = wn (argW m c) i := W1_v2_apply m c i

/-! ### The second region: the second argument, the uniform weights -/

theorem A1_arg1 (c : Dev nD) : A1 m c main_arg1 = argR m c :=
  (W3_of m c main_arg1 (by decide)).trans <| (W2_of m c main_arg1 (by decide)).trans <| (W1_of m c main_arg1 (by decide)).trans rfl
theorem A1_v3_apply (c : Dev nD) (i : Fin 8192) : A1 m c main_v3 (ix2 i (0 : Fin 1)) = cw := by
  show W3 m c main_v3 (ix2 i (0 : Fin 1)) = cw
  rw [W3_of m c main_v3 (by decide), W2_of m c main_v3 (by decide)]
  exact W1_v3_apply m c _

/-! ### The third region: rows of the first argument against rows of the second, normalised against uniform weights -/

theorem A2_arg0 (c : Dev nD) : A2 m c main_arg0 = argN m c :=
  (W5_of m c main_arg0 (by decide)).trans <| (W4_of m c main_arg0 (by decide)).trans <| (W3_of m c main_arg0 (by decide)).trans <|
    (W2_of m c main_arg0 (by decide)).trans <| (W1_of m c main_arg0 (by decide)).trans rfl
theorem A2_arg1 (c : Dev nD) : A2 m c main_arg1 = argR m c :=
  (W5_of m c main_arg1 (by decide)).trans <| (W4_of m c main_arg1 (by decide)).trans <| (W3_of m c main_arg1 (by decide)).trans <|
    (W2_of m c main_arg1 (by decide)).trans <| (W1_of m c main_arg1 (by decide)).trans rfl
theorem A2_v2_apply (c : Dev nD) (i : Fin 8192) : A2 m c main_v2 (ix2 i (0 : Fin 1)) = wn (argW m c) i := by
  show W5 m c main_v2 (ix2 i (0 : Fin 1)) = _
  rw [W5_of m c main_v2 (by decide), W4_of m c main_v2 (by decide), W3_of m c main_v2 (by decide), W2_of m c main_v2 (by decide)]
  exact W1_v2_apply m c i
theorem A2_v3_apply (c : Dev nD) (i : Fin 8192) : A2 m c main_v3 (ix2 i (0 : Fin 1)) = cw := by
  show W5 m c main_v3 (ix2 i (0 : Fin 1)) = cw
  rw [W5_of m c main_v3 (by decide), W4_of m c main_v3 (by decide), W3_of m c main_v3 (by decide), W2_of m c main_v3 (by decide)]
  exact W1_v3_apply m c _

/-! ## The grid's points and the rows a tile covers -/

theorem row_lt (t : Fin 256) (r : Fin 512) : 512 * (t.val / 16) + r.val < 8192 := by
  have := t.isLt; have := r.isLt; omega
theorem col_lt (t : Fin 256) (s : Fin 512) : 512 * (t.val % 16) + s.val < 8192 := by
  have := t.isLt; have := s.isLt; omega

end Cert.KernelIdeal.Hand

end
-- ==== Proof.Acc0.lean ====
import proofs.«166369_j11106785428164_2_alg».proof.Proof.Body0
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as the kernel's own arithmetic

The accumulator holds one element. Each case of the body stores to it through the whole-buffer rectangle, so what the
case leaves is the payload of its last store, and a load after a store reads the stored payload. The payloads are the
generated arithmetic terms: `k0_pay3` (the 512 row sums of the tile), `k0_pay1` (the loaded accumulator plus their
sum) and `k0_pay2` (the zero the first point resets it to). -/

/-- The two zero offsets of a rank-2 rectangle, as the constant function. -/
theorem hz0 : (![0, 0] : Fin 2 → Nat) = fun _ => 0 := funext fun a => by fin_cases a <;> rfl

/-- At the first point the accumulator loaded is the zero just stored: the case leaves zero plus the tile's sum. -/
theorem acc0_A_eq (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond0_1 i) (hc2 : ¬(k0_cond2 i = 1#1)) (x0 x1 : Vec F S512x128 .f32) (x2 x3 : Vec F S512x1 .f32) :
    acc0_A c i arg2 harg2 arg3 harg3 arg4 harg4 arg5 harg5 arg6 harg6 arg7 harg7 hc1 hc2 x0 x1 x2 x3 = k0_pay1 (k0_pay3 x0 x1 x2 x3) (k0_pay2 (F := F)) := by
  unfold acc0_A
  rw [View.read_writes_junk_eq_canon]
  unfold kernelRun0_A
  dsimp only
  sl_unfold_words
  rw [View.canon_cons_unit_zero (S := S1x1) hz0, View.readCov_unit_zero (S := S1x1) _ hz0]
  simp only [View.readAt_eq_ld, harg2.read_unread, harg3.read_unread, harg4.read_unread, harg5.read_unread,
    View.ld_unit_zero (S := S512x128) hz0, View.ld_unit_zero (S := S512x1) hz0]

/-- At a middle point the case leaves what the accumulator held plus the tile's sum. -/
theorem acc0_B_eq (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : ¬(k0_cond2 i = 1#1)) (x0 x1 : Vec F S512x128 .f32) (x2 x3 : Vec F S512x1 .f32) (xs : Vec F S1x1 .f32) :
    acc0_B c i arg2 harg2 arg3 harg3 arg4 harg4 arg5 harg5 arg6 harg6 arg7 harg7 hc1 hc2 x0 x1 x2 x3 xs = k0_pay1 (k0_pay3 x0 x1 x2 x3) xs := by
  unfold acc0_B
  rw [View.read_writes_junk_eq_canon]
  unfold kernelRun0_B
  dsimp only
  rw [View.canon_unit_zero (S := S1x1) hz0]
  simp only [View.readAt_eq_ld, harg2.read_unread, harg3.read_unread, harg4.read_unread, harg5.read_unread, harg7.read_unread,
    View.ld_unit_zero (S := S512x128) hz0, View.ld_unit_zero (S := S512x1) hz0, View.ld_unit_zero (S := S1x1) hz0]

/-- At the last point the accumulator is left as at a middle point, -/
theorem acc0_C_eq (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) :
    acc0_C c i arg2 harg2 arg3 harg3 arg4 harg4 arg5 harg5 arg6 harg6 arg7 harg7 hc1 hc2 x0 x1 x2 x3 xs = k0_pay1 (k0_pay3 x0 x1 x2 x3) xs := by
  unfold acc0_C
  rw [View.read_writes_junk_eq_canon]
  unfold kernelRun0_C
  dsimp only
  sl_unfold_words
  rw [View.canon_unit_zero (S := S1x1) hz0]
  simp only [View.readAt_eq_ld, harg2.read_unread, harg3.read_unread, harg4.read_unread, harg5.read_unread, harg7.read_unread,
    View.ld_unit_zero (S := S512x128) hz0, View.ld_unit_zero (S := S512x1) hz0, View.ld_unit_zero (S := S1x1) hz0]

/-- and the output block receives the accumulator's new value: the load that feeds its store reads what was just
    stored to the accumulator. -/
theorem out0_C_eq (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond0_1 i) (hc2 : k0_cond2 i = 1#1) (x0 x1 : Vec F S512x128 .f32) (x2 x3 : Vec F S512x1 .f32) (xs : Vec F S1x1 .f32) :
    out0_C c i arg2 harg2 arg3 harg3 arg4 harg4 arg5 harg5 arg6 harg6 arg7 harg7 hc1 hc2 x0 x1 x2 x3 xs = k0_pay1 (k0_pay3 x0 x1 x2 x3) xs := by
  unfold out0_C
  rw [View.read_writes_junk_eq_canon]
  unfold kernelRun0_C
  dsimp only
  sl_unfold_words
  rw [View.canon_unit_zero (S := S1x1) hz0, View.readCov_unit_zero (S := S1x1) _ hz0]
  simp only [View.readAt_eq_ld, harg2.read_unread, harg3.read_unread, harg4.read_unread, harg5.read_unread, harg7.read_unread,
    View.ld_unit_zero (S := S512x128) hz0, View.ld_unit_zero (S := S512x1) hz0, View.ld_unit_zero (S := S1x1) hz0]

/-! ## The accumulation, point by point, as a recurrence in the kernel's arithmetic

`accAt0 A c n` is the accumulator after the body at point `n`. With the cases opened it obeys one recurrence: at point
`0` the tile's sum added to the reset zero, at every later point (the last included) the tile's sum added to what the
point before left. The output block ends holding the accumulator after the last point. -/

variable (A : (c : Dev nD) → (b : Ref sig .tc) → Buf (Elt F) ((c : Thread nD τ).loc b))

/-- The first point: the tile's sum over the first blocks, added to the reset zero. -/
theorem accAt0_zero (c : Dev nD) (h : 0 < cfg0.N) :
    accAt0 A c 0 h = k0_pay1 (k0_pay3 (iblk0 A c 0 ⟨0, h⟩) (iblk0 A c 1 ⟨0, h⟩) (iblk0 A c 2 ⟨0, h⟩) (iblk0 A c 3 ⟨0, h⟩)) (k0_pay2 (F := F)) := by
  have hc1 : cond0_1 (grid0.coords ⟨0, h⟩) := (hcond0_1 ⟨0, h⟩).mpr rfl
  have hc2 : ¬(k0_cond2 (grid0.coords ⟨0, h⟩) = 1#1) := fun h' => absurd ((hcond0_2 ⟨0, h⟩).mp h') (show ¬((0 : ℕ) = 255) by decide)
  exact (accAt0_A A c ⟨0, h⟩ rfl hc1 hc2).trans
    (acc0_A_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) msS0 hsS0 hc1 hc2
      (iblk0 A c 0 ⟨0, h⟩) (iblk0 A c 1 ⟨0, h⟩) (iblk0 A c 2 ⟨0, h⟩) (iblk0 A c 3 ⟨0, h⟩))

/-- A later point, the last included: the tile's sum over the point's blocks, added to what the point before left. -/
theorem accAt0_succ (c : Dev nD) (n : ℕ) (hn : n + 1 < cfg0.N) :
    accAt0 A c (n + 1) hn = k0_pay1 (k0_pay3 (iblk0 A c 0 ⟨n + 1, hn⟩) (iblk0 A c 1 ⟨n + 1, hn⟩) (iblk0 A c 2 ⟨n + 1, hn⟩) (iblk0 A c 3 ⟨n + 1, hn⟩))
      (accAt0 A c n (Nat.lt_of_succ_lt hn)) := by
  have hc1 : ¬cond0_1 (grid0.coords ⟨n + 1, hn⟩) := fun h' => Nat.succ_ne_zero n ((hcond0_1 ⟨n + 1, hn⟩).mp h')
  by_cases h : n + 1 = 255
  · have hc2 : k0_cond2 (grid0.coords ⟨n + 1, hn⟩) = 1#1 := (hcond0_2 ⟨n + 1, hn⟩).mpr h
    exact (accAt0_C A c ⟨n + 1, hn⟩ h hc1 hc2).trans
      (acc0_C_eq c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) msS0 hsS0 hc1 hc2
        (iblk0 A c 0 ⟨n + 1, hn⟩) (iblk0 A c 1 ⟨n + 1, hn⟩) (iblk0 A c 2 ⟨n + 1, hn⟩) (iblk0 A c 3 ⟨n + 1, hn⟩)
        (accAt0 A c n (Nat.lt_of_succ_lt hn)))
  · have hc2 : ¬(k0_cond2 (grid0.coords ⟨n + 1, hn⟩) = 1#1) := fun h' => h ((hcond0_2 ⟨n + 1, hn⟩).mp h')
    exact (accAt0_B A c ⟨n + 1, hn⟩ (Nat.succ_ne_zero n) h hc1 hc2).trans
      (acc0_B_eq c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) msS0 hsS0 hc1 hc2
        (iblk0 A c 0 ⟨n + 1, hn⟩) (iblk0 A c 1 ⟨n + 1, hn⟩) (iblk0 A c 2 ⟨n + 1, hn⟩) (iblk0 A c 3 ⟨n + 1, hn⟩)
        (accAt0 A c n (Nat.lt_of_succ_lt hn)))

/-- The output block ends holding the accumulator after the last point. -/
theorem outFin0_eq (c : Dev nD) : outFin0 A c = accAt0 A c 255 (by rw [N0_eq]; decide) := by
  have h254 : 254 < cfg0.N := by rw [N0_eq]; decide
  have h255 : 254 + 1 < cfg0.N := by rw [N0_eq]; decide
  have hc1 : ¬cond0_1 (grid0.coords tL0) := fun h' => absurd ((hcond0_1 tL0).mp h') (show ¬((255 : ℕ) = 0) by decide)
  have hc2 : k0_cond2 (grid0.coords tL0) = 1#1 := (hcond0_2 tL0).mpr rfl
  refine (out0_C_eq c (grid0.coords tL0) (ms0_0 tL0) (hs0_0 tL0) (ms0_1 tL0) (hs0_1 tL0) (ms0_2 tL0) (hs0_2 tL0) (ms0_3 tL0) (hs0_3 tL0)
    (ms0_4 tL0) (hs0_4 tL0) msS0 hsS0 hc1 hc2 (iblk0 A c 0 tL0) (iblk0 A c 1 tL0) (iblk0 A c 2 tL0) (iblk0 A c 3 tL0) (accN0 A c 254)).trans ?_
  rw [accN0_lt A c 254 h254]
  exact (accAt0_succ A c 254 h255).symm

end Cert.KernelIdeal.Hand

end
-- ==== Proof.AccIdeal0.lean ====
import proofs.«166369_j11106785428164_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## Layout operations read at coordinates: the column forms

A vector `[a]` viewed as a column `[a, 1]`, and a column `[a, 1]` broadcast along the rows of `[a, b]`, read at an
index written by coordinates. (A column transposed to a row `[1, a]` and a row broadcast over many are read by the
library's `transpose_ix2_apply` and `broadcastTo_1b_ab_apply`.) -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a matrix, and the matrix product, read at coordinates (at the extended reals) -/

/-- An `f32` sum along the columns of an `[a, b]` matrix from the zero word reads, at row `r`, the sum over the
    row's `b` entries: the reduction's value is the plain sum, its zero initial word does not appear. -/
theorem rowSum_f32_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (funext fun d => match d with | ⟨0, _⟩ => rfl | ⟨1, _⟩ => rfl))

/-- An `f32` sum along the rows of an `[a, b]` matrix from the zero word reads, at column `c`, the sum over the
    column's `a` entries. -/
theorem colSum_f32_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ src 0x00000000#32 h hφ hacc (ix1 c) = ∑ k : Fin a, src (ix2 k c) :=
  (Ideal.multiReduction_add_single src 0x00000000#32 h hφ hacc (ix1 c)).trans
    (Finset.sum_congr rfl fun k _ => congrArg src (funext fun d => match d with | ⟨0, _⟩ => rfl | ⟨1, _⟩ => rfl))

/-- The exponential of a vector at an index is the extended-real exponential of the element. -/
theorem exp_apply {s : Shape} {φ : FTy} (x : FVec Ideal s φ) (i : s.Idx) : exp x i = Ideal.exp (x i) := rfl

/-- The body's matrix product: rows of the first operand against columns of the second, 128 terms. -/
abbrev D0 : DotDims S512x128 S128x512 S512x512 := dot_S512x128_S128x512_S512x512_1_0_0_1_n_n

/-- The product read at `(r, s)`: the accumulator there plus the sum over the 128 contraction coordinates. -/
theorem matmul_D0_apply (lhs : FVec Ideal S512x128 .f32) (rhs : FVec Ideal S128x512 .f32) (acc : FVec Ideal S512x512 .f32)
    (prec : Option ContractPrecision) (r s : Fin 512) :
    matmul D0 prec lhs rhs acc (ix2 r s) = acc (ix2 r s) + ∑ d : Fin 128, lhs (ix2 r d) * rhs (ix2 d s) := by
  refine (Ideal.matmul_apply D0 prec lhs rhs acc (ix2 r s)).trans ?_
  refine congrArg (acc (ix2 r s) + ·) ?_
  refine (Equiv.sum_comp (contrEquiv1 D0 128 rfl rfl).symm _).symm.trans ?_
  refine Finset.sum_congr rfl fun d _ => ?_
  have hl : D0.lhsIdx (ix2 r s) ((contrEquiv1 D0 128 rfl rfl).symm d) = ix2 r d := funext fun ax => match ax with
    | ⟨0, _⟩ => Fin.ext rfl
    | ⟨1, _⟩ => Fin.ext ((D0.lhsIdx_val_of_single (cl := 1) rfl _ _).trans (contrEquiv1_symm_val D0 128 rfl rfl d))
  have hr : D0.rhsIdx (ix2 r s) ((contrEquiv1 D0 128 rfl rfl).symm d) = ix2 d s := funext fun ax => match ax with
    | ⟨0, _⟩ => Fin.ext ((D0.rhsIdx_val_of_single (cr := 0) rfl _ _).trans (contrEquiv1_symm_val D0 128 rfl rfl d))
    | ⟨1, _⟩ => Fin.ext rfl
  rw [hl, hr]

/-! ## One step of the accumulation, read as explicit sums -/

/-- THE TILE'S ENTRY at `(r, s)`, as the body computes it: the two weights' product times the exponential of `g`
    times the squared distance of row `r` of the first block from row `s` of the second, clamped below at zero; the
    squared distance as the two squared norms minus twice the inner product (the inner product accumulated into a
    zero accumulator). Every float literal is left as its word: `0x40000000` is `2.0`, `0x00000000` is `0.0`,
    `0xBD4CCCCD` is `g`. -/
def tileEntry (x0 x1 : Vec Ideal S512x128 .f32) (x2 x3 : Vec Ideal S512x1 .f32) (r s : Fin 512) : EReal :=
  (x2 (ix2 r (0 : Fin 1)) * x3 (ix2 s (0 : Fin 1))) *
    Ideal.exp (Ideal.ofBits .f32 0xBD4CCCCD#32 *
      max (((∑ d : Fin 128, x0 (ix2 r d) * x0 (ix2 r d)) + (∑ d : Fin 128, x1 (ix2 s d) * x1 (ix2 s d)))
            - Ideal.ofBits .f32 0x40000000#32 * (Ideal.ofBits .f32 0x00000000#32 + ∑ d : Fin 128, x0 (ix2 r d) * x1 (ix2 s d)))
          (Ideal.ofBits .f32 0x00000000#32))

/-- Row `r` of the tile's row sums is the sum of the tile's entries along that row. -/
theorem pay3_apply (x0 x1 : Vec Ideal S512x128 .f32) (x2 x3 : Vec Ideal S512x1 .f32) (r : Fin 512) (u : Fin 1) :
    k0_pay3 (F := Ideal) x0 x1 x2 x3 (ix2 r u) = ∑ s : Fin 512, tileEntry x0 x1 x2 x3 r s := by
  unfold k0_pay3
  dsimp only
  refine (shapeCast_a_a1_apply _ _ r u).trans ?_
  refine (rowSum_f32_apply _ _ _ _ r).trans ?_
  refine Finset.sum_congr rfl fun s _ => ?_
  simp only [mulf_apply, addf_apply, subf_apply, maximumf_apply, broadcast_apply, exp_apply]
  unfold tileEntry
  refine congrArg₂ (· * ·) (congrArg₂ (· * ·) ?w2 ?w3)
    (congrArg Ideal.exp (congrArg₂ (· * ·) rfl (congrArg₂ max (congrArg₂ (· - ·) (congrArg₂ (· + ·) ?n0 ?n1)
      (congrArg₂ (· * ·) rfl ?ip)) rfl)))
  case w2 =>
    -- the first weight: a column broadcast along the rows
    exact (broadcastTo_a1_ab_apply _ _ r s).trans (congrFun (shapeCast_self x2 _) (ix2 r (0 : Fin 1)))
  case w3 =>
    -- the second weight: a column laid as a row, broadcast down the columns
    exact (broadcastTo_1b_ab_apply _ _ r s).trans ((transpose_ix2_apply _ _ (0 : Fin 1) s).trans
      (congrFun (shapeCast_self x3 _) (ix2 s (0 : Fin 1))))
  case n0 =>
    -- the squared norm of row `r` of the first block
    exact (broadcastTo_a1_ab_apply _ _ r s).trans ((shapeCast_a_a1_apply _ _ r (0 : Fin 1)).trans
      ((rowSum_f32_apply _ _ _ _ r).trans (Finset.sum_congr rfl fun d _ => rfl)))
  case n1 =>
    -- the squared norm of row `s` of the second block
    exact (broadcastTo_1b_ab_apply _ _ r s).trans ((transpose_ix2_apply _ _ (0 : Fin 1) s).trans
      ((shapeCast_a_a1_apply _ _ s (0 : Fin 1)).trans
        ((rowSum_f32_apply _ _ _ _ s).trans (Finset.sum_congr rfl fun d _ => rfl))))
  case ip =>
    -- the inner product of the two rows, into the zero accumulator
    exact (matmul_D0_apply _ _ _ _ r s).trans (congrArg₂ (· + ·) rfl
      (Finset.sum_congr rfl fun d _ => congrArg (x0 (ix2 r d) * ·) (transpose_ix2_apply x1 _ d s)))

/-- ONE STEP: the new accumulator is the old one plus the sum over the tile's 512 rows of each row's sum of its 512
    entries. Both reductions start from the zero word and read as plain sums: no initial value appears. -/
theorem pay_step (x0 x1 : Vec Ideal S512x128 .f32) (x2 x3 : Vec Ideal S512x1 .f32) (xs : Vec Ideal S1x1 .f32) (y : S1x1.Idx) :
    k0_pay1 (F := Ideal) (k0_pay3 x0 x1 x2 x3) xs y = xs y + ∑ r : Fin 512, ∑ s : Fin 512, tileEntry x0 x1 x2 x3 r s := by
  obtain ⟨u, w, rfl⟩ : ∃ (u w : Fin 1), y = ix2 u w := ⟨y 0, y 1, eq_ix2 y⟩
  unfold k0_pay1
  dsimp only
  refine (congrFun (shapeCast_self _ _) (ix2 u w)).trans ?_
  refine congrArg (xs (ix2 u w) + ·) ?_
  refine (shapeCast_a_1a_apply _ _ u w).trans ?_
  refine (colSum_f32_apply _ _ _ _ w).trans ?_
  exact Finset.sum_congr rfl fun r _ => pay3_apply x0 x1 x2 x3 r w

end Cert.KernelIdeal.Hand

end
-- ==== Proof.LibTiledSum.lean ====
import Mathlib.Data.Fintype.BigOperators
import Mathlib.Logic.Equiv.Fin.Basic

/-!
# Sums over a grid of tiles

A table indexed by `Fin (P * a) × Fin (Q * b)` can be cut into a `P × Q` grid of tiles, each of
`a` rows and `b` columns.  Visiting the tiles in row-major order (tile `t` sits at tile-row
`t / Q` and tile-column `t % Q`) and summing each tile row by row gives the same total as summing
the whole table.

Everything is stated in an arbitrary additive commutative monoid: only associativity and
commutativity of `+` are used, never subtraction or cancellation.

## Main statements

* `TiledSum.sum_fin_mul`: a sum over `Fin (P * a)` as a double sum over `Fin P` and `Fin a`.
* `TiledSum.sum_tiles_eq_sum_of_eq`: the regrouping, with all index bounds taken as hypotheses.
* `TiledSum.sum_tiles_eq_sum`: the regrouping for `f : Fin (P * a) → Fin (Q * b) → M`.
* `TiledSum.sum_tiles_8192`: the instance `P = Q = 16`, `a = b = 512`, all numbers literal.
* `TiledSum.acc_eq_sum_range`, `TiledSum.acc_eq_sum_fin`, `TiledSum.acc_255_eq_sum_fin`:
  a running accumulator is its start value plus the sum of everything added so far.
-/

open Finset

namespace TiledSum

variable {M : Type*} [AddCommMonoid M]

/-! ### Index bounds -/

/-- If `x < P` and `r < a` then `a * x + r < P * a`: row `r` of block `x` is a row of the table. -/
theorem mul_add_lt {a P x r : ℕ} (hx : x < P) (hr : r < a) : a * x + r < P * a :=
  calc a * x + r < a * x + a := Nat.add_lt_add_left hr _
    _ = a * (x + 1) := (Nat.mul_succ a x).symm
    _ ≤ a * P := Nat.mul_le_mul_left a hx
    _ = P * a := Nat.mul_comm a P

/-- The row index `a * (t / Q) + r` of tile `t < P * Q` and local row `r < a` is below `P * a`. -/
theorem tile_row_lt {P Q a : ℕ} (t : Fin (P * Q)) (r : Fin a) :
    a * (t.val / Q) + r.val < P * a :=
  mul_add_lt (Nat.div_lt_of_lt_mul (Nat.mul_comm P Q ▸ t.isLt)) r.isLt

/-- The column index `b * (t % Q) + s` of tile `t < P * Q` and local column `s < b` is below
`Q * b`. -/
theorem tile_col_lt {P Q b : ℕ} (t : Fin (P * Q)) (s : Fin b) :
    b * (t.val % Q) + s.val < Q * b := by
  have hQ : 0 < Q := by
    rcases Nat.eq_zero_or_pos Q with h | h
    · exact absurd t.isLt (by simp [h])
    · exact h
  exact mul_add_lt (Nat.mod_lt _ hQ) s.isLt

/-! ### Splitting one index -/

/-- A sum over `Fin (P * a)` is the sum over blocks `p : Fin P` of the sums over the positions
`r : Fin a` inside the block, the element at position `r` of block `p` being `a * p + r`. -/
theorem sum_fin_mul (P a : ℕ) (G : Fin (P * a) → M) :
    ∑ i : Fin (P * a), G i =
      ∑ p : Fin P, ∑ r : Fin a, G ⟨a * p.val + r.val, mul_add_lt p.isLt r.isLt⟩ := by
  rw [← Equiv.sum_comp finProdFinEquiv G, Fintype.sum_prod_type]
  refine Finset.sum_congr rfl fun p _ => Finset.sum_congr rfl fun r _ => ?_
  exact congrArg G (Fin.ext (Nat.add_comm _ _))

/-! ### The regrouping -/

/-- **Tiled sum, bounds as hypotheses.**  Let `T = P * Q`, `N = P * a` and `N' = Q * b`.  For a
table `f : Fin N → Fin N' → M`, summing tile after tile in row-major order, each tile row by row,
gives the sum of the whole table.  The proofs `h1`, `h2` that the indices are in range are
arbitrary, so the statement applies to index terms built elsewhere. -/
theorem sum_tiles_eq_sum_of_eq {P Q a b T N N' : ℕ} (hT : T = P * Q) (hN : N = P * a)
    (hN' : N' = Q * b) (f : Fin N → Fin N' → M)
    (h1 : ∀ (t : Fin T) (r : Fin a), a * (t.val / Q) + r.val < N)
    (h2 : ∀ (t : Fin T) (s : Fin b), b * (t.val % Q) + s.val < N') :
    ∑ t : Fin T, ∑ r : Fin a, ∑ s : Fin b,
        f ⟨a * (t.val / Q) + r.val, h1 t r⟩ ⟨b * (t.val % Q) + s.val, h2 t s⟩ =
      ∑ i : Fin N, ∑ j : Fin N', f i j := by
  subst hT hN hN'
  -- Right-hand side: split the row index, then the column index.
  rw [sum_fin_mul P a (fun i => ∑ j, f i j)]
  simp only [sum_fin_mul Q b]
  -- Left-hand side: split the tile index into tile-row `p` and tile-column `q`.
  rw [sum_fin_mul P Q]
  refine Finset.sum_congr rfl fun p _ => ?_
  -- Both sides now range over `q`, `r`, `s`; bring `q` and `r` into the same order.
  rw [Finset.sum_comm]
  refine Finset.sum_congr rfl fun r _ => Finset.sum_congr rfl fun q _ =>
    Finset.sum_congr rfl fun s _ => ?_
  -- The tile `Q * p + q` has tile-row `p` and tile-column `q`.
  have hQ : 0 < Q := Nat.lt_of_le_of_lt (Nat.zero_le _) q.isLt
  have hdiv : (Q * p.val + q.val) / Q = p.val := by
    rw [Nat.mul_add_div hQ, Nat.div_eq_of_lt q.isLt, Nat.add_zero]
  have hmod : (Q * p.val + q.val) % Q = q.val := by
    rw [Nat.mul_add_mod, Nat.mod_eq_of_lt q.isLt]
  congr 1 <;> apply Fin.ext <;> simp only [hdiv, hmod]

/-- **Tiled sum.**  For `f : Fin (P * a) → Fin (Q * b) → M`, the sum over the `P * Q` tiles in
row-major order (tile `t` at tile-row `t / Q`, tile-column `t % Q`), each tile summed row by row,
is the sum of the whole table. -/
theorem sum_tiles_eq_sum (P Q a b : ℕ) (f : Fin (P * a) → Fin (Q * b) → M) :
    ∑ t : Fin (P * Q), ∑ r : Fin a, ∑ s : Fin b,
        f ⟨a * (t.val / Q) + r.val, tile_row_lt t r⟩ ⟨b * (t.val % Q) + s.val, tile_col_lt t s⟩ =
      ∑ i : Fin (P * a), ∑ j : Fin (Q * b), f i j :=
  sum_tiles_eq_sum_of_eq rfl rfl rfl f _ _

/-- **Tiled sum of an `8192 × 8192` table** cut into a `16 × 16` grid of `512 × 512` tiles.  The
range proofs `h1`, `h2` are arbitrary.  It follows from the general statement by the equalities
`256 = 16 * 16` and `8192 = 16 * 512` of the bounds alone; nothing is enumerated. -/
theorem sum_tiles_8192 (f : Fin 8192 → Fin 8192 → M)
    (h1 : ∀ (t : Fin 256) (r : Fin 512), 512 * (t.val / 16) + r.val < 8192)
    (h2 : ∀ (t : Fin 256) (s : Fin 512), 512 * (t.val % 16) + s.val < 8192) :
    ∑ t : Fin 256, ∑ r : Fin 512, ∑ s : Fin 512,
        f ⟨512 * (t.val / 16) + r.val, h1 t r⟩ ⟨512 * (t.val % 16) + s.val, h2 t s⟩ =
      ∑ i : Fin 8192, ∑ j : Fin 8192, f i j :=
  sum_tiles_eq_sum_of_eq (P := 16) (Q := 16) (a := 512) (b := 512) (T := 256) (N := 8192)
    (N' := 8192) (by rfl) (by rfl) (by rfl) f h1 h2

/-! ### A running accumulator -/

/-- An accumulator that starts at `z + g 0` and adds `g (n + 1)` at step `n + 1` holds, after step
`n`, the start value `z` plus the sum of `g 0, …, g n`. -/
theorem acc_eq_sum_range (z : M) (g acc : ℕ → M) (h0 : acc 0 = z + g 0)
    (hs : ∀ n, acc (n + 1) = acc n + g (n + 1)) (n : ℕ) :
    acc n = z + ∑ t ∈ Finset.range (n + 1), g t := by
  induction n with
  | zero => rw [h0, Finset.sum_range_one]
  | succ k ih => rw [hs, ih, Finset.sum_range_succ g (k + 1), add_assoc]

/-- The accumulator after step `n`, as a sum over `Fin (n + 1)`. -/
theorem acc_eq_sum_fin (z : M) (g acc : ℕ → M) (h0 : acc 0 = z + g 0)
    (hs : ∀ n, acc (n + 1) = acc n + g (n + 1)) (n : ℕ) :
    acc n = z + ∑ t : Fin (n + 1), g t.val := by
  rw [acc_eq_sum_range z g acc h0 hs n, Fin.sum_univ_eq_sum_range]

/-- The accumulator after step `255`, as a sum over `Fin 256`. -/
theorem acc_255_eq_sum_fin (z : M) (g acc : ℕ → M) (h0 : acc 0 = z + g 0)
    (hs : ∀ n, acc (n + 1) = acc n + g (n + 1)) :
    acc 255 = z + ∑ t : Fin 256, g t.val :=
  acc_eq_sum_fin z g acc h0 hs 255

end TiledSum
-- ==== Proof.KSum0.lean ====
import proofs.«166369_j11106785428164_2_alg».proof.Proof.KOps
import proofs.«166369_j11106785428164_2_alg».proof.Proof.Acc0
import proofs.«166369_j11106785428164_2_alg».proof.Proof.AccIdeal0
import proofs.«166369_j11106785428164_2_alg».proof.Proof.LibTiledSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators
open Cert.ReferenceIdeal.RefValue (wn kern sqnorm dotp wsum)
open Cert.Proof.Bridge (kxx kyy kxy cw kernelValue)

variable (m : (ℓ : Loc nD τ sig) → Buf (Elt Ideal) ℓ)

/-! ## Region 0: the blocks read at the arrays' rows -/

/-- Point `t` of the 16 x 16 grid, in row-major order: tile row `t / 16`, tile column `t % 16`. -/
abbrev pt0 (t : Fin 256) : Fin cfg0.N := ⟨t.val, by rw [N0_eq]; exact t.isLt⟩

/-- The printed index maps, decided over the grid: the first and third windows move with the tile's row, the second
    and fourth with its column. -/
theorem idx_in0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0)

section Blocks
variable (A : (c : Dev nD) → (b : Ref sig .tc) → Buf (Elt Ideal) ((c : Thread nD τ).loc b))

theorem iblk0_0_apply (c : Dev nD) (t : Fin 256) (r : Fin 512) (d : Fin 128) :
    iblk0 A c 0 (pt0 t) (ix2 r d) = A c main_arg0 (ix2 ⟨512 * (t.val / 16) + r.val, row_lt t r⟩ d) := by
  have e := idx_in0 (pt0 t)
  show A c main_arg0 (((cfg0.win 0).blk (pt0 t)).view.emb (ix2 r d)) = _
  congr 1
  funext a; apply Fin.ext
  match a with
  | ⟨0, _⟩ => show win0_0.index (pt0 t) (0 : Fin 2) * 512 + 1 * r.val = 512 * (t.val / 16) + r.val; have := e.1; have hv : (pt0 t).val = t.val := rfl; omega
  | ⟨1, _⟩ => show win0_0.index (pt0 t) (1 : Fin 2) * 128 + 1 * d.val = d.val; have := e.2.1; omega

theorem iblk0_1_apply (c : Dev nD) (t : Fin 256) (s : Fin 512) (d : Fin 128) :
    iblk0 A c 1 (pt0 t) (ix2 s d) = A c main_arg0 (ix2 ⟨512 * (t.val % 16) + s.val, col_lt t s⟩ d) := by
  have e := idx_in0 (pt0 t)
  show A c main_arg0 (((cfg0.win 1).blk (pt0 t)).view.emb (ix2 s d)) = _
  congr 1
  funext a; apply Fin.ext
  match a with
  | ⟨0, _⟩ => show win0_1.index (pt0 t) (0 : Fin 2) * 512 + 1 * s.val = 512 * (t.val % 16) + s.val; have := e.2.2.1; have hv : (pt0 t).val = t.val := rfl; omega
  | ⟨1, _⟩ => show win0_1.index (pt0 t) (1 : Fin 2) * 128 + 1 * d.val = d.val; have := e.2.2.2.1; omega

theorem iblk0_2_apply (c : Dev nD) (t : Fin 256) (r : Fin 512) :
    iblk0 A c 2 (pt0 t) (ix2 r (0 : Fin 1)) = A c main_v2 (ix2 ⟨512 * (t.val / 16) + r.val, row_lt t r⟩ (0 : Fin 1)) := by
  have e := idx_in0 (pt0 t)
  show A c main_v2 (((cfg0.win 2).blk (pt0 t)).view.emb (ix2 r (0 : Fin 1))) = _
  congr 1
  funext a; apply Fin.ext
  match a with
  | ⟨0, _⟩ => show win0_2.index (pt0 t) (0 : Fin 2) * 512 + 1 * r.val = 512 * (t.val / 16) + r.val; have := e.2.2.2.2.1; have hv : (pt0 t).val = t.val := rfl; omega
  | ⟨1, _⟩ => show win0_2.index (pt0 t) (1 : Fin 2) * 1 + 1 * 0 = 0; have := e.2.2.2.2.2.1; omega

theorem iblk0_3_apply (c : Dev nD) (t : Fin 256) (s : Fin 512) :
    iblk0 A c 3 (pt0 t) (ix2 s (0 : Fin 1)) = A c main_v2 (ix2 ⟨512 * (t.val % 16) + s.val, col_lt t s⟩ (0 : Fin 1)) := by
  have e := idx_in0 (pt0 t)
  show A c main_v2 (((cfg0.win 3).blk (pt0 t)).view.emb (ix2 s (0 : Fin 1))) = _
  congr 1
  funext a; apply Fin.ext
  match a with
  | ⟨0, _⟩ => show win0_3.index (pt0 t) (0 : Fin 2) * 512 + 1 * s.val = 512 * (t.val % 16) + s.val; have := e.2.2.2.2.2.2.1; have hv : (pt0 t).val = t.val := rfl; omega
  | ⟨1, _⟩ => show win0_3.index (pt0 t) (1 : Fin 2) * 1 + 1 * 0 = 0; have := e.2.2.2.2.2.2.2; omega
end Blocks

/-! ## Region 0: the accumulator is the sum over the whole table -/

/-- Entry `(i, j)` of the table this region sums: the two rows' weights times the Gaussian of their distance. -/
def F0 (c : Dev nD) (i j : Fin 8192) : EReal :=
  (wn (argW m c) i * wn (argW m c) j) * kern (argN m c) (argN m c) i j

/-- One entry of the tile at point `t` is the table's entry at the tile's rows: the blocks are rows `512 (t / 16) + r` and
    `512 (t % 16) + s` of the arrays; the squared norms and the inner product are the table's, the leading zero words
    on either side being zero. -/
theorem tile0_eq (c : Dev nD) (t : Fin 256) (r s : Fin 512) :
    tileEntry (iblk0 (A0 m) c 0 (pt0 t)) (iblk0 (A0 m) c 1 (pt0 t)) (iblk0 (A0 m) c 2 (pt0 t)) (iblk0 (A0 m) c 3 (pt0 t)) r s
      = F0 m c ⟨512 * (t.val / 16) + r.val, row_lt t r⟩ ⟨512 * (t.val % 16) + s.val, col_lt t s⟩ := by
  unfold tileEntry F0 kern sqnorm dotp
  simp only [iblk0_0_apply, iblk0_1_apply, iblk0_2_apply, iblk0_3_apply, Ideal.ofBits_zero_f32, zero_add]
  rw [A0_arg0, A0_v2_apply, A0_v2_apply]

/-- The tile sum at point `t` (zero beyond the grid, never read). -/
def g0 (c : Dev nD) (t : ℕ) : EReal :=
  if h : t < 256 then ∑ r : Fin 512, ∑ s : Fin 512,
    F0 m c ⟨512 * (t / 16) + r.val, row_lt ⟨t, h⟩ r⟩ ⟨512 * (t % 16) + s.val, col_lt ⟨t, h⟩ s⟩ else 0

/-- One step of the accumulator adds the point's tile sum. -/
theorem step0 (c : Dev nD) (k : ℕ) (hk : k < cfg0.N) (xs : Vec Ideal S1x1 .f32) (y : S1x1.Idx) :
    k0_pay1 (F := Ideal) (k0_pay3 (iblk0 (A0 m) c 0 ⟨k, hk⟩) (iblk0 (A0 m) c 1 ⟨k, hk⟩) (iblk0 (A0 m) c 2 ⟨k, hk⟩) (iblk0 (A0 m) c 3 ⟨k, hk⟩)) xs y
      = xs y + g0 m c k := by
  have hk' : k < 256 := lt_of_lt_of_eq hk N0_eq
  rw [pay_step]
  congr 1
  unfold g0; rw [dif_pos hk']
  exact Finset.sum_congr rfl fun r _ => Finset.sum_congr rfl fun s _ => tile0_eq m c ⟨k, hk'⟩ r s

/-- The accumulator after point `k` is the reset value plus the tile sums of the points up to `k`. -/
theorem accAt0_sum (c : Dev nD) (y : S1x1.Idx) : ∀ (k : ℕ) (hk : k < cfg0.N),
    accAt0 (A0 m) c k hk y = k0_pay2 (F := Ideal) y + ∑ t ∈ Finset.range (k + 1), g0 m c t := by
  intro k
  induction k with
  | zero =>
    intro hk
    rw [accAt0_zero, step0, Finset.range_one, Finset.sum_singleton]
  | succ k ih =>
    intro hk
    rw [accAt0_succ, step0, ih, Finset.sum_range_succ (fun t => g0 m c t) (k + 1), add_assoc]

/-- THE REGION'S RESULT: the accumulator after the last point is the sum of the whole 8192 x 8192 table — the 256 tile
    sums regrouped (any order: sums of extended reals commute and associate), the reset value being zero. -/
theorem outFin0_val (c : Dev nD) (y : S1x1.Idx) : outFin0 (A0 m) c y = kxx (argN m c) (argW m c) := by
  rw [outFin0_eq, accAt0_sum]
  have hz : k0_pay2 (F := Ideal) y = 0 := by
    unfold k0_pay2
    rw [shapeCast_self]
    exact Ideal.ofBits_zero_f32
  have hg : ∀ t : Fin 256, g0 m c t.val = ∑ r : Fin 512, ∑ s : Fin 512,
      F0 m c ⟨512 * (t.val / 16) + r.val, row_lt t r⟩ ⟨512 * (t.val % 16) + s.val, col_lt t s⟩ := fun t => by
    unfold g0; rw [dif_pos t.isLt]
  rw [hz, zero_add]
  show ∑ t ∈ Finset.range 256, g0 m c t = _
  rw [← Fin.sum_univ_eq_sum_range (fun t => g0 m c t) 256]
  simp only [hg]
  rw [TiledSum.sum_tiles_8192 (F0 m c)]
  rfl

end Cert.KernelIdeal.Hand

end
-- ==== Proof.Acc1.lean ====
import proofs.«166369_j11106785428164_2_alg».proof.Proof.Body1
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as the kernel's own arithmetic

The accumulator holds one element. Each case of the body stores to it through the whole-buffer rectangle, so what the
case leaves is the payload of its last store, and a load after a store reads the stored payload. The payloads are the
generated arithmetic terms: `k1_pay3` (the 512 row sums of the tile), `k1_pay1` (the loaded accumulator plus their
sum) and `k1_pay2` (the zero the first point resets it to). -/

/-- The two zero offsets of a rank-2 rectangle, as the constant function. -/
theorem hz1 : (![0, 0] : Fin 2 → Nat) = fun _ => 0 := funext fun a => by fin_cases a <;> rfl

/-- At the first point the accumulator loaded is the zero just stored: the case leaves zero plus the tile's sum. -/
theorem acc1_A_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond1_1 i) (hc2 : ¬(k1_cond2 i = 1#1)) (x0 x1 : Vec F S512x128 .f32) (x2 x3 : Vec F S512x1 .f32) :
    acc1_A c i arg2 harg2 arg3 harg3 arg4 harg4 arg5 harg5 arg6 harg6 arg7 harg7 hc1 hc2 x0 x1 x2 x3 = k1_pay1 (k1_pay3 x0 x1 x2 x3) (k1_pay2 (F := F)) := by
  unfold acc1_A
  rw [View.read_writes_junk_eq_canon]
  unfold kernelRun1_A
  dsimp only
  sl_unfold_words
  rw [View.canon_cons_unit_zero (S := S1x1) hz1, View.readCov_unit_zero (S := S1x1) _ hz1]
  simp only [View.readAt_eq_ld, harg2.read_unread, harg3.read_unread, harg4.read_unread, harg5.read_unread,
    View.ld_unit_zero (S := S512x128) hz1, View.ld_unit_zero (S := S512x1) hz1]

/-- At a middle point the case leaves what the accumulator held plus the tile's sum. -/
theorem acc1_B_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : ¬(k1_cond2 i = 1#1)) (x0 x1 : Vec F S512x128 .f32) (x2 x3 : Vec F S512x1 .f32) (xs : Vec F S1x1 .f32) :
    acc1_B c i arg2 harg2 arg3 harg3 arg4 harg4 arg5 harg5 arg6 harg6 arg7 harg7 hc1 hc2 x0 x1 x2 x3 xs = k1_pay1 (k1_pay3 x0 x1 x2 x3) xs := by
  unfold acc1_B
  rw [View.read_writes_junk_eq_canon]
  unfold kernelRun1_B
  dsimp only
  rw [View.canon_unit_zero (S := S1x1) hz1]
  simp only [View.readAt_eq_ld, harg2.read_unread, harg3.read_unread, harg4.read_unread, harg5.read_unread, harg7.read_unread,
    View.ld_unit_zero (S := S512x128) hz1, View.ld_unit_zero (S := S512x1) hz1, View.ld_unit_zero (S := S1x1) hz1]

/-- At the last point the accumulator is left as at a middle point, -/
theorem acc1_C_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) :
    acc1_C c i arg2 harg2 arg3 harg3 arg4 harg4 arg5 harg5 arg6 harg6 arg7 harg7 hc1 hc2 x0 x1 x2 x3 xs = k1_pay1 (k1_pay3 x0 x1 x2 x3) xs := by
  unfold acc1_C
  rw [View.read_writes_junk_eq_canon]
  unfold kernelRun1_C
  dsimp only
  sl_unfold_words
  rw [View.canon_unit_zero (S := S1x1) hz1]
  simp only [View.readAt_eq_ld, harg2.read_unread, harg3.read_unread, harg4.read_unread, harg5.read_unread, harg7.read_unread,
    View.ld_unit_zero (S := S512x128) hz1, View.ld_unit_zero (S := S512x1) hz1, View.ld_unit_zero (S := S1x1) hz1]

/-- and the output block receives the accumulator's new value: the load that feeds its store reads what was just
    stored to the accumulator. -/
theorem out1_C_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond1_1 i) (hc2 : k1_cond2 i = 1#1) (x0 x1 : Vec F S512x128 .f32) (x2 x3 : Vec F S512x1 .f32) (xs : Vec F S1x1 .f32) :
    out1_C c i arg2 harg2 arg3 harg3 arg4 harg4 arg5 harg5 arg6 harg6 arg7 harg7 hc1 hc2 x0 x1 x2 x3 xs = k1_pay1 (k1_pay3 x0 x1 x2 x3) xs := by
  unfold out1_C
  rw [View.read_writes_junk_eq_canon]
  unfold kernelRun1_C
  dsimp only
  sl_unfold_words
  rw [View.canon_unit_zero (S := S1x1) hz1, View.readCov_unit_zero (S := S1x1) _ hz1]
  simp only [View.readAt_eq_ld, harg2.read_unread, harg3.read_unread, harg4.read_unread, harg5.read_unread, harg7.read_unread,
    View.ld_unit_zero (S := S512x128) hz1, View.ld_unit_zero (S := S512x1) hz1, View.ld_unit_zero (S := S1x1) hz1]

/-! ## The accumulation, point by point, as a recurrence in the kernel's arithmetic

`accAt1 A c n` is the accumulator after the body at point `n`. With the cases opened it obeys one recurrence: at point
`0` the tile's sum added to the reset zero, at every later point (the last included) the tile's sum added to what the
point before left. The output block ends holding the accumulator after the last point. -/

variable (A : (c : Dev nD) → (b : Ref sig .tc) → Buf (Elt F) ((c : Thread nD τ).loc b))

/-- The first point: the tile's sum over the first blocks, added to the reset zero. -/
theorem accAt1_zero (c : Dev nD) (h : 0 < cfg1.N) :
    accAt1 A c 0 h = k1_pay1 (k1_pay3 (iblk1 A c 0 ⟨0, h⟩) (iblk1 A c 1 ⟨0, h⟩) (iblk1 A c 2 ⟨0, h⟩) (iblk1 A c 3 ⟨0, h⟩)) (k1_pay2 (F := F)) := by
  have hc1 : cond1_1 (grid1.coords ⟨0, h⟩) := (hcond1_1 ⟨0, h⟩).mpr rfl
  have hc2 : ¬(k1_cond2 (grid1.coords ⟨0, h⟩) = 1#1) := fun h' => absurd ((hcond1_2 ⟨0, h⟩).mp h') (show ¬((0 : ℕ) = 255) by decide)
  exact (accAt1_A A c ⟨0, h⟩ rfl hc1 hc2).trans
    (acc1_A_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
      (ms1_3 ⟨0, h⟩) (hs1_3 ⟨0, h⟩) (ms1_4 ⟨0, h⟩) (hs1_4 ⟨0, h⟩) msS1 hsS1 hc1 hc2
      (iblk1 A c 0 ⟨0, h⟩) (iblk1 A c 1 ⟨0, h⟩) (iblk1 A c 2 ⟨0, h⟩) (iblk1 A c 3 ⟨0, h⟩))

/-- A later point, the last included: the tile's sum over the point's blocks, added to what the point before left. -/
theorem accAt1_succ (c : Dev nD) (n : ℕ) (hn : n + 1 < cfg1.N) :
    accAt1 A c (n + 1) hn = k1_pay1 (k1_pay3 (iblk1 A c 0 ⟨n + 1, hn⟩) (iblk1 A c 1 ⟨n + 1, hn⟩) (iblk1 A c 2 ⟨n + 1, hn⟩) (iblk1 A c 3 ⟨n + 1, hn⟩))
      (accAt1 A c n (Nat.lt_of_succ_lt hn)) := by
  have hc1 : ¬cond1_1 (grid1.coords ⟨n + 1, hn⟩) := fun h' => Nat.succ_ne_zero n ((hcond1_1 ⟨n + 1, hn⟩).mp h')
  by_cases h : n + 1 = 255
  · have hc2 : k1_cond2 (grid1.coords ⟨n + 1, hn⟩) = 1#1 := (hcond1_2 ⟨n + 1, hn⟩).mpr h
    exact (accAt1_C A c ⟨n + 1, hn⟩ h hc1 hc2).trans
      (acc1_C_eq c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) msS1 hsS1 hc1 hc2
        (iblk1 A c 0 ⟨n + 1, hn⟩) (iblk1 A c 1 ⟨n + 1, hn⟩) (iblk1 A c 2 ⟨n + 1, hn⟩) (iblk1 A c 3 ⟨n + 1, hn⟩)
        (accAt1 A c n (Nat.lt_of_succ_lt hn)))
  · have hc2 : ¬(k1_cond2 (grid1.coords ⟨n + 1, hn⟩) = 1#1) := fun h' => h ((hcond1_2 ⟨n + 1, hn⟩).mp h')
    exact (accAt1_B A c ⟨n + 1, hn⟩ (Nat.succ_ne_zero n) h hc1 hc2).trans
      (acc1_B_eq c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) msS1 hsS1 hc1 hc2
        (iblk1 A c 0 ⟨n + 1, hn⟩) (iblk1 A c 1 ⟨n + 1, hn⟩) (iblk1 A c 2 ⟨n + 1, hn⟩) (iblk1 A c 3 ⟨n + 1, hn⟩)
        (accAt1 A c n (Nat.lt_of_succ_lt hn)))

/-- The output block ends holding the accumulator after the last point. -/
theorem outFin1_eq (c : Dev nD) : outFin1 A c = accAt1 A c 255 (by rw [N1_eq]; decide) := by
  have h254 : 254 < cfg1.N := by rw [N1_eq]; decide
  have h255 : 254 + 1 < cfg1.N := by rw [N1_eq]; decide
  have hc1 : ¬cond1_1 (grid1.coords tL1) := fun h' => absurd ((hcond1_1 tL1).mp h') (show ¬((255 : ℕ) = 0) by decide)
  have hc2 : k1_cond2 (grid1.coords tL1) = 1#1 := (hcond1_2 tL1).mpr rfl
  refine (out1_C_eq c (grid1.coords tL1) (ms1_0 tL1) (hs1_0 tL1) (ms1_1 tL1) (hs1_1 tL1) (ms1_2 tL1) (hs1_2 tL1) (ms1_3 tL1) (hs1_3 tL1)
    (ms1_4 tL1) (hs1_4 tL1) msS1 hsS1 hc1 hc2 (iblk1 A c 0 tL1) (iblk1 A c 1 tL1) (iblk1 A c 2 tL1) (iblk1 A c 3 tL1) (accN1 A c 254)).trans ?_
  rw [accN1_lt A c 254 h254]
  exact (accAt1_succ A c 254 h255).symm

end Cert.KernelIdeal.Hand

end
-- ==== Proof.AccIdeal1.lean ====
import proofs.«166369_j11106785428164_2_alg».proof.Proof.AccIdeal0

set_option maxRecDepth 16384

noncomputable section

namespace Cert.KernelIdeal.Hand

open Cert.KernelIdeal Cert.KernelIdeal.Gen
open Idealize.ShloMosaic Idealize.ShloMosaic.ValueIdx
open scoped BigOperators

/-! ## One step of region 1's accumulation, read as explicit sums

Region 1's body computes the same tile as region 0's, from its own four blocks: the entry at `(r, s)` is the one
function `tileEntry` of the blocks, and the layout and sum lemmas are the ones already proved for that region. -/

/-- Row `r` of the tile's row sums is the sum of the tile's entries along that row. -/
theorem pay3_apply1 (x0 x1 : Vec Ideal S512x128 .f32) (x2 x3 : Vec Ideal S512x1 .f32) (r : Fin 512) (u : Fin 1) :
    k1_pay3 (F := Ideal) x0 x1 x2 x3 (ix2 r u) = ∑ s : Fin 512, tileEntry x0 x1 x2 x3 r s := by
  unfold k1_pay3
  dsimp only
  refine (shapeCast_a_a1_apply _ _ r u).trans ?_
  refine (rowSum_f32_apply _ _ _ _ r).trans ?_
  refine Finset.sum_congr rfl fun s _ => ?_
  simp only [mulf_apply, addf_apply, subf_apply, maximumf_apply, broadcast_apply, exp_apply]
  unfold tileEntry
  refine congrArg₂ (· * ·) (congrArg₂ (· * ·) ?w2 ?w3)
    (congrArg Ideal.exp (congrArg₂ (· * ·) rfl (congrArg₂ max (congrArg₂ (· - ·) (congrArg₂ (· + ·) ?n0 ?n1)
      (congrArg₂ (· * ·) rfl ?ip)) rfl)))
  case w2 =>
    -- the first weight: a column broadcast along the rows
    exact (broadcastTo_a1_ab_apply _ _ r s).trans (congrFun (shapeCast_self x2 _) (ix2 r (0 : Fin 1)))
  case w3 =>
    -- the second weight: a column laid as a row, broadcast down the columns
    exact (broadcastTo_1b_ab_apply _ _ r s).trans ((transpose_ix2_apply _ _ (0 : Fin 1) s).trans
      (congrFun (shapeCast_self x3 _) (ix2 s (0 : Fin 1))))
  case n0 =>
    -- the squared norm of row `r` of the first block
    exact (broadcastTo_a1_ab_apply _ _ r s).trans ((shapeCast_a_a1_apply _ _ r (0 : Fin 1)).trans
      ((rowSum_f32_apply _ _ _ _ r).trans (Finset.sum_congr rfl fun d _ => rfl)))
  case n1 =>
    -- the squared norm of row `s` of the second block
    exact (broadcastTo_1b_ab_apply _ _ r s).trans ((transpose_ix2_apply _ _ (0 : Fin 1) s).trans
      ((shapeCast_a_a1_apply _ _ s (0 : Fin 1)).trans
        ((rowSum_f32_apply _ _ _ _ s).trans (Finset.sum_congr rfl fun d _ => rfl))))
  case ip =>
    -- the inner product of the two rows, into the zero accumulator
    exact (matmul_D0_apply _ _ _ _ r s).trans (congrArg₂ (· + ·) rfl
      (Finset.sum_congr rfl fun d _ => congrArg (x0 (ix2 r d) * ·) (transpose_ix2_apply x1 _ d s)))

/-- ONE STEP: the new accumulator is the old one plus the sum over the tile's 512 rows of each row's sum of its 512
    entries. Both reductions start from the zero word and read as plain sums: no initial value appears. -/
theorem pay_step1 (x0 x1 : Vec Ideal S512x128 .f32) (x2 x3 : Vec Ideal S512x1 .f32) (xs : Vec Ideal S1x1 .f32) (y : S1x1.Idx) :
    k1_pay1 (F := Ideal) (k1_pay3 x0 x1 x2 x3) xs y = xs y + ∑ r : Fin 512, ∑ s : Fin 512, tileEntry x0 x1 x2 x3 r s := by
  obtain ⟨u, w, rfl⟩ : ∃ (u w : Fin 1), y = ix2 u w := ⟨y 0, y 1, eq_ix2 y⟩
  unfold k1_pay1
  dsimp only
  refine (congrFun (shapeCast_self _ _) (ix2 u w)).trans ?_
  refine congrArg (xs (ix2 u w) + ·) ?_
  refine (shapeCast_a_1a_apply _ _ u w).trans ?_
  refine (colSum_f32_apply _ _ _ _ w).trans ?_
  exact Finset.sum_congr rfl fun r _ => pay3_apply1 x0 x1 x2 x3 r w

end Cert.KernelIdeal.Hand

end
-- ==== Proof.KSum1.lean ====
import proofs.«166369_j11106785428164_2_alg».proof.Proof.KOps
import proofs.«166369_j11106785428164_2_alg».proof.Proof.Acc1
import proofs.«166369_j11106785428164_2_alg».proof.Proof.AccIdeal1
import proofs.«166369_j11106785428164_2_alg».proof.Proof.LibTiledSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators
open Cert.ReferenceIdeal.RefValue (wn kern sqnorm dotp wsum)
open Cert.Proof.Bridge (kxx kyy kxy cw kernelValue)

variable (m : (ℓ : Loc nD τ sig) → Buf (Elt Ideal) ℓ)

/-! ## Region 1: the blocks read at the arrays' rows -/

/-- Point `t` of the 16 x 16 grid, in row-major order: tile row `t / 16`, tile column `t % 16`. -/
abbrev pt1 (t : Fin 256) : Fin cfg1.N := ⟨t.val, by rw [N1_eq]; exact t.isLt⟩

/-- The printed index maps, decided over the grid: the first and third windows move with the tile's row, the second
    and fourth with its column. -/
theorem idx_in1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val % 16 ∧ win1_3.index t (1 : Fin 2) = 0 :=
  (by decide +kernel : ∀ t : Fin grid1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val % 16 ∧ win1_3.index t (1 : Fin 2) = 0)

section Blocks
variable (A : (c : Dev nD) → (b : Ref sig .tc) → Buf (Elt Ideal) ((c : Thread nD τ).loc b))

theorem iblk1_0_apply (c : Dev nD) (t : Fin 256) (r : Fin 512) (d : Fin 128) :
    iblk1 A c 0 (pt1 t) (ix2 r d) = A c main_arg1 (ix2 ⟨512 * (t.val / 16) + r.val, row_lt t r⟩ d) := by
  have e := idx_in1 (pt1 t)
  show A c main_arg1 (((cfg1.win 0).blk (pt1 t)).view.emb (ix2 r d)) = _
  congr 1
  funext a; apply Fin.ext
  match a with
  | ⟨0, _⟩ => show win1_0.index (pt1 t) (0 : Fin 2) * 512 + 1 * r.val = 512 * (t.val / 16) + r.val; have := e.1; have hv : (pt1 t).val = t.val := rfl; omega
  | ⟨1, _⟩ => show win1_0.index (pt1 t) (1 : Fin 2) * 128 + 1 * d.val = d.val; have := e.2.1; omega

theorem iblk1_1_apply (c : Dev nD) (t : Fin 256) (s : Fin 512) (d : Fin 128) :
    iblk1 A c 1 (pt1 t) (ix2 s d) = A c main_arg1 (ix2 ⟨512 * (t.val % 16) + s.val, col_lt t s⟩ d) := by
  have e := idx_in1 (pt1 t)
  show A c main_arg1 (((cfg1.win 1).blk (pt1 t)).view.emb (ix2 s d)) = _
  congr 1
  funext a; apply Fin.ext
  match a with
  | ⟨0, _⟩ => show win1_1.index (pt1 t) (0 : Fin 2) * 512 + 1 * s.val = 512 * (t.val % 16) + s.val; have := e.2.2.1; have hv : (pt1 t).val = t.val := rfl; omega
  | ⟨1, _⟩ => show win1_1.index (pt1 t) (1 : Fin 2) * 128 + 1 * d.val = d.val; have := e.2.2.2.1; omega

theorem iblk1_2_apply (c : Dev nD) (t : Fin 256) (r : Fin 512) :
    iblk1 A c 2 (pt1 t) (ix2 r (0 : Fin 1)) = A c main_v3 (ix2 ⟨512 * (t.val / 16) + r.val, row_lt t r⟩ (0 : Fin 1)) := by
  have e := idx_in1 (pt1 t)
  show A c main_v3 (((cfg1.win 2).blk (pt1 t)).view.emb (ix2 r (0 : Fin 1))) = _
  congr 1
  funext a; apply Fin.ext
  match a with
  | ⟨0, _⟩ => show win1_2.index (pt1 t) (0 : Fin 2) * 512 + 1 * r.val = 512 * (t.val / 16) + r.val; have := e.2.2.2.2.1; have hv : (pt1 t).val = t.val := rfl; omega
  | ⟨1, _⟩ => show win1_2.index (pt1 t) (1 : Fin 2) * 1 + 1 * 0 = 0; have := e.2.2.2.2.2.1; omega

theorem iblk1_3_apply (c : Dev nD) (t : Fin 256) (s : Fin 512) :
    iblk1 A c 3 (pt1 t) (ix2 s (0 : Fin 1)) = A c main_v3 (ix2 ⟨512 * (t.val % 16) + s.val, col_lt t s⟩ (0 : Fin 1)) := by
  have e := idx_in1 (pt1 t)
  show A c main_v3 (((cfg1.win 3).blk (pt1 t)).view.emb (ix2 s (0 : Fin 1))) = _
  congr 1
  funext a; apply Fin.ext
  match a with
  | ⟨0, _⟩ => show win1_3.index (pt1 t) (0 : Fin 2) * 512 + 1 * s.val = 512 * (t.val % 16) + s.val; have := e.2.2.2.2.2.2.1; have hv : (pt1 t).val = t.val := rfl; omega
  | ⟨1, _⟩ => show win1_3.index (pt1 t) (1 : Fin 2) * 1 + 1 * 0 = 0; have := e.2.2.2.2.2.2.2; omega
end Blocks

/-! ## Region 1: the accumulator is the sum over the whole table -/

/-- Entry `(i, j)` of the table this region sums: the two rows' weights times the Gaussian of their distance. -/
def F1 (c : Dev nD) (i j : Fin 8192) : EReal :=
  (cw * cw) * kern (argR m c) (argR m c) i j

/-- One entry of the tile at point `t` is the table's entry at the tile's rows: the blocks are rows `512 (t / 16) + r` and
    `512 (t % 16) + s` of the arrays; the squared norms and the inner product are the table's, the leading zero words
    on either side being zero. -/
theorem tile1_eq (c : Dev nD) (t : Fin 256) (r s : Fin 512) :
    tileEntry (iblk1 (A1 m) c 0 (pt1 t)) (iblk1 (A1 m) c 1 (pt1 t)) (iblk1 (A1 m) c 2 (pt1 t)) (iblk1 (A1 m) c 3 (pt1 t)) r s
      = F1 m c ⟨512 * (t.val / 16) + r.val, row_lt t r⟩ ⟨512 * (t.val % 16) + s.val, col_lt t s⟩ := by
  unfold tileEntry F1 kern sqnorm dotp
  simp only [iblk1_0_apply, iblk1_1_apply, iblk1_2_apply, iblk1_3_apply, Ideal.ofBits_zero_f32, zero_add]
  rw [A1_arg1, A1_v3_apply, A1_v3_apply]

/-- The tile sum at point `t` (zero beyond the grid, never read). -/
def g1 (c : Dev nD) (t : ℕ) : EReal :=
  if h : t < 256 then ∑ r : Fin 512, ∑ s : Fin 512,
    F1 m c ⟨512 * (t / 16) + r.val, row_lt ⟨t, h⟩ r⟩ ⟨512 * (t % 16) + s.val, col_lt ⟨t, h⟩ s⟩ else 0

/-- One step of the accumulator adds the point's tile sum. -/
theorem step1 (c : Dev nD) (k : ℕ) (hk : k < cfg1.N) (xs : Vec Ideal S1x1 .f32) (y : S1x1.Idx) :
    k1_pay1 (F := Ideal) (k1_pay3 (iblk1 (A1 m) c 0 ⟨k, hk⟩) (iblk1 (A1 m) c 1 ⟨k, hk⟩) (iblk1 (A1 m) c 2 ⟨k, hk⟩) (iblk1 (A1 m) c 3 ⟨k, hk⟩)) xs y
      = xs y + g1 m c k := by
  have hk' : k < 256 := lt_of_lt_of_eq hk N1_eq
  rw [pay_step1]
  congr 1
  unfold g1; rw [dif_pos hk']
  exact Finset.sum_congr rfl fun r _ => Finset.sum_congr rfl fun s _ => tile1_eq m c ⟨k, hk'⟩ r s

/-- The accumulator after point `k` is the reset value plus the tile sums of the points up to `k`. -/
theorem accAt1_sum (c : Dev nD) (y : S1x1.Idx) : ∀ (k : ℕ) (hk : k < cfg1.N),
    accAt1 (A1 m) c k hk y = k1_pay2 (F := Ideal) y + ∑ t ∈ Finset.range (k + 1), g1 m c t := by
  intro k
  induction k with
  | zero =>
    intro hk
    rw [accAt1_zero, step1, Finset.range_one, Finset.sum_singleton]
  | succ k ih =>
    intro hk
    rw [accAt1_succ, step1, ih, Finset.sum_range_succ (fun t => g1 m c t) (k + 1), add_assoc]

/-- THE REGION'S RESULT: the accumulator after the last point is the sum of the whole 8192 x 8192 table — the 256 tile
    sums regrouped (any order: sums of extended reals commute and associate), the reset value being zero. -/
theorem outFin1_val (c : Dev nD) (y : S1x1.Idx) : outFin1 (A1 m) c y = kyy (argR m c) := by
  rw [outFin1_eq, accAt1_sum]
  have hz : k1_pay2 (F := Ideal) y = 0 := by
    unfold k1_pay2
    rw [shapeCast_self]
    exact Ideal.ofBits_zero_f32
  have hg : ∀ t : Fin 256, g1 m c t.val = ∑ r : Fin 512, ∑ s : Fin 512,
      F1 m c ⟨512 * (t.val / 16) + r.val, row_lt t r⟩ ⟨512 * (t.val % 16) + s.val, col_lt t s⟩ := fun t => by
    unfold g1; rw [dif_pos t.isLt]
  rw [hz, zero_add]
  show ∑ t ∈ Finset.range 256, g1 m c t = _
  rw [← Fin.sum_univ_eq_sum_range (fun t => g1 m c t) 256]
  simp only [hg]
  rw [TiledSum.sum_tiles_8192 (F1 m c)]
  rfl

end Cert.KernelIdeal.Hand

end
-- ==== Proof.Acc2.lean ====
import proofs.«166369_j11106785428164_2_alg».proof.Proof.Body2
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as the kernel's own arithmetic

The accumulator holds one element. Each case of the body stores to it through the whole-buffer rectangle, so what the
case leaves is the payload of its last store, and a load after a store reads the stored payload. The payloads are the
generated arithmetic terms: `k2_pay3` (the 512 row sums of the tile), `k2_pay1` (the loaded accumulator plus their
sum) and `k2_pay2` (the zero the first point resets it to). -/

/-- The two zero offsets of a rank-2 rectangle, as the constant function. -/
theorem hz2 : (![0, 0] : Fin 2 → Nat) = fun _ => 0 := funext fun a => by fin_cases a <;> rfl

/-- At the first point the accumulator loaded is the zero just stored: the case leaves zero plus the tile's sum. -/
theorem acc2_A_eq (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : cond2_1 i) (hc2 : ¬(k2_cond2 i = 1#1)) (x0 x1 : Vec F S512x128 .f32) (x2 x3 : Vec F S512x1 .f32) :
    acc2_A c i arg2 harg2 arg3 harg3 arg4 harg4 arg5 harg5 arg6 harg6 arg7 harg7 hc1 hc2 x0 x1 x2 x3 = k2_pay1 (k2_pay3 x0 x1 x2 x3) (k2_pay2 (F := F)) := by
  unfold acc2_A
  rw [View.read_writes_junk_eq_canon]
  unfold kernelRun2_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S512x128) hz2, View.ld_unit_zero (S := S512x1) hz2]

/-- At a middle point the case leaves what the accumulator held plus the tile's sum. -/
theorem acc2_B_eq (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : ¬(k2_cond2 i = 1#1)) (x0 x1 : Vec F S512x128 .f32) (x2 x3 : Vec F S512x1 .f32) (xs : Vec F S1x1 .f32) :
    acc2_B c i arg2 harg2 arg3 harg3 arg4 harg4 arg5 harg5 arg6 harg6 arg7 harg7 hc1 hc2 x0 x1 x2 x3 xs = k2_pay1 (k2_pay3 x0 x1 x2 x3) xs := by
  unfold acc2_B
  rw [View.read_writes_junk_eq_canon]
  unfold kernelRun2_B
  dsimp only
  rw [View.canon_unit_zero (S := S1x1) hz2]
  simp only [View.readAt_eq_ld, harg2.read_unread, harg3.read_unread, harg4.read_unread, harg5.read_unread, harg7.read_unread,
    View.ld_unit_zero (S := S512x128) hz2, View.ld_unit_zero (S := S512x1) hz2, View.ld_unit_zero (S := S1x1) hz2]

/-- At the last point the accumulator is left as at a middle point, -/
theorem acc2_C_eq (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) :
    acc2_C c i arg2 harg2 arg3 harg3 arg4 harg4 arg5 harg5 arg6 harg6 arg7 harg7 hc1 hc2 x0 x1 x2 x3 xs = k2_pay1 (k2_pay3 x0 x1 x2 x3) xs := by
  unfold acc2_C
  rw [View.read_writes_junk_eq_canon]
  unfold kernelRun2_C
  dsimp only
  sl_unfold_words
  rw [View.canon_unit_zero (S := S1x1) hz2]
  simp only [View.readAt_eq_ld, harg2.read_unread, harg3.read_unread, harg4.read_unread, harg5.read_unread, harg7.read_unread,
    View.ld_unit_zero (S := S512x128) hz2, View.ld_unit_zero (S := S512x1) hz2, View.ld_unit_zero (S := S1x1) hz2]

/-- and the output block receives the accumulator's new value: the load that feeds its store reads what was just
    stored to the accumulator. -/
theorem out2_C_eq (c : Dev nD) (i : grid2.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S1x1 .f32) (harg6 : arg6.IsWhole) (arg7 : Memref sig .tc .vmem S1x1 .f32) (harg7 : arg7.IsWhole) (hc1 : ¬cond2_1 i) (hc2 : k2_cond2 i = 1#1) (x0 x1 : Vec F S512x128 .f32) (x2 x3 : Vec F S512x1 .f32) (xs : Vec F S1x1 .f32) :
    out2_C c i arg2 harg2 arg3 harg3 arg4 harg4 arg5 harg5 arg6 harg6 arg7 harg7 hc1 hc2 x0 x1 x2 x3 xs = k2_pay1 (k2_pay3 x0 x1 x2 x3) xs := by
  unfold out2_C
  rw [View.read_writes_junk_eq_canon]
  unfold kernelRun2_C
  dsimp only
  sl_unfold_words
  rw [View.canon_unit_zero (S := S1x1) hz2, View.readCov_unit_zero (S := S1x1) _ hz2]
  simp only [View.readAt_eq_ld, harg2.read_unread, harg3.read_unread, harg4.read_unread, harg5.read_unread, harg7.read_unread,
    View.ld_unit_zero (S := S512x128) hz2, View.ld_unit_zero (S := S512x1) hz2, View.ld_unit_zero (S := S1x1) hz2]

/-! ## The accumulation, point by point, as a recurrence in the kernel's arithmetic

`accAt2 A c n` is the accumulator after the body at point `n`. With the cases opened it obeys one recurrence: at point
`0` the tile's sum added to the reset zero, at every later point (the last included) the tile's sum added to what the
point before left. The output block ends holding the accumulator after the last point. -/

variable (A : (c : Dev nD) → (b : Ref sig .tc) → Buf (Elt F) ((c : Thread nD τ).loc b))

/-- The first point: the tile's sum over the first blocks, added to the reset zero. -/
theorem accAt2_zero (c : Dev nD) (h : 0 < cfg2.N) :
    accAt2 A c 0 h = k2_pay1 (k2_pay3 (iblk2 A c 0 ⟨0, h⟩) (iblk2 A c 1 ⟨0, h⟩) (iblk2 A c 2 ⟨0, h⟩) (iblk2 A c 3 ⟨0, h⟩)) (k2_pay2 (F := F)) := by
  have hc1 : cond2_1 (grid2.coords ⟨0, h⟩) := (hcond2_1 ⟨0, h⟩).mpr rfl
  have hc2 : ¬(k2_cond2 (grid2.coords ⟨0, h⟩) = 1#1) := fun h' => absurd ((hcond2_2 ⟨0, h⟩).mp h') (show ¬((0 : ℕ) = 255) by decide)
  exact (accAt2_A A c ⟨0, h⟩ rfl hc1 hc2).trans
    (acc2_A_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      (ms2_3 ⟨0, h⟩) (hs2_3 ⟨0, h⟩) (ms2_4 ⟨0, h⟩) (hs2_4 ⟨0, h⟩) msS2 hsS2 hc1 hc2
      (iblk2 A c 0 ⟨0, h⟩) (iblk2 A c 1 ⟨0, h⟩) (iblk2 A c 2 ⟨0, h⟩) (iblk2 A c 3 ⟨0, h⟩))

/-- A later point, the last included: the tile's sum over the point's blocks, added to what the point before left. -/
theorem accAt2_succ (c : Dev nD) (n : ℕ) (hn : n + 1 < cfg2.N) :
    accAt2 A c (n + 1) hn = k2_pay1 (k2_pay3 (iblk2 A c 0 ⟨n + 1, hn⟩) (iblk2 A c 1 ⟨n + 1, hn⟩) (iblk2 A c 2 ⟨n + 1, hn⟩) (iblk2 A c 3 ⟨n + 1, hn⟩))
      (accAt2 A c n (Nat.lt_of_succ_lt hn)) := by
  have hc1 : ¬cond2_1 (grid2.coords ⟨n + 1, hn⟩) := fun h' => Nat.succ_ne_zero n ((hcond2_1 ⟨n + 1, hn⟩).mp h')
  by_cases h : n + 1 = 255
  · have hc2 : k2_cond2 (grid2.coords ⟨n + 1, hn⟩) = 1#1 := (hcond2_2 ⟨n + 1, hn⟩).mpr h
    exact (accAt2_C A c ⟨n + 1, hn⟩ h hc1 hc2).trans
      (acc2_C_eq c (grid2.coords ⟨n + 1, hn⟩) (ms2_0 ⟨n + 1, hn⟩) (hs2_0 ⟨n + 1, hn⟩) (ms2_1 ⟨n + 1, hn⟩) (hs2_1 ⟨n + 1, hn⟩)
        (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) msS2 hsS2 hc1 hc2
        (iblk2 A c 0 ⟨n + 1, hn⟩) (iblk2 A c 1 ⟨n + 1, hn⟩) (iblk2 A c 2 ⟨n + 1, hn⟩) (iblk2 A c 3 ⟨n + 1, hn⟩)
        (accAt2 A c n (Nat.lt_of_succ_lt hn)))
  · have hc2 : ¬(k2_cond2 (grid2.coords ⟨n + 1, hn⟩) = 1#1) := fun h' => h ((hcond2_2 ⟨n + 1, hn⟩).mp h')
    exact (accAt2_B A c ⟨n + 1, hn⟩ (Nat.succ_ne_zero n) h hc1 hc2).trans
      (acc2_B_eq c (grid2.coords ⟨n + 1, hn⟩) (ms2_0 ⟨n + 1, hn⟩) (hs2_0 ⟨n + 1, hn⟩) (ms2_1 ⟨n + 1, hn⟩) (hs2_1 ⟨n + 1, hn⟩)
        (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) msS2 hsS2 hc1 hc2
        (iblk2 A c 0 ⟨n + 1, hn⟩) (iblk2 A c 1 ⟨n + 1, hn⟩) (iblk2 A c 2 ⟨n + 1, hn⟩) (iblk2 A c 3 ⟨n + 1, hn⟩)
        (accAt2 A c n (Nat.lt_of_succ_lt hn)))

/-- The output block ends holding the accumulator after the last point. -/
theorem outFin2_eq (c : Dev nD) : outFin2 A c = accAt2 A c 255 (by rw [N2_eq]; decide) := by
  have h254 : 254 < cfg2.N := by rw [N2_eq]; decide
  have h255 : 254 + 1 < cfg2.N := by rw [N2_eq]; decide
  have hc1 : ¬cond2_1 (grid2.coords tL2) := fun h' => absurd ((hcond2_1 tL2).mp h') (show ¬((255 : ℕ) = 0) by decide)
  have hc2 : k2_cond2 (grid2.coords tL2) = 1#1 := (hcond2_2 tL2).mpr rfl
  refine (out2_C_eq c (grid2.coords tL2) (ms2_0 tL2) (hs2_0 tL2) (ms2_1 tL2) (hs2_1 tL2) (ms2_2 tL2) (hs2_2 tL2) (ms2_3 tL2) (hs2_3 tL2)
    (ms2_4 tL2) (hs2_4 tL2) msS2 hsS2 hc1 hc2 (iblk2 A c 0 tL2) (iblk2 A c 1 tL2) (iblk2 A c 2 tL2) (iblk2 A c 3 tL2) (accN2 A c 254)).trans ?_
  rw [accN2_lt A c 254 h254]
  exact (accAt2_succ A c 254 h255).symm

end Cert.KernelIdeal.Hand

end
-- ==== Proof.AccIdeal2.lean ====
import proofs.«166369_j11106785428164_2_alg».proof.Proof.AccIdeal0

set_option maxRecDepth 16384

noncomputable section

namespace Cert.KernelIdeal.Hand

open Cert.KernelIdeal Cert.KernelIdeal.Gen
open Idealize.ShloMosaic Idealize.ShloMosaic.ValueIdx
open scoped BigOperators

/-! ## One step of region 2's accumulation, read as explicit sums

Region 2's body computes the same tile as region 0's, from its own four blocks: the entry at `(r, s)` is the one
function `tileEntry` of the blocks, and the layout and sum lemmas are the ones already proved for that region. -/

/-- Row `r` of the tile's row sums is the sum of the tile's entries along that row. -/
theorem pay3_apply2 (x0 x1 : Vec Ideal S512x128 .f32) (x2 x3 : Vec Ideal S512x1 .f32) (r : Fin 512) (u : Fin 1) :
    k2_pay3 (F := Ideal) x0 x1 x2 x3 (ix2 r u) = ∑ s : Fin 512, tileEntry x0 x1 x2 x3 r s := by
  unfold k2_pay3
  dsimp only
  refine (shapeCast_a_a1_apply _ _ r u).trans ?_
  refine (rowSum_f32_apply _ _ _ _ r).trans ?_
  refine Finset.sum_congr rfl fun s _ => ?_
  simp only [mulf_apply, addf_apply, subf_apply, maximumf_apply, broadcast_apply, exp_apply]
  unfold tileEntry
  refine congrArg₂ (· * ·) (congrArg₂ (· * ·) ?w2 ?w3)
    (congrArg Ideal.exp (congrArg₂ (· * ·) rfl (congrArg₂ max (congrArg₂ (· - ·) (congrArg₂ (· + ·) ?n0 ?n1)
      (congrArg₂ (· * ·) rfl ?ip)) rfl)))
  case w2 =>
    -- the first weight: a column broadcast along the rows
    exact (broadcastTo_a1_ab_apply _ _ r s).trans (congrFun (shapeCast_self x2 _) (ix2 r (0 : Fin 1)))
  case w3 =>
    -- the second weight: a column laid as a row, broadcast down the columns
    exact (broadcastTo_1b_ab_apply _ _ r s).trans ((transpose_ix2_apply _ _ (0 : Fin 1) s).trans
      (congrFun (shapeCast_self x3 _) (ix2 s (0 : Fin 1))))
  case n0 =>
    -- the squared norm of row `r` of the first block
    exact (broadcastTo_a1_ab_apply _ _ r s).trans ((shapeCast_a_a1_apply _ _ r (0 : Fin 1)).trans
      ((rowSum_f32_apply _ _ _ _ r).trans (Finset.sum_congr rfl fun d _ => rfl)))
  case n1 =>
    -- the squared norm of row `s` of the second block
    exact (broadcastTo_1b_ab_apply _ _ r s).trans ((transpose_ix2_apply _ _ (0 : Fin 1) s).trans
      ((shapeCast_a_a1_apply _ _ s (0 : Fin 1)).trans
        ((rowSum_f32_apply _ _ _ _ s).trans (Finset.sum_congr rfl fun d _ => rfl))))
  case ip =>
    -- the inner product of the two rows, into the zero accumulator
    exact (matmul_D0_apply _ _ _ _ r s).trans (congrArg₂ (· + ·) rfl
      (Finset.sum_congr rfl fun d _ => congrArg (x0 (ix2 r d) * ·) (transpose_ix2_apply x1 _ d s)))

/-- ONE STEP: the new accumulator is the old one plus the sum over the tile's 512 rows of each row's sum of its 512
    entries. Both reductions start from the zero word and read as plain sums: no initial value appears. -/
theorem pay_step2 (x0 x1 : Vec Ideal S512x128 .f32) (x2 x3 : Vec Ideal S512x1 .f32) (xs : Vec Ideal S1x1 .f32) (y : S1x1.Idx) :
    k2_pay1 (F := Ideal) (k2_pay3 x0 x1 x2 x3) xs y = xs y + ∑ r : Fin 512, ∑ s : Fin 512, tileEntry x0 x1 x2 x3 r s := by
  obtain ⟨u, w, rfl⟩ : ∃ (u w : Fin 1), y = ix2 u w := ⟨y 0, y 1, eq_ix2 y⟩
  unfold k2_pay1
  dsimp only
  refine (congrFun (shapeCast_self _ _) (ix2 u w)).trans ?_
  refine congrArg (xs (ix2 u w) + ·) ?_
  refine (shapeCast_a_1a_apply _ _ u w).trans ?_
  refine (colSum_f32_apply _ _ _ _ w).trans ?_
  exact Finset.sum_congr rfl fun r _ => pay3_apply2 x0 x1 x2 x3 r w

end Cert.KernelIdeal.Hand

end
-- ==== Proof.KSum2.lean ====
import proofs.«166369_j11106785428164_2_alg».proof.Proof.KOps
import proofs.«166369_j11106785428164_2_alg».proof.Proof.Acc2
import proofs.«166369_j11106785428164_2_alg».proof.Proof.AccIdeal2
import proofs.«166369_j11106785428164_2_alg».proof.Proof.LibTiledSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators
open Cert.ReferenceIdeal.RefValue (wn kern sqnorm dotp wsum)
open Cert.Proof.Bridge (kxx kyy kxy cw kernelValue)

variable (m : (ℓ : Loc nD τ sig) → Buf (Elt Ideal) ℓ)

/-! ## Region 2: the blocks read at the arrays' rows -/

/-- Point `t` of the 16 x 16 grid, in row-major order: tile row `t / 16`, tile column `t % 16`. -/
abbrev pt2 (t : Fin 256) : Fin cfg2.N := ⟨t.val, by rw [N2_eq]; exact t.isLt⟩

/-- The printed index maps, decided over the grid: the first and third windows move with the tile's row, the second
    and fourth with its column. -/
theorem idx_in2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = 0
    ∧ win2_3.index t (0 : Fin 2) = t.val % 16 ∧ win2_3.index t (1 : Fin 2) = 0 :=
  (by decide +kernel : ∀ t : Fin grid2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = t.val / 16 ∧ win2_2.index t (1 : Fin 2) = 0
    ∧ win2_3.index t (0 : Fin 2) = t.val % 16 ∧ win2_3.index t (1 : Fin 2) = 0)

section Blocks
variable (A : (c : Dev nD) → (b : Ref sig .tc) → Buf (Elt Ideal) ((c : Thread nD τ).loc b))

theorem iblk2_0_apply (c : Dev nD) (t : Fin 256) (r : Fin 512) (d : Fin 128) :
    iblk2 A c 0 (pt2 t) (ix2 r d) = A c main_arg0 (ix2 ⟨512 * (t.val / 16) + r.val, row_lt t r⟩ d) := by
  have e := idx_in2 (pt2 t)
  show A c main_arg0 (((cfg2.win 0).blk (pt2 t)).view.emb (ix2 r d)) = _
  congr 1
  funext a; apply Fin.ext
  match a with
  | ⟨0, _⟩ => show win2_0.index (pt2 t) (0 : Fin 2) * 512 + 1 * r.val = 512 * (t.val / 16) + r.val; have := e.1; have hv : (pt2 t).val = t.val := rfl; omega
  | ⟨1, _⟩ => show win2_0.index (pt2 t) (1 : Fin 2) * 128 + 1 * d.val = d.val; have := e.2.1; omega

theorem iblk2_1_apply (c : Dev nD) (t : Fin 256) (s : Fin 512) (d : Fin 128) :
    iblk2 A c 1 (pt2 t) (ix2 s d) = A c main_arg1 (ix2 ⟨512 * (t.val % 16) + s.val, col_lt t s⟩ d) := by
  have e := idx_in2 (pt2 t)
  show A c main_arg1 (((cfg2.win 1).blk (pt2 t)).view.emb (ix2 s d)) = _
  congr 1
  funext a; apply Fin.ext
  match a with
  | ⟨0, _⟩ => show win2_1.index (pt2 t) (0 : Fin 2) * 512 + 1 * s.val = 512 * (t.val % 16) + s.val; have := e.2.2.1; have hv : (pt2 t).val = t.val := rfl; omega
  | ⟨1, _⟩ => show win2_1.index (pt2 t) (1 : Fin 2) * 128 + 1 * d.val = d.val; have := e.2.2.2.1; omega

theorem iblk2_2_apply (c : Dev nD) (t : Fin 256) (r : Fin 512) :
    iblk2 A c 2 (pt2 t) (ix2 r (0 : Fin 1)) = A c main_v2 (ix2 ⟨512 * (t.val / 16) + r.val, row_lt t r⟩ (0 : Fin 1)) := by
  have e := idx_in2 (pt2 t)
  show A c main_v2 (((cfg2.win 2).blk (pt2 t)).view.emb (ix2 r (0 : Fin 1))) = _
  congr 1
  funext a; apply Fin.ext
  match a with
  | ⟨0, _⟩ => show win2_2.index (pt2 t) (0 : Fin 2) * 512 + 1 * r.val = 512 * (t.val / 16) + r.val; have := e.2.2.2.2.1; have hv : (pt2 t).val = t.val := rfl; omega
  | ⟨1, _⟩ => show win2_2.index (pt2 t) (1 : Fin 2) * 1 + 1 * 0 = 0; have := e.2.2.2.2.2.1; omega

theorem iblk2_3_apply (c : Dev nD) (t : Fin 256) (s : Fin 512) :
    iblk2 A c 3 (pt2 t) (ix2 s (0 : Fin 1)) = A c main_v3 (ix2 ⟨512 * (t.val % 16) + s.val, col_lt t s⟩ (0 : Fin 1)) := by
  have e := idx_in2 (pt2 t)
  show A c main_v3 (((cfg2.win 3).blk (pt2 t)).view.emb (ix2 s (0 : Fin 1))) = _
  congr 1
  funext a; apply Fin.ext
  match a with
  | ⟨0, _⟩ => show win2_3.index (pt2 t) (0 : Fin 2) * 512 + 1 * s.val = 512 * (t.val % 16) + s.val; have := e.2.2.2.2.2.2.1; have hv : (pt2 t).val = t.val := rfl; omega
  | ⟨1, _⟩ => show win2_3.index (pt2 t) (1 : Fin 2) * 1 + 1 * 0 = 0; have := e.2.2.2.2.2.2.2; omega
end Blocks

/-! ## Region 2: the accumulator is the sum over the whole table -/

/-- Entry `(i, j)` of the table this region sums: the two rows' weights times the Gaussian of their distance. -/
def F2 (c : Dev nD) (i j : Fin 8192) : EReal :=
  (wn (argW m c) i * cw) * kern (argN m c) (argR m c) i j

/-- One entry of the tile at point `t` is the table's entry at the tile's rows: the blocks are rows `512 (t / 16) + r` and
    `512 (t % 16) + s` of the arrays; the squared norms and the inner product are the table's, the leading zero words
    on either side being zero. -/
theorem tile2_eq (c : Dev nD) (t : Fin 256) (r s : Fin 512) :
    tileEntry (iblk2 (A2 m) c 0 (pt2 t)) (iblk2 (A2 m) c 1 (pt2 t)) (iblk2 (A2 m) c 2 (pt2 t)) (iblk2 (A2 m) c 3 (pt2 t)) r s
      = F2 m c ⟨512 * (t.val / 16) + r.val, row_lt t r⟩ ⟨512 * (t.val % 16) + s.val, col_lt t s⟩ := by
  unfold tileEntry F2 kern sqnorm dotp
  simp only [iblk2_0_apply, iblk2_1_apply, iblk2_2_apply, iblk2_3_apply, Ideal.ofBits_zero_f32, zero_add]
  rw [A2_arg0, A2_arg1, A2_v2_apply, A2_v3_apply]

/-- The tile sum at point `t` (zero beyond the grid, never read). -/
def g2 (c : Dev nD) (t : ℕ) : EReal :=
  if h : t < 256 then ∑ r : Fin 512, ∑ s : Fin 512,
    F2 m c ⟨512 * (t / 16) + r.val, row_lt ⟨t, h⟩ r⟩ ⟨512 * (t % 16) + s.val, col_lt ⟨t, h⟩ s⟩ else 0

/-- One step of the accumulator adds the point's tile sum. -/
theorem step2 (c : Dev nD) (k : ℕ) (hk : k < cfg2.N) (xs : Vec Ideal S1x1 .f32) (y : S1x1.Idx) :
    k2_pay1 (F := Ideal) (k2_pay3 (iblk2 (A2 m) c 0 ⟨k, hk⟩) (iblk2 (A2 m) c 1 ⟨k, hk⟩) (iblk2 (A2 m) c 2 ⟨k, hk⟩) (iblk2 (A2 m) c 3 ⟨k, hk⟩)) xs y
      = xs y + g2 m c k := by
  have hk' : k < 256 := lt_of_lt_of_eq hk N2_eq
  rw [pay_step2]
  congr 1
  unfold g2; rw [dif_pos hk']
  exact Finset.sum_congr rfl fun r _ => Finset.sum_congr rfl fun s _ => tile2_eq m c ⟨k, hk'⟩ r s

/-- The accumulator after point `k` is the reset value plus the tile sums of the points up to `k`. -/
theorem accAt2_sum (c : Dev nD) (y : S1x1.Idx) : ∀ (k : ℕ) (hk : k < cfg2.N),
    accAt2 (A2 m) c k hk y = k2_pay2 (F := Ideal) y + ∑ t ∈ Finset.range (k + 1), g2 m c t := by
  intro k
  induction k with
  | zero =>
    intro hk
    rw [accAt2_zero, step2, Finset.range_one, Finset.sum_singleton]
  | succ k ih =>
    intro hk
    rw [accAt2_succ, step2, ih, Finset.sum_range_succ (fun t => g2 m c t) (k + 1), add_assoc]

/-- THE REGION'S RESULT: the accumulator after the last point is the sum of the whole 8192 x 8192 table — the 256 tile
    sums regrouped (any order: sums of extended reals commute and associate), the reset value being zero. -/
theorem outFin2_val (c : Dev nD) (y : S1x1.Idx) : outFin2 (A2 m) c y = kxy (argN m c) (argR m c) (argW m c) := by
  rw [outFin2_eq, accAt2_sum]
  have hz : k2_pay2 (F := Ideal) y = 0 := by
    unfold k2_pay2
    rw [shapeCast_self]
    exact Ideal.ofBits_zero_f32
  have hg : ∀ t : Fin 256, g2 m c t.val = ∑ r : Fin 512, ∑ s : Fin 512,
      F2 m c ⟨512 * (t.val / 16) + r.val, row_lt t r⟩ ⟨512 * (t.val % 16) + s.val, col_lt t s⟩ := fun t => by
    unfold g2; rw [dif_pos t.isLt]
  rw [hz, zero_add]
  show ∑ t ∈ Finset.range 256, g2 m c t = _
  rw [← Fin.sum_univ_eq_sum_range (fun t => g2 m c t) 256]
  simp only [hg]
  rw [TiledSum.sum_tiles_8192 (F2 m c)]
  rfl

end Cert.KernelIdeal.Hand

end
-- ==== Proof.KVal.lean ====
import proofs.«166369_j11106785428164_2_alg».proof.Proof.KTail
import proofs.«166369_j11106785428164_2_alg».proof.Proof.KSum0
import proofs.«166369_j11106785428164_2_alg».proof.Proof.KSum1
import proofs.«166369_j11106785428164_2_alg».proof.Proof.KSum2
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators
open Cert.Proof.Bridge (kxx kyy kxy cw kernelValue)

/-! ## Each region's sum, read through the reshape that follows the region

A region leaves its sum in a one-element buffer of shape [1, 1]; the host operation after it reshapes that to a
scalar. Both shapes have one index, so the scalar is the buffer's one element. -/

section Reads
variable {F : FTy → Type} [FloatOps F] (m : (ℓ : Loc nD τ sig) → Buf (Elt F) ℓ)

/-- The one index of [1, 1] and the one index of the scalar shape sit at the same row-major position, zero. -/
theorem hk11 (i : S_.Idx) : (S1x1.rowMajor (ix2 (0 : Fin 1) (0 : Fin 1))).val = (S_.rowMajor i).val := by
  have h1 : (S1x1.rowMajor (ix2 (0 : Fin 1) (0 : Fin 1))).val < 1 := (S1x1.rowMajor _).isLt
  have h2 : (S_.rowMajor i).val < 1 := (S_.rowMajor i).isLt
  omega

theorem W2_v4 (c : Dev nD) : W2 m c main_v4 = X4 m c := by
  show Function.update (W1 m c) _ (X4 m c) _ = _
  rw [Function.update_self]
theorem W4_v6 (c : Dev nD) : W4 m c main_v6 = X6 m c := by
  show Function.update (W3 m c) _ (X6 m c) _ = _
  rw [Function.update_self]
theorem W6_v8 (c : Dev nD) : W6 m c main_v8 = X8 m c := by
  show Function.update (W5 m c) _ (X8 m c) _ = _
  rw [Function.update_self]

theorem W3_v5 (c : Dev nD) (i : S_.Idx) : W3 m c main_v5 i = X4 m c (ix2 (0 : Fin 1) (0 : Fin 1)) := by
  show StableHlo.after hostOps1 (W2 m c) (Proc.devRef .tc main_v5) i = _
  after_results
  show shapeCast S_ (W2 m c (Proc.devRef .tc main_v4)) shapeCasts_S1x1_S_ i = _
  rw [shapeCast_apply _ shapeCasts_S1x1_S_ i (ix2 (0 : Fin 1) (0 : Fin 1)) (hk11 i)]
  exact congrFun (W2_v4 m c) _
theorem W5_v7 (c : Dev nD) (i : S_.Idx) : W5 m c main_v7 i = X6 m c (ix2 (0 : Fin 1) (0 : Fin 1)) := by
  show StableHlo.after hostOps2 (W4 m c) (Proc.devRef .tc main_v7) i = _
  after_results
  show shapeCast S_ (W4 m c (Proc.devRef .tc main_v6)) shapeCasts_S1x1_S_ i = _
  rw [shapeCast_apply _ shapeCasts_S1x1_S_ i (ix2 (0 : Fin 1) (0 : Fin 1)) (hk11 i)]
  exact congrFun (W4_v6 m c) _
theorem W7_v9 (c : Dev nD) (i : S_.Idx) : W7 m c main_v9 i = X8 m c (ix2 (0 : Fin 1) (0 : Fin 1)) := by
  show StableHlo.after hostOps3 (W6 m c) (Proc.devRef .tc main_v9) i = _
  after_results
  show shapeCast S_ (W6 m c (Proc.devRef .tc main_v8)) shapeCasts_S1x1_S_ i = _
  rw [shapeCast_apply _ shapeCasts_S1x1_S_ i (ix2 (0 : Fin 1) (0 : Fin 1)) (hk11 i)]
  exact congrFun (W6_v8 m c) _

/-- The first two sums reach the closing operations untouched: no later item writes their scalars. -/
theorem W6_v5 (c : Dev nD) (i : S_.Idx) : W6 m c main_v5 i = X4 m c (ix2 (0 : Fin 1) (0 : Fin 1)) := by
  rw [W6_of m c main_v5 (by decide), W5_of m c main_v5 (by decide), W4_of m c main_v5 (by decide)]
  exact W3_v5 m c i
theorem W6_v7 (c : Dev nD) (i : S_.Idx) : W6 m c main_v7 i = X6 m c (ix2 (0 : Fin 1) (0 : Fin 1)) := by
  rw [W6_of m c main_v7 (by decide)]
  exact W5_v7 m c i
end Reads

/-! ## The kernel's result at the exact instance -/

variable (m : (ℓ : Loc nD τ sig) → Buf (Elt Ideal) ℓ)

/-- THE KERNEL'S VALUE: the square root of the clamp at zero of (first sum + second sum) - 2 * third sum, the three
    sums being the whole-table double sums of their regions. -/
theorem W7_val (c : Dev nD) : W7 m c main_v14 = fun _ => kernelValue (argN m c) (argR m c) (argW m c) := by
  rw [W7_v14]
  funext i
  simp only [Host.sqrt, maximumf, subf, addf, mulf, constant, Ideal.hostUnary_sqrt_def, Ideal.maximumf_def, Ideal.subf_def,
    Ideal.addf_def, Ideal.mulf_def, Ideal.ofBits_def]
  rw [W6_v5 m c i, W6_v7 m c i, W7_v9 m c i, X4_eq, X6_eq, X8_eq, outFin0_val, outFin1_val, outFin2_val]
  rfl

end Cert.KernelIdeal.Hand

end
-- ==== Proof.PreFacts.lean ====
/-
  What the printed precondition says of the three input arrays.

  The precondition is the conjunction of four scalars: for each of the three arrays, "every entry has absolute value
  strictly below `+∞`" (an `and` over the whole array of the entrywise comparison), and "the sum of the weights,
  started from the zero word, is not the zero word". On the extended reals an entry whose absolute value is below
  `⊤` is neither `⊤` nor `⊥`, that is, a real number; and the sum over the index set `[8192, 1]` is the sum over
  its first coordinate, the second having one value, which is the reference's own weight sum.
-/
import proofs.«166369_j11106785428164_2_alg».proof.Pre_finite_inputs
import proofs.«166369_j11106785428164_2_alg».proof.Proof.Gen.Pre_finite_inputs
import proofs.«166369_j11106785428164_2_alg».proof.Proof.RefValue
import Idealize.ShloMosaic.Lib.ReduceAll
import Idealize.ShloMosaic.Lib.IdealHost
import Idealize.ShloMosaic.Lib.ValueIdx
import Idealize.ShloMosaic.PureOps.Ideal
import Idealize.ShloMosaic.PureOps.Ideal.Laws

noncomputable section

open scoped BigOperators

namespace Cert.Proof.PreFacts

open Idealize.ShloMosaic Idealize.ShloMosaic.ValueIdx

/-- The shape of rank zero has one index. -/
instance : Subsingleton Cert.Pre_finite_inputs.S_.Idx := ⟨fun a b => funext fun d => d.elim0⟩

/-- An extended real whose absolute value is strictly below the word of `+∞` is a real number. -/
theorem finite_of_abs_lt (x : EReal)
    (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨EReal.coe_ne_top r, EReal.coe_ne_bot r⟩

/-- Two extended reals that the comparison "not equal" separates are different. -/
theorem ne_of_cmp_une (a b : EReal) (h : Ideal.cmp .une a b = 1#1) : a ≠ b := by
  intro hab
  subst hab
  simp [Ideal.cmp] at h

/-- The whole-array sum of a weight column from an initial value is that value plus the sum over the first
    coordinate: a sum over the index set `[8192, 1]` is the sum over its first coordinate, the second having one
    value. -/
theorem reduceAdd_column [Cert.Pre_finite_inputs.Facts] (wt : FVec Ideal Cert.Pre_finite_inputs.S8192x1 .f32)
    (init : FVec Ideal Cert.Pre_finite_inputs.S_ .f32) (j : Cert.Pre_finite_inputs.S_.Idx) :
    Host.reduceAdd wt init Cert.Pre_finite_inputs.Facts.reducesTo_S8192x1_S_d0_1 Cert.Pre_finite_inputs.Facts.h_S_ j
      = init (Shape.Idx.first Cert.Pre_finite_inputs.Facts.h_S_) + ∑ i : Fin 8192, wt (ix2 i (0 : Fin 1)) := by
  rw [hostReduceAdd_apply, Ideal.hostReduceAdd_total _ (fun b => b.elim0), sum_idx2]
  simp only [Fin.sum_univ_one]

/-- THE PRECONDITION'S CONTENT: every entry of the three arrays is finite, and the weights' sum is not zero. -/
theorem pre_facts [Cert.Pre_finite_inputs.Facts] (n r : FVec Ideal Cert.Pre_finite_inputs.S8192x128 .f32)
    (wt : FVec Ideal Cert.Pre_finite_inputs.S8192x1 .f32)
    (h : Cert.Pre_finite_inputs.fn (F := Ideal) n r wt = fun _ => 1#1) :
    (∀ x, n x ≠ ⊤ ∧ n x ≠ ⊥) ∧ (∀ x, r x ≠ ⊤ ∧ r x ≠ ⊥) ∧ (∀ x, wt x ≠ ⊤ ∧ wt x ≠ ⊥) ∧
      Cert.ReferenceIdeal.RefValue.wsum wt ≠ 0 := by
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun x => ?_, fun x => ?_, fun x => ?_, ?_⟩
  · exact finite_of_abs_lt (n x) (Host.reduce_andi_all _ _ _ _ _ h1 x)
  · exact finite_of_abs_lt (r x) (Host.reduce_andi_all _ _ _ _ _ h2 x)
  · exact finite_of_abs_lt (wt x) (Host.reduce_andi_all _ _ _ _ _ h3 x)
  · have h4' := ne_of_cmp_une _ _ h4
    rw [reduceAdd_column] at h4'
    change Ideal.ofBits .f32 0x00000000#32 + ∑ i : Fin 8192, wt (ix2 i (0 : Fin 1))
      ≠ Ideal.ofBits .f32 0x00000000#32 at h4'
    rw [Ideal.ofBits_zero_f32] at h4'
    unfold Cert.ReferenceIdeal.RefValue.wsum
    rw [Ideal.ofBits_zero_f32]
    exact h4'

end Cert.Proof.PreFacts

end
-- ==== Proof.lean ====
/- Two programs compute a maximum mean discrepancy with a Gaussian kernel from three arrays: rows `N`, `R` (8192 x 128 each)
   and weights (8192 x 1). With `w = weights / sum(weights)`, `u = 2^-13` and
   `k(a, b) = exp(g * max(|a|^2 + |b|^2 - 2 a.b, 0))` for the shared negative literal `g`, the kernel program forms

       xx = sum_ij (w_i w_j) k(N_i, N_j),   yy = sum_ij (u u) k(R_i, R_j),   xy = sum_ij (w_i u) k(N_i, R_j)

   each by three passes over a 16 x 16 grid of 512 x 512 tiles, a one-element accumulator carried from tile to tile, and
   returns  sqrt(max((xx + yy) - 2 xy, 0)).  The reference forms the same three double sums at once (with `1/8192` for `u`
   and the plain sum divided by `8192^2` for `yy`) and returns  sqrt((xx + yy) - 2 xy)  with no clamp.

   At the exact instance (a float is an extended real, every operation exact) the two agree whenever every input is finite
   and the weights do not sum to zero:
   * the tiling, and the order in which a sum is taken, do not matter: sums of extended reals commute and associate;
   * `2^-13` is `1/8192` exactly, and `(1/8192)^2 * s = s / 8192^2` for a finite `s` — finite because every `k` is;
   * the clamp never binds: with real weights the combination is the squared distance, in the feature space of the
     Gaussian kernel, between two weighted sums of feature vectors, hence nonnegative. This is positive semi-definiteness
     of the Gaussian Gram matrix, and nothing weaker will do: the square root of a negative extended real is the junk
     value, so `sqrt(max(x, 0)) = sqrt x` fails at every negative `x`.
   Where the weights sum to zero the quotient `weights / 0` is infinite, the combination can be `-inf`, and the two
   results differ (`0` against the junk value): the precondition excludes exactly that.

   Each program also runs to its end without a fault and leaves its three arguments as it found them; for the kernel
   program this is read off the same run that gives its value, at the word-level instance and at the exact one. -/
import proofs.«166369_j11106785428164_2_alg».proof.Defs
import proofs.«166369_j11106785428164_2_alg».proof.Proof.Gen.Kernel
import proofs.«166369_j11106785428164_2_alg».proof.Proof.Gen.KernelIdeal
import proofs.«166369_j11106785428164_2_alg».proof.Proof.Gen.ReferenceIdeal
import proofs.«166369_j11106785428164_2_alg».proof.Proof.Gen.ReferenceIdeal.Run
import proofs.«166369_j11106785428164_2_alg».proof.Proof.Gen.ReferenceIdeal.Read
import proofs.«166369_j11106785428164_2_alg».proof.Proof.Gen.Pre_finite_inputs
import proofs.«166369_j11106785428164_2_alg».proof.Proof.RunMain
import proofs.«166369_j11106785428164_2_alg».proof.Proof.WRunMain
import proofs.«166369_j11106785428164_2_alg».proof.Proof.KVal
import proofs.«166369_j11106785428164_2_alg».proof.Proof.RefValue
import proofs.«166369_j11106785428164_2_alg».proof.Proof.Bridge
import proofs.«166369_j11106785428164_2_alg».proof.Proof.PreFacts
import Idealize.ShloMosaic.Adequacy
import Idealize.ShloMosaic.Init

noncomputable section

namespace Cert.Proof

open Idealize.ShloMosaic Idealize.SL.Sem

/-- The word-level kernel program runs to its end and leaves its arguments unchanged: its run, the result dropped. -/
theorem frame_kernel : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2) (Cert.Kernel.Hand.run_main (F := Bits) m ρ)

/-- The same at the exact instance. -/
theorem frame_kernelIdeal : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (Cert.KernelIdeal.Hand.run_main (F := Ideal) m ρ)

/-- The reference runs to its end and leaves its arguments unchanged: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Value.run (F := Ideal) m ρ)

/-- The two programs' results are one extended real: the kernel's run ends at `sqrt(max((xx + yy) - 2 xy, 0))` over the
    whole-table double sums, the reference's at `sqrt((xx + yy) - 2 xy)`, and under the precondition — every input
    finite, the weights' sum not zero — these are equal (the clamp does not bind: the Gaussian Gram matrix is positive
    semidefinite). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Proof.Bridge.kernelValue (Cert.KernelIdeal.Hand.argN m c) (Cert.KernelIdeal.Hand.argR m c) (Cert.KernelIdeal.Hand.argW m c), ?_, ?_⟩
  · exact (θ_run (Cert.KernelIdeal.defs (F := Ideal)) _ _).mono
      (fun _ h c => ⟨(h c).1.trans (Cert.KernelIdeal.Hand.W7_val m c), (h c).2⟩) (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2]
    obtain ⟨hn, hr, hw, hS⟩ := Cert.Proof.PreFacts.pre_facts _ _ _ (hpre c)
    exact congrArg (fun v => fun _ => v) (Cert.Proof.Bridge.bridge _ _ _ hn hr hw hS).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
